-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v102)) (v1 : (c : Dev Cert.KernelIdeal.nD) → Buf (Elt Ideal) ((c.tc : Thread Cert.KernelIdeal.nD Cert.KernelIdeal.τ).loc Cert.KernelIdeal.main_v98_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_v98_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_v136) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S50x512 : Shape := ⟨2, ![50, 512]⟩
abbrev S512x1 : Shape := ⟨2, ![512, 1]⟩
abbrev S1 : Shape := ⟨1, ![1]⟩
abbrev S8x64 : Shape := ⟨2, ![8, 64]⟩
abbrev S512x512 : Shape := ⟨2, ![512, 512]⟩
abbrev S512 : Shape := ⟨1, ![512]⟩
abbrev S64x64 : Shape := ⟨2, ![64, 64]⟩
abbrev S64 : Shape := ⟨1, ![64]⟩
abbrev S1024x512 : Shape := ⟨2, ![1024, 512]⟩
abbrev S_ : Shape := ⟨0, ![]⟩
abbrev S65536 : Shape := ⟨1, ![65536]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S50x512 : S_.BroadcastsInDim S50x512 (![] : Fin 0 → Fin S50x512.rank)
  reducesTo_S50x512_S_d0_1 : S50x512.ReducesTo [0, 1] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_
  bcast_S_S8x64 : S_.BroadcastsInDim S8x64 (![] : Fin 0 → Fin S8x64.rank)
  reducesTo_S8x64_S_d0_1 : S8x64.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1024x512 : S_.BroadcastsInDim S1024x512 (![] : Fin 0 → Fin S1024x512.rank)
  reducesTo_S1024x512_S_d0_1 : S1024x512.ReducesTo [0, 1] S_
  reducesTo_S_S_d : S_.ReducesTo [] S_

variable [Facts]

def fn_part5 {F : FTy → Type} [FloatOps F] (main_arg18 : FVec F S_ .f32) (main_arg19 : FVec F S_ .f32) (main_v83 : IVec S_ 1) (main_v84 : FVec F S512 .f32) (main_cst_32 : FVec F S_ .f32) : IVec S_ 1 :=
  let main_v85 : FVec F S512 .f32 := broadcastInDim S512 ![] bcast_S_S512 main_cst_32
  let main_v86 : IVec S512 1 := cmpf .olt main_v84 main_v85
  let main_c_33 : IVec S_ 1 := constantI S_ 1 1#1
  let main_v87 : IVec S_ 1 := (fun x v => Host.reduce IntOp.andi x v reducesTo_S512_S_d0 h_S_) main_v86 main_c_33
  let main_v88 : IVec S_ 1 := andi main_v83 main_v87
  let main_v89 : FVec F S_ .f32 := Host.absf main_arg18
  let main_cst_34 : FVec F S_ .f32 := constant S_ .f32 0x7F800000#32
  let main_v90 : IVec S_ 1 := cmpf .olt main_v89 main_cst_34
  let main_c_35 : IVec S_ 1 := constantI S_ 1 1#1
  let main_v91 : IVec S_ 1 := (fun x v => Host.reduce IntOp.andi x v reducesTo_S_S_d h_S_) main_v90 main_c_35
  let main_v92 : IVec S_ 1 := andi main_v88 main_v91
  let main_v93 : FVec F S_ .f32 := Host.absf main_arg19
  let main_cst_36 : FVec F S_ .f32 := constant S_ .f32 0x7F800000#32
  let main_v94 : IVec S_ 1 := cmpf .olt main_v93 main_cst_36
  let main_c_37 : IVec S_ 1 := constantI S_ 1 1#1
  let main_v95 : IVec S_ 1 := (fun x v => Host.reduce IntOp.andi x v reducesTo_S_S_d h_S_) main_v94 main_c_37
  let main_v96 : IVec S_ 1 := andi main_v92 main_v95
  main_v96

def fn_part4 {F : FTy → Type} [FloatOps F] (main_arg14 : FVec F S64x64 .f32) (main_arg15 : FVec F S64 .f32) (main_arg16 : FVec F S1024x512 .f32) (main_arg17 : FVec F S512 .f32) (main_arg18 : FVec F S_ .f32) (main_arg19 : FVec F S_ .f32) (main_v63 : IVec S_ 1) (main_v67 : IVec S_ 1) : IVec S_ 1 :=
  let main_v68 : IVec S_ 1 := andi main_v63 main_v67
  let main_v69 : FVec F S64x64 .f32 := Host.absf main_arg14
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64 .f32 := Host.absf main_arg15
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S1024x512 .f32 := Host.absf main_arg16
  let main_cst_30 : FVec F S_ .f32 := constant S_ .f32 0x7F800000#32
  let main_v80 : FVec F S1024x512 .f32 := broadcastInDim S1024x512 ![] bcast_S_S1024x512 main_cst_30
  let main_v81 : IVec S1024x512 1 := cmpf .olt main_v79 main_v80
  let main_c_31 : IVec S_ 1 := constantI S_ 1 1#1
  let main_v82 : IVec S_ 1 := (fun x v => Host.reduce IntOp.andi x v reducesTo_S1024x512_S_d0_1 h_S_) main_v81 main_c_31
  let main_v83 : IVec S_ 1 := andi main_v78 main_v82
  let main_v84 : FVec F S512 .f32 := Host.absf main_arg17
  let main_cst_32 : FVec F S_ .f32 := constant S_ .f32 0x7F800000#32
  fn_part5 (F := F) main_arg18 main_arg19 main_v83 main_v84 main_cst_32

def fn_part3 {F : FTy → Type} [FloatOps F] (main_arg11 : FVec F S512 .f32) (main_arg12 : FVec F S64x64 .f32) (main_arg13 : FVec F S64 .f32) (main_arg14 : FVec F S64x64 .f32) (main_arg15 : FVec F S64 .f32) (main_arg16 : FVec F S1024x512 .f32) (main_arg17 : FVec F S512 .f32) (main_arg18 : FVec F S_ .f32) (main_arg19 : FVec F S_ .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S64x64 .f32 := Host.absf main_arg12
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_arg15 main_arg16 main_arg17 main_arg18 main_arg19 main_v63 main_v67

def fn_part2 {F : FTy → Type} [FloatOps F] (main_arg7 : FVec F S1 .f32) (main_arg8 : FVec F S8x64 .f32) (main_arg9 : FVec F S8x64 .f32) (main_arg10 : FVec F S512x512 .f32) (main_arg11 : FVec F S512 .f32) (main_arg12 : FVec F S64x64 .f32) (main_arg13 : FVec F S64 .f32) (main_arg14 : FVec F S64x64 .f32) (main_arg15 : FVec F S64 .f32) (main_arg16 : FVec F S1024x512 .f32) (main_arg17 : FVec F S512 .f32) (main_arg18 : FVec F S_ .f32) (main_arg19 : FVec F S_ .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S8x64 .f32 := Host.absf main_arg8
  let main_cst_14 : FVec F S_ .f32 := constant S_ .f32 0x7F800000#32
  let main_v40 : FVec F S8x64 .f32 := broadcastInDim S8x64 ![] bcast_S_S8x64 main_cst_14
  let main_v41 : IVec S8x64 1 := cmpf .olt main_v39 main_v40
  let main_c_15 : IVec S_ 1 := constantI S_ 1 1#1
  let main_v42 : IVec S_ 1 := (fun x v => Host.reduce IntOp.andi x v reducesTo_S8x64_S_d0_1 h_S_) main_v41 main_c_15
  let main_v43 : IVec S_ 1 := andi main_v38 main_v42
  let main_v44 : FVec F S8x64 .f32 := Host.absf main_arg9
  let main_cst_16 : FVec F S_ .f32 := constant S_ .f32 0x7F800000#32
  let main_v45 : FVec F S8x64 .f32 := broadcastInDim S8x64 ![] bcast_S_S8x64 main_cst_16
  let main_v46 : IVec S8x64 1 := cmpf .olt main_v44 main_v45
  let main_c_17 : IVec S_ 1 := constantI S_ 1 1#1
  let main_v47 : IVec S_ 1 := (fun x v => Host.reduce IntOp.andi x v reducesTo_S8x64_S_d0_1 h_S_) main_v46 main_c_17
  let main_v48 : IVec S_ 1 := andi main_v43 main_v47
  let main_v49 : FVec F S512x512 .f32 := Host.absf main_arg10
  let main_cst_18 : FVec F S_ .f32 := constant S_ .f32 0x7F800000#32
  let main_v50 : FVec F S512x512 .f32 := broadcastInDim S512x512 ![] bcast_S_S512x512 main_cst_18
  fn_part3 (F := F) main_arg11 main_arg12 main_arg13 main_arg14 main_arg15 main_arg16 main_arg17 main_arg18 main_arg19 main_v48 main_v49 main_v50

def fn_part1 {F : FTy → Type} [FloatOps F] (main_arg4 : FVec F S1 .f32) (main_arg5 : FVec F S50x512 .f32) (main_arg6 : FVec F S512x1 .f32) (main_arg7 : FVec F S1 .f32) (main_arg8 : FVec F S8x64 .f32) (main_arg9 : FVec F S8x64 .f32) (main_arg10 : FVec F S512x512 .f32) (main_arg11 : FVec F S512 .f32) (main_arg12 : FVec F S64x64 .f32) (main_arg13 : FVec F S64 .f32) (main_arg14 : FVec F S64x64 .f32) (main_arg15 : FVec F S64 .f32) (main_arg16 : FVec F S1024x512 .f32) (main_arg17 : FVec F S512 .f32) (main_arg18 : FVec F S_ .f32) (main_arg19 : FVec F S_ .f32) (main_v13 : IVec S_ 1) (main_v16 : IVec S512x1 1) : IVec S_ 1 :=
  let main_c_5 : IVec S_ 1 := constantI S_ 1 1#1
  let main_v17 : IVec S_ 1 := (fun x v => Host.reduce IntOp.andi x v reducesTo_S512x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S50x512 .f32 := Host.absf main_arg5
  let main_cst_8 : FVec F S_ .f32 := constant S_ .f32 0x7F800000#32
  let main_v25 : FVec F S50x512 .f32 := broadcastInDim S50x512 ![] bcast_S_S50x512 main_cst_8
  let main_v26 : IVec S50x512 1 := cmpf .olt main_v24 main_v25
  let main_c_9 : IVec S_ 1 := constantI S_ 1 1#1
  let main_v27 : IVec S_ 1 := (fun x v => Host.reduce IntOp.andi x v reducesTo_S50x512_S_d0_1 h_S_) main_v26 main_c_9
  let main_v28 : IVec S_ 1 := andi main_v23 main_v27
  let main_v29 : FVec F S512x1 .f32 := Host.absf main_arg6
  let main_cst_10 : FVec F S_ .f32 := constant S_ .f32 0x7F800000#32
  let main_v30 : FVec F S512x1 .f32 := broadcastInDim S512x1 ![] bcast_S_S512x1 main_cst_10
  let main_v31 : IVec S512x1 1 := cmpf .olt main_v29 main_v30
  let main_c_11 : IVec S_ 1 := constantI S_ 1 1#1
  let main_v32 : IVec S_ 1 := (fun x v => Host.reduce IntOp.andi x v reducesTo_S512x1_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_v33

def fn {F : FTy → Type} [FloatOps F] (main_arg0 : FVec F S100000x512 .f32) (main_arg1 : FVec F S50x512 .f32) (main_arg2 : FVec F S100000x512 .f32) (main_arg3 : FVec F S512x1 .f32) (main_arg4 : FVec F S1 .f32) (main_arg5 : FVec F S50x512 .f32) (main_arg6 : FVec F S512x1 .f32) (main_arg7 : FVec F S1 .f32) (main_arg8 : FVec F S8x64 .f32) (main_arg9 : FVec F S8x64 .f32) (main_arg10 : FVec F S512x512 .f32) (main_arg11 : FVec F S512 .f32) (main_arg12 : FVec F S64x64 .f32) (main_arg13 : FVec F S64 .f32) (main_arg14 : FVec F S64x64 .f32) (main_arg15 : FVec F S64 .f32) (main_arg16 : FVec F S1024x512 .f32) (main_arg17 : FVec F S512 .f32) (main_arg18 : FVec F S_ .f32) (main_arg19 : FVec F S_ .f32) (main_arg20 : IVec S65536 32) (main_arg21 : IVec S65536 32) (main_arg22 : IVec S65536 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S50x512 .f32 := Host.absf main_arg1
  let main_cst_0 : FVec F S_ .f32 := constant S_ .f32 0x7F800000#32
  let main_v5 : FVec F S50x512 .f32 := broadcastInDim S50x512 ![] bcast_S_S50x512 main_cst_0
  let main_v6 : IVec S50x512 1 := cmpf .olt main_v4 main_v5
  let main_c_1 : IVec S_ 1 := constantI S_ 1 1#1
  let main_v7 : IVec S_ 1 := (fun x v => Host.reduce IntOp.andi x v reducesTo_S50x512_S_d0_1 h_S_) main_v6 main_c_1
  let main_v8 : IVec S_ 1 := andi main_v3 main_v7
  let main_v9 : FVec F S100000x512 .f32 := Host.absf main_arg2
  let main_cst_2 : FVec F S_ .f32 := constant S_ .f32 0x7F800000#32
  let main_v10 : FVec F S100000x512 .f32 := broadcastInDim S100000x512 ![] bcast_S_S100000x512 main_cst_2
  let main_v11 : IVec S100000x512 1 := cmpf .olt main_v9 main_v10
  let main_c_3 : IVec S_ 1 := constantI S_ 1 1#1
  let main_v12 : IVec S_ 1 := (fun x v => Host.reduce IntOp.andi x v reducesTo_S100000x512_S_d0_1 h_S_) main_v11 main_c_3
  let main_v13 : IVec S_ 1 := andi main_v8 main_v12
  let main_v14 : FVec F S512x1 .f32 := Host.absf main_arg3
  let main_cst_4 : FVec F S_ .f32 := constant S_ .f32 0x7F800000#32
  let main_v15 : FVec F S512x1 .f32 := broadcastInDim S512x1 ![] bcast_S_S512x1 main_cst_4
  let main_v16 : IVec S512x1 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S100000x512 : Shape := ⟨2, ![100000, 512]⟩
abbrev S50x512 : Shape := ⟨2, ![50, 512]⟩
abbrev S512x1 : Shape := ⟨2, ![512, 1]⟩
abbrev S1 : Shape := ⟨1, ![1]⟩
abbrev S8x64 : Shape := ⟨2, ![8, 64]⟩
abbrev S512x512 : Shape := ⟨2, ![512, 512]⟩
abbrev S512 : Shape := ⟨1, ![512]⟩
abbrev S64x64 : Shape := ⟨2, ![64, 64]⟩
abbrev S64 : Shape := ⟨1, ![64]⟩
abbrev S1024x512 : Shape := ⟨2, ![1024, 512]⟩
abbrev S_ : Shape := ⟨0, ![]⟩
abbrev S65536 : Shape := ⟨1, ![65536]⟩
abbrev S65536x1 : Shape := ⟨2, ![65536, 1]⟩
abbrev S65536x512 : Shape := ⟨2, ![65536, 512]⟩
abbrev S100000x1 : Shape := ⟨2, ![100000, 1]⟩
abbrev S50x1 : Shape := ⟨2, ![50, 1]⟩
abbrev S1x1 : Shape := ⟨2, ![1, 1]⟩
abbrev S1x64 : Shape := ⟨2, ![1, 64]⟩
abbrev S64x8 : Shape := ⟨2, ![64, 8]⟩
abbrev S1024x1 : Shape := ⟨2, ![1024, 1]⟩
abbrev S1024 : Shape := ⟨1, ![1024]⟩
abbrev S1x512 : Shape := ⟨2, ![1, 512]⟩
abbrev S1024x64 : Shape := ⟨2, ![1024, 64]⟩
abbrev S1024x8 : Shape := ⟨2, ![1024, 8]⟩

abbrev nBuf : Space → Nat
  | .hbm => 146
  | .vmem => 18
  | .smem => 0
  | _ => 0

abbrev hbmTy0_0 (i : Nat) : BufTy := match i % 128 with
  | 0 => ⟨S100000x512, .f32⟩
  | 1 => ⟨S50x512, .f32⟩
  | 2 => ⟨S100000x512, .f32⟩
  | 3 => ⟨S512x1, .f32⟩
  | 4 => ⟨S1, .f32⟩
  | 5 => ⟨S50x512, .f32⟩
  | 6 => ⟨S512x1, .f32⟩
  | 7 => ⟨S1, .f32⟩
  | 8 => ⟨S8x64, .f32⟩
  | 9 => ⟨S8x64, .f32⟩
  | 10 => ⟨S512x512, .f32⟩
  | 11 => ⟨S512, .f32⟩
  | 12 => ⟨S64x64, .f32⟩
  | 13 => ⟨S64, .f32⟩
  | 14 => ⟨S64x64, .f32⟩
  | 15 => ⟨S64, .f32⟩
  | 16 => ⟨S1024x512, .f32⟩
  | 17 => ⟨S512, .f32⟩
  | 18 => ⟨S_, .f32⟩
  | 19 => ⟨S_, .f32⟩
  | 20 => ⟨S65536, .i32⟩
  | 21 => ⟨S65536, .i32⟩
  | 22 => ⟨S65536, .i32⟩
  | 23 => ⟨S_, .i32⟩
  | 24 => ⟨S65536, .i32⟩
  | 25 => ⟨S65536, .i1⟩
  | 26 => ⟨S_, .i32⟩
  | 27 => ⟨S65536, .i32⟩
  | 28 => ⟨S65536, .i32⟩
  | 29 => ⟨S65536, .i32⟩
  | 30 => ⟨S65536x1, .i32⟩
  | 31 => ⟨S65536x512, .f32⟩
  | 32 => ⟨S_, .i32⟩
  | 33 => ⟨S65536, .i32⟩
  | 34 => ⟨S65536, .i1⟩
  | 35 => ⟨S_, .i32⟩
  | 36 => ⟨S65536, .i32⟩
  | 37 => ⟨S65536, .i32⟩
  | 38 => ⟨S65536, .i32⟩
  | 39 => ⟨S65536x1, .i32⟩
  | 40 => ⟨S65536x512, .f32⟩
  | 41 => ⟨S_, .i32⟩
  | 42 => ⟨S65536, .i32⟩
  | 43 => ⟨S65536, .i1⟩
  | 44 => ⟨S_, .i32⟩
  | 45 => ⟨S65536, .i32⟩
  | 46 => ⟨S65536, .i32⟩
  | 47 => ⟨S65536, .i32⟩
  | 48 => ⟨S65536x1, .i32⟩
  | 49 => ⟨S65536x512, .f32⟩
  | 50 => ⟨S100000x1, .f32⟩
  | 51 => ⟨S50x1, .f32⟩
  | 52 => ⟨S_, .i32⟩
  | 53 => ⟨S65536, .i32⟩
  | 54 => ⟨S65536, .i1⟩
  | 55 => ⟨S_, .i32⟩
  | 56 => ⟨S65536, .i32⟩
  | 57 => ⟨S65536, .i32⟩
  | 58 => ⟨S65536, .i32⟩
  | 59 => ⟨S65536x1, .i32⟩
  | 60 => ⟨S65536x1, .f32⟩
  | 61 => ⟨S1x1, .f32⟩
  | 62 => ⟨S65536x1, .f32⟩
  | 63 => ⟨S65536x1, .f32⟩
  | 64 => ⟨S65536x1, .f32⟩
  | 65 => ⟨S65536x1, .f32⟩
  | 66 => ⟨S_, .f32⟩
  | 67 => ⟨S65536x1, .f32⟩
  | 68 => ⟨S65536x1, .f32⟩
  | 69 => ⟨S_, .f32⟩
  | 70 => ⟨S65536x1, .f32⟩
  | 71 => ⟨S65536x1, .f32⟩
  | 72 => ⟨S_, .i32⟩
  | 73 => ⟨S65536, .i32⟩
  | 74 => ⟨S65536, .i1⟩
  | 75 => ⟨S_, .i32⟩
  | 76 => ⟨S65536, .i32⟩
  | 77 => ⟨S65536, .i32⟩
  | 78 => ⟨S65536, .i32⟩
  | 79 => ⟨S65536x1, .i32⟩
  | 80 => ⟨S65536x1, .f32⟩
  | 81 => ⟨S1x1, .f32⟩
  | 82 => ⟨S65536x1, .f32⟩
  | 83 => ⟨S65536x1, .f32⟩
  | 84 => ⟨S65536x1, .f32⟩
  | 85 => ⟨S65536x1, .f32⟩
  | 86 => ⟨S_, .f32⟩
  | 87 => ⟨S65536x1, .f32⟩
  | 88 => ⟨S65536x1, .f32⟩
  | 89 => ⟨S_, .f32⟩
  | 90 => ⟨S65536x1, .f32⟩
  | 91 => ⟨S65536x1, .f32⟩
  | 92 => ⟨S_, .i32⟩
  | 93 => ⟨S65536, .i32⟩
  | 94 => ⟨S65536, .i1⟩
  | 95 => ⟨S_, .i32⟩
  | 96 => ⟨S65536, .i32⟩
  | 97 => ⟨S65536, .i32⟩
  | 98 => ⟨S65536, .i32⟩
  | 99 => ⟨S65536x1, .i32⟩
  | 100 => ⟨S65536x1, .f32⟩
  | 101 => ⟨S1x1, .f32⟩
  | 102 => ⟨S65536x1, .f32⟩
  | 103 => ⟨S65536x1, .f32⟩
  | 104 => ⟨S65536x1, .f32⟩
  | 105 => ⟨S65536x1, .f32⟩
  | 106 => ⟨S_, .f32⟩
  | 107 => ⟨S65536x1, .f32⟩
  | 108 => ⟨S65536x1, .f32⟩
  | 109 => ⟨S_, .f32⟩
  | 110 => ⟨S65536x1, .f32⟩
  | 111 => ⟨S65536x1, .f32⟩
  | 112 => ⟨S65536x1, .f32⟩
  | 113 => ⟨S65536x1, .f32⟩
  | 114 => ⟨S_, .f32⟩
  | 115 => ⟨S65536x1, .f32⟩
  | 116 => ⟨S65536x1, .f32⟩
  | 117 => ⟨S65536x512, .f32⟩
  | 118 => ⟨S65536x512, .f32⟩
  | 119 => ⟨S65536x512, .f32⟩
  | 120 => ⟨S65536x512, .f32⟩
  | 121 => ⟨S8x64, .f32⟩
  | 122 => ⟨S1x64, .f32⟩
  | 123 => ⟨S8x64, .f32⟩
  | 124 => ⟨S8x64, .f32⟩
  | 125 => ⟨S8x64, .f32⟩
  | 126 => ⟨S1x64, .f32⟩
  | 127 => ⟨S8x64, .f32⟩
  | _ => ⟨S100000x512, .f32⟩

abbrev hbmTy0_1 (i : Nat) : BufTy := match i % 128 with
  | 0 => ⟨S8x64, .f32⟩
  | 1 => ⟨S8x64, .f32⟩
  | 2 => ⟨S512x512, .bf16⟩
  | 3 => ⟨S512x512, .f32⟩
  | 4 => ⟨S512x512, .bf16⟩
  | 5 => ⟨S512x512, .f32⟩
  | 6 => ⟨S512x512, .bf16⟩
  | 7 => ⟨S64x8, .f32⟩
  | 8 => ⟨S64x8, .bf16⟩
  | 9 => ⟨S64x8, .f32⟩
  | 10 => ⟨S64x8, .bf16⟩
  | 11 => ⟨S8x64, .bf16⟩
  | 12 => ⟨S65536, .f32⟩
  | 13 => ⟨S65536, .f32⟩
  | 14 => ⟨S65536, .f32⟩
  | 15 => ⟨S65536, .f32⟩
  | 16 => ⟨S65536, .f32⟩
  | 17 => ⟨S65536, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x1, .f32⟩
  | .local _ .vmem, ⟨5, _⟩ => ⟨S1024x1, .f32⟩
  | .local _ .vmem, ⟨6, _⟩ => ⟨S512x512, .bf16⟩
  | .local _ .vmem, ⟨7, _⟩ => ⟨S512, .f32⟩
  | .local _ .vmem, ⟨8, _⟩ => ⟨S512x512, .bf16⟩
  | .local _ .vmem, ⟨9, _⟩ => ⟨S512x512, .bf16⟩
  | .local _ .vmem, ⟨10, _⟩ => ⟨S512, .f32⟩
  | .local _ .vmem, ⟨11, _⟩ => ⟨S64x8, .bf16⟩
  | .local _ .vmem, ⟨12, _⟩ => ⟨S64x8, .bf16⟩
  | .local _ .vmem, ⟨13, _⟩ => ⟨S8x64, .bf16⟩
  | .local _ .vmem, ⟨14, _⟩ => ⟨S1024, .f32⟩
  | .local _ .vmem, ⟨15, _⟩ => ⟨S1024, .f32⟩
  | .local _ .vmem, ⟨16, _⟩ => ⟨S1024, .f32⟩
  | .local _ .vmem, ⟨17, _⟩ => ⟨S1024, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_c : Ref sig .tc := ⟨.hbm, 23, rfl⟩
abbrev main_v0 : Ref sig .tc := ⟨.hbm, 24, rfl⟩
abbrev main_v1 : Ref sig .tc := ⟨.hbm, 25, rfl⟩
abbrev main_c_0 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_c_1 : Ref sig .tc := ⟨.hbm, 32, rfl⟩
abbrev main_v7 : Ref sig .tc := ⟨.hbm, 33, rfl⟩
abbrev main_v8 : Ref sig .tc := ⟨.hbm, 34, rfl⟩
abbrev main_c_2 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_c_3 : Ref sig .tc := ⟨.hbm, 41, rfl⟩
abbrev main_v14 : Ref sig .tc := ⟨.hbm, 42, rfl⟩
abbrev main_v15 : Ref sig .tc := ⟨.hbm, 43, rfl⟩
abbrev main_c_4 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_c_5 : Ref sig .tc := ⟨.hbm, 52, rfl⟩
abbrev main_v23 : Ref sig .tc := ⟨.hbm, 53, rfl⟩
abbrev main_v24 : Ref sig .tc := ⟨.hbm, 54, rfl⟩
abbrev main_c_6 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_cst : Ref sig .tc := ⟨.hbm, 66, rfl⟩
abbrev main_v35 : Ref sig .tc := ⟨.hbm, 67, rfl⟩
abbrev main_v36 : Ref sig .tc := ⟨.hbm, 68, rfl⟩
abbrev main_cst_7 : Ref sig .tc := ⟨.hbm, 69, rfl⟩
abbrev main_v37 : Ref sig .tc := ⟨.hbm, 70, rfl⟩
abbrev main_v38 : Ref sig .tc := ⟨.hbm, 71, rfl⟩
abbrev main_c_8 : Ref sig .tc := ⟨.hbm, 72, rfl⟩
abbrev main_v39 : Ref sig .tc := ⟨.hbm, 73, rfl⟩
abbrev main_v40 : Ref sig .tc := ⟨.hbm, 74, rfl⟩
abbrev main_c_9 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_cst_10 : Ref sig .tc := ⟨.hbm, 86, rfl⟩
abbrev main_v51 : Ref sig .tc := ⟨.hbm, 87, rfl⟩
abbrev main_v52 : Ref sig .tc := ⟨.hbm, 88, rfl⟩
abbrev main_cst_11 : Ref sig .tc := ⟨.hbm, 89, rfl⟩
abbrev main_v53 : Ref sig .tc := ⟨.hbm, 90, rfl⟩
abbrev main_v54 : Ref sig .tc := ⟨.hbm, 91, rfl⟩
abbrev main_c_12 : Ref sig .tc := ⟨.hbm, 92, rfl⟩
abbrev main_v55 : Ref sig .tc := ⟨.hbm, 93, rfl⟩
abbrev main_v56 : Ref sig .tc := ⟨.hbm, 94, rfl⟩
abbrev main_c_13 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_cst_14 : Ref sig .tc := ⟨.hbm, 106, rfl⟩
abbrev main_v67 : Ref sig .tc := ⟨.hbm, 107, rfl⟩
abbrev main_v68 : Ref sig .tc := ⟨.hbm, 108, rfl⟩
abbrev main_cst_15 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_cst_16 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98_0 : Ref sig .tc := ⟨.hbm, 140, rfl⟩
abbrev main_v98_1 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  ![arg0.toNat]

def cc0_transform_12 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x8 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x8 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x64 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  bcast_S_S65536x1 : S_.BroadcastsInDim S65536x1 (![] : Fin 0 → Fin S65536x1.rank)
  bcast_S64_S1x64_1 : S64.BroadcastsInDim S1x64 (![1] : Fin 1 → Fin S1x64.rank)
  bcast_S1x64_S8x64_0_1 : S1x64.BroadcastsInDim S8x64 (![0, 1] : Fin 2 → Fin S8x64.rank)
  bitsLt_bf16_f32 : FTy.bits .bf16 < FTy.bits .f32
  slices_S1024x512_S512x512_0_0 : S1024x512.Slices ![0, 0] S512x512
  slices_S1024x512_S512x512_512_0 : S1024x512.Slices ![512, 0] S512x512
  transposes_S8x64_S64x8_1_0 : S8x64.Transposes [1, 0] S64x8
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  inb_S64x8_S64x8_0_0 : ∀ a, (![0, 0] : Fin 2 → Nat) a + S64x8.size a ≤ S64x8.size a
  h_S64x8 : 0 < S64x8.numel
  shapeCasts_S64x8_S64x8 : S64x8.ShapeCasts S64x8
  inb_S8x64_S8x64_0_0 : ∀ a, (![0, 0] : Fin 2 → Nat) a + S8x64.size a ≤ S8x64.size a
  h_S8x64 : 0 < S8x64.numel
  shapeCasts_S8x64_S8x64 : S8x64.ShapeCasts S8x64
  slices_S1024x512_o0_0_S1024x64 : S1024x512.Slices ![0, 0] S1024x64
  broadcasts_S1024x1_S1024x8 : S1024x1.Broadcasts S1024x8
  reduces_S1024x8_S1024 : S1024x8.Reduces [1] S1024
  shapeCasts_S1024_S1024x1 : S1024.ShapeCasts S1024x1
  slices_S1024x512_o0_64_S1024x64 : S1024x512.Slices ![0, 64] S1024x64
  slices_S1024x512_o0_128_S1024x64 : S1024x512.Slices ![0, 128] S1024x64
  slices_S1024x512_o0_192_S1024x64 : S1024x512.Slices ![0, 192] S1024x64
  slices_S1024x512_o0_256_S1024x64 : S1024x512.Slices ![0, 256] S1024x64
  slices_S1024x512_o0_320_S1024x64 : S1024x512.Slices ![0, 320] S1024x64
  slices_S1024x512_o0_384_S1024x64 : S1024x512.Slices ![0, 384] S1024x64
  slices_S1024x512_o0_448_S1024x64 : S1024x512.Slices ![0, 448] S1024x64
  concatenates_S1024x64_S1024x64_S1024x64_S1024x64_S1024x64_S1024x64_S1024x64_S1024x64_S1024x512_d1 : Shape.Concatenates [S1024x64, S1024x64, S1024x64, S1024x64, S1024x64, S1024x64, S1024x64, S1024x64] S1024x512 1
  reduces_S1024x512_S1024 : S1024x512.Reduces [1] S1024
  inb_S1024_S1024_0 : ∀ a, (![0] : Fin 1 → Nat) a + S1024.size a ≤ S1024.size a
  h_S1024 : 0 < S1024.numel
  gather_S100000x512_S65536x1_S65536x512_1_0_n_n_0_1_1512_wf : GatherDims.WF S100000x512 S65536x1 S65536x512 [1] [0] [] [0] [] 1 ![1, 512]
  gather_S50x512_S65536x1_S65536x512_1_0_n_n_0_1_1512_wf : GatherDims.WF S50x512 S65536x1 S65536x512 [1] [0] [] [0] [] 1 ![1, 512]
  dot_S100000x512_S512x1_S100000x1_1_0_0_1_n_n_wf : DotDims.WF S100000x512 S512x1 S100000x1 [1] [0] [0] [1] [] []
  dot_S50x512_S512x1_S50x1_1_0_0_1_n_n_wf : DotDims.WF S50x512 S512x1 S50x1 [1] [0] [0] [1] [] []
  gather_S100000x1_S65536x1_S65536x1_1_0_n_n_0_1_11_wf : GatherDims.WF S100000x1 S65536x1 S65536x1 [1] [0] [] [0] [] 1 ![1, 1]
  gather_S50x1_S65536x1_S65536x1_1_0_n_n_0_1_11_wf : GatherDims.WF S50x1 S65536x1 S65536x1 [1] [0] [] [0] [] 1 ![1, 1]
  dot_S8x64_S64x64_S8x64_1_0_0_1_n_n_wf : DotDims.WF S8x64 S64x64 S8x64 [1] [0] [0] [1] [] []
  dot_S1024x512_S512x512_S1024x512_1_0_0_1_n_n_wf : DotDims.WF S1024x512 S512x512 S1024x512 [1] [0] [0] [1] [] []
  dot_S1024x64_S64x8_S1024x8_1_0_0_1_n_n_wf : DotDims.WF S1024x64 S64x8 S1024x8 [1] [0] [0] [1] [] []
  dot_S1024x8_S8x64_S1024x64_1_0_0_1_n_n_wf : DotDims.WF S1024x8 S8x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S65536x512.size a
  hwx0_0 : ∀ i : grid0.Coords, EltTy.bits .f32 = 32 ∨ (Rect.block (s := S65536x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S65536x512.size a
  hwx0_1 : ∀ i : grid0.Coords, EltTy.bits .f32 = 32 ∨ (Rect.block (s := S65536x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S65536x1.size a
  hwx0_2 : ∀ i : grid0.Coords, EltTy.bits .f32 = 32 ∨ (Rect.block (s := S65536x1) S1024x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .bf16 = 32 ∨ (Rect.block (s := S512x512) S512x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x8.size a ≤ S64x8.size a
  hwx0_8 : ∀ i : grid0.Coords, EltTy.bits .bf16 = 32 ∨ (Rect.block (s := S64x8) S64x8.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x8.size a ≤ S64x8.size a
  hwx0_9 : ∀ i : grid0.Coords, EltTy.bits .bf16 = 32 ∨ (Rect.block (s := S64x8) S64x8.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S8x64.size a ≤ S8x64.size a
  hwx0_10 : ∀ i : grid0.Coords, EltTy.bits .bf16 = 32 ∨ (Rect.block (s := S8x64) S8x64.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024.size a ≤ S65536.size a
  hwx0_11 : ∀ i : grid0.Coords, EltTy.bits .f32 = 32 ∨ (Rect.block (s := S65536) S1024.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1024.size a ≤ S65536.size a
  hwx0_12 : ∀ i : grid0.Coords, EltTy.bits .f32 = 32 ∨ (Rect.block (s := S65536) S1024.size (cc0_transform_12 i) (hinb0_12 i)).WholeWords (EltTy.packing .f32)

variable [Facts₀]

def gather_S100000x512_S65536x1_S65536x512_1_0_n_n_0_1_1512 : GatherDims S100000x512 S65536x1 S65536x512 where
  offsetDims := [1]
  collapsedSliceDims := [0]
  operandBatchingDims := []
  startIndicesBatchingDims := []
  startIndexMap := [0]
  indexVectorDim := 1
  sliceSizes := ![1, 512]
  wf := gather_S100000x512_S65536x1_S65536x512_1_0_n_n_0_1_1512_wf
def gather_S50x512_S65536x1_S65536x512_1_0_n_n_0_1_1512 : GatherDims S50x512 S65536x1 S65536x512 where
  offsetDims := [1]
  collapsedSliceDims := [0]
  operandBatchingDims := []
  startIndicesBatchingDims := []
  startIndexMap := [0]
  indexVectorDim := 1
  sliceSizes := ![1, 512]
  wf := gather_S50x512_S65536x1_S65536x512_1_0_n_n_0_1_1512_wf
def dot_S100000x512_S512x1_S100000x1_1_0_0_1_n_n : DotDims S100000x512 S512x1 S100000x1 where
  lhsContracting := [1]
  rhsContracting := [0]
  lhsNonContracting := [0]
  rhsNonContracting := [1]
  lhsBatch := []
  rhsBatch := []
  wf := dot_S100000x512_S512x1_S100000x1_1_0_0_1_n_n_wf
def dot_S50x512_S512x1_S50x1_1_0_0_1_n_n : DotDims S50x512 S512x1 S50x1 where
  lhsContracting := [1]
  rhsContracting := [0]
  lhsNonContracting := [0]
  rhsNonContracting := [1]
  lhsBatch := []
  rhsBatch := []
  wf := dot_S50x512_S512x1_S50x1_1_0_0_1_n_n_wf
def gather_S100000x1_S65536x1_S65536x1_1_0_n_n_0_1_11 : GatherDims S100000x1 S65536x1 S65536x1 where
  offsetDims := [1]
  collapsedSliceDims := [0]
  operandBatchingDims := []
  startIndicesBatchingDims := []
  startIndexMap := [0]
  indexVectorDim := 1
  sliceSizes := ![1, 1]
  wf := gather_S100000x1_S65536x1_S65536x1_1_0_n_n_0_1_11_wf
def gather_S50x1_S65536x1_S65536x1_1_0_n_n_0_1_11 : GatherDims S50x1 S65536x1 S65536x1 where
  offsetDims := [1]
  collapsedSliceDims := [0]
  operandBatchingDims := []
  startIndicesBatchingDims := []
  startIndexMap := [0]
  indexVectorDim := 1
  sliceSizes := ![1, 1]
  wf := gather_S50x1_S65536x1_S65536x1_1_0_n_n_0_1_11_wf
def dot_S8x64_S64x64_S8x64_1_0_0_1_n_n : DotDims S8x64 S64x64 S8x64 where
  lhsContracting := [1]
  rhsContracting := [0]
  lhsNonContracting := [0]
  rhsNonContracting := [1]
  lhsBatch := []
  rhsBatch := []
  wf := dot_S8x64_S64x64_S8x64_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x64_S64x8_S1024x8_1_0_0_1_n_n : DotDims S1024x64 S64x8 S1024x8 where
  lhsContracting := [1]
  rhsContracting := [0]
  lhsNonContracting := [0]
  rhsNonContracting := [1]
  lhsBatch := []
  rhsBatch := []
  wf := dot_S1024x64_S64x8_S1024x8_1_0_0_1_n_n_wf
def dot_S1024x8_S8x64_S1024x64_1_0_0_1_n_n : DotDims S1024x8 S8x64 S1024x64 where
  lhsContracting := [1]
  rhsContracting := [0]
  lhsNonContracting := [0]
  rhsNonContracting := [1]
  lhsBatch := []
  rhsBatch := []
  wf := dot_S1024x8_S8x64_S1024x64_1_0_0_1_n_n_wf

abbrev win0_0 : Pipeline.Window sig grid0 :=
  Pipeline.Window.ofSpec (Memref.whole main_v76) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v78) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v74) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v88) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg11) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v90) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v92) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg17) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v94) S64x8.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v96) S64x8.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v97) S8x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v98_0) S1024.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v98_1) S1024.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S100000x512 : Shape := ⟨2, ![100000, 512]⟩
abbrev S50x512 : Shape := ⟨2, ![50, 512]⟩
abbrev S512x1 : Shape := ⟨2, ![512, 1]⟩
abbrev S1 : Shape := ⟨1, ![1]⟩
abbrev S8x64 : Shape := ⟨2, ![8, 64]⟩
abbrev S512x512 : Shape := ⟨2, ![512, 512]⟩
abbrev S512 : Shape := ⟨1, ![512]⟩
abbrev S64x64 : Shape := ⟨2, ![64, 64]⟩
abbrev S64 : Shape := ⟨1, ![64]⟩
abbrev S1024x512 : Shape := ⟨2, ![1024, 512]⟩
abbrev S_ : Shape := ⟨0, ![]⟩
abbrev S65536 : Shape := ⟨1, ![65536]⟩
abbrev S65536x1 : Shape := ⟨2, ![65536, 1]⟩
abbrev S65536x512 : Shape := ⟨2, ![65536, 512]⟩
abbrev S1x1 : Shape := ⟨2, ![1, 1]⟩
abbrev S1x512 : Shape := ⟨2, ![1, 512]⟩
abbrev S65536x8x64 : Shape := ⟨3, ![65536, 8, 64]⟩
abbrev S1x64 : Shape := ⟨2, ![1, 64]⟩
abbrev S65536x1x1 : Shape := ⟨3, ![65536, 1, 1]⟩
abbrev S65536x8x8 : Shape := ⟨3, ![65536, 8, 8]⟩
abbrev S65536x8 : Shape := ⟨2, ![65536, 8]⟩
abbrev S65536x8x1 : Shape := ⟨3, ![65536, 8, 1]⟩
abbrev S65536x1024 : Shape := ⟨2, ![65536, 1024]⟩

abbrev nBuf : Space → Nat
  | .hbm => 203
  | .vmem => 0
  | .smem => 0
  | _ => 0

abbrev hbmTy0_0 (i : Nat) : BufTy := match i % 128 with
  | 0 => ⟨S100000x512, .f32⟩
  | 1 => ⟨S50x512, .f32⟩
  | 2 => ⟨S100000x512, .f32⟩
  | 3 => ⟨S512x1, .f32⟩
  | 4 => ⟨S1, .f32⟩
  | 5 => ⟨S50x512, .f32⟩
  | 6 => ⟨S512x1, .f32⟩
  | 7 => ⟨S1, .f32⟩
  | 8 => ⟨S8x64, .f32⟩
  | 9 => ⟨S8x64, .f32⟩
  | 10 => ⟨S512x512, .f32⟩
  | 11 => ⟨S512, .f32⟩
  | 12 => ⟨S64x64, .f32⟩
  | 13 => ⟨S64, .f32⟩
  | 14 => ⟨S64x64, .f32⟩
  | 15 => ⟨S64, .f32⟩
  | 16 => ⟨S1024x512, .f32⟩
  | 17 => ⟨S512, .f32⟩
  | 18 => ⟨S_, .f32⟩
  | 19 => ⟨S_, .f32⟩
  | 20 => ⟨S65536, .i32⟩
  | 21 => ⟨S65536, .i32⟩
  | 22 => ⟨S65536, .i32⟩
  | 23 => ⟨S_, .i32⟩
  | 24 => ⟨S65536, .i32⟩
  | 25 => ⟨S65536, .i1⟩
  | 26 => ⟨S_, .i32⟩
  | 27 => ⟨S65536, .i32⟩
  | 28 => ⟨S65536, .i32⟩
  | 29 => ⟨S65536, .i32⟩
  | 30 => ⟨S65536x1, .i32⟩
  | 31 => ⟨S65536x512, .f32⟩
  | 32 => ⟨S_, .i32⟩
  | 33 => ⟨S65536, .i32⟩
  | 34 => ⟨S65536, .i1⟩
  | 35 => ⟨S_, .i32⟩
  | 36 => ⟨S65536, .i32⟩
  | 37 => ⟨S65536, .i32⟩
  | 38 => ⟨S65536, .i32⟩
  | 39 => ⟨S65536x1, .i32⟩
  | 40 => ⟨S65536x512, .f32⟩
  | 41 => ⟨S_, .i32⟩
  | 42 => ⟨S65536, .i32⟩
  | 43 => ⟨S65536, .i1⟩
  | 44 => ⟨S_, .i32⟩
  | 45 => ⟨S65536, .i32⟩
  | 46 => ⟨S65536, .i32⟩
  | 47 => ⟨S65536, .i32⟩
  | 48 => ⟨S65536x1, .i32⟩
  | 49 => ⟨S65536x512, .f32⟩
  | 50 => ⟨S_, .i32⟩
  | 51 => ⟨S65536, .i32⟩
  | 52 => ⟨S65536, .i1⟩
  | 53 => ⟨S_, .i32⟩
  | 54 => ⟨S65536, .i32⟩
  | 55 => ⟨S65536, .i32⟩
  | 56 => ⟨S65536, .i32⟩
  | 57 => ⟨S65536x1, .i32⟩
  | 58 => ⟨S65536x512, .f32⟩
  | 59 => ⟨S65536x1, .f32⟩
  | 60 => ⟨S1x1, .f32⟩
  | 61 => ⟨S65536x1, .f32⟩
  | 62 => ⟨S65536x1, .f32⟩
  | 63 => ⟨S65536x1, .f32⟩
  | 64 => ⟨S65536x1, .f32⟩
  | 65 => ⟨S_, .f32⟩
  | 66 => ⟨S65536x1, .f32⟩
  | 67 => ⟨S65536x1, .f32⟩
  | 68 => ⟨S_, .f32⟩
  | 69 => ⟨S65536x1, .f32⟩
  | 70 => ⟨S65536x1, .f32⟩
  | 71 => ⟨S_, .i32⟩
  | 72 => ⟨S65536, .i32⟩
  | 73 => ⟨S65536, .i1⟩
  | 74 => ⟨S_, .i32⟩
  | 75 => ⟨S65536, .i32⟩
  | 76 => ⟨S65536, .i32⟩
  | 77 => ⟨S65536, .i32⟩
  | 78 => ⟨S65536x1, .i32⟩
  | 79 => ⟨S65536x512, .f32⟩
  | 80 => ⟨S65536x1, .f32⟩
  | 81 => ⟨S1x1, .f32⟩
  | 82 => ⟨S65536x1, .f32⟩
  | 83 => ⟨S65536x1, .f32⟩
  | 84 => ⟨S65536x1, .f32⟩
  | 85 => ⟨S65536x1, .f32⟩
  | 86 => ⟨S_, .f32⟩
  | 87 => ⟨S65536x1, .f32⟩
  | 88 => ⟨S65536x1, .f32⟩
  | 89 => ⟨S_, .f32⟩
  | 90 => ⟨S65536x1, .f32⟩
  | 91 => ⟨S65536x1, .f32⟩
  | 92 => ⟨S_, .i32⟩
  | 93 => ⟨S65536, .i32⟩
  | 94 => ⟨S65536, .i1⟩
  | 95 => ⟨S_, .i32⟩
  | 96 => ⟨S65536, .i32⟩
  | 97 => ⟨S65536, .i32⟩
  | 98 => ⟨S65536, .i32⟩
  | 99 => ⟨S65536x1, .i32⟩
  | 100 => ⟨S65536x512, .f32⟩
  | 101 => ⟨S65536x1, .f32⟩
  | 102 => ⟨S1x1, .f32⟩
  | 103 => ⟨S65536x1, .f32⟩
  | 104 => ⟨S65536x1, .f32⟩
  | 105 => ⟨S65536x1, .f32⟩
  | 106 => ⟨S65536x1, .f32⟩
  | 107 => ⟨S_, .f32⟩
  | 108 => ⟨S65536x1, .f32⟩
  | 109 => ⟨S65536x1, .f32⟩
  | 110 => ⟨S_, .f32⟩
  | 111 => ⟨S65536x1, .f32⟩
  | 112 => ⟨S65536x1, .f32⟩
  | 113 => ⟨S65536x1, .f32⟩
  | 114 => ⟨S65536x1, .f32⟩
  | 115 => ⟨S_, .f32⟩
  | 116 => ⟨S65536x1, .f32⟩
  | 117 => ⟨S65536x1, .f32⟩
  | 118 => ⟨S65536x512, .f32⟩
  | 119 => ⟨S65536x512, .f32⟩
  | 120 => ⟨S65536x512, .f32⟩
  | 121 => ⟨S65536x512, .f32⟩
  | 122 => ⟨S65536x512, .f32⟩
  | 123 => ⟨S1x512, .f32⟩
  | 124 => ⟨S65536x512, .f32⟩
  | 125 => ⟨S65536x512, .f32⟩
  | 126 => ⟨S65536x8x64, .f32⟩
  | 127 => ⟨S8x64, .f32⟩
  | _ => ⟨S100000x512, .f32⟩

abbrev hbmTy0_1 (i : Nat) : BufTy := match i % 128 with
  | 0 => ⟨S1x64, .f32⟩
  | 1 => ⟨S8x64, .f32⟩
  | 2 => ⟨S8x64, .f32⟩
  | 3 => ⟨S8x64, .f32⟩
  | 4 => ⟨S1x64, .f32⟩
  | 5 => ⟨S8x64, .f32⟩
  | 6 => ⟨S8x64, .f32⟩
  | 7 => ⟨S_, .f32⟩
  | 8 => ⟨S_, .f32⟩
  | 9 => ⟨S_, .f32⟩
  | 10 => ⟨S_, .f32⟩
  | 11 => ⟨S65536x1x1, .f32⟩
  | 12 => ⟨S65536x8x8, .f32⟩
  | 13 => ⟨S65536x8x8, .f32⟩
  | 14 => ⟨S65536x8x8, .f32⟩
  | 15 => ⟨S65536x8x8, .f32⟩
  | 16 => ⟨S65536x8x8, .f32⟩
  | 17 => ⟨S_, .f32⟩
  | 18 => ⟨S65536x8, .f32⟩
  | 19 => ⟨S_, .f32⟩
  | 20 => ⟨S65536x8, .f32⟩
  | 21 => ⟨S65536x8, .f32⟩
  | 22 => ⟨S65536x8x1, .f32⟩
  | 23 => ⟨S65536x8x8, .f32⟩
  | 24 => ⟨S65536x8x8, .f32⟩
  | 25 => ⟨S65536x8x8, .f32⟩
  | 26 => ⟨S_, .f32⟩
  | 27 => ⟨S65536x8, .f32⟩
  | 28 => ⟨S65536x8x1, .f32⟩
  | 29 => ⟨S65536x8x8, .f32⟩
  | 30 => ⟨S65536x8x8, .f32⟩
  | 31 => ⟨S65536x8x8, .f32⟩
  | 32 => ⟨S65536x8x8, .f32⟩
  | 33 => ⟨S65536x8x8, .f32⟩
  | 34 => ⟨S65536x8x8, .f32⟩
  | 35 => ⟨S65536x8x8, .f32⟩
  | 36 => ⟨S_, .f32⟩
  | 37 => ⟨S65536x8, .f32⟩
  | 38 => ⟨S_, .f32⟩
  | 39 => ⟨S65536x8, .f32⟩
  | 40 => ⟨S65536x8, .f32⟩
  | 41 => ⟨S65536x8x1, .f32⟩
  | 42 => ⟨S65536x8x8, .f32⟩
  | 43 => ⟨S65536x8x8, .f32⟩
  | 44 => ⟨S65536x8x8, .f32⟩
  | 45 => ⟨S_, .f32⟩
  | 46 => ⟨S65536x8, .f32⟩
  | 47 => ⟨S65536x8x1, .f32⟩
  | 48 => ⟨S65536x8x8, .f32⟩
  | 49 => ⟨S65536x8x8, .f32⟩
  | 50 => ⟨S65536x8x8, .f32⟩
  | 51 => ⟨S_, .f32⟩
  | 52 => ⟨S65536x8x8, .f32⟩
  | 53 => ⟨S65536x8x8, .f32⟩
  | 54 => ⟨S8x64, .f32⟩
  | 55 => ⟨S65536x8x64, .f32⟩
  | 56 => ⟨S65536x512, .f32⟩
  | 57 => ⟨S65536x512, .f32⟩
  | 58 => ⟨S65536x512, .f32⟩
  | 59 => ⟨S_, .f32⟩
  | 60 => ⟨S65536, .f32⟩
  | 61 => ⟨S65536x1024, .f32⟩
  | 62 => ⟨S65536x512, .f32⟩
  | 63 => ⟨S1x512, .f32⟩
  | 64 => ⟨S65536x512, .f32⟩
  | 65 => ⟨S65536x512, .f32⟩
  | 66 => ⟨S65536x512, .f32⟩
  | 67 => ⟨S65536x512, .f32⟩
  | 68 => ⟨S_, .f32⟩
  | 69 => ⟨S65536, .f32⟩
  | 70 => ⟨S65536, .f32⟩
  | 71 => ⟨S65536, .f32⟩
  | 72 => ⟨S65536, .f32⟩
  | 73 => ⟨S65536, .f32⟩
  | 74 => ⟨S65536, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_c : Ref sig .tc := ⟨.hbm, 23, rfl⟩
abbrev main_v0 : Ref sig .tc := ⟨.hbm, 24, rfl⟩
abbrev main_v1 : Ref sig .tc := ⟨.hbm, 25, rfl⟩
abbrev main_c_0 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_c_1 : Ref sig .tc := ⟨.hbm, 32, rfl⟩
abbrev main_v7 : Ref sig .tc := ⟨.hbm, 33, rfl⟩
abbrev main_v8 : Ref sig .tc := ⟨.hbm, 34, rfl⟩
abbrev main_c_2 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_c_3 : Ref sig .tc := ⟨.hbm, 41, rfl⟩
abbrev main_v14 : Ref sig .tc := ⟨.hbm, 42, rfl⟩
abbrev main_v15 : Ref sig .tc := ⟨.hbm, 43, rfl⟩
abbrev main_c_4 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_c_5 : Ref sig .tc := ⟨.hbm, 50, rfl⟩
abbrev main_v21 : Ref sig .tc := ⟨.hbm, 51, rfl⟩
abbrev main_v22 : Ref sig .tc := ⟨.hbm, 52, rfl⟩
abbrev main_c_6 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_cst : Ref sig .tc := ⟨.hbm, 65, rfl⟩
abbrev main_v34 : Ref sig .tc := ⟨.hbm, 66, rfl⟩
abbrev main_v35 : Ref sig .tc := ⟨.hbm, 67, rfl⟩
abbrev main_cst_7 : Ref sig .tc := ⟨.hbm, 68, rfl⟩
abbrev main_v36 : Ref sig .tc := ⟨.hbm, 69, rfl⟩
abbrev main_v37 : Ref sig .tc := ⟨.hbm, 70, rfl⟩
abbrev main_c_8 : Ref sig .tc := ⟨.hbm, 71, rfl⟩
abbrev main_v38 : Ref sig .tc := ⟨.hbm, 72, rfl⟩
abbrev main_v39 : Ref sig .tc := ⟨.hbm, 73, rfl⟩
abbrev main_c_9 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_cst_10 : Ref sig .tc := ⟨.hbm, 86, rfl⟩
abbrev main_v51 : Ref sig .tc := ⟨.hbm, 87, rfl⟩
abbrev main_v52 : Ref sig .tc := ⟨.hbm, 88, rfl⟩
abbrev main_cst_11 : Ref sig .tc := ⟨.hbm, 89, rfl⟩
abbrev main_v53 : Ref sig .tc := ⟨.hbm, 90, rfl⟩
abbrev main_v54 : Ref sig .tc := ⟨.hbm, 91, rfl⟩
abbrev main_c_12 : Ref sig .tc := ⟨.hbm, 92, rfl⟩
abbrev main_v55 : Ref sig .tc := ⟨.hbm, 93, rfl⟩
abbrev main_v56 : Ref sig .tc := ⟨.hbm, 94, rfl⟩
abbrev main_c_13 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_cst_14 : Ref sig .tc := ⟨.hbm, 107, rfl⟩
abbrev main_v68 : Ref sig .tc := ⟨.hbm, 108, rfl⟩
abbrev main_v69 : Ref sig .tc := ⟨.hbm, 109, rfl⟩
abbrev main_cst_15 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_cst_16 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_cst_17 : Ref sig .tc := ⟨.hbm, 135, rfl⟩
abbrev main_v93 : Ref sig .tc := ⟨.hbm, 136, rfl⟩
abbrev main_cst_18 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_cst_19 : Ref sig .tc := ⟨.hbm, 145, rfl⟩
abbrev main_v101 : Ref sig .tc := ⟨.hbm, 146, rfl⟩
abbrev main_cst_20 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_cst_21 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_cst_22 : Ref sig .tc := ⟨.hbm, 164, rfl⟩
abbrev main_v117 : Ref sig .tc := ⟨.hbm, 165, rfl⟩
abbrev main_cst_23 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_cst_24 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_cst_25 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_cst_26 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_call0_v0 : Ref sig .tc := ⟨.hbm, 195, rfl⟩
abbrev main_call0_cst : Ref sig .tc := ⟨.hbm, 196, rfl⟩
abbrev main_call0_v1 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  bcast_S_S65536x1 : S_.BroadcastsInDim S65536x1 (![] : Fin 0 → Fin S65536x1.rank)
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  shapeCasts_S65536x512_S65536x8x64 : S65536x512.ShapeCasts S65536x8x64
  bcast_S64_S1x64_1 : S64.BroadcastsInDim S1x64 (![1] : Fin 1 → Fin S1x64.rank)
  bcast_S1x64_S8x64_0_1 : S1x64.BroadcastsInDim S8x64 (![0, 1] : Fin 2 → Fin S8x64.rank)
  bcast_S65536x1_S65536x1x1_0_1 : S65536x1.BroadcastsInDim S65536x1x1 (![0, 1] : Fin 2 → Fin S65536x1x1.rank)
  bcast_S_S65536x8x8 : S_.BroadcastsInDim S65536x8x8 (![] : Fin 0 → Fin S65536x8x8.rank)
  bcast_S65536x1x1_S65536x8x8_0_1_2 : S65536x1x1.BroadcastsInDim S65536x8x8 (![0, 1, 2] : Fin 3 → Fin S65536x8x8.rank)
  reducesTo_S65536x8x8_S65536x8_d2 : S65536x8x8.ReducesTo [2] S65536x8
  h_S_ : 0 < S_.numel
  bcast_S_S65536x8 : S_.BroadcastsInDim S65536x8 (![] : Fin 0 → Fin S65536x8.rank)
  bcast_S65536x8_S65536x8x1_0_1 : S65536x8.BroadcastsInDim S65536x8x1 (![0, 1] : Fin 2 → Fin S65536x8x1.rank)
  bcast_S65536x8x1_S65536x8x8_0_1_2 : S65536x8x1.BroadcastsInDim S65536x8x8 (![0, 1, 2] : Fin 3 → Fin S65536x8x8.rank)
  shapeCasts_S65536x8x64_S65536x512 : S65536x8x64.ShapeCasts S65536x512
  reducesTo_S65536x512_S65536_d1 : S65536x512.ReducesTo [1] S65536
  concatenates_S65536x512_S65536x512_S65536x1024_d1 : Shape.Concatenates [S65536x512, S65536x512] S65536x1024 1
  gather_S100000x512_S65536x1_S65536x512_1_0_n_n_0_1_1512_wf : GatherDims.WF S100000x512 S65536x1 S65536x512 [1] [0] [] [0] [] 1 ![1, 512]
  gather_S50x512_S65536x1_S65536x512_1_0_n_n_0_1_1512_wf : GatherDims.WF S50x512 S65536x1 S65536x512 [1] [0] [] [0] [] 1 ![1, 512]
  dot_S65536x512_S512x1_S65536x1_1_0_0_1_n_n_wf : DotDims.WF S65536x512 S512x1 S65536x1 [1] [0] [0] [1] [] []
  dot_S65536x512_S512x512_S65536x512_1_0_0_1_n_n_wf : DotDims.WF S65536x512 S512x512 S65536x512 [1] [0] [0] [1] [] []
  dot_S8x64_S64x64_S8x64_1_0_0_1_n_n_wf : DotDims.WF S8x64 S64x64 S8x64 [1] [0] [0] [1] [] []
  dot_S65536x8x64_S8x64_S65536x8x8_2_1_01_0_n_n_wf : DotDims.WF S65536x8x64 S8x64 S65536x8x8 [2] [1] [0, 1] [0] [] []
  dot_S65536x8x8_S8x64_S65536x8x64_2_0_01_1_n_n_wf : DotDims.WF S65536x8x8 S8x64 S65536x8x64 [2] [0] [0, 1] [1] [] []
  dot_S65536x1024_S1024x512_S65536x512_1_0_0_1_n_n_wf : DotDims.WF S65536x1024 S1024x512 S65536x512 [1] [0] [0] [1] [] []

variable [Facts₀]

def gather_S100000x512_S65536x1_S65536x512_1_0_n_n_0_1_1512 : GatherDims S100000x512 S65536x1 S65536x512 where
  offsetDims := [1]
  collapsedSliceDims := [0]
  operandBatchingDims := []
  startIndicesBatchingDims := []
  startIndexMap := [0]
  indexVectorDim := 1
  sliceSizes := ![1, 512]
  wf := gather_S100000x512_S65536x1_S65536x512_1_0_n_n_0_1_1512_wf
def gather_S50x512_S65536x1_S65536x512_1_0_n_n_0_1_1512 : GatherDims S50x512 S65536x1 S65536x512 where
  offsetDims := [1]
  collapsedSliceDims := [0]
  operandBatchingDims := []
  startIndicesBatchingDims := []
  startIndexMap := [0]
  indexVectorDim := 1
  sliceSizes := ![1, 512]
  wf := gather_S50x512_S65536x1_S65536x512_1_0_n_n_0_1_1512_wf
def dot_S65536x512_S512x1_S65536x1_1_0_0_1_n_n : DotDims S65536x512 S512x1 S65536x1 where
  lhsContracting := [1]
  rhsContracting := [0]
  lhsNonContracting := [0]
  rhsNonContracting := [1]
  lhsBatch := []
  rhsBatch := []
  wf := dot_S65536x512_S512x1_S65536x1_1_0_0_1_n_n_wf
def dot_S65536x512_S512x512_S65536x512_1_0_0_1_n_n : DotDims S65536x512 S512x512 S65536x512 where
  lhsContracting := [1]
  rhsContracting := [0]
  lhsNonContracting := [0]
  rhsNonContracting := [1]
  lhsBatch := []
  rhsBatch := []
  wf := dot_S65536x512_S512x512_S65536x512_1_0_0_1_n_n_wf
def dot_S8x64_S64x64_S8x64_1_0_0_1_n_n : DotDims S8x64 S64x64 S8x64 where
  lhsContracting := [1]
  rhsContracting := [0]
  lhsNonContracting := [0]
  rhsNonContracting := [1]
  lhsBatch := []
  rhsBatch := []
  wf := dot_S8x64_S64x64_S8x64_1_0_0_1_n_n_wf
def dot_S65536x8x64_S8x64_S65536x8x8_2_1_01_0_n_n : DotDims S65536x8x64 S8x64 S65536x8x8 where
  lhsContracting := [2]
  rhsContracting := [1]
  lhsNonContracting := [0, 1]
  rhsNonContracting := [0]
  lhsBatch := []
  rhsBatch := []
  wf := dot_S65536x8x64_S8x64_S65536x8x8_2_1_01_0_n_n_wf
def dot_S65536x8x8_S8x64_S65536x8x64_2_0_01_1_n_n : DotDims S65536x8x8 S8x64 S65536x8x64 where
  lhsContracting := [2]
  rhsContracting := [0]
  lhsNonContracting := [0, 1]
  rhsNonContracting := [1]
  lhsBatch := []
  rhsBatch := []
  wf := dot_S65536x8x8_S8x64_S65536x8x64_2_0_01_1_n_n_wf
def dot_S65536x1024_S1024x512_S65536x512_1_0_0_1_n_n : DotDims S65536x1024 S1024x512 S65536x512 where
  lhsContracting := [1]
  rhsContracting := [0]
  lhsNonContracting := [0]
  rhsNonContracting := [1]
  lhsBatch := []
  rhsBatch := []
  wf := dot_S65536x1024_S1024x512_S65536x512_1_0_0_1_n_n_wf

class Facts : Prop extends Facts₀ where

variable [Facts]
-- ==== Proof.Spec.lean ====
/-
  The value both programs compute, written once as plain mathematics on the extended reals.

  For one batch row b: gather the head, relation and tail rows of the embedding tables (at row numbers hI b, rI b,
  tI b), form diff = h + r - t and ctx = h + r + t; a density scalar, the mean of three logistic gates of affine
  functions of the gathered density rows; the query q = ctx · Wq + bq split into 8 heads of width 64; per head two
  softmaxes over the 8 motif keys (local and global keys lk, gk = motifs · Wk + bk) of (q_h · key) / 8 + density,
  averaged; the motif representation, the averaged attention applied to local + global motifs, heads side by side;
  loss = |diff - motif|²; score = aw · |tanh([diff, motif] · Wout + bout)| + ab.
  Sums are sums over Fin n, a row maximum is the fold of max from -∞, literals stay as their printed words.
-/
import Idealize.ShloMosaic.PureOps.Ideal
import Idealize.ShloMosaic.Lib.ValueIdx

noncomputable section

namespace Cert.Spec

open Idealize.ShloMosaic

/-- The literal 1/8 (the softmax temperature of 64-wide heads). -/
abbrev c8 : EReal := Ideal.ofBits .f32 0x3E000000#32
/-- The literal 1/2. -/
abbrev half : EReal := Ideal.ofBits .f32 0x3F000000#32
/-- The literal -∞, from which row maxima are folded. -/
abbrev ninf : EReal := Ideal.ofBits .f32 0xFF800000#32
/-- The literal 1. -/
abbrev one : EReal := Ideal.ofBits .f32 0x3F800000#32
/-- The literal 3. -/
abbrev three : EReal := Ideal.ofBits .f32 0x40400000#32

/-- The arguments, each array as a function of its coordinates; hI, rI, tI are the row numbers the three index
    arrays select (each index read signed, wrapped once if negative, and clamped into its table). -/
structure Args where
  e0 : Fin 100000 → Fin 512 → EReal
  e1 : Fin 50 → Fin 512 → EReal
  e2 : Fin 100000 → Fin 512 → EReal
  w3 : Fin 512 → EReal
  b4 : EReal
  e5 : Fin 50 → Fin 512 → EReal
  w6 : Fin 512 → EReal
  b7 : EReal
  lm : Fin 8 → Fin 64 → EReal
  gm : Fin 8 → Fin 64 → EReal
  wq : Fin 512 → Fin 512 → EReal
  bq : Fin 512 → EReal
  wkl : Fin 64 → Fin 64 → EReal
  bkl : Fin 64 → EReal
  wkg : Fin 64 → Fin 64 → EReal
  bkg : Fin 64 → EReal
  wout : Fin 1024 → Fin 512 → EReal
  bout : Fin 512 → EReal
  aw : EReal
  ab : EReal
  hI : Fin 65536 → Fin 100000
  rI : Fin 65536 → Fin 50
  tI : Fin 65536 → Fin 100000

/-- Column d of head h in a 512-wide row. -/
def hd (h : Fin 8) (d : Fin 64) : Fin 512 := ⟨h.val * 64 + d.val, by omega⟩
/-- Rows 0..511 of a 1024-row matrix. -/
def lo (k : Fin 512) : Fin 1024 := ⟨k.val, by omega⟩
/-- Rows 512..1023 of a 1024-row matrix. -/
def hi (k : Fin 512) : Fin 1024 := ⟨512 + k.val, by omega⟩

variable (A : Args)

/-- diff = h + r - t. -/
def D (b : Fin 65536) (k : Fin 512) : EReal := (A.e0 (A.hI b) k + A.e1 (A.rI b) k) - A.e0 (A.tI b) k
/-- ctx = h + r + t. -/
def C (b : Fin 65536) (k : Fin 512) : EReal := (A.e0 (A.hI b) k + A.e1 (A.rI b) k) + A.e0 (A.tI b) k

/-- The logistic function as 1 / (1 + exp (-x)). -/
def sig (x : EReal) : EReal := Ideal.div one (one + Ideal.exp (-x))

/-- The density scalar of a row: the mean of the three gates. -/
def dens (b : Fin 65536) : EReal :=
  Ideal.div
    ((sig ((∑ k : Fin 512, A.e2 (A.hI b) k * A.w3 k) + A.b4) + sig ((∑ k : Fin 512, A.e2 (A.tI b) k * A.w3 k) + A.b4))
      + sig ((∑ k : Fin 512, A.e5 (A.rI b) k * A.w6 k) + A.b7))
    three

/-- Local motif keys. -/
def LK (m : Fin 8) (d : Fin 64) : EReal := (∑ k : Fin 64, A.lm m k * A.wkl k d) + A.bkl d
/-- Global motif keys. -/
def GK (m : Fin 8) (d : Fin 64) : EReal := (∑ k : Fin 64, A.gm m k * A.wkg k d) + A.bkg d
/-- Motif values. -/
def MO (m : Fin 8) (d : Fin 64) : EReal := A.lm m d + A.gm m d

/-- The query row from a context row. -/
def qrow (c : Fin 512 → EReal) (wq : Fin 512 → Fin 512 → EReal) (bq : Fin 512 → EReal) (j : Fin 512) : EReal :=
  (∑ k : Fin 512, c k * wq k j) + bq j

/-- A head's logits against one key table. -/
def logit (q : Fin 512 → EReal) (K : Fin 8 → Fin 64 → EReal) (s : EReal) (h m : Fin 8) : EReal :=
  (∑ d : Fin 64, q (hd h d) * K m d) * c8 + s

/-- The maximum of eight logits, folded from -∞. -/
def rmax (f : Fin 8 → EReal) : EReal := max ninf ((Finset.univ : Finset (Fin 8)).fold max ninf f)

/-- Softmax over eight logits. -/
def smax (f : Fin 8 → EReal) (m : Fin 8) : EReal :=
  Ideal.div (Ideal.exp (f m - rmax f)) (∑ m' : Fin 8, Ideal.exp (f m' - rmax f))

/-- The averaged attention weights of one head. -/
def attn (q : Fin 512 → EReal) (lk gk : Fin 8 → Fin 64 → EReal) (s : EReal) (h m : Fin 8) : EReal :=
  (smax (logit q lk s h) m + smax (logit q gk s h) m) * half

/-- One head's motif representation. -/
def mot (q : Fin 512 → EReal) (lk gk mo : Fin 8 → Fin 64 → EReal) (s : EReal) (h : Fin 8) (d : Fin 64) : EReal :=
  ∑ m : Fin 8, attn q lk gk s h m * mo m d

/-- The heads side by side: a 512-wide motif row. -/
def motrow (q : Fin 512 → EReal) (lk gk mo : Fin 8 → Fin 64 → EReal) (s : EReal) (j : Fin 512) : EReal :=
  mot q lk gk mo s ⟨j.val / 64, by omega⟩ ⟨j.val % 64, by omega⟩

/-- The squared distance between a diff row and its motif row. -/
def lossOf (dr mr : Fin 512 → EReal) : EReal := ∑ j : Fin 512, (dr j - mr j) * (dr j - mr j)

/-- The transformed row: tanh of the two half products plus the bias. -/
def trOf (dr mr : Fin 512 → EReal) (wt wb : Fin 512 → Fin 512 → EReal) (bo : Fin 512 → EReal) (j : Fin 512) : EReal :=
  Ideal.tanh (((∑ k : Fin 512, dr k * wt k j) + (∑ k : Fin 512, mr k * wb k j)) + bo j)

/-- The Euclidean norm of the transformed row. -/
def normOf (dr mr : Fin 512 → EReal) (wt wb : Fin 512 → Fin 512 → EReal) (bo : Fin 512 → EReal) : EReal :=
  Ideal.sqrt (∑ j : Fin 512, trOf dr mr wt wb bo j * trOf dr mr wt wb bo j)

/-- The motif row of batch row b. -/
def M (b : Fin 65536) : Fin 512 → EReal :=
  motrow (qrow (C A b) A.wq A.bq) (LK A) (GK A) (MO A) (dens A b)

/-- Second result: the motif loss of row b. -/
def loss (b : Fin 65536) : EReal := lossOf (D A b) (M A b)

/-- First result: the score of row b. -/
def score (b : Fin 65536) : EReal :=
  A.aw * normOf (D A b) (M A b) (fun k j => A.wout (lo k) j) (fun k j => A.wout (hi k) j) A.bout + A.ab

end Cert.Spec

end
-- ==== Proof.LibDenseLayers.lean ====
/-
  Dense layers read at an index, at the ideal values (the extended reals), for arbitrary extents.

  * `matmul_rowcol_zero_apply`: a `tpu.matmul` of an `[m, k]` by a `[k, n]` matrix (contracting the first operand's
    columns with the second's rows) into a zero accumulator is, at `(a, b)`, the sum over `c : Fin k` of
    `A (a, c) * B (c, b)`.
  * `broadcastTo_column_apply`: an `[a, 1]` column broadcast along the second axis to `[a, b]` reads, at `(p, q)`,
    the column's entry `(p, 0)`.
  * `maxOverRows_apply`: a `vector.multi_reduction <maximumf>` over axis 0 of an `[a, b]` matrix reads, at column
    `q`, the fold of `max` from the accumulator's value over the column's entries `(k, q)`, `k : Fin a`.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.DenseLayers

open Idealize.ShloMosaic Idealize.ShloMosaic.ValueIdx

/-- A row-by-column matrix product into a zero accumulator, read at an entry: the sum over the contracted coordinate of
    the products of the operands' entries. -/
theorem matmul_rowcol_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A column broadcast along the second axis reads its entry of the same row. -/
theorem broadcastTo_column_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The maximum over the rows, column by column: a fold of `max` over the column's entries. -/
theorem maxOverRows_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction (F := Ideal) .maximumf [0] ⟨1, ![b]⟩ src acc h hφ hacc (ix1 q)
      = (Finset.univ : Finset (Fin a)).fold max (Ideal.ofBits φ acc) (fun k => src (ix2 k q)) := by
  rw [Ideal.multiReduction_maximumf_single]
  have e : (src ∘ h.lift (ix1 q)) = fun k : Fin a => src (ix2 k q) := by
    funext k
    show src (h.lift (ix1 q) k) = src (ix2 k q)
    congr 1
    funext ax; apply Fin.ext
    match ax with
    | ⟨0, _⟩ => rfl
    | ⟨1, _⟩ => rfl
  rw [e]
  rfl

end Idealize.ShloMosaic.DenseLayers

end
-- ==== Proof.KernelBlocks.lean ====
/-
  The kernel body, block by block: the query block, one head's logits against a key table, a row softmax over
  the eight motifs, one head's motif representation, the eight heads side by side, the squared distance and the norm
  of the transformed row — each as a vector expression in the body's own operations, and each read at an index as
  the specification's corresponding part of the block's rows.
-/
import proofs.«180155_j68143951118751_2_alg».proof.Proof.Gen.KernelIdeal.Skeleton
import proofs.«180155_j68143951118751_2_alg».proof.Proof.Spec
import proofs.«180155_j68143951118751_2_alg».proof.Proof.LibDenseLayers
import Idealize.ShloMosaic.Lib.ValueIdx
import Idealize.ShloMosaic.Lib.ValueLayout
import Idealize.ShloMosaic.Lib.Pipeline.Value
import Idealize.ShloMosaic.PureOps.Ideal.Laws

noncomputable section

namespace Cert.KernelBody

open Idealize.ShloMosaic Idealize.ShloMosaic.ValueIdx Idealize.ShloMosaic.DenseLayers
open Cert.KernelIdeal Cert.KernelIdeal.Facts₀ Cert.KernelIdeal.Facts

/-! ## Layout and reduction steps of a [1024, n] block read at an index -/

/-- A vector of row values stood up as a column reads, at (p, 0), the vector at p. -/
theorem column_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- The sum along the rows of an [a, b] array at row p. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction (F := Ideal) .add [1] ⟨1, ![a]⟩ src acc h hφ hacc (ix1 p) = ∑ k : Fin b, src (ix2 p k) := by
  rw [Ideal.multiReduction_add_single]
  refine Finset.sum_congr rfl fun k _ => ?_
  congr 1
  funext ax; apply Fin.ext
  match ax with
  | ⟨0, _⟩ => rfl
  | ⟨1, _⟩ => rfl

/-- The maximum along the rows of an [a, b] array at row p: the fold of max from the accumulator over the row. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction (F := Ideal) .maximumf [1] ⟨1, ![a]⟩ src acc h hφ hacc (ix1 p)
      = (Finset.univ : Finset (Fin b)).fold max (Ideal.ofBits φ acc) (fun k => src (ix2 p k)) := by
  rw [Ideal.multiReduction_maximumf_single]
  have e : (src ∘ h.lift (ix1 p)) = fun k : Fin b => src (ix2 p k) := by
    funext k
    show src (h.lift (ix1 p) k) = src (ix2 p k)
    congr 1
    funext ax; apply Fin.ext
    match ax with
    | ⟨0, _⟩ => rfl
    | ⟨1, _⟩ => rfl
  rw [e]
  rfl

/-! ## The body's blocks -/

/-- One head's logits: the head's 64 query columns (from column o on) times a key table, scaled by 1/8, plus the
    row's density. -/
def logitsV (o : ℕ) (sl : S1024x512.Slices ![0, o] S1024x64) (q : FVec Ideal S1024x512 .f32)
    (K : FVec Ideal S64x8 .bf16) (dn : FVec Ideal S1024x1 .f32) : FVec Ideal S1024x8 .f32 :=
  addf (mulf (matmul dot_S1024x64_S64x8_S1024x8_1_0_0_1_n_n none
      (truncf .bf16 (extractStridedSlice S1024x64 ![0, o] q sl) bitsLt_bf16_f32) K (constant S1024x8 .f32 0x00000000#32))
    (broadcast S1024x8 (Scalar.ofBits .f32 0x3E000000#32))) (broadcastTo S1024x8 dn broadcasts_S1024x1_S1024x8)

/-- The row maximum of a block of logits, kept as a column and spread back over the eight motifs. -/
def rowMaxV (L : FVec Ideal S1024x8 .f32) : FVec Ideal S1024x8 .f32 :=
  broadcastTo S1024x8 (shapeCast S1024x1 (maximumf (broadcast S1024 (Scalar.ofBits .f32 0xFF800000#32))
    (multiReduction .maximumf [1] S1024 L 0xFF800000#32 reduces_S1024x8_S1024 (.inl rfl) rfl)) shapeCasts_S1024_S1024x1)
    broadcasts_S1024x1_S1024x8

/-- The exponentials of the logits less their row maximum. -/
def expV (L : FVec Ideal S1024x8 .f32) : FVec Ideal S1024x8 .f32 := exp (subf L (rowMaxV L))

/-- The row softmax. -/
def softmaxV (L : FVec Ideal S1024x8 .f32) : FVec Ideal S1024x8 .f32 :=
  divf (expV L) (broadcastTo S1024x8 (shapeCast S1024x1
    (multiReduction .add [1] S1024 (expV L) 0x00000000#32 reduces_S1024x8_S1024 (.inl rfl) rfl) shapeCasts_S1024_S1024x1)
    broadcasts_S1024x1_S1024x8)

/-- One head's motif representation: the averaged attention times the motif values. -/
def headV (L G : FVec Ideal S1024x8 .f32) (mo : FVec Ideal S8x64 .bf16) : FVec Ideal S1024x64 .f32 :=
  matmul dot_S1024x8_S8x64_S1024x64_1_0_0_1_n_n none
    (truncf .bf16 (mulf (addf (softmaxV L) (softmaxV G)) (broadcast S1024x8 (Scalar.ofBits .f32 0x3F000000#32))) bitsLt_bf16_f32)
    mo (constant S1024x64 .f32 0x00000000#32)

theorem logitsV_apply (o : ℕ) (ho : o + 64 ≤ 512) (sl : S1024x512.Slices ![0, o] S1024x64) (q : FVec Ideal S1024x512 .f32)
    (K : FVec Ideal S64x8 .bf16) (dn : FVec Ideal S1024x1 .f32) (p : Fin 1024) (m : Fin 8) :
    logitsV o sl q K dn (ix2 p m)
      = (∑ d : Fin 64, q (ix2 p (⟨o + d.val, by omega⟩ : Fin 512)) * K (ix2 d m)) * Spec.c8 + dn (ix2 p (0 : Fin 1)) := by
  unfold logitsV
  rw [addf_apply, mulf_apply, broadcast_apply]
  have e : dot_S1024x64_S64x8_S1024x8_1_0_0_1_n_n
      = (⟨[1], [0], [0], [1], [], [], dot_S1024x64_S64x8_S1024x8_1_0_0_1_n_n_wf⟩ : DotDims S1024x64 S64x8 S1024x8) := rfl
  rw [e, matmul_rowcol_zero_apply, broadcastTo_column_apply]
  congr 2
  refine Finset.sum_congr rfl fun d _ => ?_
  rw [truncf_apply, slice2_axis1_apply o q sl p d ⟨o + d.val, by omega⟩ rfl]

set_option backward.isDefEq.respectTransparency.types false in
theorem rowMaxV_apply (L : FVec Ideal S1024x8 .f32) (p : Fin 1024) (m : Fin 8) :
    rowMaxV L (ix2 p m) = Spec.rmax (fun m' => L (ix2 p m')) := by
  unfold rowMaxV
  rw [broadcastTo_column_apply, column_apply, maximumf_apply, broadcast_apply, rowMax_apply]
  rfl

theorem expV_apply (L : FVec Ideal S1024x8 .f32) (p : Fin 1024) (m : Fin 8) :
    expV L (ix2 p m) = Ideal.exp (L (ix2 p m) - Spec.rmax (fun m' => L (ix2 p m'))) := by
  unfold expV
  show Ideal.exp (subf L (rowMaxV L) (ix2 p m)) = _
  rw [subf_apply, rowMaxV_apply]

set_option backward.isDefEq.respectTransparency.types false in
theorem softmaxV_apply (L : FVec Ideal S1024x8 .f32) (p : Fin 1024) (m : Fin 8) :
    softmaxV L (ix2 p m) = Spec.smax (fun m' => L (ix2 p m')) m := by
  unfold softmaxV
  rw [divf_apply, broadcastTo_column_apply, column_apply, rowSum_apply, expV_apply]
  unfold Spec.smax
  congr 1
  exact Finset.sum_congr rfl fun k _ => expV_apply L p k

theorem headV_apply (L G : FVec Ideal S1024x8 .f32) (mo : FVec Ideal S8x64 .bf16) (p : Fin 1024) (d : Fin 64) :
    headV L G mo (ix2 p d)
      = ∑ m : Fin 8, ((Spec.smax (fun m' => L (ix2 p m')) m + Spec.smax (fun m' => G (ix2 p m')) m) * Spec.half) * mo (ix2 m d) := by
  unfold headV
  have e : dot_S1024x8_S8x64_S1024x64_1_0_0_1_n_n
      = (⟨[1], [0], [0], [1], [], [], dot_S1024x8_S8x64_S1024x64_1_0_0_1_n_n_wf⟩ : DotDims S1024x8 S8x64 S1024x64) := rfl
  rw [e, matmul_rowcol_zero_apply]
  refine Finset.sum_congr rfl fun m _ => ?_
  rw [truncf_apply, mulf_apply, addf_apply, broadcast_apply, softmaxV_apply, softmaxV_apply]
  rfl

end Cert.KernelBody

end
-- ==== Proof.KernelValue.lean ====
/-
  The eight heads side by side, the squared distance to the diff row and the norm of the transformed row, as the
  body computes them on a block, and each read at a row of the block as the specification's function of that row.
-/
import proofs.«180155_j68143951118751_2_alg».proof.Proof.KernelBlocks

noncomputable section

namespace Cert.KernelBody

open Idealize.ShloMosaic Idealize.ShloMosaic.ValueIdx Idealize.ShloMosaic.DenseLayers
open Cert.KernelIdeal Cert.KernelIdeal.Facts₀ Cert.KernelIdeal.Facts

/-- Head number h of the block: its two logit blocks and its motif representation. -/
def pieceV (o : ℕ) (sl : S1024x512.Slices ![0, o] S1024x64) (q : FVec Ideal S1024x512 .f32)
    (K8 K9 : FVec Ideal S64x8 .bf16) (dn : FVec Ideal S1024x1 .f32) (mo : FVec Ideal S8x64 .bf16) : FVec Ideal S1024x64 .f32 :=
  headV (logitsV o sl q K8 dn) (logitsV o sl q K9 dn) mo

/-- The motif representation of the block: the eight heads side by side. -/
def motV (q : FVec Ideal S1024x512 .f32) (K8 K9 : FVec Ideal S64x8 .bf16) (dn : FVec Ideal S1024x1 .f32)
    (mo : FVec Ideal S8x64 .bf16) : FVec Ideal S1024x512 .f32 :=
  concatenate S1024x512 1
    [⟨S1024x64, pieceV 0 slices_S1024x512_o0_0_S1024x64 q K8 K9 dn mo⟩,
     ⟨S1024x64, pieceV 64 slices_S1024x512_o0_64_S1024x64 q K8 K9 dn mo⟩,
     ⟨S1024x64, pieceV 128 slices_S1024x512_o0_128_S1024x64 q K8 K9 dn mo⟩,
     ⟨S1024x64, pieceV 192 slices_S1024x512_o0_192_S1024x64 q K8 K9 dn mo⟩,
     ⟨S1024x64, pieceV 256 slices_S1024x512_o0_256_S1024x64 q K8 K9 dn mo⟩,
     ⟨S1024x64, pieceV 320 slices_S1024x512_o0_320_S1024x64 q K8 K9 dn mo⟩,
     ⟨S1024x64, pieceV 384 slices_S1024x512_o0_384_S1024x64 q K8 K9 dn mo⟩,
     ⟨S1024x64, pieceV 448 slices_S1024x512_o0_448_S1024x64 q K8 K9 dn mo⟩]
    concatenates_S1024x64_S1024x64_S1024x64_S1024x64_S1024x64_S1024x64_S1024x64_S1024x64_S1024x512_d1

/-- The squared distance between the diff block and the motif block, row by row. -/
def lossV (X M : FVec Ideal S1024x512 .f32) : FVec Ideal S1024 .f32 :=
  multiReduction .add [1] S1024 (mulf (subf X M) (subf X M)) 0x00000000#32 reduces_S1024x512_S1024 (.inl rfl) rfl

/-- The transformed block: tanh of the two half products plus the bias row. -/
def transV (X M : FVec Ideal S1024x512 .f32) (Wt Wb : FVec Ideal S512x512 .bf16) (bo : FVec Ideal S512 .f32) :
    FVec Ideal S1024x512 .f32 :=
  tanh (addf (addf
      (matmul dot_S1024x512_S512x512_S1024x512_1_0_0_1_n_n none (truncf .bf16 X bitsLt_bf16_f32) Wt (constant S1024x512 .f32 0x00000000#32))
      (matmul dot_S1024x512_S512x512_S1024x512_1_0_0_1_n_n none (truncf .bf16 M bitsLt_bf16_f32) Wb (constant S1024x512 .f32 0x00000000#32)))
    (broadcastTo S1024x512 (shapeCast S1x512 bo shapeCasts_S512_S1x512) broadcasts_S1x512_S1024x512))

/-- The Euclidean norm of each transformed row. -/
def normV (X M : FVec Ideal S1024x512 .f32) (Wt Wb : FVec Ideal S512x512 .bf16) (bo : FVec Ideal S512 .f32) :
    FVec Ideal S1024 .f32 :=
  sqrt (multiReduction .add [1] S1024 (mulf (transV X M Wt Wb bo) (transV X M Wt Wb bo)) 0x00000000#32
    reduces_S1024x512_S1024 (.inl rfl) rfl)

/-- A product of a [1024, 512] block with a [512, 512] matrix into zero, read at an entry. -/
theorem dense512_apply (X : FVec Ideal S1024x512 .bf16) (W : FVec Ideal S512x512 .bf16) (p : Fin 1024) (j : Fin 512) :
    matmul dot_S1024x512_S512x512_S1024x512_1_0_0_1_n_n none X W (constant S1024x512 .f32 0x00000000#32) (ix2 p j)
      = ∑ k : Fin 512, X (ix2 p k) * W (ix2 k j) := by
  have e : dot_S1024x512_S512x512_S1024x512_1_0_0_1_n_n
      = (⟨[1], [0], [0], [1], [], [], dot_S1024x512_S512x512_S1024x512_1_0_0_1_n_n_wf⟩ : DotDims S1024x512 S512x512 S1024x512) := rfl
  rw [e, matmul_rowcol_zero_apply]

/-- A bias row spread over the block's rows, read at an entry. -/
theorem biasRow_apply (bo : FVec Ideal S512 .f32) (p : Fin 1024) (j : Fin 512) :
    broadcastTo S1024x512 (shapeCast S1x512 bo shapeCasts_S512_S1x512) broadcasts_S1x512_S1024x512 (ix2 p j) = bo (ix1 j) := by
  rw [broadcastTo_1b_ab_apply, shapeCast_a_1a_apply]

/-- The query block read at an entry: the context row times Wq plus the bias. -/
theorem query_apply (x1 : Vec Ideal S1024x512 .f32) (x3 : Vec Ideal S512x512 .bf16) (x4 : Vec Ideal S512 .f32)
    (p : Fin 1024) (j : Fin 512) :
    Gen.k0_pay3 x1 x3 x4 (ix2 p j)
      = Spec.qrow (fun k => x1 (ix2 p k)) (fun k j => x3 (ix2 k j)) (fun j => x4 (ix1 j)) j := by
  unfold Gen.k0_pay3
  simp only [shapeCast_self]
  rw [addf_apply, dense512_apply, biasRow_apply]
  rfl

/-- Column j of the heads side by side is column j mod 64 of head j div 64. -/
theorem motrow_hd (q : Fin 512 → EReal) (lk gk mo : Fin 8 → Fin 64 → EReal) (s : EReal) (h : Fin 8) (d : Fin 64) :
    Spec.motrow q lk gk mo s (Spec.hd h d) = Spec.mot q lk gk mo s h d := by
  unfold Spec.motrow
  have h1 : (⟨(Spec.hd h d).val / 64, by have := (Spec.hd h d).isLt; omega⟩ : Fin 8) = h :=
    Fin.ext (by show (h.val * 64 + d.val) / 64 = h.val; have := d.isLt; omega)
  have h2 : (⟨(Spec.hd h d).val % 64, by omega⟩ : Fin 64) = d :=
    Fin.ext (by show (h.val * 64 + d.val) % 64 = d.val; have := d.isLt; omega)
  rw [h1, h2]

/-- One head's block read at an entry: the specification's head, of the row's query, keys, motifs and density. -/
theorem pieceV_apply (h : Fin 8) (sl : S1024x512.Slices ![0, 64 * h.val] S1024x64) (q : FVec Ideal S1024x512 .f32)
    (K8 K9 : FVec Ideal S64x8 .bf16) (dn : FVec Ideal S1024x1 .f32) (mo : FVec Ideal S8x64 .bf16) (p : Fin 1024) (d : Fin 64) :
    pieceV (64 * h.val) sl q K8 K9 dn mo (ix2 p d)
      = Spec.mot (fun j => q (ix2 p j)) (fun m d => K8 (ix2 d m)) (fun m d => K9 (ix2 d m)) (fun m d => mo (ix2 m d))
          (dn (ix2 p (0 : Fin 1))) h d := by
  have hh := h.isLt
  unfold pieceV
  rw [headV_apply]
  unfold Spec.mot Spec.attn
  refine Finset.sum_congr rfl fun m _ => ?_
  have eL : ∀ (K : FVec Ideal S64x8 .bf16), (fun m' => logitsV (64 * h.val) sl q K dn (ix2 p m'))
      = Spec.logit (fun j => q (ix2 p j)) (fun m d => K (ix2 d m)) (dn (ix2 p (0 : Fin 1))) h := by
    intro K
    funext m'
    rw [logitsV_apply (64 * h.val) (by omega)]
    unfold Spec.logit
    congr 2
    refine Finset.sum_congr rfl fun dd _ => ?_
    congr 3
    exact Fin.ext (by show 64 * h.val + dd.val = h.val * 64 + dd.val; omega)
  rw [eL K8, eL K9]

/-- The heads side by side read at an entry: the specification's motif row of the block's row. -/
theorem motV_apply (q : FVec Ideal S1024x512 .f32) (K8 K9 : FVec Ideal S64x8 .bf16) (dn : FVec Ideal S1024x1 .f32)
    (mo : FVec Ideal S8x64 .bf16) (p : Fin 1024) (j : Fin 512) :
    motV q K8 K9 dn mo (ix2 p j)
      = Spec.motrow (fun j => q (ix2 p j)) (fun m d => K8 (ix2 d m)) (fun m d => K9 (ix2 d m)) (fun m d => mo (ix2 m d))
          (dn (ix2 p (0 : Fin 1))) j := by
  obtain ⟨h, d, rfl⟩ : ∃ (h : Fin 8) (d : Fin 64), j = Spec.hd h d :=
    ⟨⟨j.val / 64, by omega⟩, ⟨j.val % 64, by omega⟩, Fin.ext (by show j.val = j.val / 64 * 64 + j.val % 64; omega)⟩
  rw [motrow_hd]
  unfold motV
  match h with
  | ⟨0, hK⟩ =>
    refine (concatenate_apply_piece (1 : Fin 2) _ _ (ix2 p (Spec.hd ⟨0, hK⟩ d)) 0 (by simp) S1024x64 _ rfl rfl (64 * 0) (by rfl)
      (ix2 p d) ?_ ?_).trans (pieceV_apply ⟨0, hK⟩ _ q K8 K9 dn mo p d)
    · intro b hb
      match b with
      | ⟨0, _⟩ => rfl
      | ⟨1, _⟩ => exact absurd rfl hb
    · show 64 * 0 + d.val = 0 * 64 + d.val
      omega
  | ⟨1, hK⟩ =>
    refine (concatenate_apply_piece (1 : Fin 2) _ _ (ix2 p (Spec.hd ⟨1, hK⟩ d)) 1 (by simp) S1024x64 _ rfl rfl (64 * 1) (by rfl)
      (ix2 p d) ?_ ?_).trans (pieceV_apply ⟨1, hK⟩ _ q K8 K9 dn mo p d)
    · intro b hb
      match b with
      | ⟨0, _⟩ => rfl
      | ⟨1, _⟩ => exact absurd rfl hb
    · show 64 * 1 + d.val = 1 * 64 + d.val
      omega
  | ⟨2, hK⟩ =>
    refine (concatenate_apply_piece (1 : Fin 2) _ _ (ix2 p (Spec.hd ⟨2, hK⟩ d)) 2 (by simp) S1024x64 _ rfl rfl (64 * 2) (by rfl)
      (ix2 p d) ?_ ?_).trans (pieceV_apply ⟨2, hK⟩ _ q K8 K9 dn mo p d)
    · intro b hb
      match b with
      | ⟨0, _⟩ => rfl
      | ⟨1, _⟩ => exact absurd rfl hb
    · show 64 * 2 + d.val = 2 * 64 + d.val
      omega
  | ⟨3, hK⟩ =>
    refine (concatenate_apply_piece (1 : Fin 2) _ _ (ix2 p (Spec.hd ⟨3, hK⟩ d)) 3 (by simp) S1024x64 _ rfl rfl (64 * 3) (by rfl)
      (ix2 p d) ?_ ?_).trans (pieceV_apply ⟨3, hK⟩ _ q K8 K9 dn mo p d)
    · intro b hb
      match b with
      | ⟨0, _⟩ => rfl
      | ⟨1, _⟩ => exact absurd rfl hb
    · show 64 * 3 + d.val = 3 * 64 + d.val
      omega
  | ⟨4, hK⟩ =>
    refine (concatenate_apply_piece (1 : Fin 2) _ _ (ix2 p (Spec.hd ⟨4, hK⟩ d)) 4 (by simp) S1024x64 _ rfl rfl (64 * 4) (by rfl)
      (ix2 p d) ?_ ?_).trans (pieceV_apply ⟨4, hK⟩ _ q K8 K9 dn mo p d)
    · intro b hb
      match b with
      | ⟨0, _⟩ => rfl
      | ⟨1, _⟩ => exact absurd rfl hb
    · show 64 * 4 + d.val = 4 * 64 + d.val
      omega
  | ⟨5, hK⟩ =>
    refine (concatenate_apply_piece (1 : Fin 2) _ _ (ix2 p (Spec.hd ⟨5, hK⟩ d)) 5 (by simp) S1024x64 _ rfl rfl (64 * 5) (by rfl)
      (ix2 p d) ?_ ?_).trans (pieceV_apply ⟨5, hK⟩ _ q K8 K9 dn mo p d)
    · intro b hb
      match b with
      | ⟨0, _⟩ => rfl
      | ⟨1, _⟩ => exact absurd rfl hb
    · show 64 * 5 + d.val = 5 * 64 + d.val
      omega
  | ⟨6, hK⟩ =>
    refine (concatenate_apply_piece (1 : Fin 2) _ _ (ix2 p (Spec.hd ⟨6, hK⟩ d)) 6 (by simp) S1024x64 _ rfl rfl (64 * 6) (by rfl)
      (ix2 p d) ?_ ?_).trans (pieceV_apply ⟨6, hK⟩ _ q K8 K9 dn mo p d)
    · intro b hb
      match b with
      | ⟨0, _⟩ => rfl
      | ⟨1, _⟩ => exact absurd rfl hb
    · show 64 * 6 + d.val = 6 * 64 + d.val
      omega
  | ⟨7, hK⟩ =>
    refine (concatenate_apply_piece (1 : Fin 2) _ _ (ix2 p (Spec.hd ⟨7, hK⟩ d)) 7 (by simp) S1024x64 _ rfl rfl (64 * 7) (by rfl)
      (ix2 p d) ?_ ?_).trans (pieceV_apply ⟨7, hK⟩ _ q K8 K9 dn mo p d)
    · intro b hb
      match b with
      | ⟨0, _⟩ => rfl
      | ⟨1, _⟩ => exact absurd rfl hb
    · show 64 * 7 + d.val = 7 * 64 + d.val
      omega

set_option backward.isDefEq.respectTransparency.types false in
/-- The loss block read at a row. -/
theorem lossV_apply (X M : FVec Ideal S1024x512 .f32) (p : Fin 1024) :
    lossV X M (ix1 p) = Spec.lossOf (fun j => X (ix2 p j)) (fun j => M (ix2 p j)) := by
  unfold lossV
  rw [rowSum_apply]
  rfl

/-- The transformed block read at an entry. -/
theorem transV_apply (X M : FVec Ideal S1024x512 .f32) (Wt Wb : FVec Ideal S512x512 .bf16) (bo : FVec Ideal S512 .f32)
    (p : Fin 1024) (j : Fin 512) :
    transV X M Wt Wb bo (ix2 p j)
      = Spec.trOf (fun k => X (ix2 p k)) (fun k => M (ix2 p k)) (fun k j => Wt (ix2 k j)) (fun k j => Wb (ix2 k j))
          (fun j => bo (ix1 j)) j := by
  unfold transV
  change Ideal.tanh _ = _
  rw [addf_apply, addf_apply, dense512_apply, dense512_apply, biasRow_apply]
  rfl

set_option backward.isDefEq.respectTransparency.types false in
/-- The norm block read at a row. -/
theorem normV_apply (X M : FVec Ideal S1024x512 .f32) (Wt Wb : FVec Ideal S512x512 .bf16) (bo : FVec Ideal S512 .f32)
    (p : Fin 1024) :
    normV X M Wt Wb bo (ix1 p)
      = Spec.normOf (fun k => X (ix2 p k)) (fun k => M (ix2 p k)) (fun k j => Wt (ix2 k j)) (fun k j => Wb (ix2 k j))
          (fun j => bo (ix1 j)) := by
  unfold normV
  change Ideal.sqrt _ = _
  rw [rowSum_apply]
  unfold Spec.normOf
  congr 1
  refine Finset.sum_congr rfl fun j _ => ?_
  rw [mulf_apply, transV_apply]

end Cert.KernelBody

end
-- ==== Proof.KernelPayload.lean ====
/-
  What the body leaves in its two output blocks, read at a row p of the block: the specification's loss and norm of
  row p of the diff, context and density blocks and of the weight blocks.
-/
import proofs.«180155_j68143951118751_2_alg».proof.Proof.Gen.KernelIdeal.Frame
import proofs.«180155_j68143951118751_2_alg».proof.Proof.KernelValue

set_option maxRecDepth 65536

noncomputable section

namespace Cert.KernelBody

open Idealize.ShloMosaic Idealize.ShloMosaic.ValueIdx Idealize.ShloMosaic.DenseLayers
open Cert.KernelIdeal Cert.KernelIdeal.Facts₀ Cert.KernelIdeal.Facts Cert.KernelIdeal.Gen

theorem hz1 : (![0] : Fin 1 → Nat) = fun _ => 0 := funext fun a => by fin_cases a; rfl
theorem hz2 : (![0, 0] : Fin 2 → Nat) = fun _ => 0 := funext fun a => by fin_cases a <;> rfl

/-- The loss block is the body's operations in the order the blocks above name them. -/
theorem out_loss_eq (x0 : Vec Ideal S1024x512 .f32) (x1 : Vec Ideal S1024x512 .f32) (x2 : Vec Ideal S1024x1 .f32)
    (x3 : Vec Ideal S512x512 .bf16) (x4 : Vec Ideal S512 .f32) (x5 : Vec Ideal S512x512 .bf16) (x6 : Vec Ideal S512x512 .bf16)
    (x7 : Vec Ideal S512 .f32) (x8 : Vec Ideal S64x8 .bf16) (x9 : Vec Ideal S64x8 .bf16) (x10 : Vec Ideal S8x64 .bf16) :
    out0_11 x0 x1 x2 x3 x4 x5 x6 x7 x8 x9 x10
      = lossV (k0_pay1 x0) (motV (k0_pay3 x1 x3 x4) (k0_pay4 x8) (k0_pay5 x9) (k0_pay2 x2) (k0_pay6 x10)) := by
  unfold out0_11
  rw [View.canon_unit_zero hz1]
  simp only [View.ld_unit_zero (S := S1024x512) hz2, View.ld_unit_zero (S := S1024x1) hz2,
    View.ld_unit_zero (S := S512x512) hz2, View.ld_unit_zero (S := S512) hz1, View.ld_unit_zero (S := S64x8) hz2,
    View.ld_unit_zero (S := S8x64) hz2]
  rfl

/-- The norm block is the body's operations in the order the blocks above name them. -/
theorem out_norm_eq (x0 : Vec Ideal S1024x512 .f32) (x1 : Vec Ideal S1024x512 .f32) (x2 : Vec Ideal S1024x1 .f32)
    (x3 : Vec Ideal S512x512 .bf16) (x4 : Vec Ideal S512 .f32) (x5 : Vec Ideal S512x512 .bf16) (x6 : Vec Ideal S512x512 .bf16)
    (x7 : Vec Ideal S512 .f32) (x8 : Vec Ideal S64x8 .bf16) (x9 : Vec Ideal S64x8 .bf16) (x10 : Vec Ideal S8x64 .bf16) :
    out0_12 x0 x1 x2 x3 x4 x5 x6 x7 x8 x9 x10
      = normV (k0_pay1 x0) (motV (k0_pay3 x1 x3 x4) (k0_pay4 x8) (k0_pay5 x9) (k0_pay2 x2) (k0_pay6 x10))
          (shapeCast S512x512 x5 Facts₀.shapeCasts_S512x512_S512x512) (shapeCast S512x512 x6 Facts₀.shapeCasts_S512x512_S512x512) x7 := by
  unfold out0_12
  rw [View.canon_unit_zero hz1]
  simp only [View.ld_unit_zero (S := S1024x512) hz2, View.ld_unit_zero (S := S1024x1) hz2,
    View.ld_unit_zero (S := S512x512) hz2, View.ld_unit_zero (S := S512) hz1, View.ld_unit_zero (S := S64x8) hz2,
    View.ld_unit_zero (S := S8x64) hz2]
  rfl

/-- The row's motif row, from the blocks the body loads. -/
abbrev rowM (x1 : Vec Ideal S1024x512 .f32) (x2 : Vec Ideal S1024x1 .f32) (x3 : Vec Ideal S512x512 .bf16) (x4 : Vec Ideal S512 .f32)
    (x8 x9 : Vec Ideal S64x8 .bf16) (x10 : Vec Ideal S8x64 .bf16) (p : Fin 1024) : Fin 512 → EReal :=
  Spec.motrow (Spec.qrow (fun k => x1 (ix2 p k)) (fun k j => x3 (ix2 k j)) (fun j => x4 (ix1 j)))
    (fun m d => x8 (ix2 d m)) (fun m d => x9 (ix2 d m)) (fun m d => x10 (ix2 m d)) (x2 (ix2 p (0 : Fin 1)))

/-- The body's motif block at row p is the specification's motif row of the loaded blocks' row p. -/
theorem mot_rows (x1 : Vec Ideal S1024x512 .f32) (x2 : Vec Ideal S1024x1 .f32) (x3 : Vec Ideal S512x512 .bf16) (x4 : Vec Ideal S512 .f32)
    (x8 x9 : Vec Ideal S64x8 .bf16) (x10 : Vec Ideal S8x64 .bf16) (p : Fin 1024) :
    (fun j => motV (k0_pay3 x1 x3 x4) (k0_pay4 x8) (k0_pay5 x9) (k0_pay2 x2) (k0_pay6 x10) (ix2 p j))
      = rowM x1 x2 x3 x4 x8 x9 x10 p := by
  have e2 : k0_pay2 x2 = x2 := by unfold k0_pay2; exact shapeCast_self _ _
  have e4 : k0_pay4 x8 = x8 := by unfold k0_pay4; exact shapeCast_self _ _
  have e5 : k0_pay5 x9 = x9 := by unfold k0_pay5; exact shapeCast_self _ _
  have e6 : k0_pay6 x10 = x10 := by unfold k0_pay6; exact shapeCast_self _ _
  rw [e2, e4, e5, e6]
  funext j
  rw [motV_apply]
  unfold rowM
  congr 1
  funext j'
  exact query_apply x1 x3 x4 p j'

/-- THE LOSS BLOCK AT ROW p. -/
theorem loss_apply (x0 : Vec Ideal S1024x512 .f32) (x1 : Vec Ideal S1024x512 .f32) (x2 : Vec Ideal S1024x1 .f32)
    (x3 : Vec Ideal S512x512 .bf16) (x4 : Vec Ideal S512 .f32) (x5 : Vec Ideal S512x512 .bf16) (x6 : Vec Ideal S512x512 .bf16)
    (x7 : Vec Ideal S512 .f32) (x8 : Vec Ideal S64x8 .bf16) (x9 : Vec Ideal S64x8 .bf16) (x10 : Vec Ideal S8x64 .bf16) (p : Fin 1024) :
    out0_11 x0 x1 x2 x3 x4 x5 x6 x7 x8 x9 x10 (ix1 p)
      = Spec.lossOf (fun j => x0 (ix2 p j)) (rowM x1 x2 x3 x4 x8 x9 x10 p) := by
  have e1 : k0_pay1 x0 = x0 := by unfold k0_pay1; exact shapeCast_self _ _
  rw [out_loss_eq, lossV_apply, mot_rows, e1]

/-- THE NORM BLOCK AT ROW p. -/
theorem norm_apply (x0 : Vec Ideal S1024x512 .f32) (x1 : Vec Ideal S1024x512 .f32) (x2 : Vec Ideal S1024x1 .f32)
    (x3 : Vec Ideal S512x512 .bf16) (x4 : Vec Ideal S512 .f32) (x5 : Vec Ideal S512x512 .bf16) (x6 : Vec Ideal S512x512 .bf16)
    (x7 : Vec Ideal S512 .f32) (x8 : Vec Ideal S64x8 .bf16) (x9 : Vec Ideal S64x8 .bf16) (x10 : Vec Ideal S8x64 .bf16) (p : Fin 1024) :
    out0_12 x0 x1 x2 x3 x4 x5 x6 x7 x8 x9 x10 (ix1 p)
      = Spec.normOf (fun j => x0 (ix2 p j)) (rowM x1 x2 x3 x4 x8 x9 x10 p) (fun k j => x5 (ix2 k j)) (fun k j => x6 (ix2 k j))
          (fun j => x7 (ix1 j)) := by
  have e1 : k0_pay1 x0 = x0 := by unfold k0_pay1; exact shapeCast_self _ _
  rw [out_norm_eq, normV_apply, mot_rows, e1, shapeCast_self, shapeCast_self]

end Cert.KernelBody

end
-- ==== Proof.LibRowGatherScatter.lean ====
/-
  Row gather, element gather and row scatter of StableHLO, read at an index.

  The dimension numbers that `x[idx]` over the rows of a matrix, `x[idx]` over a flat array and a row-wise
  segment sum lower to, each with start indices of shape `[E, 1]` (one scalar index per gathered or scattered row):
  a gathered row is the operand's row at the start index read signed and clamped into `[0, N - 1]`; a scattered
  update row lands on the operand row whose number is the scatter index read signed and not clamped, and is dropped when
  that number is outside `[0, N)`; the column is kept in both.
-/
import Idealize.ShloMosaic.PureOps.Ideal
import Idealize.ShloMosaic.Lib.ValueIdx

noncomputable section

namespace Idealize.ShloMosaic.RowGatherScatter

open Idealize.ShloMosaic Idealize.ShloMosaic.ValueIdx

/-- A signed start index clamped into `[0, N - 1]`, as StableHLO's gather clamps it. -/
def clampRow {w : Nat} (N : Nat) (hN : 0 < N) (v : BitVec w) : Fin N := ⟨min v.toInt.toNat (N - 1), by omega⟩

/-! ## Row gather: operand `[N, D]`, start indices `[E, 1]`, result `[E, D]` -/

/-- The dimension numbers of a gather of whole rows: the result's axis 1 is the offset axis, the operand's axis 0 is
    collapsed and is the one the start index names, the slice is one row `[1, D]`. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The start-indices index at which result index `(e, j)` of a row gather reads its one start-index component
    is `(e, 0)`. -/
theorem rowGather_siIdx {N E D : Nat}
    (wf : GatherDims.WF ⟨2, ![N, D]⟩ ⟨2, ![E, 1]⟩ ⟨2, ![E, D]⟩ [1] [0] [] [0] [] 1 ![1, D])
    (e : Fin E) (j : Fin D) (c : Fin (rowGatherDims N E D wf).startIndexMap.length) :
    (rowGatherDims N E D wf).siIdx (ix2 e j) c = ix2 e (0 : Fin 1) := by
  funext b
  refine Fin.ext ?_
  match b with
  | ⟨0, _⟩ => rfl
  | ⟨1, _⟩ =>
    have hc : c.val < 1 := c.isLt
    show c.val = 0
    omega

/-- THE ROW GATHER READ AT `(e, j)`: the operand at row "start index `idx[e, 0]` read signed and clamped into
    `[0, N - 1]`", column `j`. -/
theorem gather_rows_apply {α : Type} {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowGatherDims N E D wf) x idx (ix2 e j) = x (ix2 (clampRow N hN (idx (ix2 e (0 : Fin 1)))) j) := by
  unfold Host.gather
  congr 1
  funext a
  refine Fin.ext ?_
  match a with
  | ⟨0, _⟩ =>
    show (rowGatherDims N E D wf).start (ix2 e j) idx 0 + (rowGatherDims N E D wf).batchCoord (ix2 e j) 0
      + (rowGatherDims N E D wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    rw [rowGather_siIdx]
    rfl
  | ⟨1, _⟩ =>
    show (rowGatherDims N E D wf).start (ix2 e j) idx 1 + (rowGatherDims N E D wf).batchCoord (ix2 e j) 1
      + (rowGatherDims N E D wf).offCoord (ix2 e j) 1 = j.val
    rw [GatherDims.batchCoord_eq_zero _ _ _ List.not_mem_nil]
    have hs : (rowGatherDims N E D wf).start (ix2 e j) idx 1 = 0 := by
      unfold GatherDims.start
      rw [dif_neg (show (1 : Fin 2) ∉ [(0 : Fin 2)] by decide)]
    rw [hs]
    simp only [Nat.add_zero, Nat.zero_add]
    rfl

/-! ## Element gather: operand `[N]`, start indices `[E, 1]`, result `[E]` -/

/-- The dimension numbers of a gather of single elements of a flat array: no offset axis, the operand's one axis
    collapsed and named by the start index, the slice one element. -/
abbrev elemGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The start-indices index at which result index `e` of an element gather reads its one start-index component
    is `(e, 0)`. -/
theorem elemGather_siIdx {N E : Nat}
    (wf : GatherDims.WF ⟨1, ![N]⟩ ⟨2, ![E, 1]⟩ ⟨1, ![E]⟩ [] [0] [] [0] [] 1 ![1])
    (e : Fin E) (c : Fin (elemGatherDims N E wf).startIndexMap.length) :
    (elemGatherDims N E wf).siIdx (ix1 e) c = ix2 e (0 : Fin 1) := by
  funext b
  refine Fin.ext ?_
  match b with
  | ⟨0, _⟩ => rfl
  | ⟨1, _⟩ =>
    have hc : c.val < 1 := c.isLt
    show c.val = 0
    omega

/-- THE ELEMENT GATHER READ AT `e`: the operand at "start index `idx[e, 0]` read signed and clamped into
    `[0, N - 1]`". -/
theorem gather_elems_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (elemGatherDims N E wf) x idx (ix1 e) = x (ix1 (clampRow N hN (idx (ix2 e (0 : Fin 1))))) := by
  unfold Host.gather
  congr 1
  funext a
  obtain rfl : a = 0 := Subsingleton.elim _ _
  refine Fin.ext ?_
  show (elemGatherDims N E wf).start (ix1 e) idx 0 + (elemGatherDims N E wf).batchCoord (ix1 e) 0
    + (elemGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (elemGatherDims N E wf).startIndexMap from List.mem_singleton.mpr rfl)]
  rw [elemGather_siIdx]
  rfl

/-! ## Row scatter: operand `[N, D]`, scatter indices `[E, 1]`, updates `[E, D]` -/

/-- The dimension numbers of a scatter of whole rows: the updates' axis 1 is the window axis, the operand's axis 0 is
    inserted and is the one the scatter index names. -/
abbrev rowScatterDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- The scatter-indices index at which update index `(e, j)` of a row scatter reads its one start-index component
    is `(e, 0)`. -/
theorem rowScatter_siIdx {N E D : Nat}
    (wf : ScatterDims.WF ⟨2, ![N, D]⟩ ⟨2, ![E, 1]⟩ ⟨2, ![E, D]⟩ [1] [0] [0] 1)
    (e : Fin E) (j : Fin D) (c : Fin (rowScatterDims N E D wf).scatterDimsToOperandDims.length) :
    (rowScatterDims N E D wf).siIdx (ix2 e j) c = ix2 e (0 : Fin 1) := by
  funext b
  refine Fin.ext ?_
  match b with
  | ⟨0, _⟩ => rfl
  | ⟨1, _⟩ =>
    have hc : c.val < 1 := c.isLt
    show c.val = 0
    omega

/-- On the row axis the window of update `(e, j)` starts at the scatter index `idx[e, 0]` read signed. -/
theorem rowScatter_start_row {N E D w : Nat}
    (wf : ScatterDims.WF ⟨2, ![N, D]⟩ ⟨2, ![E, 1]⟩ ⟨2, ![E, D]⟩ [1] [0] [0] 1)
    (idx : IVec ⟨2, ![E, 1]⟩ w) (e : Fin E) (j : Fin D) :
    (rowScatterDims N E D wf).start (ix2 e j) idx 0 = (idx (ix2 e (0 : Fin 1))).toInt := by
  unfold ScatterDims.start
  rw [dif_pos (show (0 : Fin 2) ∈ (rowScatterDims N E D wf).scatterDimsToOperandDims from List.mem_singleton.mpr rfl)]
  rw [rowScatter_siIdx]

/-- On the column axis the window starts at `0`: the scatter index does not name that axis. -/
theorem rowScatter_start_col {N E D w : Nat}
    (wf : ScatterDims.WF ⟨2, ![N, D]⟩ ⟨2, ![E, 1]⟩ ⟨2, ![E, D]⟩ [1] [0] [0] 1)
    (idx : IVec ⟨2, ![E, 1]⟩ w) (e : Fin E) (j : Fin D) :
    (rowScatterDims N E D wf).start (ix2 e j) idx 1 = 0 := by
  unfold ScatterDims.start
  rw [dif_neg (show (1 : Fin 2) ∉ [(0 : Fin 2)] by decide)]

/-- The window coordinate of update `(e, j)` on the row axis is `0`: that axis is inserted. -/
theorem rowScatter_window_row {N E D : Nat}
    (wf : ScatterDims.WF ⟨2, ![N, D]⟩ ⟨2, ![E, 1]⟩ ⟨2, ![E, D]⟩ [1] [0] [0] 1) (e : Fin E) (j : Fin D) :
    (rowScatterDims N E D wf).window (ix2 e j) 0 = 0 := rfl

/-- The window coordinate of update `(e, j)` on the column axis is the column `j`. -/
theorem rowScatter_window_col {N E D : Nat}
    (wf : ScatterDims.WF ⟨2, ![N, D]⟩ ⟨2, ![E, 1]⟩ ⟨2, ![E, D]⟩ [1] [0] [0] 1) (e : Fin E) (j : Fin D) :
    (rowScatterDims N E D wf).window (ix2 e j) 1 = j.val := rfl

/-- WHERE A SCATTERED ROW LANDS: update row `e` lands on operand row `n` exactly when its scatter index
    `idx[e, 0]`, read signed and NOT clamped, is `n`; the column is kept. -/
theorem rowScatter_resultIdx?_eq_some {N E D w : Nat}
    (wf : ScatterDims.WF ⟨2, ![N, D]⟩ ⟨2, ![E, 1]⟩ ⟨2, ![E, D]⟩ [1] [0] [0] 1)
    (idx : IVec ⟨2, ![E, 1]⟩ w) (e : Fin E) (j : Fin D) (i : (⟨2, ![N, D]⟩ : Shape).Idx)
    (h : (rowScatterDims N E D wf).resultIdx? (ix2 e j) idx = some i) :
    ∃ n : Fin N, i = ix2 n j ∧ (idx (ix2 e (0 : Fin 1))).toInt = (n.val : Int) := by
  unfold ScatterDims.resultIdx? at h
  split at h
  · rename_i hin
    have h0 := hin 0
    rw [rowScatter_start_row, rowScatter_window_row] at h0
    have hsize : (⟨2, ![N, D]⟩ : Shape).size 0 = N := rfl
    rw [hsize] at h0
    have hi := Option.some.inj h
    refine ⟨⟨(idx (ix2 e (0 : Fin 1))).toInt.toNat, by omega⟩, ?_, by simp only; omega⟩
    rw [← hi]
    funext a
    refine Fin.ext ?_
    match a with
    | ⟨0, _⟩ =>
      show ((rowScatterDims N E D wf).start (ix2 e j) idx 0 + ((rowScatterDims N E D wf).window (ix2 e j) 0 : Nat)).toNat
        = (idx (ix2 e (0 : Fin 1))).toInt.toNat
      rw [rowScatter_start_row, rowScatter_window_row]
      simp
    | ⟨1, _⟩ =>
      show ((rowScatterDims N E D wf).start (ix2 e j) idx 1 + ((rowScatterDims N E D wf).window (ix2 e j) 1 : Nat)).toNat
        = j.val
      rw [rowScatter_start_col, rowScatter_window_col]
      simp
  · exact absurd h (by simp)

/-- The converse: when the scatter index `idx[e, 0]`, read signed, is the row number `n < N`, update
    `(e, j)` lands at `(n, j)`. -/
theorem rowScatter_resultIdx?_of_toInt {N E D w : Nat}
    (wf : ScatterDims.WF ⟨2, ![N, D]⟩ ⟨2, ![E, 1]⟩ ⟨2, ![E, D]⟩ [1] [0] [0] 1)
    (idx : IVec ⟨2, ![E, 1]⟩ w) (e : Fin E) (j : Fin D) (n : Fin N)
    (hn : (idx (ix2 e (0 : Fin 1))).toInt = (n.val : Int)) :
    (rowScatterDims N E D wf).resultIdx? (ix2 e j) idx = some (ix2 n j) := by
  have hin : ∀ a, 0 ≤ (rowScatterDims N E D wf).start (ix2 e j) idx a + (rowScatterDims N E D wf).window (ix2 e j) a ∧
      (rowScatterDims N E D wf).start (ix2 e j) idx a + (rowScatterDims N E D wf).window (ix2 e j) a
        < (⟨2, ![N, D]⟩ : Shape).size a := by
    intro a
    match a with
    | ⟨0, _⟩ =>
      have hsize : (⟨2, ![N, D]⟩ : Shape).size ⟨0, by omega⟩ = N := rfl
      have h0 : (rowScatterDims N E D wf).start (ix2 e j) idx ⟨0, by omega⟩ = (n.val : Int) :=
        (rowScatter_start_row wf idx e j).trans hn
      have h1 : (rowScatterDims N E D wf).window (ix2 e j) ⟨0, by omega⟩ = 0 := rfl
      have := n.isLt
      rw [hsize, h0, h1]
      omega
    | ⟨1, _⟩ =>
      have hsize : (⟨2, ![N, D]⟩ : Shape).size ⟨1, by omega⟩ = D := rfl
      have h0 : (rowScatterDims N E D wf).start (ix2 e j) idx ⟨1, by omega⟩ = 0 := rowScatter_start_col wf idx e j
      have h1 : (rowScatterDims N E D wf).window (ix2 e j) ⟨1, by omega⟩ = j.val := rfl
      have := j.isLt
      rw [hsize, h0, h1]
      omega
  unfold ScatterDims.resultIdx?
  rw [dif_pos hin]
  congr 1
  funext a
  refine Fin.ext ?_
  match a with
  | ⟨0, _⟩ =>
    show ((rowScatterDims N E D wf).start (ix2 e j) idx 0 + ((rowScatterDims N E D wf).window (ix2 e j) 0 : Nat)).toNat
      = n.val
    rw [rowScatter_start_row, rowScatter_window_row, hn]
    simp
  | ⟨1, _⟩ =>
    show ((rowScatterDims N E D wf).start (ix2 e j) idx 1 + ((rowScatterDims N E D wf).window (ix2 e j) 1 : Nat)).toNat
      = j.val
    rw [rowScatter_start_col, rowScatter_window_col]
    simp

/-! ## Element scatter: operand `[N]`, scatter indices `[E, 1]`, updates `[E]` -/

/-- The dimension numbers of a scatter of single elements into a flat array: no window axis, the operand's one axis
    inserted and named by the scatter index. -/
abbrev elemScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The scatter-indices index at which update index `e` of an element scatter reads its one start-index component
    is `(e, 0)`. -/
theorem elemScatter_siIdx {N E : Nat}
    (wf : ScatterDims.WF ⟨1, ![N]⟩ ⟨2, ![E, 1]⟩ ⟨1, ![E]⟩ [] [0] [0] 1)
    (e : Fin E) (c : Fin (elemScatterDims N E wf).scatterDimsToOperandDims.length) :
    (elemScatterDims N E wf).siIdx (ix1 e) c = ix2 e (0 : Fin 1) := by
  funext b
  refine Fin.ext ?_
  match b with
  | ⟨0, _⟩ => rfl
  | ⟨1, _⟩ =>
    have hc : c.val < 1 := c.isLt
    show c.val = 0
    omega

/-- The window of update `e` starts at the scatter index `idx[e, 0]` read signed. -/
theorem elemScatter_start {N E w : Nat}
    (wf : ScatterDims.WF ⟨1, ![N]⟩ ⟨2, ![E, 1]⟩ ⟨1, ![E]⟩ [] [0] [0] 1)
    (idx : IVec ⟨2, ![E, 1]⟩ w) (e : Fin E) :
    (elemScatterDims N E wf).start (ix1 e) idx 0 = (idx (ix2 e (0 : Fin 1))).toInt := by
  unfold ScatterDims.start
  rw [dif_pos (show (0 : Fin 1) ∈ (elemScatterDims N E wf).scatterDimsToOperandDims from List.mem_singleton.mpr rfl)]
  rw [elemScatter_siIdx]

/-- The window coordinate of update `e` on the one axis is `0`: that axis is inserted. -/
theorem elemScatter_window {N E : Nat}
    (wf : ScatterDims.WF ⟨1, ![N]⟩ ⟨2, ![E, 1]⟩ ⟨1, ![E]⟩ [] [0] [0] 1) (e : Fin E) :
    (elemScatterDims N E wf).window (ix1 e) 0 = 0 := rfl

/-- WHERE A SCATTERED ELEMENT LANDS: update `e` lands on operand element `n` exactly when its scatter index
    `idx[e, 0]`, read signed and NOT clamped, is `n`. -/
theorem elemScatter_resultIdx?_eq_some {N E w : Nat}
    (wf : ScatterDims.WF ⟨1, ![N]⟩ ⟨2, ![E, 1]⟩ ⟨1, ![E]⟩ [] [0] [0] 1)
    (idx : IVec ⟨2, ![E, 1]⟩ w) (e : Fin E) (i : (⟨1, ![N]⟩ : Shape).Idx)
    (h : (elemScatterDims N E wf).resultIdx? (ix1 e) idx = some i) :
    ∃ n : Fin N, i = ix1 n ∧ (idx (ix2 e (0 : Fin 1))).toInt = (n.val : Int) := by
  unfold ScatterDims.resultIdx? at h
  split at h
  · rename_i hin
    have h0 := hin 0
    rw [elemScatter_start, elemScatter_window] at h0
    have hsize : (⟨1, ![N]⟩ : Shape).size 0 = N := rfl
    rw [hsize] at h0
    have hi := Option.some.inj h
    refine ⟨⟨(idx (ix2 e (0 : Fin 1))).toInt.toNat, by omega⟩, ?_, by simp only; omega⟩
    rw [← hi]
    funext a
    obtain rfl : a = 0 := Subsingleton.elim _ _
    refine Fin.ext ?_
    show ((elemScatterDims N E wf).start (ix1 e) idx 0 + ((elemScatterDims N E wf).window (ix1 e) 0 : Nat)).toNat
      = (idx (ix2 e (0 : Fin 1))).toInt.toNat
    rw [elemScatter_start, elemScatter_window]
    simp
  · exact absurd h (by simp)

/-- The converse: when the scatter index `idx[e, 0]`, read signed, is the element number `n < N`, update
    `e` lands at `n`. -/
theorem elemScatter_resultIdx?_of_toInt {N E w : Nat}
    (wf : ScatterDims.WF ⟨1, ![N]⟩ ⟨2, ![E, 1]⟩ ⟨1, ![E]⟩ [] [0] [0] 1)
    (idx : IVec ⟨2, ![E, 1]⟩ w) (e : Fin E) (n : Fin N)
    (hn : (idx (ix2 e (0 : Fin 1))).toInt = (n.val : Int)) :
    (elemScatterDims N E wf).resultIdx? (ix1 e) idx = some (ix1 n) := by
  have hin : ∀ a, 0 ≤ (elemScatterDims N E wf).start (ix1 e) idx a + (elemScatterDims N E wf).window (ix1 e) a ∧
      (elemScatterDims N E wf).start (ix1 e) idx a + (elemScatterDims N E wf).window (ix1 e) a
        < (⟨1, ![N]⟩ : Shape).size a := by
    intro a
    obtain rfl : a = 0 := Subsingleton.elim _ _
    have hsize : (⟨1, ![N]⟩ : Shape).size 0 = N := rfl
    have h0 : (elemScatterDims N E wf).start (ix1 e) idx 0 = (n.val : Int) := (elemScatter_start wf idx e).trans hn
    have h1 : (elemScatterDims N E wf).window (ix1 e) 0 = 0 := rfl
    have := n.isLt
    rw [hsize, h0, h1]
    omega
  unfold ScatterDims.resultIdx?
  rw [dif_pos hin]
  congr 1
  funext a
  obtain rfl : a = 0 := Subsingleton.elim _ _
  refine Fin.ext ?_
  show ((elemScatterDims N E wf).start (ix1 e) idx 0 + ((elemScatterDims N E wf).window (ix1 e) 0 : Nat)).toNat = n.val
  rw [elemScatter_start, elemScatter_window, hn]
  simp

/-! ## A start index that is a row number -/

/-- A start index whose signed value is a row number `n < N` is clamped to `n` itself. -/
theorem clampRow_of_toInt {N : Nat} (hN : 0 < N) (v : BitVec 32) (n : Fin N) (h : v.toInt = (n.val : Int)) :
    clampRow N hN v = n := by
  refine Fin.ext ?_
  have hn := n.isLt
  show min v.toInt.toNat (N - 1) = n.val
  rw [h]
  simp only [Int.toNat_natCast]
  omega

/-- The signed comparison "`v < 0`" of a 32-bit word whose signed value is a natural number is the bit `0`. -/
theorem cmpi_slt_zero_of_toInt (v : BitVec 32) (n : Nat) (h : v.toInt = (n : Int)) :
    IntOp.cmpi .slt v 0#32 = 0#1 := by
  have hs : v.slt 0#32 = false := by
    simp only [BitVec.slt, h]
    simp
  show BitVec.ofBool (v.slt 0#32) = 0#1
  rw [hs]
  rfl

/-- Normalising a possibly negative index (`v < 0 → v + N`) leaves alone a word whose signed value is a natural
    number: the select takes its second operand, whatever the first is. -/
theorem select_slt_zero_of_toInt {α : Type} (v : BitVec 32) (n : Nat) (h : v.toInt = (n : Int)) (a b : α) :
    Scalar.select (IntOp.cmpi .slt v 0#32) a b = b := by
  rw [cmpi_slt_zero_of_toInt v n h]
  exact select_zero a b

/-- The normalised index as a program computes it at one element, `select (cmpi slt v 0) (addi v N) v`, is `v`
    when `v`'s signed value is a natural number. -/
theorem normalised_of_toInt (v : BitVec 32) (n : Nat) (h : v.toInt = (n : Int)) (N : BitVec 32) :
    Scalar.select (IntOp.cmpi .slt v 0#32) (IntOp.addi v N) v = v :=
  select_slt_zero_of_toInt v n h _ _

/-- The same with the sum written as the words' sum (`IntOp.addi v N` is `v + N` by definition). -/
theorem normalised_of_toInt' (v : BitVec 32) (n : Nat) (h : v.toInt = (n : Int)) (N : BitVec 32) :
    Scalar.select (IntOp.cmpi .slt v 0#32) (v + N) v = v :=
  select_slt_zero_of_toInt v n h _ _

end Idealize.ShloMosaic.RowGatherScatter

end
-- ==== Proof.ArgsOf.lean ====
/-
  The argument arrays of either program as the plain functions the specification is written over: a matrix by its
  two coordinates, a vector by its one, a scalar by its one entry; and the row a start index selects — the index
  read signed, wrapped once by the table's height if negative, then clamped into the table.
-/
import proofs.«180155_j68143951118751_2_alg».proof.Proof.Spec
import proofs.«180155_j68143951118751_2_alg».proof.Proof.LibRowGatherScatter

noncomputable section

namespace Cert.Spec

open Idealize.ShloMosaic Idealize.ShloMosaic.ValueIdx Idealize.ShloMosaic.RowGatherScatter

/-- A start index with one wrap of a negative value by the table height. -/
def wrap (Nw v : BitVec 32) : BitVec 32 := Scalar.select (IntOp.cmpi .slt v 0#32) (IntOp.addi v Nw) v

/-- The table row a batch entry's index selects. -/
def rowOf (N : Nat) (hN : 0 < N) (Nw : BitVec 32) (a : IVec ⟨1, ![65536]⟩ 32) (b : Fin 65536) : Fin N :=
  clampRow N hN (wrap Nw (a (ix1 b)))

/-- The twenty-three argument arrays as the specification's arguments. -/
def argsOf
    (a0 : FVec Ideal ⟨2, ![100000, 512]⟩ .f32) (a1 : FVec Ideal ⟨2, ![50, 512]⟩ .f32)
    (a2 : FVec Ideal ⟨2, ![100000, 512]⟩ .f32) (a3 : FVec Ideal ⟨2, ![512, 1]⟩ .f32) (a4 : FVec Ideal ⟨1, ![1]⟩ .f32)
    (a5 : FVec Ideal ⟨2, ![50, 512]⟩ .f32) (a6 : FVec Ideal ⟨2, ![512, 1]⟩ .f32) (a7 : FVec Ideal ⟨1, ![1]⟩ .f32)
    (a8 a9 : FVec Ideal ⟨2, ![8, 64]⟩ .f32) (a10 : FVec Ideal ⟨2, ![512, 512]⟩ .f32) (a11 : FVec Ideal ⟨1, ![512]⟩ .f32)
    (a12 : FVec Ideal ⟨2, ![64, 64]⟩ .f32) (a13 : FVec Ideal ⟨1, ![64]⟩ .f32)
    (a14 : FVec Ideal ⟨2, ![64, 64]⟩ .f32) (a15 : FVec Ideal ⟨1, ![64]⟩ .f32)
    (a16 : FVec Ideal ⟨2, ![1024, 512]⟩ .f32) (a17 : FVec Ideal ⟨1, ![512]⟩ .f32)
    (a18 a19 : FVec Ideal ⟨0, ![]⟩ .f32) (a20 a21 a22 : IVec ⟨1, ![65536]⟩ 32) : Args where
  e0 := fun r k => a0 (ix2 r k)
  e1 := fun r k => a1 (ix2 r k)
  e2 := fun r k => a2 (ix2 r k)
  w3 := fun k => a3 (ix2 k (0 : Fin 1))
  b4 := a4 (ix1 (0 : Fin 1))
  e5 := fun r k => a5 (ix2 r k)
  w6 := fun k => a6 (ix2 k (0 : Fin 1))
  b7 := a7 (ix1 (0 : Fin 1))
  lm := fun m d => a8 (ix2 m d)
  gm := fun m d => a9 (ix2 m d)
  wq := fun k j => a10 (ix2 k j)
  bq := fun j => a11 (ix1 j)
  wkl := fun k d => a12 (ix2 k d)
  bkl := fun d => a13 (ix1 d)
  wkg := fun k d => a14 (ix2 k d)
  bkg := fun d => a15 (ix1 d)
  wout := fun k j => a16 (ix2 k j)
  bout := fun j => a17 (ix1 j)
  aw := a18 ix0
  ab := a19 ix0
  hI := rowOf 100000 (by decide) 100000#32 a20
  rI := rowOf 50 (by decide) 50#32 a21
  tI := rowOf 100000 (by decide) 100000#32 a22

end Cert.Spec

end
-- ==== Proof.KernelHostOps.lean ====
/-
  The host-side arithmetic of the kernel program, one operation at a time, read at an index.

  Before the launch the program wraps each of the three index arrays once (a negative index gets the table height
  added), gathers rows of the embedding tables at the wrapped indices, forms h + r - t and h + r + t, projects the two
  density tables onto their weight columns BEFORE gathering (the gate of row b is the projected column at the wrapped
  index, plus the bias, through 1 / (1 + exp (-x))), averages three gates, multiplies the two motif tables by their key
  matrices and adds the key biases, adds the two motif tables, cuts the output matrix into its upper and lower halves and
  transposes the keys. Every format change is the identity on extended reals. Each lemma below reads one of these terms
  at explicit coordinates, over variables standing for the argument arrays.
-/
import proofs.«180155_j68143951118751_2_alg».proof.Proof.ArgsOf
import proofs.«180155_j68143951118751_2_alg».proof.Proof.Gen.KernelIdeal
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelHost

open Idealize.ShloMosaic Idealize.ShloMosaic.ValueIdx Idealize.ShloMosaic.RowGatherScatter
open Cert.KernelIdeal Cert.KernelIdeal.Facts₀ Idealize.ShloMosaic.TcCoe Idealize.SL.Sem

/-! ## A scalar spread over an array, a vector spread over rows -/

/-- A scalar broadcast to any shape reads the scalar everywhere. -/
theorem splat_apply {α : Type} {t : Shape} (h : S_.BroadcastsInDim t (![] : Fin 0 → Fin t.rank)) (x : S_.Idx → α)
    (j : t.Idx) : broadcastInDim t ![] h x j = x ix0 :=
  broadcastInDim_apply _ h x j ix0 (fun a => a.elim0)

/-- A one-element vector broadcast to a column of 65536 rows reads its one element in every row. -/
theorem biasCol_apply (x : FVec Ideal S1 .f32) (b : Fin 65536) :
    broadcastInDim S65536x1 ![0, 1] bcast_S1x1_S65536x1_0_1 (broadcastInDim S1x1 ![1] bcast_S1_S1x1_1 x) (ix2 b (0 : Fin 1))
      = x (ix1 (0 : Fin 1)) := by
  refine (broadcastInDim_apply _ bcast_S1x1_S65536x1_0_1 _ (ix2 b (0 : Fin 1)) (ix2 (0 : Fin 1) (0 : Fin 1))
    (fun a => match a with | ⟨0, _⟩ => rfl | ⟨1, _⟩ => rfl)).trans ?_
  exact broadcastInDim_apply _ bcast_S1_S1x1_1 x (ix2 (0 : Fin 1) (0 : Fin 1)) (ix1 (0 : Fin 1))
    (fun a => match a with | ⟨0, _⟩ => rfl)

/-- A 64-vector broadcast over 8 rows reads, at (m, d), its entry d. -/
theorem biasRow_apply (x : FVec Ideal S64 .f32) (mm : Fin 8) (d : Fin 64) :
    broadcastInDim S8x64 ![0, 1] bcast_S1x64_S8x64_0_1 (broadcastInDim S1x64 ![1] bcast_S64_S1x64_1 x) (ix2 mm d)
      = x (ix1 d) := by
  refine (broadcastInDim_apply _ bcast_S1x64_S8x64_0_1 _ (ix2 mm d) (ix2 (0 : Fin 1) d)
    (fun a => match a with | ⟨0, _⟩ => rfl | ⟨1, _⟩ => rfl)).trans ?_
  exact broadcastInDim_apply _ bcast_S64_S1x64_1 x (ix2 (0 : Fin 1) d) (ix1 d)
    (fun a => match a with | ⟨0, _⟩ => rfl)

/-! ## The start indices of a gather -/

/-- The start indices of one gather: every index wrapped once by the table height `Nw` when negative, as a column. -/
def wrapCol (Nw : BitVec 32) (a : IVec S65536 32) : IVec S65536x1 32 :=
  broadcastInDim S65536x1 ![0] bcast_S65536_S65536x1_0
    (select (cmpi .slt a (broadcastInDim S65536 ![] bcast_S_S65536 (constantI S_ 32 0#32)))
      (addi a (broadcastInDim S65536 ![] bcast_S_S65536 (constantI S_ 32 Nw))) a)

/-- Row b of the start-index column is the wrapped index b. -/
theorem wrapCol_apply (Nw : BitVec 32) (a : IVec S65536 32) (b : Fin 65536) :
    wrapCol Nw a (ix2 b (0 : Fin 1)) = Spec.wrap Nw (a (ix1 b)) := by
  unfold wrapCol
  refine (broadcastInDim_apply _ bcast_S65536_S65536x1_0 _ (ix2 b (0 : Fin 1)) (ix1 b)
    (fun a => match a with | ⟨0, _⟩ => rfl)).trans ?_
  rfl

/-! ## Row gathers -/

/-- A row of the 100000-row embedding table gathered at the wrapped index: row `rowOf` of the table. -/
theorem gatherE_apply (x : FVec Ideal S100000x512 .f32) (a : IVec S65536 32) (b : Fin 65536) (k : Fin 512) :
    Host.gather gather_S100000x512_S65536x1_S65536x512_1_0_n_n_0_1_1512 x (wrapCol 100000#32 a) (ix2 b k)
      = x (ix2 (Spec.rowOf 100000 (by decide) 100000#32 a b) k) := by
  unfold Spec.rowOf
  rw [← wrapCol_apply]
  exact gather_rows_apply (N := 100000) (E := 65536) (D := 512) (by decide)
    gather_S100000x512_S65536x1_S65536x512_1_0_n_n_0_1_1512_wf x (wrapCol 100000#32 a) b k

/-- A row of the 50-row relation table gathered at the wrapped index. -/
theorem gatherR_apply (x : FVec Ideal S50x512 .f32) (a : IVec S65536 32) (b : Fin 65536) (k : Fin 512) :
    Host.gather gather_S50x512_S65536x1_S65536x512_1_0_n_n_0_1_1512 x (wrapCol 50#32 a) (ix2 b k)
      = x (ix2 (Spec.rowOf 50 (by decide) 50#32 a b) k) := by
  unfold Spec.rowOf
  rw [← wrapCol_apply]
  exact gather_rows_apply (N := 50) (E := 65536) (D := 512) (by decide)
    gather_S50x512_S65536x1_S65536x512_1_0_n_n_0_1_1512_wf x (wrapCol 50#32 a) b k

/-- An entry of a 100000-row column gathered at the wrapped index. -/
theorem gatherEcol_apply (x : FVec Ideal S100000x1 .f32) (a : IVec S65536 32) (b : Fin 65536) :
    Host.gather gather_S100000x1_S65536x1_S65536x1_1_0_n_n_0_1_11 x (wrapCol 100000#32 a) (ix2 b (0 : Fin 1))
      = x (ix2 (Spec.rowOf 100000 (by decide) 100000#32 a b) (0 : Fin 1)) := by
  unfold Spec.rowOf
  rw [← wrapCol_apply]
  exact gather_rows_apply (N := 100000) (E := 65536) (D := 1) (by decide)
    gather_S100000x1_S65536x1_S65536x1_1_0_n_n_0_1_11_wf x (wrapCol 100000#32 a) b (0 : Fin 1)

/-- An entry of a 50-row column gathered at the wrapped index. -/
theorem gatherRcol_apply (x : FVec Ideal S50x1 .f32) (a : IVec S65536 32) (b : Fin 65536) :
    Host.gather gather_S50x1_S65536x1_S65536x1_1_0_n_n_0_1_11 x (wrapCol 50#32 a) (ix2 b (0 : Fin 1))
      = x (ix2 (Spec.rowOf 50 (by decide) 50#32 a b) (0 : Fin 1)) := by
  unfold Spec.rowOf
  rw [← wrapCol_apply]
  exact gather_rows_apply (N := 50) (E := 65536) (D := 1) (by decide)
    gather_S50x1_S65536x1_S65536x1_1_0_n_n_0_1_11_wf x (wrapCol 50#32 a) b (0 : Fin 1)

/-! ## Matrix products -/

/-- A product of two matrices contracting the left operand's columns with the right operand's rows, read at
    (a, b): the sum over k of left (a, k) times right (k, b). The hypotheses are the coordinates of the operand indices
    the dimension numbers compute. -/
theorem dot2_apply {A K B : Nat} {φ₁ φ₂ : FTy} (d : DotDims ⟨2, ![A, K]⟩ ⟨2, ![K, B]⟩ ⟨2, ![A, B]⟩)
    (hr : d.contr.rank = 1) (hs : d.contr.size ⟨0, by omega⟩ = K)
    (hl0 : ∀ i q, (d.lhsIdx i q 0).val = (i 0).val)
    (hl1 : ∀ i q, (d.lhsIdx i q 1).val = (q ⟨0, by omega⟩).val)
    (hr0 : ∀ i q, (d.rhsIdx i q 0).val = (q ⟨0, by omega⟩).val)
    (hr1 : ∀ i q, (d.rhsIdx i q 1).val = (i 1).val)
    (l : FVec Ideal ⟨2, ![A, K]⟩ φ₁) (r : FVec Ideal ⟨2, ![K, B]⟩ φ₂) (a : Fin A) (b : Fin B) :
    Host.dotGeneral d none l r (ix2 a b) = ∑ k : Fin K, l (ix2 a k) * r (ix2 k b) := by
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 a b) ((contrEquiv1 d K hr hs).symm k) = ix2 a k := funext fun x => Fin.ext (by
    match x with
    | ⟨0, _⟩ => exact hl0 _ _
    | ⟨1, _⟩ => exact (hl1 _ _).trans hk)
  have er : d.rhsIdx (ix2 a b) ((contrEquiv1 d K hr hs).symm k) = ix2 k b := funext fun x => Fin.ext (by
    match x with
    | ⟨0, _⟩ => exact (hr0 _ _).trans hk
    | ⟨1, _⟩ => exact hr1 _ _)
  rw [el, er]

/-- The 100000-row density table projected on its weight column, at row r. -/
theorem dotE_apply (x : FVec Ideal S100000x512 .f32) (w : FVec Ideal S512x1 .f32) (r : Fin 100000) :
    Host.dotGeneral dot_S100000x512_S512x1_S100000x1_1_0_0_1_n_n none x w (ix2 r (0 : Fin 1))
      = ∑ k : Fin 512, x (ix2 r k) * w (ix2 k (0 : Fin 1)) :=
  dot2_apply dot_S100000x512_S512x1_S100000x1_1_0_0_1_n_n rfl rfl
    (fun i q => by
      unfold DotDims.lhsIdx
      rw [dif_neg (show ¬(0 : Fin S100000x512.rank) ∈ dot_S100000x512_S512x1_S100000x1_1_0_0_1_n_n.lhsBatch by decide),
        dif_pos (show (0 : Fin S100000x512.rank) ∈ dot_S100000x512_S512x1_S100000x1_1_0_0_1_n_n.lhsNonContracting by decide)]
      rfl)
    (fun i q => dot_S100000x512_S512x1_S100000x1_1_0_0_1_n_n.lhsIdx_val_of_single rfl i q)
    (fun i q => dot_S100000x512_S512x1_S100000x1_1_0_0_1_n_n.rhsIdx_val_of_single rfl i q)
    (fun i q => by
      unfold DotDims.rhsIdx
      rw [dif_neg (show ¬(1 : Fin S512x1.rank) ∈ dot_S100000x512_S512x1_S100000x1_1_0_0_1_n_n.rhsBatch by decide),
        dif_pos (show (1 : Fin S512x1.rank) ∈ dot_S100000x512_S512x1_S100000x1_1_0_0_1_n_n.rhsNonContracting by decide)]
      rfl)
    x w r (0 : Fin 1)

/-- The 50-row density table projected on its weight column, at row r. -/
theorem dotR_apply (x : FVec Ideal S50x512 .f32) (w : FVec Ideal S512x1 .f32) (r : Fin 50) :
    Host.dotGeneral dot_S50x512_S512x1_S50x1_1_0_0_1_n_n none x w (ix2 r (0 : Fin 1))
      = ∑ k : Fin 512, x (ix2 r k) * w (ix2 k (0 : Fin 1)) :=
  dot2_apply dot_S50x512_S512x1_S50x1_1_0_0_1_n_n rfl rfl
    (fun i q => by
      unfold DotDims.lhsIdx
      rw [dif_neg (show ¬(0 : Fin S50x512.rank) ∈ dot_S50x512_S512x1_S50x1_1_0_0_1_n_n.lhsBatch by decide),
        dif_pos (show (0 : Fin S50x512.rank) ∈ dot_S50x512_S512x1_S50x1_1_0_0_1_n_n.lhsNonContracting by decide)]
      rfl)
    (fun i q => dot_S50x512_S512x1_S50x1_1_0_0_1_n_n.lhsIdx_val_of_single rfl i q)
    (fun i q => dot_S50x512_S512x1_S50x1_1_0_0_1_n_n.rhsIdx_val_of_single rfl i q)
    (fun i q => by
      unfold DotDims.rhsIdx
      rw [dif_neg (show ¬(1 : Fin S512x1.rank) ∈ dot_S50x512_S512x1_S50x1_1_0_0_1_n_n.rhsBatch by decide),
        dif_pos (show (1 : Fin S512x1.rank) ∈ dot_S50x512_S512x1_S50x1_1_0_0_1_n_n.rhsNonContracting by decide)]
      rfl)
    x w r (0 : Fin 1)

/-- A motif table times its key matrix, at (m, d). -/
theorem dotK_apply (x : FVec Ideal S8x64 .f32) (w : FVec Ideal S64x64 .f32) (mm : Fin 8) (d : Fin 64) :
    Host.dotGeneral dot_S8x64_S64x64_S8x64_1_0_0_1_n_n none x w (ix2 mm d)
      = ∑ k : Fin 64, x (ix2 mm k) * w (ix2 k d) :=
  dot2_apply dot_S8x64_S64x64_S8x64_1_0_0_1_n_n rfl rfl
    (fun i q => by
      unfold DotDims.lhsIdx
      rw [dif_neg (show ¬(0 : Fin S8x64.rank) ∈ dot_S8x64_S64x64_S8x64_1_0_0_1_n_n.lhsBatch by decide),
        dif_pos (show (0 : Fin S8x64.rank) ∈ dot_S8x64_S64x64_S8x64_1_0_0_1_n_n.lhsNonContracting by decide)]
      rfl)
    (fun i q => dot_S8x64_S64x64_S8x64_1_0_0_1_n_n.lhsIdx_val_of_single rfl i q)
    (fun i q => dot_S8x64_S64x64_S8x64_1_0_0_1_n_n.rhsIdx_val_of_single rfl i q)
    (fun i q => by
      unfold DotDims.rhsIdx
      rw [dif_neg (show ¬(1 : Fin S64x64.rank) ∈ dot_S8x64_S64x64_S8x64_1_0_0_1_n_n.rhsBatch by decide),
        dif_pos (show (1 : Fin S64x64.rank) ∈ dot_S8x64_S64x64_S8x64_1_0_0_1_n_n.rhsNonContracting by decide)]
      rfl)
    x w mm d

/-! ## The density gates -/

/-- One gate column: 1 / (1 + exp (-(g + bias))) of a gathered column `g`, the one-element bias spread over the rows. -/
def gateCol (g : FVec Ideal S65536x1 .f32) (bias : FVec Ideal S1 .f32) : FVec Ideal S65536x1 .f32 :=
  Host.divf (broadcastInDim S65536x1 ![] bcast_S_S65536x1 (constant S_ .f32 0x3F800000#32))
    (addf (broadcastInDim S65536x1 ![] bcast_S_S65536x1 (constant S_ .f32 0x3F800000#32))
      (Host.exp (Host.negf (addf g
        (broadcastInDim S65536x1 ![0, 1] bcast_S1x1_S65536x1_0_1 (broadcastInDim S1x1 ![1] bcast_S1_S1x1_1 bias))))))

/-- Row b of a gate column is the logistic function of the gathered entry plus the bias. -/
theorem gateCol_apply (g : FVec Ideal S65536x1 .f32) (bias : FVec Ideal S1 .f32) (b : Fin 65536) :
    gateCol g bias (ix2 b (0 : Fin 1)) = Spec.sig (g (ix2 b (0 : Fin 1)) + bias (ix1 (0 : Fin 1))) := by
  unfold gateCol Spec.sig
  show Ideal.div (broadcastInDim S65536x1 ![] bcast_S_S65536x1 (constant (F := Ideal) S_ .f32 0x3F800000#32) (ix2 b (0 : Fin 1)))
      (broadcastInDim S65536x1 ![] bcast_S_S65536x1 (constant (F := Ideal) S_ .f32 0x3F800000#32) (ix2 b (0 : Fin 1))
        + Ideal.exp (-(g (ix2 b (0 : Fin 1))
          + broadcastInDim S65536x1 ![0, 1] bcast_S1x1_S65536x1_0_1 (broadcastInDim S1x1 ![1] bcast_S1_S1x1_1 bias) (ix2 b (0 : Fin 1))))) = _
  rw [splat_apply, biasCol_apply]
  rfl

/-- The density column: the three gates added, the sum divided by 3. -/
def densCol (g1 g2 g3 : FVec Ideal S65536x1 .f32) : FVec Ideal S65536x1 .f32 :=
  Host.divf (addf (addf g1 g2) g3) (broadcastInDim S65536x1 ![] bcast_S_S65536x1 (constant S_ .f32 0x40400000#32))

theorem densCol_apply (g1 g2 g3 : FVec Ideal S65536x1 .f32) (b : Fin 65536) :
    densCol g1 g2 g3 (ix2 b (0 : Fin 1))
      = Ideal.div ((g1 (ix2 b (0 : Fin 1)) + g2 (ix2 b (0 : Fin 1))) + g3 (ix2 b (0 : Fin 1))) Spec.three := by
  unfold densCol
  show Ideal.div ((g1 (ix2 b (0 : Fin 1)) + g2 (ix2 b (0 : Fin 1))) + g3 (ix2 b (0 : Fin 1)))
    (broadcastInDim S65536x1 ![] bcast_S_S65536x1 (constant (F := Ideal) S_ .f32 0x40400000#32) (ix2 b (0 : Fin 1))) = _
  rw [splat_apply]
  rfl

/-- THE DENSITY OPERAND at row b: the mean of the three gates, each the logistic function of the density table's row
    projected on its weight column — the projection taken before the gather — plus the bias. -/
theorem dens_term_apply (a2 : FVec Ideal S100000x512 .f32) (a3 : FVec Ideal S512x1 .f32) (a4 : FVec Ideal S1 .f32)
    (a5 : FVec Ideal S50x512 .f32) (a6 : FVec Ideal S512x1 .f32) (a7 : FVec Ideal S1 .f32)
    (a20 a21 a22 : IVec S65536 32) (b : Fin 65536) :
    densCol
      (gateCol (Host.gather gather_S100000x1_S65536x1_S65536x1_1_0_n_n_0_1_11
        (Host.dotGeneral dot_S100000x512_S512x1_S100000x1_1_0_0_1_n_n none a2 a3) (wrapCol 100000#32 a20)) a4)
      (gateCol (Host.gather gather_S100000x1_S65536x1_S65536x1_1_0_n_n_0_1_11
        (Host.dotGeneral dot_S100000x512_S512x1_S100000x1_1_0_0_1_n_n none a2 a3) (wrapCol 100000#32 a22)) a4)
      (gateCol (Host.gather gather_S50x1_S65536x1_S65536x1_1_0_n_n_0_1_11
        (Host.dotGeneral dot_S50x512_S512x1_S50x1_1_0_0_1_n_n none a5 a6) (wrapCol 50#32 a21)) a7)
      (ix2 b (0 : Fin 1))
    = Ideal.div
        ((Spec.sig ((∑ k : Fin 512, a2 (ix2 (Spec.rowOf 100000 (by decide) 100000#32 a20 b) k) * a3 (ix2 k (0 : Fin 1))) + a4 (ix1 (0 : Fin 1)))
          + Spec.sig ((∑ k : Fin 512, a2 (ix2 (Spec.rowOf 100000 (by decide) 100000#32 a22 b) k) * a3 (ix2 k (0 : Fin 1))) + a4 (ix1 (0 : Fin 1))))
          + Spec.sig ((∑ k : Fin 512, a5 (ix2 (Spec.rowOf 50 (by decide) 50#32 a21 b) k) * a6 (ix2 k (0 : Fin 1))) + a7 (ix1 (0 : Fin 1))))
        Spec.three := by
  rw [densCol_apply, gateCol_apply, gateCol_apply, gateCol_apply, gatherEcol_apply, gatherEcol_apply, gatherRcol_apply,
    dotE_apply, dotE_apply, dotR_apply]

/-! ## The two row combinations -/

/-- h + r - t at (b, k). -/
theorem diff_term_apply (a0 : FVec Ideal S100000x512 .f32) (a1 : FVec Ideal S50x512 .f32) (a20 a21 a22 : IVec S65536 32)
    (b : Fin 65536) (k : Fin 512) :
    subf (addf (Host.gather gather_S100000x512_S65536x1_S65536x512_1_0_n_n_0_1_1512 a0 (wrapCol 100000#32 a20))
        (Host.gather gather_S50x512_S65536x1_S65536x512_1_0_n_n_0_1_1512 a1 (wrapCol 50#32 a21)))
      (Host.gather gather_S100000x512_S65536x1_S65536x512_1_0_n_n_0_1_1512 a0 (wrapCol 100000#32 a22)) (ix2 b k)
    = (a0 (ix2 (Spec.rowOf 100000 (by decide) 100000#32 a20 b) k) + a1 (ix2 (Spec.rowOf 50 (by decide) 50#32 a21 b) k))
        - a0 (ix2 (Spec.rowOf 100000 (by decide) 100000#32 a22 b) k) := by
  rw [subf_apply, addf_apply, gatherE_apply, gatherE_apply, gatherR_apply]

/-- h + r + t at (b, k). -/
theorem ctx_term_apply (a0 : FVec Ideal S100000x512 .f32) (a1 : FVec Ideal S50x512 .f32) (a20 a21 a22 : IVec S65536 32)
    (b : Fin 65536) (k : Fin 512) :
    addf (addf (Host.gather gather_S100000x512_S65536x1_S65536x512_1_0_n_n_0_1_1512 a0 (wrapCol 100000#32 a20))
        (Host.gather gather_S50x512_S65536x1_S65536x512_1_0_n_n_0_1_1512 a1 (wrapCol 50#32 a21)))
      (Host.gather gather_S100000x512_S65536x1_S65536x512_1_0_n_n_0_1_1512 a0 (wrapCol 100000#32 a22)) (ix2 b k)
    = (a0 (ix2 (Spec.rowOf 100000 (by decide) 100000#32 a20 b) k) + a1 (ix2 (Spec.rowOf 50 (by decide) 50#32 a21 b) k))
        + a0 (ix2 (Spec.rowOf 100000 (by decide) 100000#32 a22 b) k) := by
  rw [addf_apply, addf_apply, gatherE_apply, gatherE_apply, gatherR_apply]

/-! ## Keys, motifs and the halves of the output matrix -/

/-- A key table transposed: at (d, m), the motif row m times column d of the key matrix, plus the key bias d. -/
theorem keysT_term_apply (a8 : FVec Ideal S8x64 .f32) (a12 : FVec Ideal S64x64 .f32) (a13 : FVec Ideal S64 .f32)
    (d : Fin 64) (mm : Fin 8) :
    (truncf .bf16 (transpose S64x8 [1, 0]
        (addf (Host.dotGeneral dot_S8x64_S64x64_S8x64_1_0_0_1_n_n none a8 a12)
          (broadcastInDim S8x64 ![0, 1] bcast_S1x64_S8x64_0_1 (broadcastInDim S1x64 ![1] bcast_S64_S1x64_1 a13)))
        transposes_S8x64_S64x8_1_0) bitsLt_bf16_f32 : FVec Ideal S64x8 .bf16) (ix2 d mm)
    = (∑ k : Fin 64, a8 (ix2 mm k) * a12 (ix2 k d)) + a13 (ix1 d) := by
  rw [truncf_apply, transpose_ix2_apply, addf_apply, dotK_apply, biasRow_apply]

/-- The motif values: the two motif tables added. -/
theorem motifs_term_apply (a8 a9 : FVec Ideal S8x64 .f32) (mm : Fin 8) (d : Fin 64) :
    (truncf .bf16 (addf a8 a9) bitsLt_bf16_f32 : FVec Ideal S8x64 .bf16) (ix2 mm d) = a8 (ix2 mm d) + a9 (ix2 mm d) := rfl

/-- The query matrix after its format change. -/
theorem wq_term_apply (a10 : FVec Ideal S512x512 .f32) (k j : Fin 512) :
    (truncf .bf16 a10 bitsLt_bf16_f32 : FVec Ideal S512x512 .bf16) (ix2 k j) = a10 (ix2 k j) := rfl

/-- Rows 0..511 of the output matrix. -/
theorem wtop_term_apply (a16 : FVec Ideal S1024x512 .f32) (k j : Fin 512) :
    (truncf .bf16 (extractStridedSlice S512x512 ![0, 0] a16 slices_S1024x512_S512x512_0_0) bitsLt_bf16_f32
      : FVec Ideal S512x512 .bf16) (ix2 k j) = a16 (ix2 (Spec.lo k) j) := by
  rw [truncf_apply]
  exact extractStridedSlice_apply _ a16 slices_S1024x512_S512x512_0_0 (ix2 k j) (ix2 (Spec.lo k) j)
    (fun a => match a with | ⟨0, _⟩ => (Nat.zero_add _).symm | ⟨1, _⟩ => (Nat.zero_add _).symm)

/-- Rows 512..1023 of the output matrix. -/
theorem wbot_term_apply (a16 : FVec Ideal S1024x512 .f32) (k j : Fin 512) :
    (truncf .bf16 (extractStridedSlice S512x512 ![512, 0] a16 slices_S1024x512_S512x512_512_0) bitsLt_bf16_f32
      : FVec Ideal S512x512 .bf16) (ix2 k j) = a16 (ix2 (Spec.hi k) j) := by
  rw [truncf_apply]
  exact extractStridedSlice_apply _ a16 slices_S1024x512_S512x512_512_0 (ix2 k j) (ix2 (Spec.hi k) j)
    (fun a => match a with | ⟨0, _⟩ => rfl | ⟨1, _⟩ => (Nat.zero_add _).symm)

/-! ## The lines after the launch -/

/-- The score line: the scalar weight spread over the batch, times the norm, plus the scalar bias spread over the batch. -/
def scoreTail (aw ab : FVec Ideal S_ .f32) (nrm : FVec Ideal S65536 .f32) : FVec Ideal S65536 .f32 :=
  addf (mulf (broadcastInDim S65536 ![] bcast_S_S65536 aw) nrm) (broadcastInDim S65536 ![] bcast_S_S65536 ab)

theorem scoreTail_apply (aw ab : FVec Ideal S_ .f32) (nrm : FVec Ideal S65536 .f32) (i : S65536.Idx) :
    scoreTail aw ab nrm i = aw ix0 * nrm i + ab ix0 := by
  unfold scoreTail
  rw [addf_apply, mulf_apply, splat_apply, splat_apply]

/-! ## The arguments of a run -/

/-- The twenty-three argument arrays of the memory `m` on device `c`, as the specification's arguments. -/
def A (m : (ℓ : Loc nD τ sig) → Buf (Elt Ideal) ℓ) (c : Dev nD) : Cert.Spec.Args :=
  Cert.Spec.argsOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
    (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
    (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))

/-- The score line at an entry, in the specification's scalars. -/
theorem scoreTail_args (m : (ℓ : Loc nD τ sig) → Buf (Elt Ideal) ℓ) (c : Dev nD) (nrm : FVec Ideal S65536 .f32) :
    scoreTail (m ((c.tc : Thread nD τ).loc main_arg18)) (m ((c.tc : Thread nD τ).loc main_arg19)) nrm
      = fun i => (A m c).aw * nrm i + (A m c).ab :=
  funext fun i => scoreTail_apply _ _ nrm i

end Cert.KernelHost

end
-- ==== Proof.KernelHostBatch.lean ====
/-
  The three batch-sized operand arrays of the launch, read at an index as the specification's parts: the array the
  host lines leave in the diff operand is h + r - t of the gathered rows, the context operand h + r + t, and the density
  operand the mean of the three logistic gates. Each is the host lines' term over the argument arrays, then that term at
  explicit coordinates.
-/
import proofs.«180155_j68143951118751_2_alg».proof.Proof.Gen.KernelIdeal.Frame
import proofs.«180155_j68143951118751_2_alg».proof.Proof.KernelHostOps
import Idealize.ShloMosaic.Lib.StableHlo.Run

set_option maxRecDepth 16384

noncomputable section

namespace Cert.KernelHost

open Idealize.ShloMosaic Idealize.ShloMosaic.TcCoe Idealize.SL.Sem Idealize.ShloMosaic.StableHlo
open Cert.KernelIdeal Cert.KernelIdeal.Gen Idealize.ShloMosaic.ValueIdx

variable (m : (ℓ : Loc nD τ sig) → Buf (Elt Ideal) ℓ) (c : Dev nD)

set_option maxHeartbeats 4000000 in
/-- The diff operand at (b, k) is the specification's h + r - t. -/
theorem diff_apply (b : Fin 65536) (k : Fin 512) :
    (V m c main_v76 : S65536x512.Idx → EReal) (ix2 b k) = Cert.Spec.D (A m c) b k := by
  show StableHlo.after hostOps0 (fun b => m (c, b)) (Proc.devRef .tc main_v76) (ix2 b k) = _
  after_results_simp
  exact diff_term_apply (m ((c.tc : Thread nD τ).loc main_arg0)) (m ((c.tc : Thread nD τ).loc main_arg1)) (m ((c.tc : Thread nD τ).loc main_arg20)) (m ((c.tc : Thread nD τ).loc main_arg21)) (m ((c.tc : Thread nD τ).loc main_arg22)) b k

set_option maxHeartbeats 4000000 in
/-- The context operand at (b, k) is the specification's h + r + t. -/
theorem ctx_apply (b : Fin 65536) (k : Fin 512) :
    (V m c main_v78 : S65536x512.Idx → EReal) (ix2 b k) = Cert.Spec.C (A m c) b k := by
  show StableHlo.after hostOps0 (fun b => m (c, b)) (Proc.devRef .tc main_v78) (ix2 b k) = _
  after_results_simp
  exact ctx_term_apply (m ((c.tc : Thread nD τ).loc main_arg0)) (m ((c.tc : Thread nD τ).loc main_arg1)) (m ((c.tc : Thread nD τ).loc main_arg20)) (m ((c.tc : Thread nD τ).loc main_arg21)) (m ((c.tc : Thread nD τ).loc main_arg22)) b k

set_option maxHeartbeats 8000000 in
/-- The density operand at row b is the specification's density scalar: projecting the density tables on their weight
    columns before gathering a row gives the same sum as gathering the row first. -/
theorem dens_apply (b : Fin 65536) :
    (V m c main_v74 : S65536x1.Idx → EReal) (ix2 b (0 : Fin 1)) = Cert.Spec.dens (A m c) b := by
  show StableHlo.after hostOps0 (fun b => m (c, b)) (Proc.devRef .tc main_v74) (ix2 b (0 : Fin 1)) = _
  after_results_simp
  exact dens_term_apply (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg20)) (m ((c.tc : Thread nD τ).loc main_arg21)) (m ((c.tc : Thread nD τ).loc main_arg22)) b

end Cert.KernelHost

end
-- ==== Proof.KernelHostWeights.lean ====
/-
  The weight-sized operand arrays of the launch, read at an index as the specification's parts: the query matrix and
  its bias, the upper and lower halves of the output matrix and its bias, the two key tables (motifs times key matrix
  plus key bias) transposed, and the motif values (the two motif tables added). A format change is the identity on
  extended reals, so each converted array reads as the array it was converted from.
-/
import proofs.«180155_j68143951118751_2_alg».proof.Proof.Gen.KernelIdeal.Frame
import proofs.«180155_j68143951118751_2_alg».proof.Proof.KernelHostOps
import Idealize.ShloMosaic.Lib.StableHlo.Run

set_option maxRecDepth 16384

noncomputable section

namespace Cert.KernelHost

open Idealize.ShloMosaic Idealize.ShloMosaic.TcCoe Idealize.SL.Sem Idealize.ShloMosaic.StableHlo
open Cert.KernelIdeal Cert.KernelIdeal.Gen Idealize.ShloMosaic.ValueIdx

variable (m : (ℓ : Loc nD τ sig) → Buf (Elt Ideal) ℓ) (c : Dev nD)

set_option maxHeartbeats 4000000 in
/-- The query matrix operand is the query matrix. -/
theorem wq_apply (k j : Fin 512) : (V m c main_v88 : S512x512.Idx → EReal) (ix2 k j) = (A m c).wq k j := by
  show StableHlo.after hostOps0 (fun b => m (c, b)) (Proc.devRef .tc main_v88) (ix2 k j) = _
  after_results_simp
  exact wq_term_apply (m ((c.tc : Thread nD τ).loc main_arg10)) k j

/-- The query bias operand is the query bias: no host line writes it. -/
theorem bq_apply (j : Fin 512) : (V m c main_arg11 : S512.Idx → EReal) (ix1 j) = (A m c).bq j :=
  congrFun (V_main_arg11 m c) (ix1 j)

set_option maxHeartbeats 4000000 in
/-- The first output-matrix operand is rows 0..511 of the output matrix. -/
theorem wtop_apply (k j : Fin 512) :
    (V m c main_v90 : S512x512.Idx → EReal) (ix2 k j) = (A m c).wout (Cert.Spec.lo k) j := by
  show StableHlo.after hostOps0 (fun b => m (c, b)) (Proc.devRef .tc main_v90) (ix2 k j) = _
  after_results_simp
  exact wtop_term_apply (m ((c.tc : Thread nD τ).loc main_arg16)) k j

set_option maxHeartbeats 4000000 in
/-- The second output-matrix operand is rows 512..1023 of the output matrix. -/
theorem wbot_apply (k j : Fin 512) :
    (V m c main_v92 : S512x512.Idx → EReal) (ix2 k j) = (A m c).wout (Cert.Spec.hi k) j := by
  show StableHlo.after hostOps0 (fun b => m (c, b)) (Proc.devRef .tc main_v92) (ix2 k j) = _
  after_results_simp
  exact wbot_term_apply (m ((c.tc : Thread nD τ).loc main_arg16)) k j

/-- The output bias operand is the output bias: no host line writes it. -/
theorem bout_apply (j : Fin 512) : (V m c main_arg17 : S512.Idx → EReal) (ix1 j) = (A m c).bout j :=
  congrFun (V_main_arg17 m c) (ix1 j)

set_option maxHeartbeats 4000000 in
/-- The local-key operand, transposed: at (d, m) the local key of motif m, coordinate d. -/
theorem lkT_apply (d : Fin 64) (mm : Fin 8) :
    (V m c main_v94 : S64x8.Idx → EReal) (ix2 d mm) = Cert.Spec.LK (A m c) mm d := by
  show StableHlo.after hostOps0 (fun b => m (c, b)) (Proc.devRef .tc main_v94) (ix2 d mm) = _
  after_results_simp
  exact keysT_term_apply (m ((c.tc : Thread nD τ).loc main_arg8)) (m ((c.tc : Thread nD τ).loc main_arg12)) (m ((c.tc : Thread nD τ).loc main_arg13)) d mm

set_option maxHeartbeats 4000000 in
/-- The global-key operand, transposed: at (d, m) the global key of motif m, coordinate d. -/
theorem gkT_apply (d : Fin 64) (mm : Fin 8) :
    (V m c main_v96 : S64x8.Idx → EReal) (ix2 d mm) = Cert.Spec.GK (A m c) mm d := by
  show StableHlo.after hostOps0 (fun b => m (c, b)) (Proc.devRef .tc main_v96) (ix2 d mm) = _
  after_results_simp
  exact keysT_term_apply (m ((c.tc : Thread nD τ).loc main_arg9)) (m ((c.tc : Thread nD τ).loc main_arg14)) (m ((c.tc : Thread nD τ).loc main_arg15)) d mm

set_option maxHeartbeats 4000000 in
/-- The motif-value operand is the sum of the two motif tables. -/
theorem mo_apply (mm : Fin 8) (d : Fin 64) :
    (V m c main_v97 : S8x64.Idx → EReal) (ix2 mm d) = Cert.Spec.MO (A m c) mm d := by
  show StableHlo.after hostOps0 (fun b => m (c, b)) (Proc.devRef .tc main_v97) (ix2 mm d) = _
  after_results_simp
  exact motifs_term_apply (m ((c.tc : Thread nD τ).loc main_arg8)) (m ((c.tc : Thread nD τ).loc main_arg9)) mm d

end Cert.KernelHost

end
-- ==== Proof.KernelHost.lean ====
/-
  The kernel program's run, read as values. The launch's eleven operand arrays are the specification's parts
  (the two modules imported here); after the launch the program multiplies the norm output by the scalar weight and adds the
  scalar bias, entry by entry, and returns that line with the motif-loss output. So from a memory `m` every run ends
  with the score buffer at  aw · norm + ab,  the loss buffer at the launch's loss output, and every argument array as it was
  — stated here for whatever the two output arrays of the launch are shown to be.
-/
import proofs.«180155_j68143951118751_2_alg».proof.Proof.Gen.KernelIdeal.Frame
import proofs.«180155_j68143951118751_2_alg».proof.Proof.KernelHostOps
import proofs.«180155_j68143951118751_2_alg».proof.Proof.KernelHostBatch
import proofs.«180155_j68143951118751_2_alg».proof.Proof.KernelHostWeights
import Idealize.ShloMosaic.Lib.StableHlo.Run

set_option maxRecDepth 16384

noncomputable section

namespace Cert.KernelHost

open Idealize.ShloMosaic Idealize.ShloMosaic.TcCoe Idealize.SL.Sem Idealize.ShloMosaic.StableHlo
open Cert.KernelIdeal Cert.KernelIdeal.Gen Idealize.ShloMosaic.ValueIdx

variable (m : (ℓ : Loc nD τ sig) → Buf (Elt Ideal) ℓ) (c : Dev nD)

/-- The score line: the buffer the lines after the launch leave is the scalar weight times the launch's norm output plus
    the scalar bias. -/
theorem tail_score (nrm : FVec Ideal S65536 .f32)
    (h12 : ((dats m 0 c).arrAt 12 cfg0.N : S65536.Idx → EReal) = nrm) :
    (Pipeline.afterTail₀ cfgs (dats m) 0 (V0 m) [hostOps1] c main_v102 : S65536.Idx → EReal)
      = fun i => (A m c).aw * nrm i + (A m c).ab := by
  rw [← scoreTail_args m c nrm, ← h12]
  unfold Pipeline.afterTail₀
  show StableHlo.after hostOps1 _ (Proc.devRef .tc main_v102) = _
  after_results
  rw [Pipeline.withArrays_of_ne _ c (V0 m c) _ main_arg18 (by exact (by decide : ∀ w, Pipeline.arrRef spec0 w ≠ main_arg18)),
    Pipeline.withArrays_of_ne _ c (V0 m c) _ main_arg19 (by exact (by decide : ∀ w, Pipeline.arrRef spec0 w ≠ main_arg19))]
  have e12 : (Pipeline.withArrays (cfgs 0).spec c (V0 m c) (fun w => (dats m 0 c).arrAt w (cfgs 0).N)
      (Proc.devRef .tc main_v98_1) : S65536.Idx → EReal) = (dats m 0 c).arrAt 12 cfg0.N :=
    Pipeline.withArrays_arr spec0 launch0.win.arr_inj c (V0 m c) _ 12
  have e18 : V0 m c (Proc.devRef .tc main_arg18) = m ((c.tc : Thread nD τ).loc main_arg18) := V_main_arg18 m c
  have e19 : V0 m c (Proc.devRef .tc main_arg19) = m ((c.tc : Thread nD τ).loc main_arg19) := V_main_arg19 m c
  rw [e18, e19, e12]
  rfl

/-- THE KERNEL PROGRAM'S RUN: from any memory, every weakly fair execution terminates with the score buffer at
    aw · nrm + ab, the loss buffer at `ls`, and the argument arrays unchanged, where `nrm` and `ls` are what the launch's
    norm and loss output arrays hold after the last grid point. -/
theorem run_kernel (ρ : Dev nD → PrngReg) (nrm ls : Dev nD → FVec Ideal S65536 .f32)
    (h12 : ∀ c, ((dats m 0 c).arrAt 12 cfg0.N : S65536.Idx → EReal) = nrm c)
    (h11 : ∀ c, ((dats m 0 c).arrAt 11 cfg0.N : S65536.Idx → EReal) = ls c) :
    θ_run defs (onTc (τ := τ) (main (F := Ideal))) ⟨m, fun _ => 0, ρ⟩ (fun r => ∀ c : Dev nD,
      r.2.mem ((c.tc : Thread nD τ).loc main_v102) = (fun i => (A m c).aw * nrm c i + (A m c).ab)
      ∧ r.2.mem ((c.tc : Thread nD τ).loc main_v98_0) = ls c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c =>
    ⟨((h c).2 main_v102 (Pipeline.mem_restRefs_of main_v102 (by decide) (by decide))).trans (tail_score m c (nrm c) (h12 c)),
      ((h c).1 11).trans (h11 c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).1 4).trans (((dats m 0 c).arrAt_in 4 rfl _).trans ((A_eq m c 4).trans (V_main_arg11 m c))),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c),
      ((h c).2 main_arg15 (Pipeline.mem_restRefs_of main_arg15 (by decide) (by decide))).trans (W_main_arg15 m (dats m) c),
      ((h c).2 main_arg16 (Pipeline.mem_restRefs_of main_arg16 (by decide) (by decide))).trans (W_main_arg16 m (dats m) c),
      ((h c).1 7).trans (((dats m 0 c).arrAt_in 7 rfl _).trans ((A_eq m c 7).trans (V_main_arg17 m c))),
      ((h c).2 main_arg18 (Pipeline.mem_restRefs_of main_arg18 (by decide) (by decide))).trans (W_main_arg18 m (dats m) c),
      ((h c).2 main_arg19 (Pipeline.mem_restRefs_of main_arg19 (by decide) (by decide))).trans (W_main_arg19 m (dats m) c),
      ((h c).2 main_arg20 (Pipeline.mem_restRefs_of main_arg20 (by decide) (by decide))).trans (W_main_arg20 m (dats m) c),
      ((h c).2 main_arg21 (Pipeline.mem_restRefs_of main_arg21 (by decide) (by decide))).trans (W_main_arg21 m (dats m) c),
      ((h c).2 main_arg22 (Pipeline.mem_restRefs_of main_arg22 (by decide) (by decide))).trans (W_main_arg22 m (dats m) c)⟩) (run_main m ρ)

end Cert.KernelHost

end
-- ==== Proof.KernelArray.lean ====
/-
  From blocks to arrays. Grid point t hands the body rows 1024 t … 1024 t + 1023 of the diff, context and density
  arrays and the whole of every weight array, and writes back rows 1024 t … of the two results; the 64 points cover
  all 65536 rows. So each result array ends as the specification's function of its row number.
-/
import proofs.«180155_j68143951118751_2_alg».proof.Proof.KernelPayload
import proofs.«180155_j68143951118751_2_alg».proof.Proof.KernelHost

set_option maxRecDepth 65536

noncomputable section

namespace Cert.KernelArr

open Idealize.ShloMosaic Idealize.ShloMosaic.TcCoe Idealize.SL.Sem Idealize.ShloMosaic.ValueIdx
open Cert.KernelIdeal Cert.KernelIdeal.Gen Cert.KernelBody Cert.KernelHost

variable (m : (ℓ : Loc nD τ sig) → Buf (Elt Ideal) ℓ) (c : Dev nD)

/-- The printed index maps over the grid: the three batch windows and the two result windows sit at block t, every
    weight window at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 1) = t.val ∧ win0_12.index t (0 : Fin 1) = t.val :=
  (by decide +kernel : ∀ t : Fin grid0.N, _)

theorem N64 : cfg0.N = 64 := N_0

/-- Row p of block t is row 1024 t + p of the array. -/
def rowAt (t : Fin cfg0.N) (p : Fin 1024) : Fin 65536 :=
  ⟨t.val * 1024 + p.val, by have := t.isLt; have := N64; have := p.isLt; omega⟩

/-- The diff block of point t at (p, k) is the diff array at (1024 t + p, k). -/
theorem blk0_apply (t : Fin cfg0.N) (p : Fin 1024) (k : Fin 512) :
    (iblk m c 0 t : Vec Ideal S1024x512 .f32) (ix2 p k) = (V m c main_v76 : S65536x512.Idx → EReal) (ix2 (rowAt t p) k) := by
  obtain ⟨e0, e1, -⟩ := idx_facts t
  unfold iblk
  rw [View.read_apply]
  show V m c main_v76 _ = V m c main_v76 _
  congr 1
  funext a
  apply Fin.ext
  match a with
  | ⟨0, _⟩ => show win0_0.index t 0 * 1024 + 1 * p.val = t.val * 1024 + p.val; rw [e0]; omega
  | ⟨1, _⟩ => show win0_0.index t 1 * 512 + 1 * k.val = k.val; rw [e1]; omega

/-- The context block of point t at (p, k) is the context array at (1024 t + p, k). -/
theorem blk1_apply (t : Fin cfg0.N) (p : Fin 1024) (k : Fin 512) :
    (iblk m c 1 t : Vec Ideal S1024x512 .f32) (ix2 p k) = (V m c main_v78 : S65536x512.Idx → EReal) (ix2 (rowAt t p) k) := by
  obtain ⟨-, -, e0, e1, -⟩ := idx_facts t
  unfold iblk
  rw [View.read_apply]
  show V m c main_v78 _ = V m c main_v78 _
  congr 1
  funext a
  apply Fin.ext
  match a with
  | ⟨0, _⟩ => show win0_1.index t 0 * 1024 + 1 * p.val = t.val * 1024 + p.val; rw [e0]; omega
  | ⟨1, _⟩ => show win0_1.index t 1 * 512 + 1 * k.val = k.val; rw [e1]; omega

/-- The density block of point t at (p, 0) is the density array at (1024 t + p, 0). -/
theorem blk2_apply (t : Fin cfg0.N) (p : Fin 1024) :
    (iblk m c 2 t : Vec Ideal S1024x1 .f32) (ix2 p (0 : Fin 1))
      = (V m c main_v74 : S65536x1.Idx → EReal) (ix2 (rowAt t p) (0 : Fin 1)) := by
  obtain ⟨-, -, -, -, e0, e1, -⟩ := idx_facts t
  unfold iblk
  rw [View.read_apply]
  show V m c main_v74 _ = V m c main_v74 _
  congr 1
  funext a
  apply Fin.ext
  match a with
  | ⟨0, _⟩ => show win0_2.index t 0 * 1024 + 1 * p.val = t.val * 1024 + p.val; rw [e0]; omega
  | ⟨1, _⟩ => show win0_2.index t 1 * 1 + 1 * 0 = 0; rw [e1]

/-- Window 3 hands every point its whole array. -/
theorem blk3_apply (t : Fin cfg0.N) (a : Fin 512) (b : Fin 512) :
    (iblk m c 3 t : Vec Ideal S512x512 .bf16) (ix2 a b) = (V m c main_v88 : S512x512.Idx → EReal) (ix2 a b) := by
  obtain ⟨-, -, -, -, -, -, e0, e1, -⟩ := idx_facts t
  unfold iblk
  rw [View.read_apply]
  show V m c main_v88 _ = V m c main_v88 _
  congr 1
  funext ax
  apply Fin.ext
  match ax with
  | ⟨0, _⟩ => show win0_3.index t 0 * 512 + 1 * a.val = a.val; rw [e0]; omega
  | ⟨1, _⟩ => show win0_3.index t 1 * 512 + 1 * b.val = b.val; rw [e1]; omega

/-- Window 5 hands every point its whole array. -/
theorem blk5_apply (t : Fin cfg0.N) (a : Fin 512) (b : Fin 512) :
    (iblk m c 5 t : Vec Ideal S512x512 .bf16) (ix2 a b) = (V m c main_v90 : S512x512.Idx → EReal) (ix2 a b) := by
  obtain ⟨-, -, -, -, -, -, -, -, -, e0, e1, -⟩ := idx_facts t
  unfold iblk
  rw [View.read_apply]
  show V m c main_v90 _ = V m c main_v90 _
  congr 1
  funext ax
  apply Fin.ext
  match ax with
  | ⟨0, _⟩ => show win0_5.index t 0 * 512 + 1 * a.val = a.val; rw [e0]; omega
  | ⟨1, _⟩ => show win0_5.index t 1 * 512 + 1 * b.val = b.val; rw [e1]; omega

/-- Window 6 hands every point its whole array. -/
theorem blk6_apply (t : Fin cfg0.N) (a : Fin 512) (b : Fin 512) :
    (iblk m c 6 t : Vec Ideal S512x512 .bf16) (ix2 a b) = (V m c main_v92 : S512x512.Idx → EReal) (ix2 a b) := by
  obtain ⟨-, -, -, -, -, -, -, -, -, -, -, e0, e1, -⟩ := idx_facts t
  unfold iblk
  rw [View.read_apply]
  show V m c main_v92 _ = V m c main_v92 _
  congr 1
  funext ax
  apply Fin.ext
  match ax with
  | ⟨0, _⟩ => show win0_6.index t 0 * 512 + 1 * a.val = a.val; rw [e0]; omega
  | ⟨1, _⟩ => show win0_6.index t 1 * 512 + 1 * b.val = b.val; rw [e1]; omega

/-- Window 8 hands every point its whole array. -/
theorem blk8_apply (t : Fin cfg0.N) (a : Fin 64) (b : Fin 8) :
    (iblk m c 8 t : Vec Ideal S64x8 .bf16) (ix2 a b) = (V m c main_v94 : S64x8.Idx → EReal) (ix2 a b) := by
  obtain ⟨-, -, -, -, -, -, -, -, -, -, -, -, -, -, e0, e1, -⟩ := idx_facts t
  unfold iblk
  rw [View.read_apply]
  show V m c main_v94 _ = V m c main_v94 _
  congr 1
  funext ax
  apply Fin.ext
  match ax with
  | ⟨0, _⟩ => show win0_8.index t 0 * 64 + 1 * a.val = a.val; rw [e0]; omega
  | ⟨1, _⟩ => show win0_8.index t 1 * 8 + 1 * b.val = b.val; rw [e1]; omega

/-- Window 9 hands every point its whole array. -/
theorem blk9_apply (t : Fin cfg0.N) (a : Fin 64) (b : Fin 8) :
    (iblk m c 9 t : Vec Ideal S64x8 .bf16) (ix2 a b) = (V m c main_v96 : S64x8.Idx → EReal) (ix2 a b) := by
  obtain ⟨-, -, -, -, -, -, -, -, -, -, -, -, -, -, -, -, e0, e1, -⟩ := idx_facts t
  unfold iblk
  rw [View.read_apply]
  show V m c main_v96 _ = V m c main_v96 _
  congr 1
  funext ax
  apply Fin.ext
  match ax with
  | ⟨0, _⟩ => show win0_9.index t 0 * 64 + 1 * a.val = a.val; rw [e0]; omega
  | ⟨1, _⟩ => show win0_9.index t 1 * 8 + 1 * b.val = b.val; rw [e1]; omega

/-- Window 10 hands every point its whole array. -/
theorem blk10_apply (t : Fin cfg0.N) (a : Fin 8) (b : Fin 64) :
    (iblk m c 10 t : Vec Ideal S8x64 .bf16) (ix2 a b) = (V m c main_v97 : S8x64.Idx → EReal) (ix2 a b) := by
  obtain ⟨-, -, -, -, -, -, -, -, -, -, -, -, -, -, -, -, -, -, e0, e1, -⟩ := idx_facts t
  unfold iblk
  rw [View.read_apply]
  show V m c main_v97 _ = V m c main_v97 _
  congr 1
  funext ax
  apply Fin.ext
  match ax with
  | ⟨0, _⟩ => show win0_10.index t 0 * 8 + 1 * a.val = a.val; rw [e0]; omega
  | ⟨1, _⟩ => show win0_10.index t 1 * 64 + 1 * b.val = b.val; rw [e1]; omega

/-- Window 4 hands every point its whole array. -/
theorem blk4_apply (t : Fin cfg0.N) (a : Fin 512) :
    (iblk m c 4 t : Vec Ideal S512 .f32) (ix1 a) = (V m c main_arg11 : S512.Idx → EReal) (ix1 a) := by
  obtain ⟨-, -, -, -, -, -, -, -, e0, -⟩ := idx_facts t
  unfold iblk
  rw [View.read_apply]
  show V m c main_arg11 _ = V m c main_arg11 _
  congr 1
  funext ax
  apply Fin.ext
  match ax with
  | ⟨0, _⟩ => show win0_4.index t 0 * 512 + 1 * a.val = a.val; rw [e0]; omega

/-- Window 7 hands every point its whole array. -/
theorem blk7_apply (t : Fin cfg0.N) (a : Fin 512) :
    (iblk m c 7 t : Vec Ideal S512 .f32) (ix1 a) = (V m c main_arg17 : S512.Idx → EReal) (ix1 a) := by
  obtain ⟨-, -, -, -, -, -, -, -, -, -, -, -, -, e0, -⟩ := idx_facts t
  unfold iblk
  rw [View.read_apply]
  show V m c main_arg17 _ = V m c main_arg17 _
  congr 1
  funext ax
  apply Fin.ext
  match ax with
  | ⟨0, _⟩ => show win0_7.index t 0 * 512 + 1 * a.val = a.val; rw [e0]; omega

/-- The loss array the run leaves: the specification's loss of each row. -/
def lossArr : S65536.Idx → EReal := fun i => Spec.loss (A m c) (i 0)
/-- The norm array the run leaves: the specification's norm of each row's transformed row. -/
def normArr : S65536.Idx → EReal := fun i =>
  Spec.normOf (Spec.D (A m c) (i 0)) (Spec.M (A m c) (i 0)) (fun k j => (A m c).wout (Spec.lo k) j)
    (fun k j => (A m c).wout (Spec.hi k) j) (A m c).bout

/-- The motif row the body forms from point t's blocks at row p is the specification's motif row of row 1024 t + p. -/
theorem rowM_eq (t : Fin cfg0.N) (p : Fin 1024) :
    rowM (iblk m c 1 t) (iblk m c 2 t) (iblk m c 3 t) (iblk m c 4 t) (iblk m c 8 t) (iblk m c 9 t) (iblk m c 10 t) p = Spec.M (A m c) (rowAt t p) := by
  unfold rowM Spec.M
  have h1 : (fun k => (iblk m c 1 t : Vec Ideal S1024x512 .f32) (ix2 p k)) = Spec.C (A m c) (rowAt t p) :=
    funext fun k => (blk1_apply m c t p k).trans (ctx_apply m c _ k)
  have h3 : (fun k j => (iblk m c 3 t : Vec Ideal S512x512 .bf16) (ix2 k j)) = (A m c).wq :=
    funext fun k => funext fun j => (blk3_apply m c t k j).trans (wq_apply m c k j)
  have h4 : (fun j => (iblk m c 4 t : Vec Ideal S512 .f32) (ix1 j)) = (A m c).bq :=
    funext fun j => (blk4_apply m c t j).trans (bq_apply m c j)
  have h8 : (fun mm d => (iblk m c 8 t : Vec Ideal S64x8 .bf16) (ix2 d mm)) = Spec.LK (A m c) :=
    funext fun mm => funext fun d => (blk8_apply m c t d mm).trans (lkT_apply m c d mm)
  have h9 : (fun mm d => (iblk m c 9 t : Vec Ideal S64x8 .bf16) (ix2 d mm)) = Spec.GK (A m c) :=
    funext fun mm => funext fun d => (blk9_apply m c t d mm).trans (gkT_apply m c d mm)
  have h10 : (fun mm d => (iblk m c 10 t : Vec Ideal S8x64 .bf16) (ix2 mm d)) = Spec.MO (A m c) :=
    funext fun mm => funext fun d => (blk10_apply m c t mm d).trans (mo_apply m c mm d)
  have h2 : (iblk m c 2 t : Vec Ideal S1024x1 .f32) (ix2 p (0 : Fin 1)) = Spec.dens (A m c) (rowAt t p) :=
    (blk2_apply m c t p).trans (dens_apply m c _)
  rw [h1, h3, h4, h8, h9, h10, h2]

/-- The diff row the body reads at row p of point t is the specification's diff row of row 1024 t + p. -/
theorem rowD_eq (t : Fin cfg0.N) (p : Fin 1024) :
    (fun j => (iblk m c 0 t : Vec Ideal S1024x512 .f32) (ix2 p j)) = Spec.D (A m c) (rowAt t p) :=
  funext fun k => (blk0_apply m c t p k).trans (diff_apply m c _ k)

/-- Row p of point t's result block is entry 1024 t + p of the result array. -/
theorem emb11 (t : Fin cfg0.N) (p : Fin 1024) : ((cfg0.win 11).blk t).view.emb (ix1 p) = ix1 (rowAt t p) := by
  obtain ⟨-, -, -, -, -, -, -, -, -, -, -, -, -, -, -, -, -, -, -, -, e11, -⟩ := idx_facts t
  funext a
  apply Fin.ext
  match a with
  | ⟨0, _⟩ => show win0_11.index t 0 * 1024 + 1 * p.val = t.val * 1024 + p.val; rw [e11]; omega

theorem emb12 (t : Fin cfg0.N) (p : Fin 1024) : ((cfg0.win 12).blk t).view.emb (ix1 p) = ix1 (rowAt t p) := by
  obtain ⟨-, -, -, -, -, -, -, -, -, -, -, -, -, -, -, -, -, -, -, -, -, e12⟩ := idx_facts t
  funext a
  apply Fin.ext
  match a with
  | ⟨0, _⟩ => show win0_12.index t 0 * 1024 + 1 * p.val = t.val * 1024 + p.val; rw [e12]; omega

/-- What point t writes back to the loss array is block t of the specification's loss array. -/
theorem flushed11 (t : Fin cfg0.N) :
    (dats m 0 c).flushed 11 t = ((cfg0.win 11).blk t).view.read (Elt Ideal) (lossArr m c) := by
  show (cfg0.win 11).cut (grid0.coords t) ((dats m 0 c).after 11 t) = _
  rw [after0_11]
  funext y
  obtain ⟨p, rfl⟩ : ∃ p : Fin 1024, y = ix1 p := ⟨y 0, eq_ix1 y⟩
  show out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix1 p) = lossArr m c (((cfg0.win 11).blk t).view.emb (ix1 p))
  rw [emb11]
  refine (loss_apply (iblk m c 0 t) (iblk m c 1 t) (iblk m c 2 t) (iblk m c 3 t) (iblk m c 4 t) (iblk m c 5 t) (iblk m c 6 t) (iblk m c 7 t) (iblk m c 8 t) (iblk m c 9 t) (iblk m c 10 t) p).trans ?_
  rw [rowM_eq, rowD_eq]
  rfl

/-- What point t writes back to the norm array is block t of the specification's norm array. -/
theorem flushed12 (t : Fin cfg0.N) :
    (dats m 0 c).flushed 12 t = ((cfg0.win 12).blk t).view.read (Elt Ideal) (normArr m c) := by
  show (cfg0.win 12).cut (grid0.coords t) ((dats m 0 c).after 12 t) = _
  rw [after0_12]
  funext y
  obtain ⟨p, rfl⟩ : ∃ p : Fin 1024, y = ix1 p := ⟨y 0, eq_ix1 y⟩
  show out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix1 p) = normArr m c (((cfg0.win 12).blk t).view.emb (ix1 p))
  rw [emb12]
  refine (norm_apply (iblk m c 0 t) (iblk m c 1 t) (iblk m c 2 t) (iblk m c 3 t) (iblk m c 4 t) (iblk m c 5 t) (iblk m c 6 t) (iblk m c 7 t) (iblk m c 8 t) (iblk m c 9 t) (iblk m c 10 t) p).trans ?_
  have h5 : (fun k j => (iblk m c 5 t : Vec Ideal S512x512 .bf16) (ix2 k j)) = fun k j => (A m c).wout (Spec.lo k) j :=
    funext fun k => funext fun j => (blk5_apply m c t k j).trans (wtop_apply m c k j)
  have h6 : (fun k j => (iblk m c 6 t : Vec Ideal S512x512 .bf16) (ix2 k j)) = fun k j => (A m c).wout (Spec.hi k) j :=
    funext fun k => funext fun j => (blk6_apply m c t k j).trans (wbot_apply m c k j)
  have h7 : (fun j => (iblk m c 7 t : Vec Ideal S512 .f32) (ix1 j)) = (A m c).bout :=
    funext fun j => (blk7_apply m c t j).trans (bout_apply m c j)
  rw [rowM_eq, rowD_eq, h5, h6, h7]
  rfl

/-- Entry i of a result array lies in the block of point i div 1024. -/
theorem mem_blk11 (t : Fin cfg0.N) (i : S65536.Idx) :
    i ∈ ((cfg0.win 11).blk t).view.set ↔ ∀ a : Fin 1, win0_11.index t a * S1024.size a ≤ (i a).val ∧ (i a).val < win0_11.index t a * S1024.size a + S1024.size a := by
  show i ∈ ((View.whole main_v98_0).slice (win0_11.rect t)).set ↔ _
  rw [View.set_slice_whole, Rect.mem_set_unit]
  exact Iff.rfl

theorem mem_blk12 (t : Fin cfg0.N) (i : S65536.Idx) :
    i ∈ ((cfg0.win 12).blk t).view.set ↔ ∀ a : Fin 1, win0_12.index t a * S1024.size a ≤ (i a).val ∧ (i a).val < win0_12.index t a * S1024.size a + S1024.size a := by
  show i ∈ ((View.whole main_v98_1).slice (win0_12.rect t)).set ↔ _
  rw [View.set_slice_whole, Rect.mem_set_unit]
  exact Iff.rfl

/-- The point whose block holds entry i. -/
def pointOf (i : S65536.Idx) : Fin cfg0.N :=
  ⟨(i 0).val / 1024, by have hi : (i 0).val < 65536 := (i 0).isLt; rw [N64]; omega⟩

/-- THE LOSS ARRAY after the run. -/
theorem final11 : (dats m 0 c).arrAt 11 cfg0.N = lossArr m c :=
  (dats m 0 c).arrAt_eq_of_cover 11 (lossArr m c) (fun t _ => flushed11 m c t) fun i =>
    ⟨pointOf i, flush0_11 _, by
      obtain ⟨-, -, -, -, -, -, -, -, -, -, -, -, -, -, -, -, -, -, -, -, e11, -⟩ := idx_facts (pointOf i)
      rw [mem_blk11]
      intro a
      have hi : (i 0).val < 65536 := (i 0).isLt
      match a with
      | ⟨0, _⟩ =>
        show win0_11.index (pointOf i) 0 * 1024 ≤ (i 0).val ∧ (i 0).val < win0_11.index (pointOf i) 0 * 1024 + 1024
        rw [e11]
        show (i 0).val / 1024 * 1024 ≤ (i 0).val ∧ (i 0).val < (i 0).val / 1024 * 1024 + 1024
        omega⟩

/-- THE NORM ARRAY after the run. -/
theorem final12 : (dats m 0 c).arrAt 12 cfg0.N = normArr m c :=
  (dats m 0 c).arrAt_eq_of_cover 12 (normArr m c) (fun t _ => flushed12 m c t) fun i =>
    ⟨pointOf i, flush0_12 _, by
      obtain ⟨-, -, -, -, -, -, -, -, -, -, -, -, -, -, -, -, -, -, -, -, -, e12⟩ := idx_facts (pointOf i)
      rw [mem_blk12]
      intro a
      have hi : (i 0).val < 65536 := (i 0).isLt
      match a with
      | ⟨0, _⟩ =>
        show win0_12.index (pointOf i) 0 * 1024 ≤ (i 0).val ∧ (i 0).val < win0_12.index (pointOf i) 0 * 1024 + 1024
        rw [e12]
        show (i 0).val / 1024 * 1024 ≤ (i 0).val ∧ (i 0).val < (i 0).val / 1024 * 1024 + 1024
        omega⟩

end Cert.KernelArr

end
-- ==== Proof.KernelRun.lean ====
/-
  The kernel program's run, read: every weakly fair execution ends with the score buffer at the specification's
  score and the loss buffer at the specification's loss of the argument arrays, row by row, and the arguments unchanged.
-/
import proofs.«180155_j68143951118751_2_alg».proof.Proof.KernelArray

noncomputable section

namespace Cert.KernelArr

open Idealize.ShloMosaic Idealize.ShloMosaic.TcCoe Idealize.SL.Sem Idealize.ShloMosaic.ValueIdx
open Cert.KernelIdeal Cert.KernelIdeal.Gen Cert.KernelHost

/-- The score array of the specification over the memory's arguments. -/
def scoreArr (m : (ℓ : Loc nD τ sig) → Buf (Elt Ideal) ℓ) (c : Dev nD) : S65536.Idx → EReal :=
  fun i => Spec.score (A m c) (i 0)

theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v102) = scoreArr m c
      ∧ r.2.mem ((c.tc : Thread nD τ).loc main_v98_0) = lossArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  run_kernel m ρ (fun c => normArr m c) (fun c => lossArr m c) (fun c => final12 m c) (fun c => final11 m c)

end Cert.KernelArr

end
-- ==== Proof.RefAfter.lean ====
/-
  The reference's 180 host operations, run from ANY buffer contents, leave the two result buffers at the stage
  functions of the argument buffers' contents. The line is cut into stretches of at most fifteen operations; for each
  stretch: if the buffers it reads (and those read later) hold the stages of the arguments x0 .. x22, then after the
  stretch the buffers read later hold the stages of the same arguments. Within a stretch each operation's result is its
  function of its operands' contents and any other buffer is kept, so a buffer's contents after the stretch is a
  small term over the contents before it; between stretches only the stages' names are carried, so nothing grows.
  The concatenation [diff, motif] is a stretch of its own: its two operands are rewritten inside its list of pieces.
-/
import proofs.«180155_j68143951118751_2_alg».proof.Proof.RefReadP
import Idealize.ShloMosaic.Lib.Pipeline.Frame

noncomputable section

namespace Cert.RefAfter

open Cert.ReferenceIdeal Cert.ReferenceIdeal.Gen Cert.ReferenceIdeal.ReadP Idealize.ShloMosaic Idealize.ShloMosaic.TcCoe Idealize.SL.Sem
  Idealize.ShloMosaic.StableHlo

variable {F : FTy → Type} [FloatOps F]

/-- Operations 1 to 15 of @main. -/
abbrev ops_0 : List (HloOp τ sig (Elt F)) :=
  [ nullary main_c (constantI S_ 32 0#32),
    unary main_c main_v0 (broadcastInDim S65536 ![] bcast_S_S65536 : (⟨S_, .i32⟩ : BufTy).Contents (Elt F) → (⟨S65536, .i32⟩ : BufTy).Contents (Elt F)),
    binary main_arg20 main_v0 main_v1 (cmpi .slt : (⟨S65536, .i32⟩ : BufTy).Contents (Elt F) → (⟨S65536, .i32⟩ : BufTy).Contents (Elt F) → (⟨S65536, .i1⟩ : BufTy).Contents (Elt F)),
    nullary main_c_0 (constantI S_ 32 100000#32),
    unary main_c_0 main_v2 (broadcastInDim S65536 ![] bcast_S_S65536 : (⟨S_, .i32⟩ : BufTy).Contents (Elt F) → (⟨S65536, .i32⟩ : BufTy).Contents (Elt F)),
    binary main_arg20 main_v2 main_v3 (addi : (⟨S65536, .i32⟩ : BufTy).Contents (Elt F) → (⟨S65536, .i32⟩ : BufTy).Contents (Elt F) → (⟨S65536, .i32⟩ : BufTy).Contents (Elt F)),
    ternary main_v1 main_v3 main_arg20 main_v4 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v4 main_v5 (broadcastInDim S65536x1 ![0] bcast_S65536_S65536x1_0 : (⟨S65536, .i32⟩ : BufTy).Contents (Elt F) → (⟨S65536x1, .i32⟩ : BufTy).Contents (Elt F)),
    binary main_arg0 main_v5 main_v6 ((fun x i => Host.gather gather_S100000x512_S65536x1_S65536x512_1_0_n_n_0_1_1512 x i) : (⟨S100000x512, .f32⟩ : BufTy).Contents (Elt F) → (⟨S65536x1, .i32⟩ : BufTy).Contents (Elt F) → (⟨S65536x512, .f32⟩ : BufTy).Contents (Elt F)),
    nullary main_c_1 (constantI S_ 32 0#32),
    unary main_c_1 main_v7 (broadcastInDim S65536 ![] bcast_S_S65536 : (⟨S_, .i32⟩ : BufTy).Contents (Elt F) → (⟨S65536, .i32⟩ : BufTy).Contents (Elt F)),
    binary main_arg21 main_v7 main_v8 (cmpi .slt : (⟨S65536, .i32⟩ : BufTy).Contents (Elt F) → (⟨S65536, .i32⟩ : BufTy).Contents (Elt F) → (⟨S65536, .i1⟩ : BufTy).Contents (Elt F)),
    nullary main_c_2 (constantI S_ 32 50#32),
    unary main_c_2 main_v9 (broadcastInDim S65536 ![] bcast_S_S65536 : (⟨S_, .i32⟩ : BufTy).Contents (Elt F) → (⟨S65536, .i32⟩ : BufTy).Contents (Elt F)),
    binary main_arg21 main_v9 main_v10 (addi : (⟨S65536, .i32⟩ : BufTy).Contents (Elt F) → (⟨S65536, .i32⟩ : BufTy).Contents (Elt F) → (⟨S65536, .i32⟩ : BufTy).Contents (Elt F)) ]

set_option maxRecDepth 16384 in
set_option maxHeartbeats 16000000 in
/-- After operations 1 to 15: from any contents at which the buffers still to be read are the stages of the arguments, the buffers to be read later are again the stages of the arguments. -/
theorem stretch_0 (W : Valuation τ sig (Elt F))
    (x0 : (⟨S100000x512, .f32⟩ : BufTy).Contents (Elt F)) (x1 : (⟨S50x512, .f32⟩ : BufTy).Contents (Elt F)) (x2 : (⟨S100000x512, .f32⟩ : BufTy).Contents (Elt F)) (x3 : (⟨S512x1, .f32⟩ : BufTy).Contents (Elt F)) (x4 : (⟨S1, .f32⟩ : BufTy).Contents (Elt F)) (x5 : (⟨S50x512, .f32⟩ : BufTy).Contents (Elt F)) (x6 : (⟨S512x1, .f32⟩ : BufTy).Contents (Elt F)) (x7 : (⟨S1, .f32⟩ : BufTy).Contents (Elt F)) (x8 : (⟨S8x64, .f32⟩ : BufTy).Contents (Elt F)) (x9 : (⟨S8x64, .f32⟩ : BufTy).Contents (Elt F)) (x10 : (⟨S512x512, .f32⟩ : BufTy).Contents (Elt F)) (x11 : (⟨S512, .f32⟩ : BufTy).Contents (Elt F)) (x12 : (⟨S64x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S1024x512, .f32⟩ : BufTy).Contents (Elt F)) (x17 : (⟨S512, .f32⟩ : BufTy).Contents (Elt F)) (x18 : (⟨S_, .f32⟩ : BufTy).Contents (Elt F)) (x19 : (⟨S_, .f32⟩ : BufTy).Contents (Elt F)) (x20 : (⟨S65536, .i32⟩ : BufTy).Contents (Elt F)) (x21 : (⟨S65536, .i32⟩ : BufTy).Contents (Elt F)) (x22 : (⟨S65536, .i32⟩ : BufTy).Contents (Elt F))
    (h_main_arg20 : W (Proc.devRef .tc main_arg20) = x20)
    (h_main_arg0 : W (Proc.devRef .tc main_arg0) = x0)
    (h_main_arg21 : W (Proc.devRef .tc main_arg21) = x21)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg14 : W (Proc.devRef .tc main_arg14) = x14)
    (h_main_arg15 : W (Proc.devRef .tc main_arg15) = x15)
    (h_main_arg16 : W (Proc.devRef .tc main_arg16) = x16)
    (h_main_arg17 : W (Proc.devRef .tc main_arg17) = x17)
    (h_main_arg18 : W (Proc.devRef .tc main_arg18) = x18)
    (h_main_arg19 : W (Proc.devRef .tc main_arg19) = x19)
    (h_main_arg22 : W (Proc.devRef .tc main_arg22) = x22) :
    after (ops_0 (F := F)) W (Proc.devRef .tc main_arg0) = x0
    ∧ after (ops_0 (F := F)) W (Proc.devRef .tc main_arg1) = x1
    ∧ after (ops_0 (F := F)) W (Proc.devRef .tc main_arg2) = x2
    ∧ after (ops_0 (F := F)) W (Proc.devRef .tc main_arg3) = x3
    ∧ after (ops_0 (F := F)) W (Proc.devRef .tc main_arg4) = x4
    ∧ after (ops_0 (F := F)) W (Proc.devRef .tc main_arg5) = x5
    ∧ after (ops_0 (F := F)) W (Proc.devRef .tc main_arg6) = x6
    ∧ after (ops_0 (F := F)) W (Proc.devRef .tc main_arg7) = x7
    ∧ after (ops_0 (F := F)) W (Proc.devRef .tc main_arg8) = x8
    ∧ after (ops_0 (F := F)) W (Proc.devRef .tc main_arg9) = x9
    ∧ after (ops_0 (F := F)) W (Proc.devRef .tc main_arg10) = x10
    ∧ after (ops_0 (F := F)) W (Proc.devRef .tc main_arg11) = x11
    ∧ after (ops_0 (F := F)) W (Proc.devRef .tc main_arg12) = x12
    ∧ after (ops_0 (F := F)) W (Proc.devRef .tc main_arg13) = x13
    ∧ after (ops_0 (F := F)) W (Proc.devRef .tc main_arg14) = x14
    ∧ after (ops_0 (F := F)) W (Proc.devRef .tc main_arg15) = x15
    ∧ after (ops_0 (F := F)) W (Proc.devRef .tc main_arg16) = x16
    ∧ after (ops_0 (F := F)) W (Proc.devRef .tc main_arg17) = x17
    ∧ after (ops_0 (F := F)) W (Proc.devRef .tc main_arg18) = x18
    ∧ after (ops_0 (F := F)) W (Proc.devRef .tc main_arg19) = x19
    ∧ after (ops_0 (F := F)) W (Proc.devRef .tc main_arg20) = x20
    ∧ after (ops_0 (F := F)) W (Proc.devRef .tc main_arg21) = x21
    ∧ after (ops_0 (F := F)) W (Proc.devRef .tc main_arg22) = x22
    ∧ after (ops_0 (F := F)) W (Proc.devRef .tc main_v6) = (val_main_v6 (F := F) x0 x20)
    ∧ after (ops_0 (F := F)) W (Proc.devRef .tc main_v8) = (val_main_v8 (F := F) x21)
    ∧ after (ops_0 (F := F)) W (Proc.devRef .tc main_v10) = (val_main_v10 (F := F) x21) := by
  refine ⟨?_, ?_, ?_, ?_, ?_, ?_, ?_, ?_, ?_, ?_, ?_, ?_, ?_, ?_, ?_, ?_, ?_, ?_, ?_, ?_, ?_, ?_, ?_, ?_, ?_, ?_⟩ <;> after_results_simp <;> (try simp only [h_main_arg20, h_main_arg0, h_main_arg21, h_main_arg1, h_main_arg2, h_main_arg3, h_main_arg4, h_main_arg5, h_main_arg6, h_main_arg7, h_main_arg8, h_main_arg9, h_main_arg10, h_main_arg11, h_main_arg12, h_main_arg13, h_main_arg14, h_main_arg15, h_main_arg16, h_main_arg17, h_main_arg18, h_main_arg19, h_main_arg22]) <;> (try rfl)

/-- Operations 16 to 30 of @main. -/
abbrev ops_1 : List (HloOp τ sig (Elt F)) :=
  [ ternary main_v8 main_v10 main_arg21 main_v11 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v11 main_v12 (broadcastInDim S65536x1 ![0] bcast_S65536_S65536x1_0 : (⟨S65536, .i32⟩ : BufTy).Contents (Elt F) → (⟨S65536x1, .i32⟩ : BufTy).Contents (Elt F)),
    binary main_arg1 main_v12 main_v13 ((fun x i => Host.gather gather_S50x512_S65536x1_S65536x512_1_0_n_n_0_1_1512 x i) : (⟨S50x512, .f32⟩ : BufTy).Contents (Elt F) → (⟨S65536x1, .i32⟩ : BufTy).Contents (Elt F) → (⟨S65536x512, .f32⟩ : BufTy).Contents (Elt F)),
    nullary main_c_3 (constantI S_ 32 0#32),
    unary main_c_3 main_v14 (broadcastInDim S65536 ![] bcast_S_S65536 : (⟨S_, .i32⟩ : BufTy).Contents (Elt F) → (⟨S65536, .i32⟩ : BufTy).Contents (Elt F)),
    binary main_arg22 main_v14 main_v15 (cmpi .slt : (⟨S65536, .i32⟩ : BufTy).Contents (Elt F) → (⟨S65536, .i32⟩ : BufTy).Contents (Elt F) → (⟨S65536, .i1⟩ : BufTy).Contents (Elt F)),
    nullary main_c_4 (constantI S_ 32 100000#32),
    unary main_c_4 main_v16 (broadcastInDim S65536 ![] bcast_S_S65536 : (⟨S_, .i32⟩ : BufTy).Contents (Elt F) → (⟨S65536, .i32⟩ : BufTy).Contents (Elt F)),
    binary main_arg22 main_v16 main_v17 (addi : (⟨S65536, .i32⟩ : BufTy).Contents (Elt F) → (⟨S65536, .i32⟩ : BufTy).Contents (Elt F) → (⟨S65536, .i32⟩ : BufTy).Contents (Elt F)),
    ternary main_v15 main_v17 main_arg22 main_v18 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v18 main_v19 (broadcastInDim S65536x1 ![0] bcast_S65536_S65536x1_0 : (⟨S65536, .i32⟩ : BufTy).Contents (Elt F) → (⟨S65536x1, .i32⟩ : BufTy).Contents (Elt F)),
    binary main_arg0 main_v19 main_v20 ((fun x i => Host.gather gather_S100000x512_S65536x1_S65536x512_1_0_n_n_0_1_1512 x i) : (⟨S100000x512, .f32⟩ : BufTy).Contents (Elt F) → (⟨S65536x1, .i32⟩ : BufTy).Contents (Elt F) → (⟨S65536x512, .f32⟩ : BufTy).Contents (Elt F)),
    nullary main_c_5 (constantI S_ 32 0#32),
    unary main_c_5 main_v21 (broadcastInDim S65536 ![] bcast_S_S65536 : (⟨S_, .i32⟩ : BufTy).Contents (Elt F) → (⟨S65536, .i32⟩ : BufTy).Contents (Elt F)),
    binary main_arg20 main_v21 main_v22 (cmpi .slt : (⟨S65536, .i32⟩ : BufTy).Contents (Elt F) → (⟨S65536, .i32⟩ : BufTy).Contents (Elt F) → (⟨S65536, .i1⟩ : BufTy).Contents (Elt F)) ]

set_option maxRecDepth 16384 in
set_option maxHeartbeats 16000000 in
/-- After operations 16 to 30: from any contents at which the buffers still to be read are the stages of the arguments, the buffers to be read later are again the stages of the arguments. -/
theorem stretch_1 (W : Valuation τ sig (Elt F))
    (x0 : (⟨S100000x512, .f32⟩ : BufTy).Contents (Elt F)) (x1 : (⟨S50x512, .f32⟩ : BufTy).Contents (Elt F)) (x2 : (⟨S100000x512, .f32⟩ : BufTy).Contents (Elt F)) (x3 : (⟨S512x1, .f32⟩ : BufTy).Contents (Elt F)) (x4 : (⟨S1, .f32⟩ : BufTy).Contents (Elt F)) (x5 : (⟨S50x512, .f32⟩ : BufTy).Contents (Elt F)) (x6 : (⟨S512x1, .f32⟩ : BufTy).Contents (Elt F)) (x7 : (⟨S1, .f32⟩ : BufTy).Contents (Elt F)) (x8 : (⟨S8x64, .f32⟩ : BufTy).Contents (Elt F)) (x9 : (⟨S8x64, .f32⟩ : BufTy).Contents (Elt F)) (x10 : (⟨S512x512, .f32⟩ : BufTy).Contents (Elt F)) (x11 : (⟨S512, .f32⟩ : BufTy).Contents (Elt F)) (x12 : (⟨S64x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S1024x512, .f32⟩ : BufTy).Contents (Elt F)) (x17 : (⟨S512, .f32⟩ : BufTy).Contents (Elt F)) (x18 : (⟨S_, .f32⟩ : BufTy).Contents (Elt F)) (x19 : (⟨S_, .f32⟩ : BufTy).Contents (Elt F)) (x20 : (⟨S65536, .i32⟩ : BufTy).Contents (Elt F)) (x21 : (⟨S65536, .i32⟩ : BufTy).Contents (Elt F)) (x22 : (⟨S65536, .i32⟩ : BufTy).Contents (Elt F))
    (h_main_v8 : W (Proc.devRef .tc main_v8) = (val_main_v8 (F := F) x21))
    (h_main_v10 : W (Proc.devRef .tc main_v10) = (val_main_v10 (F := F) x21))
    (h_main_arg21 : W (Proc.devRef .tc main_arg21) = x21)
    (h_main_arg1 : W (Proc.devRef .tc main_arg1) = x1)
    (h_main_arg22 : W (Proc.devRef .tc main_arg22) = x22)
    (h_main_arg0 : W (Proc.devRef .tc main_arg0) = x0)
    (h_main_arg20 : W (Proc.devRef .tc main_arg20) = x20)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg14 : W (Proc.devRef .tc main_arg14) = x14)
    (h_main_arg15 : W (Proc.devRef .tc main_arg15) = x15)
    (h_main_arg16 : W (Proc.devRef .tc main_arg16) = x16)
    (h_main_arg17 : W (Proc.devRef .tc main_arg17) = x17)
    (h_main_arg18 : W (Proc.devRef .tc main_arg18) = x18)
    (h_main_arg19 : W (Proc.devRef .tc main_arg19) = x19)
    (h_main_v6 : W (Proc.devRef .tc main_v6) = (val_main_v6 (F := F) x0 x20)) :
    after (ops_1 (F := F)) W (Proc.devRef .tc main_arg2) = x2
    ∧ after (ops_1 (F := F)) W (Proc.devRef .tc main_arg3) = x3
    ∧ after (ops_1 (F := F)) W (Proc.devRef .tc main_arg4) = x4
    ∧ after (ops_1 (F := F)) W (Proc.devRef .tc main_arg5) = x5
    ∧ after (ops_1 (F := F)) W (Proc.devRef .tc main_arg6) = x6
    ∧ after (ops_1 (F := F)) W (Proc.devRef .tc main_arg7) = x7
    ∧ after (ops_1 (F := F)) W (Proc.devRef .tc main_arg8) = x8
    ∧ after (ops_1 (F := F)) W (Proc.devRef .tc main_arg9) = x9
    ∧ after (ops_1 (F := F)) W (Proc.devRef .tc main_arg10) = x10
    ∧ after (ops_1 (F := F)) W (Proc.devRef .tc main_arg11) = x11
    ∧ after (ops_1 (F := F)) W (Proc.devRef .tc main_arg12) = x12
    ∧ after (ops_1 (F := F)) W (Proc.devRef .tc main_arg13) = x13
    ∧ after (ops_1 (F := F)) W (Proc.devRef .tc main_arg14) = x14
    ∧ after (ops_1 (F := F)) W (Proc.devRef .tc main_arg15) = x15
    ∧ after (ops_1 (F := F)) W (Proc.devRef .tc main_arg16) = x16
    ∧ after (ops_1 (F := F)) W (Proc.devRef .tc main_arg17) = x17
    ∧ after (ops_1 (F := F)) W (Proc.devRef .tc main_arg18) = x18
    ∧ after (ops_1 (F := F)) W (Proc.devRef .tc main_arg19) = x19
    ∧ after (ops_1 (F := F)) W (Proc.devRef .tc main_arg20) = x20
    ∧ after (ops_1 (F := F)) W (Proc.devRef .tc main_arg21) = x21
    ∧ after (ops_1 (F := F)) W (Proc.devRef .tc main_arg22) = x22
    ∧ after (ops_1 (F := F)) W (Proc.devRef .tc main_v6) = (val_main_v6 (F := F) x0 x20)
    ∧ after (ops_1 (F := F)) W (Proc.devRef .tc main_v13) = (val_main_v13 (F := F) x1 x21)
    ∧ after (ops_1 (F := F)) W (Proc.devRef .tc main_v20) = (val_main_v20 (F := F) x0 x22)
    ∧ after (ops_1 (F := F)) W (Proc.devRef .tc main_v22) = (val_main_v22 (F := F) x20) := by
  refine ⟨?_, ?_, ?_, ?_, ?_, ?_, ?_, ?_, ?_, ?_, ?_, ?_, ?_, ?_, ?_, ?_, ?_, ?_, ?_, ?_, ?_, ?_, ?_, ?_, ?_⟩ <;> after_results_simp <;> (try simp only [h_main_v8, h_main_v10, h_main_arg21, h_main_arg1, h_main_arg22, h_main_arg0, h_main_arg20, h_main_arg2, h_main_arg3, h_main_arg4, h_main_arg5, h_main_arg6, h_main_arg7, h_main_arg8, h_main_arg9, h_main_arg10, h_main_arg11, h_main_arg12, h_main_arg13, h_main_arg14, h_main_arg15, h_main_arg16, h_main_arg17, h_main_arg18, h_main_arg19, h_main_v6]) <;> (try rfl)

/-- Operations 31 to 45 of @main. -/
abbrev ops_2 : List (HloOp τ sig (Elt F)) :=
  [ nullary main_c_6 (constantI S_ 32 100000#32),
    unary main_c_6 main_v23 (broadcastInDim S65536 ![] bcast_S_S65536 : (⟨S_, .i32⟩ : BufTy).Contents (Elt F) → (⟨S65536, .i32⟩ : BufTy).Contents (Elt F)),
    binary main_arg20 main_v23 main_v24 (addi : (⟨S65536, .i32⟩ : BufTy).Contents (Elt F) → (⟨S65536, .i32⟩ : BufTy).Contents (Elt F) → (⟨S65536, .i32⟩ : BufTy).Contents (Elt F)),
    ternary main_v22 main_v24 main_arg20 main_v25 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v25 main_v26 (broadcastInDim S65536x1 ![0] bcast_S65536_S65536x1_0 : (⟨S65536, .i32⟩ : BufTy).Contents (Elt F) → (⟨S65536x1, .i32⟩ : BufTy).Contents (Elt F)),
    binary main_arg2 main_v26 main_v27 ((fun x i => Host.gather gather_S100000x512_S65536x1_S65536x512_1_0_n_n_0_1_1512 x i) : (⟨S100000x512, .f32⟩ : BufTy).Contents (Elt F) → (⟨S65536x1, .i32⟩ : BufTy).Contents (Elt F) → (⟨S65536x512, .f32⟩ : BufTy).Contents (Elt F)),
    binary main_v27 main_arg3 main_v28 ((fun l r => Host.dotGeneral dot_S65536x512_S512x1_S65536x1_1_0_0_1_n_n none l r) : (⟨S65536x512, .f32⟩ : BufTy).Contents (Elt F) → (⟨S512x1, .f32⟩ : BufTy).Contents (Elt F) → (⟨S65536x1, .f32⟩ : BufTy).Contents (Elt F)),
    unary main_arg4 main_v29 (broadcastInDim S1x1 ![1] bcast_S1_S1x1_1 : (⟨S1, .f32⟩ : BufTy).Contents (Elt F) → (⟨S1x1, .f32⟩ : BufTy).Contents (Elt F)),
    unary main_v29 main_v30 (broadcastInDim S65536x1 ![0, 1] bcast_S1x1_S65536x1_0_1 : (⟨S1x1, .f32⟩ : BufTy).Contents (Elt F) → (⟨S65536x1, .f32⟩ : BufTy).Contents (Elt F)),
    binary main_v28 main_v30 main_v31 (addf : (⟨S65536x1, .f32⟩ : BufTy).Contents (Elt F) → (⟨S65536x1, .f32⟩ : BufTy).Contents (Elt F) → (⟨S65536x1, .f32⟩ : BufTy).Contents (Elt F)),
    unary main_v31 main_v32 (Host.negf : (⟨S65536x1, .f32⟩ : BufTy).Contents (Elt F) → (⟨S65536x1, .f32⟩ : BufTy).Contents (Elt F)),
    unary main_v32 main_v33 (Host.exp : (⟨S65536x1, .f32⟩ : BufTy).Contents (Elt F) → (⟨S65536x1, .f32⟩ : BufTy).Contents (Elt F)),
    nullary main_cst (constant S_ .f32 0x3F800000#32),
    unary main_cst main_v34 (broadcastInDim S65536x1 ![] bcast_S_S65536x1 : (⟨S_, .f32⟩ : BufTy).Contents (Elt F) → (⟨S65536x1, .f32⟩ : BufTy).Contents (Elt F)),
    binary main_v34 main_v33 main_v35 (addf : (⟨S65536x1, .f32⟩ : BufTy).Contents (Elt F) → (⟨S65536x1, .f32⟩ : BufTy).Contents (Elt F) → (⟨S65536x1, .f32⟩ : BufTy).Contents (Elt F)) ]

set_option maxRecDepth 16384 in
set_option maxHeartbeats 16000000 in
/-- After operations 31 to 45: from any contents at which the buffers still to be read are the stages of the arguments, the buffers to be read later are again the stages of the arguments. -/
theorem stretch_2 (W : Valuation τ sig (Elt F))
    (x0 : (⟨S100000x512, .f32⟩ : BufTy).Contents (Elt F)) (x1 : (⟨S50x512, .f32⟩ : BufTy).Contents (Elt F)) (x2 : (⟨S100000x512, .f32⟩ : BufTy).Contents (Elt F)) (x3 : (⟨S512x1, .f32⟩ : BufTy).Contents (Elt F)) (x4 : (⟨S1, .f32⟩ : BufTy).Contents (Elt F)) (x5 : (⟨S50x512, .f32⟩ : BufTy).Contents (Elt F)) (x6 : (⟨S512x1, .f32⟩ : BufTy).Contents (Elt F)) (x7 : (⟨S1, .f32⟩ : BufTy).Contents (Elt F)) (x8 : (⟨S8x64, .f32⟩ : BufTy).Contents (Elt F)) (x9 : (⟨S8x64, .f32⟩ : BufTy).Contents (Elt F)) (x10 : (⟨S512x512, .f32⟩ : BufTy).Contents (Elt F)) (x11 : (⟨S512, .f32⟩ : BufTy).Contents (Elt F)) (x12 : (⟨S64x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S1024x512, .f32⟩ : BufTy).Contents (Elt F)) (x17 : (⟨S512, .f32⟩ : BufTy).Contents (Elt F)) (x18 : (⟨S_, .f32⟩ : BufTy).Contents (Elt F)) (x19 : (⟨S_, .f32⟩ : BufTy).Contents (Elt F)) (x20 : (⟨S65536, .i32⟩ : BufTy).Contents (Elt F)) (x21 : (⟨S65536, .i32⟩ : BufTy).Contents (Elt F)) (x22 : (⟨S65536, .i32⟩ : BufTy).Contents (Elt F))
    (h_main_arg20 : W (Proc.devRef .tc main_arg20) = x20)
    (h_main_v22 : W (Proc.devRef .tc main_v22) = (val_main_v22 (F := F) x20))
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg14 : W (Proc.devRef .tc main_arg14) = x14)
    (h_main_arg15 : W (Proc.devRef .tc main_arg15) = x15)
    (h_main_arg16 : W (Proc.devRef .tc main_arg16) = x16)
    (h_main_arg17 : W (Proc.devRef .tc main_arg17) = x17)
    (h_main_arg18 : W (Proc.devRef .tc main_arg18) = x18)
    (h_main_arg19 : W (Proc.devRef .tc main_arg19) = x19)
    (h_main_arg21 : W (Proc.devRef .tc main_arg21) = x21)
    (h_main_arg22 : W (Proc.devRef .tc main_arg22) = x22)
    (h_main_v6 : W (Proc.devRef .tc main_v6) = (val_main_v6 (F := F) x0 x20))
    (h_main_v13 : W (Proc.devRef .tc main_v13) = (val_main_v13 (F := F) x1 x21))
    (h_main_v20 : W (Proc.devRef .tc main_v20) = (val_main_v20 (F := F) x0 x22)) :
    after (ops_2 (F := F)) W (Proc.devRef .tc main_arg2) = x2
    ∧ after (ops_2 (F := F)) W (Proc.devRef .tc main_arg3) = x3
    ∧ after (ops_2 (F := F)) W (Proc.devRef .tc main_arg4) = x4
    ∧ after (ops_2 (F := F)) W (Proc.devRef .tc main_arg5) = x5
    ∧ after (ops_2 (F := F)) W (Proc.devRef .tc main_arg6) = x6
    ∧ after (ops_2 (F := F)) W (Proc.devRef .tc main_arg7) = x7
    ∧ after (ops_2 (F := F)) W (Proc.devRef .tc main_arg8) = x8
    ∧ after (ops_2 (F := F)) W (Proc.devRef .tc main_arg9) = x9
    ∧ after (ops_2 (F := F)) W (Proc.devRef .tc main_arg10) = x10
    ∧ after (ops_2 (F := F)) W (Proc.devRef .tc main_arg11) = x11
    ∧ after (ops_2 (F := F)) W (Proc.devRef .tc main_arg12) = x12
    ∧ after (ops_2 (F := F)) W (Proc.devRef .tc main_arg13) = x13
    ∧ after (ops_2 (F := F)) W (Proc.devRef .tc main_arg14) = x14
    ∧ after (ops_2 (F := F)) W (Proc.devRef .tc main_arg15) = x15
    ∧ after (ops_2 (F := F)) W (Proc.devRef .tc main_arg16) = x16
    ∧ after (ops_2 (F := F)) W (Proc.devRef .tc main_arg17) = x17
    ∧ after (ops_2 (F := F)) W (Proc.devRef .tc main_arg18) = x18
    ∧ after (ops_2 (F := F)) W (Proc.devRef .tc main_arg19) = x19
    ∧ after (ops_2 (F := F)) W (Proc.devRef .tc main_arg21) = x21
    ∧ after (ops_2 (F := F)) W (Proc.devRef .tc main_arg22) = x22
    ∧ after (ops_2 (F := F)) W (Proc.devRef .tc main_v6) = (val_main_v6 (F := F) x0 x20)
    ∧ after (ops_2 (F := F)) W (Proc.devRef .tc main_v13) = (val_main_v13 (F := F) x1 x21)
    ∧ after (ops_2 (F := F)) W (Proc.devRef .tc main_v20) = (val_main_v20 (F := F) x0 x22)
    ∧ after (ops_2 (F := F)) W (Proc.devRef .tc main_v35) = (val_main_v35 (F := F) x2 x3 x4 x20) := by
  refine ⟨?_, ?_, ?_, ?_, ?_, ?_, ?_, ?_, ?_, ?_, ?_, ?_, ?_, ?_, ?_, ?_, ?_, ?_, ?_, ?_, ?_, ?_, ?_, ?_⟩ <;> after_results_simp <;> (try simp only [h_main_arg20, h_main_v22, h_main_arg2, h_main_arg3, h_main_arg4, h_main_arg5, h_main_arg6, h_main_arg7, h_main_arg8, h_main_arg9, h_main_arg10, h_main_arg11, h_main_arg12, h_main_arg13, h_main_arg14, h_main_arg15, h_main_arg16, h_main_arg17, h_main_arg18, h_main_arg19, h_main_arg21, h_main_arg22, h_main_v6, h_main_v13, h_main_v20]) <;> (try rfl)

/-- Operations 46 to 60 of @main. -/
abbrev ops_3 : List (HloOp τ sig (Elt F)) :=
  [ nullary main_cst_7 (constant S_ .f32 0x3F800000#32),
    unary main_cst_7 main_v36 (broadcastInDim S65536x1 ![] bcast_S_S65536x1 : (⟨S_, .f32⟩ : BufTy).Contents (Elt F) → (⟨S65536x1, .f32⟩ : BufTy).Contents (Elt F)),
    binary main_v36 main_v35 main_v37 (Host.divf : (⟨S65536x1, .f32⟩ : BufTy).Contents (Elt F) → (⟨S65536x1, .f32⟩ : BufTy).Contents (Elt F) → (⟨S65536x1, .f32⟩ : BufTy).Contents (Elt F)),
    nullary main_c_8 (constantI S_ 32 0#32),
    unary main_c_8 main_v38 (broadcastInDim S65536 ![] bcast_S_S65536 : (⟨S_, .i32⟩ : BufTy).Contents (Elt F) → (⟨S65536, .i32⟩ : BufTy).Contents (Elt F)),
    binary main_arg22 main_v38 main_v39 (cmpi .slt : (⟨S65536, .i32⟩ : BufTy).Contents (Elt F) → (⟨S65536, .i32⟩ : BufTy).Contents (Elt F) → (⟨S65536, .i1⟩ : BufTy).Contents (Elt F)),
    nullary main_c_9 (constantI S_ 32 100000#32),
    unary main_c_9 main_v40 (broadcastInDim S65536 ![] bcast_S_S65536 : (⟨S_, .i32⟩ : BufTy).Contents (Elt F) → (⟨S65536, .i32⟩ : BufTy).Contents (Elt F)),
    binary main_arg22 main_v40 main_v41 (addi : (⟨S65536, .i32⟩ : BufTy).Contents (Elt F) → (⟨S65536, .i32⟩ : BufTy).Contents (Elt F) → (⟨S65536, .i32⟩ : BufTy).Contents (Elt F)),
    ternary main_v39 main_v41 main_arg22 main_v42 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v42 main_v43 (broadcastInDim S65536x1 ![0] bcast_S65536_S65536x1_0 : (⟨S65536, .i32⟩ : BufTy).Contents (Elt F) → (⟨S65536x1, .i32⟩ : BufTy).Contents (Elt F)),
    binary main_arg2 main_v43 main_v44 ((fun x i => Host.gather gather_S100000x512_S65536x1_S65536x512_1_0_n_n_0_1_1512 x i) : (⟨S100000x512, .f32⟩ : BufTy).Contents (Elt F) → (⟨S65536x1, .i32⟩ : BufTy).Contents (Elt F) → (⟨S65536x512, .f32⟩ : BufTy).Contents (Elt F)),
    binary main_v44 main_arg3 main_v45 ((fun l r => Host.dotGeneral dot_S65536x512_S512x1_S65536x1_1_0_0_1_n_n none l r) : (⟨S65536x512, .f32⟩ : BufTy).Contents (Elt F) → (⟨S512x1, .f32⟩ : BufTy).Contents (Elt F) → (⟨S65536x1, .f32⟩ : BufTy).Contents (Elt F)),
    unary main_arg4 main_v46 (broadcastInDim S1x1 ![1] bcast_S1_S1x1_1 : (⟨S1, .f32⟩ : BufTy).Contents (Elt F) → (⟨S1x1, .f32⟩ : BufTy).Contents (Elt F)),
    unary main_v46 main_v47 (broadcastInDim S65536x1 ![0, 1] bcast_S1x1_S65536x1_0_1 : (⟨S1x1, .f32⟩ : BufTy).Contents (Elt F) → (⟨S65536x1, .f32⟩ : BufTy).Contents (Elt F)) ]

set_option maxRecDepth 16384 in
set_option maxHeartbeats 16000000 in
/-- After operations 46 to 60: from any contents at which the buffers still to be read are the stages of the arguments, the buffers to be read later are again the stages of the arguments. -/
theorem stretch_3 (W : Valuation τ sig (Elt F))
    (x0 : (⟨S100000x512, .f32⟩ : BufTy).Contents (Elt F)) (x1 : (⟨S50x512, .f32⟩ : BufTy).Contents (Elt F)) (x2 : (⟨S100000x512, .f32⟩ : BufTy).Contents (Elt F)) (x3 : (⟨S512x1, .f32⟩ : BufTy).Contents (Elt F)) (x4 : (⟨S1, .f32⟩ : BufTy).Contents (Elt F)) (x5 : (⟨S50x512, .f32⟩ : BufTy).Contents (Elt F)) (x6 : (⟨S512x1, .f32⟩ : BufTy).Contents (Elt F)) (x7 : (⟨S1, .f32⟩ : BufTy).Contents (Elt F)) (x8 : (⟨S8x64, .f32⟩ : BufTy).Contents (Elt F)) (x9 : (⟨S8x64, .f32⟩ : BufTy).Contents (Elt F)) (x10 : (⟨S512x512, .f32⟩ : BufTy).Contents (Elt F)) (x11 : (⟨S512, .f32⟩ : BufTy).Contents (Elt F)) (x12 : (⟨S64x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S1024x512, .f32⟩ : BufTy).Contents (Elt F)) (x17 : (⟨S512, .f32⟩ : BufTy).Contents (Elt F)) (x18 : (⟨S_, .f32⟩ : BufTy).Contents (Elt F)) (x19 : (⟨S_, .f32⟩ : BufTy).Contents (Elt F)) (x20 : (⟨S65536, .i32⟩ : BufTy).Contents (Elt F)) (x21 : (⟨S65536, .i32⟩ : BufTy).Contents (Elt F)) (x22 : (⟨S65536, .i32⟩ : BufTy).Contents (Elt F))
    (h_main_v35 : W (Proc.devRef .tc main_v35) = (val_main_v35 (F := F) x2 x3 x4 x20))
    (h_main_arg22 : W (Proc.devRef .tc main_arg22) = x22)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg14 : W (Proc.devRef .tc main_arg14) = x14)
    (h_main_arg15 : W (Proc.devRef .tc main_arg15) = x15)
    (h_main_arg16 : W (Proc.devRef .tc main_arg16) = x16)
    (h_main_arg17 : W (Proc.devRef .tc main_arg17) = x17)
    (h_main_arg18 : W (Proc.devRef .tc main_arg18) = x18)
    (h_main_arg19 : W (Proc.devRef .tc main_arg19) = x19)
    (h_main_arg21 : W (Proc.devRef .tc main_arg21) = x21)
    (h_main_v6 : W (Proc.devRef .tc main_v6) = (val_main_v6 (F := F) x0 x20))
    (h_main_v13 : W (Proc.devRef .tc main_v13) = (val_main_v13 (F := F) x1 x21))
    (h_main_v20 : W (Proc.devRef .tc main_v20) = (val_main_v20 (F := F) x0 x22)) :
    after (ops_3 (F := F)) W (Proc.devRef .tc main_arg5) = x5
    ∧ after (ops_3 (F := F)) W (Proc.devRef .tc main_arg6) = x6
    ∧ after (ops_3 (F := F)) W (Proc.devRef .tc main_arg7) = x7
    ∧ after (ops_3 (F := F)) W (Proc.devRef .tc main_arg8) = x8
    ∧ after (ops_3 (F := F)) W (Proc.devRef .tc main_arg9) = x9
    ∧ after (ops_3 (F := F)) W (Proc.devRef .tc main_arg10) = x10
    ∧ after (ops_3 (F := F)) W (Proc.devRef .tc main_arg11) = x11
    ∧ after (ops_3 (F := F)) W (Proc.devRef .tc main_arg12) = x12
    ∧ after (ops_3 (F := F)) W (Proc.devRef .tc main_arg13) = x13
    ∧ after (ops_3 (F := F)) W (Proc.devRef .tc main_arg14) = x14
    ∧ after (ops_3 (F := F)) W (Proc.devRef .tc main_arg15) = x15
    ∧ after (ops_3 (F := F)) W (Proc.devRef .tc main_arg16) = x16
    ∧ after (ops_3 (F := F)) W (Proc.devRef .tc main_arg17) = x17
    ∧ after (ops_3 (F := F)) W (Proc.devRef .tc main_arg18) = x18
    ∧ after (ops_3 (F := F)) W (Proc.devRef .tc main_arg19) = x19
    ∧ after (ops_3 (F := F)) W (Proc.devRef .tc main_arg21) = x21
    ∧ after (ops_3 (F := F)) W (Proc.devRef .tc main_v6) = (val_main_v6 (F := F) x0 x20)
    ∧ after (ops_3 (F := F)) W (Proc.devRef .tc main_v13) = (val_main_v13 (F := F) x1 x21)
    ∧ after (ops_3 (F := F)) W (Proc.devRef .tc main_v20) = (val_main_v20 (F := F) x0 x22)
    ∧ after (ops_3 (F := F)) W (Proc.devRef .tc main_v37) = (val_main_v37 (F := F) x2 x3 x4 x20)
    ∧ after (ops_3 (F := F)) W (Proc.devRef .tc main_v45) = (val_main_v45 (F := F) x2 x3 x22)
    ∧ after (ops_3 (F := F)) W (Proc.devRef .tc main_v47) = (val_main_v47 (F := F) x4) := by
  refine ⟨?_, ?_, ?_, ?_, ?_, ?_, ?_, ?_, ?_, ?_, ?_, ?_, ?_, ?_, ?_, ?_, ?_, ?_, ?_, ?_, ?_, ?_⟩ <;> after_results_simp <;> (try simp only [h_main_v35, h_main_arg22, h_main_arg2, h_main_arg3, h_main_arg4, h_main_arg5, h_main_arg6, h_main_arg7, h_main_arg8, h_main_arg9, h_main_arg10, h_main_arg11, h_main_arg12, h_main_arg13, h_main_arg14, h_main_arg15, h_main_arg16, h_main_arg17, h_main_arg18, h_main_arg19, h_main_arg21, h_main_v6, h_main_v13, h_main_v20]) <;> (try rfl)

/-- Operations 61 to 75 of @main. -/
abbrev ops_4 : List (HloOp τ sig (Elt F)) :=
  [ binary main_v45 main_v47 main_v48 (addf : (⟨S65536x1, .f32⟩ : BufTy).Contents (Elt F) → (⟨S65536x1, .f32⟩ : BufTy).Contents (Elt F) → (⟨S65536x1, .f32⟩ : BufTy).Contents (Elt F)),
    unary main_v48 main_v49 (Host.negf : (⟨S65536x1, .f32⟩ : BufTy).Contents (Elt F) → (⟨S65536x1, .f32⟩ : BufTy).Contents (Elt F)),
    unary main_v49 main_v50 (Host.exp : (⟨S65536x1, .f32⟩ : BufTy).Contents (Elt F) → (⟨S65536x1, .f32⟩ : BufTy).Contents (Elt F)),
    nullary main_cst_10 (constant S_ .f32 0x3F800000#32),
    unary main_cst_10 main_v51 (broadcastInDim S65536x1 ![] bcast_S_S65536x1 : (⟨S_, .f32⟩ : BufTy).Contents (Elt F) → (⟨S65536x1, .f32⟩ : BufTy).Contents (Elt F)),
    binary main_v51 main_v50 main_v52 (addf : (⟨S65536x1, .f32⟩ : BufTy).Contents (Elt F) → (⟨S65536x1, .f32⟩ : BufTy).Contents (Elt F) → (⟨S65536x1, .f32⟩ : BufTy).Contents (Elt F)),
    nullary main_cst_11 (constant S_ .f32 0x3F800000#32),
    unary main_cst_11 main_v53 (broadcastInDim S65536x1 ![] bcast_S_S65536x1 : (⟨S_, .f32⟩ : BufTy).Contents (Elt F) → (⟨S65536x1, .f32⟩ : BufTy).Contents (Elt F)),
    binary main_v53 main_v52 main_v54 (Host.divf : (⟨S65536x1, .f32⟩ : BufTy).Contents (Elt F) → (⟨S65536x1, .f32⟩ : BufTy).Contents (Elt F) → (⟨S65536x1, .f32⟩ : BufTy).Contents (Elt F)),
    nullary main_c_12 (constantI S_ 32 0#32),
    unary main_c_12 main_v55 (broadcastInDim S65536 ![] bcast_S_S65536 : (⟨S_, .i32⟩ : BufTy).Contents (Elt F) → (⟨S65536, .i32⟩ : BufTy).Contents (Elt F)),
    binary main_arg21 main_v55 main_v56 (cmpi .slt : (⟨S65536, .i32⟩ : BufTy).Contents (Elt F) → (⟨S65536, .i32⟩ : BufTy).Contents (Elt F) → (⟨S65536, .i1⟩ : BufTy).Contents (Elt F)),
    nullary main_c_13 (constantI S_ 32 50#32),
    unary main_c_13 main_v57 (broadcastInDim S65536 ![] bcast_S_S65536 : (⟨S_, .i32⟩ : BufTy).Contents (Elt F) → (⟨S65536, .i32⟩ : BufTy).Contents (Elt F)),
    binary main_arg21 main_v57 main_v58 (addi : (⟨S65536, .i32⟩ : BufTy).Contents (Elt F) → (⟨S65536, .i32⟩ : BufTy).Contents (Elt F) → (⟨S65536, .i32⟩ : BufTy).Contents (Elt F)) ]

set_option maxRecDepth 16384 in
set_option maxHeartbeats 16000000 in
/-- After operations 61 to 75: from any contents at which the buffers still to be read are the stages of the arguments, the buffers to be read later are again the stages of the arguments. -/
theorem stretch_4 (W : Valuation τ sig (Elt F))
    (x0 : (⟨S100000x512, .f32⟩ : BufTy).Contents (Elt F)) (x1 : (⟨S50x512, .f32⟩ : BufTy).Contents (Elt F)) (x2 : (⟨S100000x512, .f32⟩ : BufTy).Contents (Elt F)) (x3 : (⟨S512x1, .f32⟩ : BufTy).Contents (Elt F)) (x4 : (⟨S1, .f32⟩ : BufTy).Contents (Elt F)) (x5 : (⟨S50x512, .f32⟩ : BufTy).Contents (Elt F)) (x6 : (⟨S512x1, .f32⟩ : BufTy).Contents (Elt F)) (x7 : (⟨S1, .f32⟩ : BufTy).Contents (Elt F)) (x8 : (⟨S8x64, .f32⟩ : BufTy).Contents (Elt F)) (x9 : (⟨S8x64, .f32⟩ : BufTy).Contents (Elt F)) (x10 : (⟨S512x512, .f32⟩ : BufTy).Contents (Elt F)) (x11 : (⟨S512, .f32⟩ : BufTy).Contents (Elt F)) (x12 : (⟨S64x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S1024x512, .f32⟩ : BufTy).Contents (Elt F)) (x17 : (⟨S512, .f32⟩ : BufTy).Contents (Elt F)) (x18 : (⟨S_, .f32⟩ : BufTy).Contents (Elt F)) (x19 : (⟨S_, .f32⟩ : BufTy).Contents (Elt F)) (x20 : (⟨S65536, .i32⟩ : BufTy).Contents (Elt F)) (x21 : (⟨S65536, .i32⟩ : BufTy).Contents (Elt F)) (x22 : (⟨S65536, .i32⟩ : BufTy).Contents (Elt F))
    (h_main_v45 : W (Proc.devRef .tc main_v45) = (val_main_v45 (F := F) x2 x3 x22))
    (h_main_v47 : W (Proc.devRef .tc main_v47) = (val_main_v47 (F := F) x4))
    (h_main_arg21 : W (Proc.devRef .tc main_arg21) = x21)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg14 : W (Proc.devRef .tc main_arg14) = x14)
    (h_main_arg15 : W (Proc.devRef .tc main_arg15) = x15)
    (h_main_arg16 : W (Proc.devRef .tc main_arg16) = x16)
    (h_main_arg17 : W (Proc.devRef .tc main_arg17) = x17)
    (h_main_arg18 : W (Proc.devRef .tc main_arg18) = x18)
    (h_main_arg19 : W (Proc.devRef .tc main_arg19) = x19)
    (h_main_v6 : W (Proc.devRef .tc main_v6) = (val_main_v6 (F := F) x0 x20))
    (h_main_v13 : W (Proc.devRef .tc main_v13) = (val_main_v13 (F := F) x1 x21))
    (h_main_v20 : W (Proc.devRef .tc main_v20) = (val_main_v20 (F := F) x0 x22))
    (h_main_v37 : W (Proc.devRef .tc main_v37) = (val_main_v37 (F := F) x2 x3 x4 x20)) :
    after (ops_4 (F := F)) W (Proc.devRef .tc main_arg5) = x5
    ∧ after (ops_4 (F := F)) W (Proc.devRef .tc main_arg6) = x6
    ∧ after (ops_4 (F := F)) W (Proc.devRef .tc main_arg7) = x7
    ∧ after (ops_4 (F := F)) W (Proc.devRef .tc main_arg8) = x8
    ∧ after (ops_4 (F := F)) W (Proc.devRef .tc main_arg9) = x9
    ∧ after (ops_4 (F := F)) W (Proc.devRef .tc main_arg10) = x10
    ∧ after (ops_4 (F := F)) W (Proc.devRef .tc main_arg11) = x11
    ∧ after (ops_4 (F := F)) W (Proc.devRef .tc main_arg12) = x12
    ∧ after (ops_4 (F := F)) W (Proc.devRef .tc main_arg13) = x13
    ∧ after (ops_4 (F := F)) W (Proc.devRef .tc main_arg14) = x14
    ∧ after (ops_4 (F := F)) W (Proc.devRef .tc main_arg15) = x15
    ∧ after (ops_4 (F := F)) W (Proc.devRef .tc main_arg16) = x16
    ∧ after (ops_4 (F := F)) W (Proc.devRef .tc main_arg17) = x17
    ∧ after (ops_4 (F := F)) W (Proc.devRef .tc main_arg18) = x18
    ∧ after (ops_4 (F := F)) W (Proc.devRef .tc main_arg19) = x19
    ∧ after (ops_4 (F := F)) W (Proc.devRef .tc main_arg21) = x21
    ∧ after (ops_4 (F := F)) W (Proc.devRef .tc main_v6) = (val_main_v6 (F := F) x0 x20)
    ∧ after (ops_4 (F := F)) W (Proc.devRef .tc main_v13) = (val_main_v13 (F := F) x1 x21)
    ∧ after (ops_4 (F := F)) W (Proc.devRef .tc main_v20) = (val_main_v20 (F := F) x0 x22)
    ∧ after (ops_4 (F := F)) W (Proc.devRef .tc main_v37) = (val_main_v37 (F := F) x2 x3 x4 x20)
    ∧ after (ops_4 (F := F)) W (Proc.devRef .tc main_v54) = (val_main_v54 (F := F) x2 x3 x4 x22)
    ∧ after (ops_4 (F := F)) W (Proc.devRef .tc main_v56) = (val_main_v56 (F := F) x21)
    ∧ after (ops_4 (F := F)) W (Proc.devRef .tc main_v58) = (val_main_v58 (F := F) x21) := by
  refine ⟨?_, ?_, ?_, ?_, ?_, ?_, ?_, ?_, ?_, ?_, ?_, ?_, ?_, ?_, ?_, ?_, ?_, ?_, ?_, ?_, ?_, ?_, ?_⟩ <;> after_results_simp <;> (try simp only [h_main_v45, h_main_v47, h_main_arg21, h_main_arg5, h_main_arg6, h_main_arg7, h_main_arg8, h_main_arg9, h_main_arg10, h_main_arg11, h_main_arg12, h_main_arg13, h_main_arg14, h_main_arg15, h_main_arg16, h_main_arg17, h_main_arg18, h_main_arg19, h_main_v6, h_main_v13, h_main_v20, h_main_v37]) <;> (try rfl)

/-- Operations 76 to 90 of @main. -/
abbrev ops_5 : List (HloOp τ sig (Elt F)) :=
  [ ternary main_v56 main_v58 main_arg21 main_v59 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v59 main_v60 (broadcastInDim S65536x1 ![0] bcast_S65536_S65536x1_0 : (⟨S65536, .i32⟩ : BufTy).Contents (Elt F) → (⟨S65536x1, .i32⟩ : BufTy).Contents (Elt F)),
    binary main_arg5 main_v60 main_v61 ((fun x i => Host.gather gather_S50x512_S65536x1_S65536x512_1_0_n_n_0_1_1512 x i) : (⟨S50x512, .f32⟩ : BufTy).Contents (Elt F) → (⟨S65536x1, .i32⟩ : BufTy).Contents (Elt F) → (⟨S65536x512, .f32⟩ : BufTy).Contents (Elt F)),
    binary main_v61 main_arg6 main_v62 ((fun l r => Host.dotGeneral dot_S65536x512_S512x1_S65536x1_1_0_0_1_n_n none l r) : (⟨S65536x512, .f32⟩ : BufTy).Contents (Elt F) → (⟨S512x1, .f32⟩ : BufTy).Contents (Elt F) → (⟨S65536x1, .f32⟩ : BufTy).Contents (Elt F)),
    unary main_arg7 main_v63 (broadcastInDim S1x1 ![1] bcast_S1_S1x1_1 : (⟨S1, .f32⟩ : BufTy).Contents (Elt F) → (⟨S1x1, .f32⟩ : BufTy).Contents (Elt F)),
    unary main_v63 main_v64 (broadcastInDim S65536x1 ![0, 1] bcast_S1x1_S65536x1_0_1 : (⟨S1x1, .f32⟩ : BufTy).Contents (Elt F) → (⟨S65536x1, .f32⟩ : BufTy).Contents (Elt F)),
    binary main_v62 main_v64 main_v65 (addf : (⟨S65536x1, .f32⟩ : BufTy).Contents (Elt F) → (⟨S65536x1, .f32⟩ : BufTy).Contents (Elt F) → (⟨S65536x1, .f32⟩ : BufTy).Contents (Elt F)),
    unary main_v65 main_v66 (Host.negf : (⟨S65536x1, .f32⟩ : BufTy).Contents (Elt F) → (⟨S65536x1, .f32⟩ : BufTy).Contents (Elt F)),
    unary main_v66 main_v67 (Host.exp : (⟨S65536x1, .f32⟩ : BufTy).Contents (Elt F) → (⟨S65536x1, .f32⟩ : BufTy).Contents (Elt F)),
    nullary main_cst_14 (constant S_ .f32 0x3F800000#32),
    unary main_cst_14 main_v68 (broadcastInDim S65536x1 ![] bcast_S_S65536x1 : (⟨S_, .f32⟩ : BufTy).Contents (Elt F) → (⟨S65536x1, .f32⟩ : BufTy).Contents (Elt F)),
    binary main_v68 main_v67 main_v69 (addf : (⟨S65536x1, .f32⟩ : BufTy).Contents (Elt F) → (⟨S65536x1, .f32⟩ : BufTy).Contents (Elt F) → (⟨S65536x1, .f32⟩ : BufTy).Contents (Elt F)),
    nullary main_cst_15 (constant S_ .f32 0x3F800000#32),
    unary main_cst_15 main_v70 (broadcastInDim S65536x1 ![] bcast_S_S65536x1 : (⟨S_, .f32⟩ : BufTy).Contents (Elt F) → (⟨S65536x1, .f32⟩ : BufTy).Contents (Elt F)),
    binary main_v70 main_v69 main_v71 (Host.divf : (⟨S65536x1, .f32⟩ : BufTy).Contents (Elt F) → (⟨S65536x1, .f32⟩ : BufTy).Contents (Elt F) → (⟨S65536x1, .f32⟩ : BufTy).Contents (Elt F)) ]

set_option maxRecDepth 16384 in
set_option maxHeartbeats 16000000 in
/-- After operations 76 to 90: from any contents at which the buffers still to be read are the stages of the arguments, the buffers to be read later are again the stages of the arguments. -/
theorem stretch_5 (W : Valuation τ sig (Elt F))
    (x0 : (⟨S100000x512, .f32⟩ : BufTy).Contents (Elt F)) (x1 : (⟨S50x512, .f32⟩ : BufTy).Contents (Elt F)) (x2 : (⟨S100000x512, .f32⟩ : BufTy).Contents (Elt F)) (x3 : (⟨S512x1, .f32⟩ : BufTy).Contents (Elt F)) (x4 : (⟨S1, .f32⟩ : BufTy).Contents (Elt F)) (x5 : (⟨S50x512, .f32⟩ : BufTy).Contents (Elt F)) (x6 : (⟨S512x1, .f32⟩ : BufTy).Contents (Elt F)) (x7 : (⟨S1, .f32⟩ : BufTy).Contents (Elt F)) (x8 : (⟨S8x64, .f32⟩ : BufTy).Contents (Elt F)) (x9 : (⟨S8x64, .f32⟩ : BufTy).Contents (Elt F)) (x10 : (⟨S512x512, .f32⟩ : BufTy).Contents (Elt F)) (x11 : (⟨S512, .f32⟩ : BufTy).Contents (Elt F)) (x12 : (⟨S64x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S1024x512, .f32⟩ : BufTy).Contents (Elt F)) (x17 : (⟨S512, .f32⟩ : BufTy).Contents (Elt F)) (x18 : (⟨S_, .f32⟩ : BufTy).Contents (Elt F)) (x19 : (⟨S_, .f32⟩ : BufTy).Contents (Elt F)) (x20 : (⟨S65536, .i32⟩ : BufTy).Contents (Elt F)) (x21 : (⟨S65536, .i32⟩ : BufTy).Contents (Elt F)) (x22 : (⟨S65536, .i32⟩ : BufTy).Contents (Elt F))
    (h_main_v56 : W (Proc.devRef .tc main_v56) = (val_main_v56 (F := F) x21))
    (h_main_v58 : W (Proc.devRef .tc main_v58) = (val_main_v58 (F := F) x21))
    (h_main_arg21 : W (Proc.devRef .tc main_arg21) = x21)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg14 : W (Proc.devRef .tc main_arg14) = x14)
    (h_main_arg15 : W (Proc.devRef .tc main_arg15) = x15)
    (h_main_arg16 : W (Proc.devRef .tc main_arg16) = x16)
    (h_main_arg17 : W (Proc.devRef .tc main_arg17) = x17)
    (h_main_arg18 : W (Proc.devRef .tc main_arg18) = x18)
    (h_main_arg19 : W (Proc.devRef .tc main_arg19) = x19)
    (h_main_v6 : W (Proc.devRef .tc main_v6) = (val_main_v6 (F := F) x0 x20))
    (h_main_v13 : W (Proc.devRef .tc main_v13) = (val_main_v13 (F := F) x1 x21))
    (h_main_v20 : W (Proc.devRef .tc main_v20) = (val_main_v20 (F := F) x0 x22))
    (h_main_v37 : W (Proc.devRef .tc main_v37) = (val_main_v37 (F := F) x2 x3 x4 x20))
    (h_main_v54 : W (Proc.devRef .tc main_v54) = (val_main_v54 (F := F) x2 x3 x4 x22)) :
    after (ops_5 (F := F)) W (Proc.devRef .tc main_arg8) = x8
    ∧ after (ops_5 (F := F)) W (Proc.devRef .tc main_arg9) = x9
    ∧ after (ops_5 (F := F)) W (Proc.devRef .tc main_arg10) = x10
    ∧ after (ops_5 (F := F)) W (Proc.devRef .tc main_arg11) = x11
    ∧ after (ops_5 (F := F)) W (Proc.devRef .tc main_arg12) = x12
    ∧ after (ops_5 (F := F)) W (Proc.devRef .tc main_arg13) = x13
    ∧ after (ops_5 (F := F)) W (Proc.devRef .tc main_arg14) = x14
    ∧ after (ops_5 (F := F)) W (Proc.devRef .tc main_arg15) = x15
    ∧ after (ops_5 (F := F)) W (Proc.devRef .tc main_arg16) = x16
    ∧ after (ops_5 (F := F)) W (Proc.devRef .tc main_arg17) = x17
    ∧ after (ops_5 (F := F)) W (Proc.devRef .tc main_arg18) = x18
    ∧ after (ops_5 (F := F)) W (Proc.devRef .tc main_arg19) = x19
    ∧ after (ops_5 (F := F)) W (Proc.devRef .tc main_v6) = (val_main_v6 (F := F) x0 x20)
    ∧ after (ops_5 (F := F)) W (Proc.devRef .tc main_v13) = (val_main_v13 (F := F) x1 x21)
    ∧ after (ops_5 (F := F)) W (Proc.devRef .tc main_v20) = (val_main_v20 (F := F) x0 x22)
    ∧ after (ops_5 (F := F)) W (Proc.devRef .tc main_v37) = (val_main_v37 (F := F) x2 x3 x4 x20)
    ∧ after (ops_5 (F := F)) W (Proc.devRef .tc main_v54) = (val_main_v54 (F := F) x2 x3 x4 x22)
    ∧ after (ops_5 (F := F)) W (Proc.devRef .tc main_v71) = (val_main_v71 (F := F) x5 x6 x7 x21) := by
  refine ⟨?_, ?_, ?_, ?_, ?_, ?_, ?_, ?_, ?_, ?_, ?_, ?_, ?_, ?_, ?_, ?_, ?_, ?_⟩ <;> after_results_simp <;> (try simp only [h_main_v56, h_main_v58, h_main_arg21, h_main_arg5, h_main_arg6, h_main_arg7, h_main_arg8, h_main_arg9, h_main_arg10, h_main_arg11, h_main_arg12, h_main_arg13, h_main_arg14, h_main_arg15, h_main_arg16, h_main_arg17, h_main_arg18, h_main_arg19, h_main_v6, h_main_v13, h_main_v20, h_main_v37, h_main_v54]) <;> (try rfl)

/-- Operations 91 to 105 of @main. -/
abbrev ops_6 : List (HloOp τ sig (Elt F)) :=
  [ binary main_v37 main_v54 main_v72 (addf : (⟨S65536x1, .f32⟩ : BufTy).Contents (Elt F) → (⟨S65536x1, .f32⟩ : BufTy).Contents (Elt F) → (⟨S65536x1, .f32⟩ : BufTy).Contents (Elt F)),
    binary main_v72 main_v71 main_v73 (addf : (⟨S65536x1, .f32⟩ : BufTy).Contents (Elt F) → (⟨S65536x1, .f32⟩ : BufTy).Contents (Elt F) → (⟨S65536x1, .f32⟩ : BufTy).Contents (Elt F)),
    nullary main_cst_16 (constant S_ .f32 0x40400000#32),
    unary main_cst_16 main_v74 (broadcastInDim S65536x1 ![] bcast_S_S65536x1 : (⟨S_, .f32⟩ : BufTy).Contents (Elt F) → (⟨S65536x1, .f32⟩ : BufTy).Contents (Elt F)),
    binary main_v73 main_v74 main_v75 (Host.divf : (⟨S65536x1, .f32⟩ : BufTy).Contents (Elt F) → (⟨S65536x1, .f32⟩ : BufTy).Contents (Elt F) → (⟨S65536x1, .f32⟩ : BufTy).Contents (Elt F)),
    binary main_v6 main_v13 main_v76 (addf : (⟨S65536x512, .f32⟩ : BufTy).Contents (Elt F) → (⟨S65536x512, .f32⟩ : BufTy).Contents (Elt F) → (⟨S65536x512, .f32⟩ : BufTy).Contents (Elt F)),
    binary main_v76 main_v20 main_v77 (subf : (⟨S65536x512, .f32⟩ : BufTy).Contents (Elt F) → (⟨S65536x512, .f32⟩ : BufTy).Contents (Elt F) → (⟨S65536x512, .f32⟩ : BufTy).Contents (Elt F)),
    binary main_v6 main_v13 main_v78 (addf : (⟨S65536x512, .f32⟩ : BufTy).Contents (Elt F) → (⟨S65536x512, .f32⟩ : BufTy).Contents (Elt F) → (⟨S65536x512, .f32⟩ : BufTy).Contents (Elt F)),
    binary main_v78 main_v20 main_v79 (addf : (⟨S65536x512, .f32⟩ : BufTy).Contents (Elt F) → (⟨S65536x512, .f32⟩ : BufTy).Contents (Elt F) → (⟨S65536x512, .f32⟩ : BufTy).Contents (Elt F)),
    binary main_v79 main_arg10 main_v80 ((fun l r => Host.dotGeneral dot_S65536x512_S512x512_S65536x512_1_0_0_1_n_n none l r) : (⟨S65536x512, .f32⟩ : BufTy).Contents (Elt F) → (⟨S512x512, .f32⟩ : BufTy).Contents (Elt F) → (⟨S65536x512, .f32⟩ : BufTy).Contents (Elt F)),
    unary main_arg11 main_v81 (broadcastInDim S1x512 ![1] bcast_S512_S1x512_1 : (⟨S512, .f32⟩ : BufTy).Contents (Elt F) → (⟨S1x512, .f32⟩ : BufTy).Contents (Elt F)),
    unary main_v81 main_v82 (broadcastInDim S65536x512 ![0, 1] bcast_S1x512_S65536x512_0_1 : (⟨S1x512, .f32⟩ : BufTy).Contents (Elt F) → (⟨S65536x512, .f32⟩ : BufTy).Contents (Elt F)),
    binary main_v80 main_v82 main_v83 (addf : (⟨S65536x512, .f32⟩ : BufTy).Contents (Elt F) → (⟨S65536x512, .f32⟩ : BufTy).Contents (Elt F) → (⟨S65536x512, .f32⟩ : BufTy).Contents (Elt F)),
    reshape main_v83 main_v84 rfl shapeCasts_S65536x512_S65536x8x64,
    binary main_arg8 main_arg12 main_v85 ((fun l r => Host.dotGeneral dot_S8x64_S64x64_S8x64_1_0_0_1_n_n none l r) : (⟨S8x64, .f32⟩ : BufTy).Contents (Elt F) → (⟨S64x64, .f32⟩ : BufTy).Contents (Elt F) → (⟨S8x64, .f32⟩ : BufTy).Contents (Elt F)) ]

set_option maxRecDepth 16384 in
set_option maxHeartbeats 16000000 in
/-- After operations 91 to 105: from any contents at which the buffers still to be read are the stages of the arguments, the buffers to be read later are again the stages of the arguments. -/
theorem stretch_6 (W : Valuation τ sig (Elt F))
    (x0 : (⟨S100000x512, .f32⟩ : BufTy).Contents (Elt F)) (x1 : (⟨S50x512, .f32⟩ : BufTy).Contents (Elt F)) (x2 : (⟨S100000x512, .f32⟩ : BufTy).Contents (Elt F)) (x3 : (⟨S512x1, .f32⟩ : BufTy).Contents (Elt F)) (x4 : (⟨S1, .f32⟩ : BufTy).Contents (Elt F)) (x5 : (⟨S50x512, .f32⟩ : BufTy).Contents (Elt F)) (x6 : (⟨S512x1, .f32⟩ : BufTy).Contents (Elt F)) (x7 : (⟨S1, .f32⟩ : BufTy).Contents (Elt F)) (x8 : (⟨S8x64, .f32⟩ : BufTy).Contents (Elt F)) (x9 : (⟨S8x64, .f32⟩ : BufTy).Contents (Elt F)) (x10 : (⟨S512x512, .f32⟩ : BufTy).Contents (Elt F)) (x11 : (⟨S512, .f32⟩ : BufTy).Contents (Elt F)) (x12 : (⟨S64x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S1024x512, .f32⟩ : BufTy).Contents (Elt F)) (x17 : (⟨S512, .f32⟩ : BufTy).Contents (Elt F)) (x18 : (⟨S_, .f32⟩ : BufTy).Contents (Elt F)) (x19 : (⟨S_, .f32⟩ : BufTy).Contents (Elt F)) (x20 : (⟨S65536, .i32⟩ : BufTy).Contents (Elt F)) (x21 : (⟨S65536, .i32⟩ : BufTy).Contents (Elt F)) (x22 : (⟨S65536, .i32⟩ : BufTy).Contents (Elt F))
    (h_main_v37 : W (Proc.devRef .tc main_v37) = (val_main_v37 (F := F) x2 x3 x4 x20))
    (h_main_v54 : W (Proc.devRef .tc main_v54) = (val_main_v54 (F := F) x2 x3 x4 x22))
    (h_main_v71 : W (Proc.devRef .tc main_v71) = (val_main_v71 (F := F) x5 x6 x7 x21))
    (h_main_v6 : W (Proc.devRef .tc main_v6) = (val_main_v6 (F := F) x0 x20))
    (h_main_v13 : W (Proc.devRef .tc main_v13) = (val_main_v13 (F := F) x1 x21))
    (h_main_v20 : W (Proc.devRef .tc main_v20) = (val_main_v20 (F := F) x0 x22))
    (h_main_arg10 : W (Proc.devRef .tc main_arg10) = x10)
    (h_main_arg11 : W (Proc.devRef .tc main_arg11) = x11)
    (h_main_arg8 : W (Proc.devRef .tc main_arg8) = x8)
    (h_main_arg12 : W (Proc.devRef .tc main_arg12) = x12)
    (h_main_arg9 : W (Proc.devRef .tc main_arg9) = x9)
    (h_main_arg13 : W (Proc.devRef .tc main_arg13) = x13)
    (h_main_arg14 : W (Proc.devRef .tc main_arg14) = x14)
    (h_main_arg15 : W (Proc.devRef .tc main_arg15) = x15)
    (h_main_arg16 : W (Proc.devRef .tc main_arg16) = x16)
    (h_main_arg17 : W (Proc.devRef .tc main_arg17) = x17)
    (h_main_arg18 : W (Proc.devRef .tc main_arg18) = x18)
    (h_main_arg19 : W (Proc.devRef .tc main_arg19) = x19) :
    after (ops_6 (F := F)) W (Proc.devRef .tc main_arg8) = x8
    ∧ after (ops_6 (F := F)) W (Proc.devRef .tc main_arg9) = x9
    ∧ after (ops_6 (F := F)) W (Proc.devRef .tc main_arg13) = x13
    ∧ after (ops_6 (F := F)) W (Proc.devRef .tc main_arg14) = x14
    ∧ after (ops_6 (F := F)) W (Proc.devRef .tc main_arg15) = x15
    ∧ after (ops_6 (F := F)) W (Proc.devRef .tc main_arg16) = x16
    ∧ after (ops_6 (F := F)) W (Proc.devRef .tc main_arg17) = x17
    ∧ after (ops_6 (F := F)) W (Proc.devRef .tc main_arg18) = x18
    ∧ after (ops_6 (F := F)) W (Proc.devRef .tc main_arg19) = x19
    ∧ after (ops_6 (F := F)) W (Proc.devRef .tc main_v75) = (val_main_v75 (F := F) x2 x3 x4 x5 x6 x7 x20 x21 x22)
    ∧ after (ops_6 (F := F)) W (Proc.devRef .tc main_v77) = (val_main_v77 (F := F) x0 x1 x20 x21 x22)
    ∧ after (ops_6 (F := F)) W (Proc.devRef .tc main_v84) = (val_main_v84 (F := F) x0 x1 x10 x11 x20 x21 x22)
    ∧ after (ops_6 (F := F)) W (Proc.devRef .tc main_v85) = (val_main_v85 (F := F) x8 x12) := by
  refine ⟨?_, ?_, ?_, ?_, ?_, ?_, ?_, ?_, ?_, ?_, ?_, ?_, ?_⟩ <;> after_results_simp <;> (try simp only [h_main_v37, h_main_v54, h_main_v71, h_main_v6, h_main_v13, h_main_v20, h_main_arg10, h_main_arg11, h_main_arg8, h_main_arg12, h_main_arg9, h_main_arg13, h_main_arg14, h_main_arg15, h_main_arg16, h_main_arg17, h_main_arg18, h_main_arg19]) <;> (try rfl)

/-- Operations 106 to 120 of @main. -/
abbrev ops_7 : List (HloOp τ sig (Elt F)) :=
  [ unary main_arg13 main_v86 (broadcastInDim S1x64 ![1] bcast_S64_S1x64_1 : (⟨S64, .f32⟩ : BufTy).Contents (Elt F) → (⟨S1x64, .f32⟩ : BufTy).Contents (Elt F)),
    unary main_v86 main_v87 (broadcastInDim S8x64 ![0, 1] bcast_S1x64_S8x64_0_1 : (⟨S1x64, .f32⟩ : BufTy).Contents (Elt F) → (⟨S8x64, .f32⟩ : BufTy).Contents (Elt F)),
    binary main_v85 main_v87 main_v88 (addf : (⟨S8x64, .f32⟩ : BufTy).Contents (Elt F) → (⟨S8x64, .f32⟩ : BufTy).Contents (Elt F) → (⟨S8x64, .f32⟩ : BufTy).Contents (Elt F)),
    binary main_arg9 main_arg14 main_v89 ((fun l r => Host.dotGeneral dot_S8x64_S64x64_S8x64_1_0_0_1_n_n none l r) : (⟨S8x64, .f32⟩ : BufTy).Contents (Elt F) → (⟨S64x64, .f32⟩ : BufTy).Contents (Elt F) → (⟨S8x64, .f32⟩ : BufTy).Contents (Elt F)),
    unary main_arg15 main_v90 (broadcastInDim S1x64 ![1] bcast_S64_S1x64_1 : (⟨S64, .f32⟩ : BufTy).Contents (Elt F) → (⟨S1x64, .f32⟩ : BufTy).Contents (Elt F)),
    unary main_v90 main_v91 (broadcastInDim S8x64 ![0, 1] bcast_S1x64_S8x64_0_1 : (⟨S1x64, .f32⟩ : BufTy).Contents (Elt F) → (⟨S8x64, .f32⟩ : BufTy).Contents (Elt F)),
    binary main_v89 main_v91 main_v92 (addf : (⟨S8x64, .f32⟩ : BufTy).Contents (Elt F) → (⟨S8x64, .f32⟩ : BufTy).Contents (Elt F) → (⟨S8x64, .f32⟩ : BufTy).Contents (Elt F)),
    nullary main_cst_17 (constant S_ .f32 0x42800000#32),
    unary main_cst_17 main_v93 (Host.sqrt : (⟨S_, .f32⟩ : BufTy).Contents (Elt F) → (⟨S_, .f32⟩ : BufTy).Contents (Elt F)),
    nullary main_cst_18 (constant S_ .f32 0x3F800000#32),
    binary main_cst_18 main_v93 main_v94 (Host.divf : (⟨S_, .f32⟩ : BufTy).Contents (Elt F) → (⟨S_, .f32⟩ : BufTy).Contents (Elt F) → (⟨S_, .f32⟩ : BufTy).Contents (Elt F)),
    unary main_v75 main_v95 (broadcastInDim S65536x1x1 ![0, 1] bcast_S65536x1_S65536x1x1_0_1 : (⟨S65536x1, .f32⟩ : BufTy).Contents (Elt F) → (⟨S65536x1x1, .f32⟩ : BufTy).Contents (Elt F)),
    binary main_v84 main_v88 main_v96 ((fun l r => Host.dotGeneral dot_S65536x8x64_S8x64_S65536x8x8_2_1_01_0_n_n none l r) : (⟨S65536x8x64, .f32⟩ : BufTy).Contents (Elt F) → (⟨S8x64, .f32⟩ : BufTy).Contents (Elt F) → (⟨S65536x8x8, .f32⟩ : BufTy).Contents (Elt F)),
    unary main_v94 main_v97 (broadcastInDim S65536x8x8 ![] bcast_S_S65536x8x8 : (⟨S_, .f32⟩ : BufTy).Contents (Elt F) → (⟨S65536x8x8, .f32⟩ : BufTy).Contents (Elt F)),
    binary main_v96 main_v97 main_v98 (mulf : (⟨S65536x8x8, .f32⟩ : BufTy).Contents (Elt F) → (⟨S65536x8x8, .f32⟩ : BufTy).Contents (Elt F) → (⟨S65536x8x8, .f32⟩ : BufTy).Contents (Elt F)) ]

set_option maxRecDepth 16384 in
set_option maxHeartbeats 16000000 in
/-- After operations 106 to 120: from any contents at which the buffers still to be read are the stages of the arguments, the buffers to be read later are again the stages of the arguments. -/
theorem stretch_7 (W : Valuation τ sig (Elt F))
    (x0 : (⟨S100000x512, .f32⟩ : BufTy).Contents (Elt F)) (x1 : (⟨S50x512, .f32⟩ : BufTy).Contents (Elt F)) (x2 : (⟨S100000x512, .f32⟩ : BufTy).Contents (Elt F)) (x3 : (⟨S512x1, .f32⟩ : BufTy).Contents (Elt F)) (x4 : (⟨S1, .f32⟩ : BufTy).Contents (Elt F)) (x5 : (⟨S50x512, .f32⟩ : BufTy).Contents (Elt F)) (x6 : (⟨S512x1, .f32⟩ : BufTy).Contents (Elt F)) (x7 : (⟨S1, .f32⟩ : BufTy).Contents (Elt F)) (x8 : (⟨S8x64, .f32⟩ : BufTy).Contents (Elt F)) (x9 : (⟨S8x64, .f32⟩ : BufTy).Contents (Elt F)) (x10 : (⟨S512x512, .f32⟩ : BufTy).Contents (Elt F)) (x11 : (⟨S512, .f32⟩ : BufTy).Contents (Elt F)) (x12 : (⟨S64x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S1024x512, .f32⟩ : BufTy).Contents (Elt F)) (x17 : (⟨S512, .f32⟩ : BufTy).Contents (Elt F)) (x18 : (⟨S_, .f32⟩ : BufTy).Contents (Elt F)) (x19 : (⟨S_, .f32⟩ : BufTy).Contents (Elt F)) (x20 : (⟨S65536, .i32⟩ : BufTy).Contents (Elt F)) (x21 : (⟨S65536, .i32⟩ : BufTy).Contents (Elt F)) (x22 : (⟨S65536, .i32⟩ : BufTy).Contents (Elt F))
    (h_main_arg13 : W (Proc.devRef .tc main_arg13) = x13)
    (h_main_v85 : W (Proc.devRef .tc main_v85) = (val_main_v85 (F := F) x8 x12))
    (h_main_arg9 : W (Proc.devRef .tc main_arg9) = x9)
    (h_main_arg14 : W (Proc.devRef .tc main_arg14) = x14)
    (h_main_arg15 : W (Proc.devRef .tc main_arg15) = x15)
    (h_main_v75 : W (Proc.devRef .tc main_v75) = (val_main_v75 (F := F) x2 x3 x4 x5 x6 x7 x20 x21 x22))
    (h_main_v84 : W (Proc.devRef .tc main_v84) = (val_main_v84 (F := F) x0 x1 x10 x11 x20 x21 x22))
    (h_main_arg8 : W (Proc.devRef .tc main_arg8) = x8)
    (h_main_arg16 : W (Proc.devRef .tc main_arg16) = x16)
    (h_main_arg17 : W (Proc.devRef .tc main_arg17) = x17)
    (h_main_arg18 : W (Proc.devRef .tc main_arg18) = x18)
    (h_main_arg19 : W (Proc.devRef .tc main_arg19) = x19)
    (h_main_v77 : W (Proc.devRef .tc main_v77) = (val_main_v77 (F := F) x0 x1 x20 x21 x22)) :
    after (ops_7 (F := F)) W (Proc.devRef .tc main_arg8) = x8
    ∧ after (ops_7 (F := F)) W (Proc.devRef .tc main_arg9) = x9
    ∧ after (ops_7 (F := F)) W (Proc.devRef .tc main_arg16) = x16
    ∧ after (ops_7 (F := F)) W (Proc.devRef .tc main_arg17) = x17
    ∧ after (ops_7 (F := F)) W (Proc.devRef .tc main_arg18) = x18
    ∧ after (ops_7 (F := F)) W (Proc.devRef .tc main_arg19) = x19
    ∧ after (ops_7 (F := F)) W (Proc.devRef .tc main_v77) = (val_main_v77 (F := F) x0 x1 x20 x21 x22)
    ∧ after (ops_7 (F := F)) W (Proc.devRef .tc main_v84) = (val_main_v84 (F := F) x0 x1 x10 x11 x20 x21 x22)
    ∧ after (ops_7 (F := F)) W (Proc.devRef .tc main_v92) = (val_main_v92 (F := F) x9 x14 x15)
    ∧ after (ops_7 (F := F)) W (Proc.devRef .tc main_v94) = (val_main_v94 (F := F))
    ∧ after (ops_7 (F := F)) W (Proc.devRef .tc main_v95) = (val_main_v95 (F := F) x2 x3 x4 x5 x6 x7 x20 x21 x22)
    ∧ after (ops_7 (F := F)) W (Proc.devRef .tc main_v98) = (val_main_v98 (F := F) x0 x1 x8 x10 x11 x12 x13 x20 x21 x22) := by
  refine ⟨?_, ?_, ?_, ?_, ?_, ?_, ?_, ?_, ?_, ?_, ?_, ?_⟩ <;> after_results_simp <;> (try simp only [h_main_arg13, h_main_v85, h_main_arg9, h_main_arg14, h_main_arg15, h_main_v75, h_main_v84, h_main_arg8, h_main_arg16, h_main_arg17, h_main_arg18, h_main_arg19, h_main_v77]) <;> (try rfl)

/-- Operations 121 to 135 of @main. -/
abbrev ops_8 : List (HloOp τ sig (Elt F)) :=
  [ unary main_v95 main_v99 (broadcastInDim S65536x8x8 ![0, 1, 2] bcast_S65536x1x1_S65536x8x8_0_1_2 : (⟨S65536x1x1, .f32⟩ : BufTy).Contents (Elt F) → (⟨S65536x8x8, .f32⟩ : BufTy).Contents (Elt F)),
    binary main_v98 main_v99 main_v100 (addf : (⟨S65536x8x8, .f32⟩ : BufTy).Contents (Elt F) → (⟨S65536x8x8, .f32⟩ : BufTy).Contents (Elt F) → (⟨S65536x8x8, .f32⟩ : BufTy).Contents (Elt F)),
    nullary main_cst_19 (constant S_ .f32 0xFF800000#32),
    binary main_v100 main_cst_19 main_v101 ((fun x v => Host.reduce FloatOps.maximumf x v reducesTo_S65536x8x8_S65536x8_d2 h_S_) : (⟨S65536x8x8, .f32⟩ : BufTy).Contents (Elt F) → (⟨S_, .f32⟩ : BufTy).Contents (Elt F) → (⟨S65536x8, .f32⟩ : BufTy).Contents (Elt F)),
    nullary main_cst_20 (constant S_ .f32 0xFF800000#32),
    unary main_cst_20 main_v102 (broadcastInDim S65536x8 ![] bcast_S_S65536x8 : (⟨S_, .f32⟩ : BufTy).Contents (Elt F) → (⟨S65536x8, .f32⟩ : BufTy).Contents (Elt F)),
    binary main_v102 main_v101 main_v103 (maximumf : (⟨S65536x8, .f32⟩ : BufTy).Contents (Elt F) → (⟨S65536x8, .f32⟩ : BufTy).Contents (Elt F) → (⟨S65536x8, .f32⟩ : BufTy).Contents (Elt F)),
    unary main_v103 main_v104 (broadcastInDim S65536x8x1 ![0, 1] bcast_S65536x8_S65536x8x1_0_1 : (⟨S65536x8, .f32⟩ : BufTy).Contents (Elt F) → (⟨S65536x8x1, .f32⟩ : BufTy).Contents (Elt F)),
    unary main_v104 main_v105 (broadcastInDim S65536x8x8 ![0, 1, 2] bcast_S65536x8x1_S65536x8x8_0_1_2 : (⟨S65536x8x1, .f32⟩ : BufTy).Contents (Elt F) → (⟨S65536x8x8, .f32⟩ : BufTy).Contents (Elt F)),
    binary main_v100 main_v105 main_v106 (subf : (⟨S65536x8x8, .f32⟩ : BufTy).Contents (Elt F) → (⟨S65536x8x8, .f32⟩ : BufTy).Contents (Elt F) → (⟨S65536x8x8, .f32⟩ : BufTy).Contents (Elt F)),
    unary main_v106 main_v107 (Host.exp : (⟨S65536x8x8, .f32⟩ : BufTy).Contents (Elt F) → (⟨S65536x8x8, .f32⟩ : BufTy).Contents (Elt F)),
    nullary main_cst_21 (constant S_ .f32 0x00000000#32),
    binary main_v107 main_cst_21 main_v108 ((fun x v => Host.reduceAdd x v reducesTo_S65536x8x8_S65536x8_d2 h_S_) : (⟨S65536x8x8, .f32⟩ : BufTy).Contents (Elt F) → (⟨S_, .f32⟩ : BufTy).Contents (Elt F) → (⟨S65536x8, .f32⟩ : BufTy).Contents (Elt F)),
    unary main_v108 main_v109 (broadcastInDim S65536x8x1 ![0, 1] bcast_S65536x8_S65536x8x1_0_1 : (⟨S65536x8, .f32⟩ : BufTy).Contents (Elt F) → (⟨S65536x8x1, .f32⟩ : BufTy).Contents (Elt F)),
    unary main_v109 main_v110 (broadcastInDim S65536x8x8 ![0, 1, 2] bcast_S65536x8x1_S65536x8x8_0_1_2 : (⟨S65536x8x1, .f32⟩ : BufTy).Contents (Elt F) → (⟨S65536x8x8, .f32⟩ : BufTy).Contents (Elt F)) ]

set_option maxRecDepth 16384 in
set_option maxHeartbeats 16000000 in
/-- After operations 121 to 135: from any contents at which the buffers still to be read are the stages of the arguments, the buffers to be read later are again the stages of the arguments. -/
theorem stretch_8 (W : Valuation τ sig (Elt F))
    (x0 : (⟨S100000x512, .f32⟩ : BufTy).Contents (Elt F)) (x1 : (⟨S50x512, .f32⟩ : BufTy).Contents (Elt F)) (x2 : (⟨S100000x512, .f32⟩ : BufTy).Contents (Elt F)) (x3 : (⟨S512x1, .f32⟩ : BufTy).Contents (Elt F)) (x4 : (⟨S1, .f32⟩ : BufTy).Contents (Elt F)) (x5 : (⟨S50x512, .f32⟩ : BufTy).Contents (Elt F)) (x6 : (⟨S512x1, .f32⟩ : BufTy).Contents (Elt F)) (x7 : (⟨S1, .f32⟩ : BufTy).Contents (Elt F)) (x8 : (⟨S8x64, .f32⟩ : BufTy).Contents (Elt F)) (x9 : (⟨S8x64, .f32⟩ : BufTy).Contents (Elt F)) (x10 : (⟨S512x512, .f32⟩ : BufTy).Contents (Elt F)) (x11 : (⟨S512, .f32⟩ : BufTy).Contents (Elt F)) (x12 : (⟨S64x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S1024x512, .f32⟩ : BufTy).Contents (Elt F)) (x17 : (⟨S512, .f32⟩ : BufTy).Contents (Elt F)) (x18 : (⟨S_, .f32⟩ : BufTy).Contents (Elt F)) (x19 : (⟨S_, .f32⟩ : BufTy).Contents (Elt F)) (x20 : (⟨S65536, .i32⟩ : BufTy).Contents (Elt F)) (x21 : (⟨S65536, .i32⟩ : BufTy).Contents (Elt F)) (x22 : (⟨S65536, .i32⟩ : BufTy).Contents (Elt F))
    (h_main_v95 : W (Proc.devRef .tc main_v95) = (val_main_v95 (F := F) x2 x3 x4 x5 x6 x7 x20 x21 x22))
    (h_main_v98 : W (Proc.devRef .tc main_v98) = (val_main_v98 (F := F) x0 x1 x8 x10 x11 x12 x13 x20 x21 x22))
    (h_main_arg8 : W (Proc.devRef .tc main_arg8) = x8)
    (h_main_arg9 : W (Proc.devRef .tc main_arg9) = x9)
    (h_main_arg16 : W (Proc.devRef .tc main_arg16) = x16)
    (h_main_arg17 : W (Proc.devRef .tc main_arg17) = x17)
    (h_main_arg18 : W (Proc.devRef .tc main_arg18) = x18)
    (h_main_arg19 : W (Proc.devRef .tc main_arg19) = x19)
    (h_main_v77 : W (Proc.devRef .tc main_v77) = (val_main_v77 (F := F) x0 x1 x20 x21 x22))
    (h_main_v84 : W (Proc.devRef .tc main_v84) = (val_main_v84 (F := F) x0 x1 x10 x11 x20 x21 x22))
    (h_main_v92 : W (Proc.devRef .tc main_v92) = (val_main_v92 (F := F) x9 x14 x15))
    (h_main_v94 : W (Proc.devRef .tc main_v94) = (val_main_v94 (F := F))) :
    after (ops_8 (F := F)) W (Proc.devRef .tc main_arg8) = x8
    ∧ after (ops_8 (F := F)) W (Proc.devRef .tc main_arg9) = x9
    ∧ after (ops_8 (F := F)) W (Proc.devRef .tc main_arg16) = x16
    ∧ after (ops_8 (F := F)) W (Proc.devRef .tc main_arg17) = x17
    ∧ after (ops_8 (F := F)) W (Proc.devRef .tc main_arg18) = x18
    ∧ after (ops_8 (F := F)) W (Proc.devRef .tc main_arg19) = x19
    ∧ after (ops_8 (F := F)) W (Proc.devRef .tc main_v77) = (val_main_v77 (F := F) x0 x1 x20 x21 x22)
    ∧ after (ops_8 (F := F)) W (Proc.devRef .tc main_v84) = (val_main_v84 (F := F) x0 x1 x10 x11 x20 x21 x22)
    ∧ after (ops_8 (F := F)) W (Proc.devRef .tc main_v92) = (val_main_v92 (F := F) x9 x14 x15)
    ∧ after (ops_8 (F := F)) W (Proc.devRef .tc main_v94) = (val_main_v94 (F := F))
    ∧ after (ops_8 (F := F)) W (Proc.devRef .tc main_v95) = (val_main_v95 (F := F) x2 x3 x4 x5 x6 x7 x20 x21 x22)
    ∧ after (ops_8 (F := F)) W (Proc.devRef .tc main_v107) = (val_main_v107 (F := F) x0 x1 x2 x3 x4 x5 x6 x7 x8 x10 x11 x12 x13 x20 x21 x22)
    ∧ after (ops_8 (F := F)) W (Proc.devRef .tc main_v110) = (val_main_v110 (F := F) x0 x1 x2 x3 x4 x5 x6 x7 x8 x10 x11 x12 x13 x20 x21 x22) := by
  refine ⟨?_, ?_, ?_, ?_, ?_, ?_, ?_, ?_, ?_, ?_, ?_, ?_, ?_⟩ <;> after_results_simp <;> (try simp only [h_main_v95, h_main_v98, h_main_arg8, h_main_arg9, h_main_arg16, h_main_arg17, h_main_arg18, h_main_arg19, h_main_v77, h_main_v84, h_main_v92, h_main_v94]) <;> (try rfl)

/-- Operations 136 to 150 of @main. -/
abbrev ops_9 : List (HloOp τ sig (Elt F)) :=
  [ binary main_v107 main_v110 main_v111 (Host.divf : (⟨S65536x8x8, .f32⟩ : BufTy).Contents (Elt F) → (⟨S65536x8x8, .f32⟩ : BufTy).Contents (Elt F) → (⟨S65536x8x8, .f32⟩ : BufTy).Contents (Elt F)),
    binary main_v84 main_v92 main_v112 ((fun l r => Host.dotGeneral dot_S65536x8x64_S8x64_S65536x8x8_2_1_01_0_n_n none l r) : (⟨S65536x8x64, .f32⟩ : BufTy).Contents (Elt F) → (⟨S8x64, .f32⟩ : BufTy).Contents (Elt F) → (⟨S65536x8x8, .f32⟩ : BufTy).Contents (Elt F)),
    unary main_v94 main_v113 (broadcastInDim S65536x8x8 ![] bcast_S_S65536x8x8 : (⟨S_, .f32⟩ : BufTy).Contents (Elt F) → (⟨S65536x8x8, .f32⟩ : BufTy).Contents (Elt F)),
    binary main_v112 main_v113 main_v114 (mulf : (⟨S65536x8x8, .f32⟩ : BufTy).Contents (Elt F) → (⟨S65536x8x8, .f32⟩ : BufTy).Contents (Elt F) → (⟨S65536x8x8, .f32⟩ : BufTy).Contents (Elt F)),
    unary main_v95 main_v115 (broadcastInDim S65536x8x8 ![0, 1, 2] bcast_S65536x1x1_S65536x8x8_0_1_2 : (⟨S65536x1x1, .f32⟩ : BufTy).Contents (Elt F) → (⟨S65536x8x8, .f32⟩ : BufTy).Contents (Elt F)),
    binary main_v114 main_v115 main_v116 (addf : (⟨S65536x8x8, .f32⟩ : BufTy).Contents (Elt F) → (⟨S65536x8x8, .f32⟩ : BufTy).Contents (Elt F) → (⟨S65536x8x8, .f32⟩ : BufTy).Contents (Elt F)),
    nullary main_cst_22 (constant S_ .f32 0xFF800000#32),
    binary main_v116 main_cst_22 main_v117 ((fun x v => Host.reduce FloatOps.maximumf x v reducesTo_S65536x8x8_S65536x8_d2 h_S_) : (⟨S65536x8x8, .f32⟩ : BufTy).Contents (Elt F) → (⟨S_, .f32⟩ : BufTy).Contents (Elt F) → (⟨S65536x8, .f32⟩ : BufTy).Contents (Elt F)),
    nullary main_cst_23 (constant S_ .f32 0xFF800000#32),
    unary main_cst_23 main_v118 (broadcastInDim S65536x8 ![] bcast_S_S65536x8 : (⟨S_, .f32⟩ : BufTy).Contents (Elt F) → (⟨S65536x8, .f32⟩ : BufTy).Contents (Elt F)),
    binary main_v118 main_v117 main_v119 (maximumf : (⟨S65536x8, .f32⟩ : BufTy).Contents (Elt F) → (⟨S65536x8, .f32⟩ : BufTy).Contents (Elt F) → (⟨S65536x8, .f32⟩ : BufTy).Contents (Elt F)),
    unary main_v119 main_v120 (broadcastInDim S65536x8x1 ![0, 1] bcast_S65536x8_S65536x8x1_0_1 : (⟨S65536x8, .f32⟩ : BufTy).Contents (Elt F) → (⟨S65536x8x1, .f32⟩ : BufTy).Contents (Elt F)),
    unary main_v120 main_v121 (broadcastInDim S65536x8x8 ![0, 1, 2] bcast_S65536x8x1_S65536x8x8_0_1_2 : (⟨S65536x8x1, .f32⟩ : BufTy).Contents (Elt F) → (⟨S65536x8x8, .f32⟩ : BufTy).Contents (Elt F)),
    binary main_v116 main_v121 main_v122 (subf : (⟨S65536x8x8, .f32⟩ : BufTy).Contents (Elt F) → (⟨S65536x8x8, .f32⟩ : BufTy).Contents (Elt F) → (⟨S65536x8x8, .f32⟩ : BufTy).Contents (Elt F)),
    unary main_v122 main_v123 (Host.exp : (⟨S65536x8x8, .f32⟩ : BufTy).Contents (Elt F) → (⟨S65536x8x8, .f32⟩ : BufTy).Contents (Elt F)) ]

set_option maxRecDepth 16384 in
set_option maxHeartbeats 16000000 in
/-- After operations 136 to 150: from any contents at which the buffers still to be read are the stages of the arguments, the buffers to be read later are again the stages of the arguments. -/
theorem stretch_9 (W : Valuation τ sig (Elt F))
    (x0 : (⟨S100000x512, .f32⟩ : BufTy).Contents (Elt F)) (x1 : (⟨S50x512, .f32⟩ : BufTy).Contents (Elt F)) (x2 : (⟨S100000x512, .f32⟩ : BufTy).Contents (Elt F)) (x3 : (⟨S512x1, .f32⟩ : BufTy).Contents (Elt F)) (x4 : (⟨S1, .f32⟩ : BufTy).Contents (Elt F)) (x5 : (⟨S50x512, .f32⟩ : BufTy).Contents (Elt F)) (x6 : (⟨S512x1, .f32⟩ : BufTy).Contents (Elt F)) (x7 : (⟨S1, .f32⟩ : BufTy).Contents (Elt F)) (x8 : (⟨S8x64, .f32⟩ : BufTy).Contents (Elt F)) (x9 : (⟨S8x64, .f32⟩ : BufTy).Contents (Elt F)) (x10 : (⟨S512x512, .f32⟩ : BufTy).Contents (Elt F)) (x11 : (⟨S512, .f32⟩ : BufTy).Contents (Elt F)) (x12 : (⟨S64x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S1024x512, .f32⟩ : BufTy).Contents (Elt F)) (x17 : (⟨S512, .f32⟩ : BufTy).Contents (Elt F)) (x18 : (⟨S_, .f32⟩ : BufTy).Contents (Elt F)) (x19 : (⟨S_, .f32⟩ : BufTy).Contents (Elt F)) (x20 : (⟨S65536, .i32⟩ : BufTy).Contents (Elt F)) (x21 : (⟨S65536, .i32⟩ : BufTy).Contents (Elt F)) (x22 : (⟨S65536, .i32⟩ : BufTy).Contents (Elt F))
    (h_main_v107 : W (Proc.devRef .tc main_v107) = (val_main_v107 (F := F) x0 x1 x2 x3 x4 x5 x6 x7 x8 x10 x11 x12 x13 x20 x21 x22))
    (h_main_v110 : W (Proc.devRef .tc main_v110) = (val_main_v110 (F := F) x0 x1 x2 x3 x4 x5 x6 x7 x8 x10 x11 x12 x13 x20 x21 x22))
    (h_main_v84 : W (Proc.devRef .tc main_v84) = (val_main_v84 (F := F) x0 x1 x10 x11 x20 x21 x22))
    (h_main_v92 : W (Proc.devRef .tc main_v92) = (val_main_v92 (F := F) x9 x14 x15))
    (h_main_v94 : W (Proc.devRef .tc main_v94) = (val_main_v94 (F := F)))
    (h_main_v95 : W (Proc.devRef .tc main_v95) = (val_main_v95 (F := F) x2 x3 x4 x5 x6 x7 x20 x21 x22))
    (h_main_arg8 : W (Proc.devRef .tc main_arg8) = x8)
    (h_main_arg9 : W (Proc.devRef .tc main_arg9) = x9)
    (h_main_arg16 : W (Proc.devRef .tc main_arg16) = x16)
    (h_main_arg17 : W (Proc.devRef .tc main_arg17) = x17)
    (h_main_arg18 : W (Proc.devRef .tc main_arg18) = x18)
    (h_main_arg19 : W (Proc.devRef .tc main_arg19) = x19)
    (h_main_v77 : W (Proc.devRef .tc main_v77) = (val_main_v77 (F := F) x0 x1 x20 x21 x22)) :
    after (ops_9 (F := F)) W (Proc.devRef .tc main_arg8) = x8
    ∧ after (ops_9 (F := F)) W (Proc.devRef .tc main_arg9) = x9
    ∧ after (ops_9 (F := F)) W (Proc.devRef .tc main_arg16) = x16
    ∧ after (ops_9 (F := F)) W (Proc.devRef .tc main_arg17) = x17
    ∧ after (ops_9 (F := F)) W (Proc.devRef .tc main_arg18) = x18
    ∧ after (ops_9 (F := F)) W (Proc.devRef .tc main_arg19) = x19
    ∧ after (ops_9 (F := F)) W (Proc.devRef .tc main_v77) = (val_main_v77 (F := F) x0 x1 x20 x21 x22)
    ∧ after (ops_9 (F := F)) W (Proc.devRef .tc main_v111) = (val_main_v111 (F := F) x0 x1 x2 x3 x4 x5 x6 x7 x8 x10 x11 x12 x13 x20 x21 x22)
    ∧ after (ops_9 (F := F)) W (Proc.devRef .tc main_v123) = (val_main_v123 (F := F) x0 x1 x2 x3 x4 x5 x6 x7 x9 x10 x11 x14 x15 x20 x21 x22) := by
  refine ⟨?_, ?_, ?_, ?_, ?_, ?_, ?_, ?_, ?_⟩ <;> after_results_simp <;> (try simp only [h_main_v107, h_main_v110, h_main_v84, h_main_v92, h_main_v94, h_main_v95, h_main_arg8, h_main_arg9, h_main_arg16, h_main_arg17, h_main_arg18, h_main_arg19, h_main_v77]) <;> (try rfl)

/-- Operations 151 to 165 of @main. -/
abbrev ops_10 : List (HloOp τ sig (Elt F)) :=
  [ nullary main_cst_24 (constant S_ .f32 0x00000000#32),
    binary main_v123 main_cst_24 main_v124 ((fun x v => Host.reduceAdd x v reducesTo_S65536x8x8_S65536x8_d2 h_S_) : (⟨S65536x8x8, .f32⟩ : BufTy).Contents (Elt F) → (⟨S_, .f32⟩ : BufTy).Contents (Elt F) → (⟨S65536x8, .f32⟩ : BufTy).Contents (Elt F)),
    unary main_v124 main_v125 (broadcastInDim S65536x8x1 ![0, 1] bcast_S65536x8_S65536x8x1_0_1 : (⟨S65536x8, .f32⟩ : BufTy).Contents (Elt F) → (⟨S65536x8x1, .f32⟩ : BufTy).Contents (Elt F)),
    unary main_v125 main_v126 (broadcastInDim S65536x8x8 ![0, 1, 2] bcast_S65536x8x1_S65536x8x8_0_1_2 : (⟨S65536x8x1, .f32⟩ : BufTy).Contents (Elt F) → (⟨S65536x8x8, .f32⟩ : BufTy).Contents (Elt F)),
    binary main_v123 main_v126 main_v127 (Host.divf : (⟨S65536x8x8, .f32⟩ : BufTy).Contents (Elt F) → (⟨S65536x8x8, .f32⟩ : BufTy).Contents (Elt F) → (⟨S65536x8x8, .f32⟩ : BufTy).Contents (Elt F)),
    binary main_v111 main_v127 main_v128 (addf : (⟨S65536x8x8, .f32⟩ : BufTy).Contents (Elt F) → (⟨S65536x8x8, .f32⟩ : BufTy).Contents (Elt F) → (⟨S65536x8x8, .f32⟩ : BufTy).Contents (Elt F)),
    nullary main_cst_25 (constant S_ .f32 0x40000000#32),
    unary main_cst_25 main_v129 (broadcastInDim S65536x8x8 ![] bcast_S_S65536x8x8 : (⟨S_, .f32⟩ : BufTy).Contents (Elt F) → (⟨S65536x8x8, .f32⟩ : BufTy).Contents (Elt F)),
    binary main_v128 main_v129 main_v130 (Host.divf : (⟨S65536x8x8, .f32⟩ : BufTy).Contents (Elt F) → (⟨S65536x8x8, .f32⟩ : BufTy).Contents (Elt F) → (⟨S65536x8x8, .f32⟩ : BufTy).Contents (Elt F)),
    binary main_arg8 main_arg9 main_v131 (addf : (⟨S8x64, .f32⟩ : BufTy).Contents (Elt F) → (⟨S8x64, .f32⟩ : BufTy).Contents (Elt F) → (⟨S8x64, .f32⟩ : BufTy).Contents (Elt F)),
    binary main_v130 main_v131 main_v132 ((fun l r => Host.dotGeneral dot_S65536x8x8_S8x64_S65536x8x64_2_0_01_1_n_n none l r) : (⟨S65536x8x8, .f32⟩ : BufTy).Contents (Elt F) → (⟨S8x64, .f32⟩ : BufTy).Contents (Elt F) → (⟨S65536x8x64, .f32⟩ : BufTy).Contents (Elt F)),
    reshape main_v132 main_v133 rfl shapeCasts_S65536x8x64_S65536x512,
    binary main_v77 main_v133 main_v134 (subf : (⟨S65536x512, .f32⟩ : BufTy).Contents (Elt F) → (⟨S65536x512, .f32⟩ : BufTy).Contents (Elt F) → (⟨S65536x512, .f32⟩ : BufTy).Contents (Elt F)),
    binary main_v134 main_v134 main_v135 (mulf : (⟨S65536x512, .f32⟩ : BufTy).Contents (Elt F) → (⟨S65536x512, .f32⟩ : BufTy).Contents (Elt F) → (⟨S65536x512, .f32⟩ : BufTy).Contents (Elt F)),
    nullary main_cst_26 (constant S_ .f32 0x00000000#32) ]

set_option maxRecDepth 16384 in
set_option maxHeartbeats 16000000 in
/-- After operations 151 to 165: from any contents at which the buffers still to be read are the stages of the arguments, the buffers to be read later are again the stages of the arguments. -/
theorem stretch_10 (W : Valuation τ sig (Elt F))
    (x0 : (⟨S100000x512, .f32⟩ : BufTy).Contents (Elt F)) (x1 : (⟨S50x512, .f32⟩ : BufTy).Contents (Elt F)) (x2 : (⟨S100000x512, .f32⟩ : BufTy).Contents (Elt F)) (x3 : (⟨S512x1, .f32⟩ : BufTy).Contents (Elt F)) (x4 : (⟨S1, .f32⟩ : BufTy).Contents (Elt F)) (x5 : (⟨S50x512, .f32⟩ : BufTy).Contents (Elt F)) (x6 : (⟨S512x1, .f32⟩ : BufTy).Contents (Elt F)) (x7 : (⟨S1, .f32⟩ : BufTy).Contents (Elt F)) (x8 : (⟨S8x64, .f32⟩ : BufTy).Contents (Elt F)) (x9 : (⟨S8x64, .f32⟩ : BufTy).Contents (Elt F)) (x10 : (⟨S512x512, .f32⟩ : BufTy).Contents (Elt F)) (x11 : (⟨S512, .f32⟩ : BufTy).Contents (Elt F)) (x12 : (⟨S64x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S1024x512, .f32⟩ : BufTy).Contents (Elt F)) (x17 : (⟨S512, .f32⟩ : BufTy).Contents (Elt F)) (x18 : (⟨S_, .f32⟩ : BufTy).Contents (Elt F)) (x19 : (⟨S_, .f32⟩ : BufTy).Contents (Elt F)) (x20 : (⟨S65536, .i32⟩ : BufTy).Contents (Elt F)) (x21 : (⟨S65536, .i32⟩ : BufTy).Contents (Elt F)) (x22 : (⟨S65536, .i32⟩ : BufTy).Contents (Elt F))
    (h_main_v123 : W (Proc.devRef .tc main_v123) = (val_main_v123 (F := F) x0 x1 x2 x3 x4 x5 x6 x7 x9 x10 x11 x14 x15 x20 x21 x22))
    (h_main_v111 : W (Proc.devRef .tc main_v111) = (val_main_v111 (F := F) x0 x1 x2 x3 x4 x5 x6 x7 x8 x10 x11 x12 x13 x20 x21 x22))
    (h_main_arg8 : W (Proc.devRef .tc main_arg8) = x8)
    (h_main_arg9 : W (Proc.devRef .tc main_arg9) = x9)
    (h_main_v77 : W (Proc.devRef .tc main_v77) = (val_main_v77 (F := F) x0 x1 x20 x21 x22))
    (h_main_arg16 : W (Proc.devRef .tc main_arg16) = x16)
    (h_main_arg17 : W (Proc.devRef .tc main_arg17) = x17)
    (h_main_arg18 : W (Proc.devRef .tc main_arg18) = x18)
    (h_main_arg19 : W (Proc.devRef .tc main_arg19) = x19) :
    after (ops_10 (F := F)) W (Proc.devRef .tc main_arg16) = x16
    ∧ after (ops_10 (F := F)) W (Proc.devRef .tc main_arg17) = x17
    ∧ after (ops_10 (F := F)) W (Proc.devRef .tc main_arg18) = x18
    ∧ after (ops_10 (F := F)) W (Proc.devRef .tc main_arg19) = x19
    ∧ after (ops_10 (F := F)) W (Proc.devRef .tc main_v77) = (val_main_v77 (F := F) x0 x1 x20 x21 x22)
    ∧ after (ops_10 (F := F)) W (Proc.devRef .tc main_v133) = (val_main_v133 (F := F) x0 x1 x2 x3 x4 x5 x6 x7 x8 x9 x10 x11 x12 x13 x14 x15 x20 x21 x22)
    ∧ after (ops_10 (F := F)) W (Proc.devRef .tc main_v135) = (val_main_v135 (F := F) x0 x1 x2 x3 x4 x5 x6 x7 x8 x9 x10 x11 x12 x13 x14 x15 x20 x21 x22)
    ∧ after (ops_10 (F := F)) W (Proc.devRef .tc main_cst_26) = (val_main_cst_26 (F := F)) := by
  refine ⟨?_, ?_, ?_, ?_, ?_, ?_, ?_, ?_⟩ <;> after_results_simp <;> (try simp only [h_main_v123, h_main_v111, h_main_arg8, h_main_arg9, h_main_v77, h_main_arg16, h_main_arg17, h_main_arg18, h_main_arg19]) <;> (try rfl)

/-- Operations 166 to 166 of @main. -/
abbrev ops_11 : List (HloOp τ sig (Elt F)) :=
  [ binary main_v135 main_cst_26 main_v136 ((fun x v => Host.reduceAdd x v reducesTo_S65536x512_S65536_d1 h_S_) : (⟨S65536x512, .f32⟩ : BufTy).Contents (Elt F) → (⟨S_, .f32⟩ : BufTy).Contents (Elt F) → (⟨S65536, .f32⟩ : BufTy).Contents (Elt F)) ]

set_option maxRecDepth 16384 in
set_option maxHeartbeats 16000000 in
/-- After operations 166 to 166: from any contents at which the buffers still to be read are the stages of the arguments, the buffers to be read later are again the stages of the arguments. -/
theorem stretch_11 (W : Valuation τ sig (Elt F))
    (x0 : (⟨S100000x512, .f32⟩ : BufTy).Contents (Elt F)) (x1 : (⟨S50x512, .f32⟩ : BufTy).Contents (Elt F)) (x2 : (⟨S100000x512, .f32⟩ : BufTy).Contents (Elt F)) (x3 : (⟨S512x1, .f32⟩ : BufTy).Contents (Elt F)) (x4 : (⟨S1, .f32⟩ : BufTy).Contents (Elt F)) (x5 : (⟨S50x512, .f32⟩ : BufTy).Contents (Elt F)) (x6 : (⟨S512x1, .f32⟩ : BufTy).Contents (Elt F)) (x7 : (⟨S1, .f32⟩ : BufTy).Contents (Elt F)) (x8 : (⟨S8x64, .f32⟩ : BufTy).Contents (Elt F)) (x9 : (⟨S8x64, .f32⟩ : BufTy).Contents (Elt F)) (x10 : (⟨S512x512, .f32⟩ : BufTy).Contents (Elt F)) (x11 : (⟨S512, .f32⟩ : BufTy).Contents (Elt F)) (x12 : (⟨S64x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S1024x512, .f32⟩ : BufTy).Contents (Elt F)) (x17 : (⟨S512, .f32⟩ : BufTy).Contents (Elt F)) (x18 : (⟨S_, .f32⟩ : BufTy).Contents (Elt F)) (x19 : (⟨S_, .f32⟩ : BufTy).Contents (Elt F)) (x20 : (⟨S65536, .i32⟩ : BufTy).Contents (Elt F)) (x21 : (⟨S65536, .i32⟩ : BufTy).Contents (Elt F)) (x22 : (⟨S65536, .i32⟩ : BufTy).Contents (Elt F))
    (h_main_v135 : W (Proc.devRef .tc main_v135) = (val_main_v135 (F := F) x0 x1 x2 x3 x4 x5 x6 x7 x8 x9 x10 x11 x12 x13 x14 x15 x20 x21 x22))
    (h_main_cst_26 : W (Proc.devRef .tc main_cst_26) = (val_main_cst_26 (F := F)))
    (h_main_arg16 : W (Proc.devRef .tc main_arg16) = x16)
    (h_main_arg17 : W (Proc.devRef .tc main_arg17) = x17)
    (h_main_arg18 : W (Proc.devRef .tc main_arg18) = x18)
    (h_main_arg19 : W (Proc.devRef .tc main_arg19) = x19)
    (h_main_v77 : W (Proc.devRef .tc main_v77) = (val_main_v77 (F := F) x0 x1 x20 x21 x22))
    (h_main_v133 : W (Proc.devRef .tc main_v133) = (val_main_v133 (F := F) x0 x1 x2 x3 x4 x5 x6 x7 x8 x9 x10 x11 x12 x13 x14 x15 x20 x21 x22)) :
    after (ops_11 (F := F)) W (Proc.devRef .tc main_arg16) = x16
    ∧ after (ops_11 (F := F)) W (Proc.devRef .tc main_arg17) = x17
    ∧ after (ops_11 (F := F)) W (Proc.devRef .tc main_arg18) = x18
    ∧ after (ops_11 (F := F)) W (Proc.devRef .tc main_arg19) = x19
    ∧ after (ops_11 (F := F)) W (Proc.devRef .tc main_v77) = (val_main_v77 (F := F) x0 x1 x20 x21 x22)
    ∧ after (ops_11 (F := F)) W (Proc.devRef .tc main_v133) = (val_main_v133 (F := F) x0 x1 x2 x3 x4 x5 x6 x7 x8 x9 x10 x11 x12 x13 x14 x15 x20 x21 x22)
    ∧ after (ops_11 (F := F)) W (Proc.devRef .tc main_v136) = (val_main_v136 (F := F) x0 x1 x2 x3 x4 x5 x6 x7 x8 x9 x10 x11 x12 x13 x14 x15 x20 x21 x22) := by
  refine ⟨?_, ?_, ?_, ?_, ?_, ?_, ?_⟩ <;> after_results_simp <;> (try simp only [h_main_v135, h_main_cst_26, h_main_arg16, h_main_arg17, h_main_arg18, h_main_arg19, h_main_v77, h_main_v133]) <;> (try rfl)

/-- Operations 167 to 167 of @main. -/
abbrev ops_12 : List (HloOp τ sig (Elt F)) :=
  [ binary main_v77 main_v133 main_v137 ((fun a b => concatenate S65536x1024 1 [⟨S65536x512, a⟩, ⟨S65536x512, b⟩] concatenates_S65536x512_S65536x512_S65536x1024_d1) : (⟨S65536x512, .f32⟩ : BufTy).Contents (Elt F) → (⟨S65536x512, .f32⟩ : BufTy).Contents (Elt F) → (⟨S65536x1024, .f32⟩ : BufTy).Contents (Elt F)) ]

set_option maxRecDepth 16384 in
set_option maxHeartbeats 16000000 in
/-- After operations 167 to 167: from any contents at which the buffers still to be read are the stages of the arguments, the buffers to be read later are again the stages of the arguments. -/
theorem stretch_12 (W : Valuation τ sig (Elt F))
    (x0 : (⟨S100000x512, .f32⟩ : BufTy).Contents (Elt F)) (x1 : (⟨S50x512, .f32⟩ : BufTy).Contents (Elt F)) (x2 : (⟨S100000x512, .f32⟩ : BufTy).Contents (Elt F)) (x3 : (⟨S512x1, .f32⟩ : BufTy).Contents (Elt F)) (x4 : (⟨S1, .f32⟩ : BufTy).Contents (Elt F)) (x5 : (⟨S50x512, .f32⟩ : BufTy).Contents (Elt F)) (x6 : (⟨S512x1, .f32⟩ : BufTy).Contents (Elt F)) (x7 : (⟨S1, .f32⟩ : BufTy).Contents (Elt F)) (x8 : (⟨S8x64, .f32⟩ : BufTy).Contents (Elt F)) (x9 : (⟨S8x64, .f32⟩ : BufTy).Contents (Elt F)) (x10 : (⟨S512x512, .f32⟩ : BufTy).Contents (Elt F)) (x11 : (⟨S512, .f32⟩ : BufTy).Contents (Elt F)) (x12 : (⟨S64x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S1024x512, .f32⟩ : BufTy).Contents (Elt F)) (x17 : (⟨S512, .f32⟩ : BufTy).Contents (Elt F)) (x18 : (⟨S_, .f32⟩ : BufTy).Contents (Elt F)) (x19 : (⟨S_, .f32⟩ : BufTy).Contents (Elt F)) (x20 : (⟨S65536, .i32⟩ : BufTy).Contents (Elt F)) (x21 : (⟨S65536, .i32⟩ : BufTy).Contents (Elt F)) (x22 : (⟨S65536, .i32⟩ : BufTy).Contents (Elt F))
    (h_main_v77 : W (Proc.devRef .tc main_v77) = (val_main_v77 (F := F) x0 x1 x20 x21 x22))
    (h_main_v133 : W (Proc.devRef .tc main_v133) = (val_main_v133 (F := F) x0 x1 x2 x3 x4 x5 x6 x7 x8 x9 x10 x11 x12 x13 x14 x15 x20 x21 x22))
    (h_main_arg16 : W (Proc.devRef .tc main_arg16) = x16)
    (h_main_arg17 : W (Proc.devRef .tc main_arg17) = x17)
    (h_main_arg18 : W (Proc.devRef .tc main_arg18) = x18)
    (h_main_arg19 : W (Proc.devRef .tc main_arg19) = x19)
    (h_main_v136 : W (Proc.devRef .tc main_v136) = (val_main_v136 (F := F) x0 x1 x2 x3 x4 x5 x6 x7 x8 x9 x10 x11 x12 x13 x14 x15 x20 x21 x22)) :
    after (ops_12 (F := F)) W (Proc.devRef .tc main_arg16) = x16
    ∧ after (ops_12 (F := F)) W (Proc.devRef .tc main_arg17) = x17
    ∧ after (ops_12 (F := F)) W (Proc.devRef .tc main_arg18) = x18
    ∧ after (ops_12 (F := F)) W (Proc.devRef .tc main_arg19) = x19
    ∧ after (ops_12 (F := F)) W (Proc.devRef .tc main_v136) = (val_main_v136 (F := F) x0 x1 x2 x3 x4 x5 x6 x7 x8 x9 x10 x11 x12 x13 x14 x15 x20 x21 x22)
    ∧ after (ops_12 (F := F)) W (Proc.devRef .tc main_v137) = (val_main_v137 (F := F) x0 x1 x2 x3 x4 x5 x6 x7 x8 x9 x10 x11 x12 x13 x14 x15 x20 x21 x22) := by
  refine ⟨?_, ?_, ?_, ?_, ?_, ?_⟩ <;> after_results_simp <;> (try simp only [h_main_v77, h_main_v133, h_main_arg16, h_main_arg17, h_main_arg18, h_main_arg19, h_main_v136]) <;> (try rw [h_main_v77, h_main_v133]) <;> (try rfl)

/-- Operations 168 to 172 of @main. -/
abbrev ops_13 : List (HloOp τ sig (Elt F)) :=
  [ binary main_v137 main_arg16 main_v138 ((fun l r => Host.dotGeneral dot_S65536x1024_S1024x512_S65536x512_1_0_0_1_n_n none l r) : (⟨S65536x1024, .f32⟩ : BufTy).Contents (Elt F) → (⟨S1024x512, .f32⟩ : BufTy).Contents (Elt F) → (⟨S65536x512, .f32⟩ : BufTy).Contents (Elt F)),
    unary main_arg17 main_v139 (broadcastInDim S1x512 ![1] bcast_S512_S1x512_1 : (⟨S512, .f32⟩ : BufTy).Contents (Elt F) → (⟨S1x512, .f32⟩ : BufTy).Contents (Elt F)),
    unary main_v139 main_v140 (broadcastInDim S65536x512 ![0, 1] bcast_S1x512_S65536x512_0_1 : (⟨S1x512, .f32⟩ : BufTy).Contents (Elt F) → (⟨S65536x512, .f32⟩ : BufTy).Contents (Elt F)),
    binary main_v138 main_v140 main_v141 (addf : (⟨S65536x512, .f32⟩ : BufTy).Contents (Elt F) → (⟨S65536x512, .f32⟩ : BufTy).Contents (Elt F) → (⟨S65536x512, .f32⟩ : BufTy).Contents (Elt F)),
    unary main_v141 main_v142 (Host.tanh : (⟨S65536x512, .f32⟩ : BufTy).Contents (Elt F) → (⟨S65536x512, .f32⟩ : BufTy).Contents (Elt F)) ]

set_option maxRecDepth 16384 in
set_option maxHeartbeats 16000000 in
/-- After operations 168 to 172: from any contents at which the buffers still to be read are the stages of the arguments, the buffers to be read later are again the stages of the arguments. -/
theorem stretch_13 (W : Valuation τ sig (Elt F))
    (x0 : (⟨S100000x512, .f32⟩ : BufTy).Contents (Elt F)) (x1 : (⟨S50x512, .f32⟩ : BufTy).Contents (Elt F)) (x2 : (⟨S100000x512, .f32⟩ : BufTy).Contents (Elt F)) (x3 : (⟨S512x1, .f32⟩ : BufTy).Contents (Elt F)) (x4 : (⟨S1, .f32⟩ : BufTy).Contents (Elt F)) (x5 : (⟨S50x512, .f32⟩ : BufTy).Contents (Elt F)) (x6 : (⟨S512x1, .f32⟩ : BufTy).Contents (Elt F)) (x7 : (⟨S1, .f32⟩ : BufTy).Contents (Elt F)) (x8 : (⟨S8x64, .f32⟩ : BufTy).Contents (Elt F)) (x9 : (⟨S8x64, .f32⟩ : BufTy).Contents (Elt F)) (x10 : (⟨S512x512, .f32⟩ : BufTy).Contents (Elt F)) (x11 : (⟨S512, .f32⟩ : BufTy).Contents (Elt F)) (x12 : (⟨S64x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S1024x512, .f32⟩ : BufTy).Contents (Elt F)) (x17 : (⟨S512, .f32⟩ : BufTy).Contents (Elt F)) (x18 : (⟨S_, .f32⟩ : BufTy).Contents (Elt F)) (x19 : (⟨S_, .f32⟩ : BufTy).Contents (Elt F)) (x20 : (⟨S65536, .i32⟩ : BufTy).Contents (Elt F)) (x21 : (⟨S65536, .i32⟩ : BufTy).Contents (Elt F)) (x22 : (⟨S65536, .i32⟩ : BufTy).Contents (Elt F))
    (h_main_v137 : W (Proc.devRef .tc main_v137) = (val_main_v137 (F := F) x0 x1 x2 x3 x4 x5 x6 x7 x8 x9 x10 x11 x12 x13 x14 x15 x20 x21 x22))
    (h_main_arg16 : W (Proc.devRef .tc main_arg16) = x16)
    (h_main_arg17 : W (Proc.devRef .tc main_arg17) = x17)
    (h_main_arg18 : W (Proc.devRef .tc main_arg18) = x18)
    (h_main_arg19 : W (Proc.devRef .tc main_arg19) = x19)
    (h_main_v136 : W (Proc.devRef .tc main_v136) = (val_main_v136 (F := F) x0 x1 x2 x3 x4 x5 x6 x7 x8 x9 x10 x11 x12 x13 x14 x15 x20 x21 x22)) :
    after (ops_13 (F := F)) W (Proc.devRef .tc main_arg18) = x18
    ∧ after (ops_13 (F := F)) W (Proc.devRef .tc main_arg19) = x19
    ∧ after (ops_13 (F := F)) W (Proc.devRef .tc main_v136) = (val_main_v136 (F := F) x0 x1 x2 x3 x4 x5 x6 x7 x8 x9 x10 x11 x12 x13 x14 x15 x20 x21 x22)
    ∧ after (ops_13 (F := F)) W (Proc.devRef .tc main_v142) = (val_main_v142 (F := F) x0 x1 x2 x3 x4 x5 x6 x7 x8 x9 x10 x11 x12 x13 x14 x15 x16 x17 x20 x21 x22) := by
  refine ⟨?_, ?_, ?_, ?_⟩ <;> after_results_simp <;> (try simp only [h_main_v137, h_main_arg16, h_main_arg17, h_main_arg18, h_main_arg19, h_main_v136]) <;> (try rfl)

/-- Operations 173 to 176 of @main. -/
abbrev ops_14 : List (HloOp τ sig (Elt F)) :=
  [ TRef.binary (TRef.of (T := ⟨S65536x512, .f32⟩) main_v142) (TRef.of (T := ⟨S65536x512, .f32⟩) main_v142) (TRef.of (T := ⟨S65536x512, .f32⟩) main_call0_v0) mulf,
    TRef.nullary (TRef.of (T := ⟨S_, .f32⟩) main_call0_cst) (constant S_ .f32 0x00000000#32),
    TRef.binary (TRef.of (T := ⟨S65536x512, .f32⟩) main_call0_v0) (TRef.of (T := ⟨S_, .f32⟩) main_call0_cst) (TRef.of (T := ⟨S65536, .f32⟩) main_call0_v1) (fun x v => Host.reduceAdd x v reducesTo_S65536x512_S65536_d1 h_S_),
    TRef.unary (TRef.of (T := ⟨S65536, .f32⟩) main_call0_v1) (TRef.of (T := ⟨S65536, .f32⟩) main_v143) Host.sqrt ]

set_option maxRecDepth 16384 in
set_option maxHeartbeats 16000000 in
/-- After operations 173 to 176: from any contents at which the buffers still to be read are the stages of the arguments, the buffers to be read later are again the stages of the arguments. -/
theorem stretch_14 (W : Valuation τ sig (Elt F))
    (x0 : (⟨S100000x512, .f32⟩ : BufTy).Contents (Elt F)) (x1 : (⟨S50x512, .f32⟩ : BufTy).Contents (Elt F)) (x2 : (⟨S100000x512, .f32⟩ : BufTy).Contents (Elt F)) (x3 : (⟨S512x1, .f32⟩ : BufTy).Contents (Elt F)) (x4 : (⟨S1, .f32⟩ : BufTy).Contents (Elt F)) (x5 : (⟨S50x512, .f32⟩ : BufTy).Contents (Elt F)) (x6 : (⟨S512x1, .f32⟩ : BufTy).Contents (Elt F)) (x7 : (⟨S1, .f32⟩ : BufTy).Contents (Elt F)) (x8 : (⟨S8x64, .f32⟩ : BufTy).Contents (Elt F)) (x9 : (⟨S8x64, .f32⟩ : BufTy).Contents (Elt F)) (x10 : (⟨S512x512, .f32⟩ : BufTy).Contents (Elt F)) (x11 : (⟨S512, .f32⟩ : BufTy).Contents (Elt F)) (x12 : (⟨S64x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S1024x512, .f32⟩ : BufTy).Contents (Elt F)) (x17 : (⟨S512, .f32⟩ : BufTy).Contents (Elt F)) (x18 : (⟨S_, .f32⟩ : BufTy).Contents (Elt F)) (x19 : (⟨S_, .f32⟩ : BufTy).Contents (Elt F)) (x20 : (⟨S65536, .i32⟩ : BufTy).Contents (Elt F)) (x21 : (⟨S65536, .i32⟩ : BufTy).Contents (Elt F)) (x22 : (⟨S65536, .i32⟩ : BufTy).Contents (Elt F))
    (h_main_v142 : W (Proc.devRef .tc main_v142) = (val_main_v142 (F := F) x0 x1 x2 x3 x4 x5 x6 x7 x8 x9 x10 x11 x12 x13 x14 x15 x16 x17 x20 x21 x22))
    (h_main_arg18 : W (Proc.devRef .tc main_arg18) = x18)
    (h_main_arg19 : W (Proc.devRef .tc main_arg19) = x19)
    (h_main_v136 : W (Proc.devRef .tc main_v136) = (val_main_v136 (F := F) x0 x1 x2 x3 x4 x5 x6 x7 x8 x9 x10 x11 x12 x13 x14 x15 x20 x21 x22)) :
    after (ops_14 (F := F)) W (Proc.devRef .tc main_arg18) = x18
    ∧ after (ops_14 (F := F)) W (Proc.devRef .tc main_arg19) = x19
    ∧ after (ops_14 (F := F)) W (Proc.devRef .tc main_v136) = (val_main_v136 (F := F) x0 x1 x2 x3 x4 x5 x6 x7 x8 x9 x10 x11 x12 x13 x14 x15 x20 x21 x22)
    ∧ after (ops_14 (F := F)) W (Proc.devRef .tc main_v143) = (val_main_v143 (F := F) x0 x1 x2 x3 x4 x5 x6 x7 x8 x9 x10 x11 x12 x13 x14 x15 x16 x17 x20 x21 x22) := by
  refine ⟨?_, ?_, ?_, ?_⟩ <;> after_results_simp <;> (try simp only [h_main_v142, h_main_arg18, h_main_arg19, h_main_v136]) <;> (try rfl)

/-- Operations 177 to 180 of @main. -/
abbrev ops_15 : List (HloOp τ sig (Elt F)) :=
  [ unary main_arg18 main_v144 (broadcastInDim S65536 ![] bcast_S_S65536 : (⟨S_, .f32⟩ : BufTy).Contents (Elt F) → (⟨S65536, .f32⟩ : BufTy).Contents (Elt F)),
    binary main_v144 main_v143 main_v145 (mulf : (⟨S65536, .f32⟩ : BufTy).Contents (Elt F) → (⟨S65536, .f32⟩ : BufTy).Contents (Elt F) → (⟨S65536, .f32⟩ : BufTy).Contents (Elt F)),
    unary main_arg19 main_v146 (broadcastInDim S65536 ![] bcast_S_S65536 : (⟨S_, .f32⟩ : BufTy).Contents (Elt F) → (⟨S65536, .f32⟩ : BufTy).Contents (Elt F)),
    binary main_v145 main_v146 main_v147 (addf : (⟨S65536, .f32⟩ : BufTy).Contents (Elt F) → (⟨S65536, .f32⟩ : BufTy).Contents (Elt F) → (⟨S65536, .f32⟩ : BufTy).Contents (Elt F)) ]

set_option maxRecDepth 16384 in
set_option maxHeartbeats 16000000 in
/-- After operations 177 to 180: from any contents at which the buffers still to be read are the stages of the arguments, the buffers to be read later are again the stages of the arguments. -/
theorem stretch_15 (W : Valuation τ sig (Elt F))
    (x0 : (⟨S100000x512, .f32⟩ : BufTy).Contents (Elt F)) (x1 : (⟨S50x512, .f32⟩ : BufTy).Contents (Elt F)) (x2 : (⟨S100000x512, .f32⟩ : BufTy).Contents (Elt F)) (x3 : (⟨S512x1, .f32⟩ : BufTy).Contents (Elt F)) (x4 : (⟨S1, .f32⟩ : BufTy).Contents (Elt F)) (x5 : (⟨S50x512, .f32⟩ : BufTy).Contents (Elt F)) (x6 : (⟨S512x1, .f32⟩ : BufTy).Contents (Elt F)) (x7 : (⟨S1, .f32⟩ : BufTy).Contents (Elt F)) (x8 : (⟨S8x64, .f32⟩ : BufTy).Contents (Elt F)) (x9 : (⟨S8x64, .f32⟩ : BufTy).Contents (Elt F)) (x10 : (⟨S512x512, .f32⟩ : BufTy).Contents (Elt F)) (x11 : (⟨S512, .f32⟩ : BufTy).Contents (Elt F)) (x12 : (⟨S64x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S1024x512, .f32⟩ : BufTy).Contents (Elt F)) (x17 : (⟨S512, .f32⟩ : BufTy).Contents (Elt F)) (x18 : (⟨S_, .f32⟩ : BufTy).Contents (Elt F)) (x19 : (⟨S_, .f32⟩ : BufTy).Contents (Elt F)) (x20 : (⟨S65536, .i32⟩ : BufTy).Contents (Elt F)) (x21 : (⟨S65536, .i32⟩ : BufTy).Contents (Elt F)) (x22 : (⟨S65536, .i32⟩ : BufTy).Contents (Elt F))
    (h_main_arg18 : W (Proc.devRef .tc main_arg18) = x18)
    (h_main_v143 : W (Proc.devRef .tc main_v143) = (val_main_v143 (F := F) x0 x1 x2 x3 x4 x5 x6 x7 x8 x9 x10 x11 x12 x13 x14 x15 x16 x17 x20 x21 x22))
    (h_main_arg19 : W (Proc.devRef .tc main_arg19) = x19)
    (h_main_v136 : W (Proc.devRef .tc main_v136) = (val_main_v136 (F := F) x0 x1 x2 x3 x4 x5 x6 x7 x8 x9 x10 x11 x12 x13 x14 x15 x20 x21 x22)) :
    after (ops_15 (F := F)) W (Proc.devRef .tc main_v136) = (val_main_v136 (F := F) x0 x1 x2 x3 x4 x5 x6 x7 x8 x9 x10 x11 x12 x13 x14 x15 x20 x21 x22)
    ∧ after (ops_15 (F := F)) W (Proc.devRef .tc main_v147) = (val_main_v147 (F := F) x0 x1 x2 x3 x4 x5 x6 x7 x8 x9 x10 x11 x12 x13 x14 x15 x16 x17 x18 x19 x20 x21 x22) := by
  refine ⟨?_, ?_⟩ <;> after_results_simp <;> (try simp only [h_main_arg18, h_main_v143, h_main_arg19, h_main_v136]) <;> (try rfl)

/-- The whole line of 180 operations, cut into stretches. -/
abbrev opsCut : List (HloOp τ sig (Elt F)) := ops_0 ++ (ops_1 ++ (ops_2 ++ (ops_3 ++ (ops_4 ++ (ops_5 ++ (ops_6 ++ (ops_7 ++ (ops_8 ++ (ops_9 ++ (ops_10 ++ (ops_11 ++ (ops_12 ++ (ops_13 ++ (ops_14 ++ (ops_15)))))))))))))))

/-- The whole line: from contents whose argument buffers are x0 .. x22, the two result buffers end at their stages. -/
theorem after_opsCut (V : Valuation τ sig (Elt F))
    (x0 : (⟨S100000x512, .f32⟩ : BufTy).Contents (Elt F)) (x1 : (⟨S50x512, .f32⟩ : BufTy).Contents (Elt F)) (x2 : (⟨S100000x512, .f32⟩ : BufTy).Contents (Elt F)) (x3 : (⟨S512x1, .f32⟩ : BufTy).Contents (Elt F)) (x4 : (⟨S1, .f32⟩ : BufTy).Contents (Elt F)) (x5 : (⟨S50x512, .f32⟩ : BufTy).Contents (Elt F)) (x6 : (⟨S512x1, .f32⟩ : BufTy).Contents (Elt F)) (x7 : (⟨S1, .f32⟩ : BufTy).Contents (Elt F)) (x8 : (⟨S8x64, .f32⟩ : BufTy).Contents (Elt F)) (x9 : (⟨S8x64, .f32⟩ : BufTy).Contents (Elt F)) (x10 : (⟨S512x512, .f32⟩ : BufTy).Contents (Elt F)) (x11 : (⟨S512, .f32⟩ : BufTy).Contents (Elt F)) (x12 : (⟨S64x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S1024x512, .f32⟩ : BufTy).Contents (Elt F)) (x17 : (⟨S512, .f32⟩ : BufTy).Contents (Elt F)) (x18 : (⟨S_, .f32⟩ : BufTy).Contents (Elt F)) (x19 : (⟨S_, .f32⟩ : BufTy).Contents (Elt F)) (x20 : (⟨S65536, .i32⟩ : BufTy).Contents (Elt F)) (x21 : (⟨S65536, .i32⟩ : BufTy).Contents (Elt F)) (x22 : (⟨S65536, .i32⟩ : BufTy).Contents (Elt F))
    (h_main_arg0 : V (Proc.devRef .tc main_arg0) = x0) (h_main_arg1 : V (Proc.devRef .tc main_arg1) = x1) (h_main_arg2 : V (Proc.devRef .tc main_arg2) = x2) (h_main_arg3 : V (Proc.devRef .tc main_arg3) = x3) (h_main_arg4 : V (Proc.devRef .tc main_arg4) = x4) (h_main_arg5 : V (Proc.devRef .tc main_arg5) = x5) (h_main_arg6 : V (Proc.devRef .tc main_arg6) = x6) (h_main_arg7 : V (Proc.devRef .tc main_arg7) = x7) (h_main_arg8 : V (Proc.devRef .tc main_arg8) = x8) (h_main_arg9 : V (Proc.devRef .tc main_arg9) = x9) (h_main_arg10 : V (Proc.devRef .tc main_arg10) = x10) (h_main_arg11 : V (Proc.devRef .tc main_arg11) = x11) (h_main_arg12 : V (Proc.devRef .tc main_arg12) = x12) (h_main_arg13 : V (Proc.devRef .tc main_arg13) = x13) (h_main_arg14 : V (Proc.devRef .tc main_arg14) = x14) (h_main_arg15 : V (Proc.devRef .tc main_arg15) = x15) (h_main_arg16 : V (Proc.devRef .tc main_arg16) = x16) (h_main_arg17 : V (Proc.devRef .tc main_arg17) = x17) (h_main_arg18 : V (Proc.devRef .tc main_arg18) = x18) (h_main_arg19 : V (Proc.devRef .tc main_arg19) = x19) (h_main_arg20 : V (Proc.devRef .tc main_arg20) = x20) (h_main_arg21 : V (Proc.devRef .tc main_arg21) = x21) (h_main_arg22 : V (Proc.devRef .tc main_arg22) = x22) :
    after (opsCut (F := F)) V (Proc.devRef .tc main_v147) = (val_main_v147 (F := F) x0 x1 x2 x3 x4 x5 x6 x7 x8 x9 x10 x11 x12 x13 x14 x15 x16 x17 x18 x19 x20 x21 x22)
    ∧ after (opsCut (F := F)) V (Proc.devRef .tc main_v136) = (val_main_v136 (F := F) x0 x1 x2 x3 x4 x5 x6 x7 x8 x9 x10 x11 x12 x13 x14 x15 x20 x21 x22) := by
  simp only [StableHlo.after_append]
  obtain ⟨g0_main_arg0, g0_main_arg1, g0_main_arg2, g0_main_arg3, g0_main_arg4, g0_main_arg5, g0_main_arg6, g0_main_arg7, g0_main_arg8, g0_main_arg9, g0_main_arg10, g0_main_arg11, g0_main_arg12, g0_main_arg13, g0_main_arg14, g0_main_arg15, g0_main_arg16, g0_main_arg17, g0_main_arg18, g0_main_arg19, g0_main_arg20, g0_main_arg21, g0_main_arg22, g0_main_v6, g0_main_v8, g0_main_v10⟩ := stretch_0 (F := F) V x0 x1 x2 x3 x4 x5 x6 x7 x8 x9 x10 x11 x12 x13 x14 x15 x16 x17 x18 x19 x20 x21 x22 h_main_arg20 h_main_arg0 h_main_arg21 h_main_arg1 h_main_arg2 h_main_arg3 h_main_arg4 h_main_arg5 h_main_arg6 h_main_arg7 h_main_arg8 h_main_arg9 h_main_arg10 h_main_arg11 h_main_arg12 h_main_arg13 h_main_arg14 h_main_arg15 h_main_arg16 h_main_arg17 h_main_arg18 h_main_arg19 h_main_arg22
  obtain ⟨g1_main_arg2, g1_main_arg3, g1_main_arg4, g1_main_arg5, g1_main_arg6, g1_main_arg7, g1_main_arg8, g1_main_arg9, g1_main_arg10, g1_main_arg11, g1_main_arg12, g1_main_arg13, g1_main_arg14, g1_main_arg15, g1_main_arg16, g1_main_arg17, g1_main_arg18, g1_main_arg19, g1_main_arg20, g1_main_arg21, g1_main_arg22, g1_main_v6, g1_main_v13, g1_main_v20, g1_main_v22⟩ := stretch_1 (F := F) (after (ops_0 (F := F)) V) x0 x1 x2 x3 x4 x5 x6 x7 x8 x9 x10 x11 x12 x13 x14 x15 x16 x17 x18 x19 x20 x21 x22 g0_main_v8 g0_main_v10 g0_main_arg21 g0_main_arg1 g0_main_arg22 g0_main_arg0 g0_main_arg20 g0_main_arg2 g0_main_arg3 g0_main_arg4 g0_main_arg5 g0_main_arg6 g0_main_arg7 g0_main_arg8 g0_main_arg9 g0_main_arg10 g0_main_arg11 g0_main_arg12 g0_main_arg13 g0_main_arg14 g0_main_arg15 g0_main_arg16 g0_main_arg17 g0_main_arg18 g0_main_arg19 g0_main_v6
  obtain ⟨g2_main_arg2, g2_main_arg3, g2_main_arg4, g2_main_arg5, g2_main_arg6, g2_main_arg7, g2_main_arg8, g2_main_arg9, g2_main_arg10, g2_main_arg11, g2_main_arg12, g2_main_arg13, g2_main_arg14, g2_main_arg15, g2_main_arg16, g2_main_arg17, g2_main_arg18, g2_main_arg19, g2_main_arg21, g2_main_arg22, g2_main_v6, g2_main_v13, g2_main_v20, g2_main_v35⟩ := stretch_2 (F := F) (after (ops_1 (F := F)) (after (ops_0 (F := F)) V)) x0 x1 x2 x3 x4 x5 x6 x7 x8 x9 x10 x11 x12 x13 x14 x15 x16 x17 x18 x19 x20 x21 x22 g1_main_arg20 g1_main_v22 g1_main_arg2 g1_main_arg3 g1_main_arg4 g1_main_arg5 g1_main_arg6 g1_main_arg7 g1_main_arg8 g1_main_arg9 g1_main_arg10 g1_main_arg11 g1_main_arg12 g1_main_arg13 g1_main_arg14 g1_main_arg15 g1_main_arg16 g1_main_arg17 g1_main_arg18 g1_main_arg19 g1_main_arg21 g1_main_arg22 g1_main_v6 g1_main_v13 g1_main_v20
  obtain ⟨g3_main_arg5, g3_main_arg6, g3_main_arg7, g3_main_arg8, g3_main_arg9, g3_main_arg10, g3_main_arg11, g3_main_arg12, g3_main_arg13, g3_main_arg14, g3_main_arg15, g3_main_arg16, g3_main_arg17, g3_main_arg18, g3_main_arg19, g3_main_arg21, g3_main_v6, g3_main_v13, g3_main_v20, g3_main_v37, g3_main_v45, g3_main_v47⟩ := stretch_3 (F := F) (after (ops_2 (F := F)) (after (ops_1 (F := F)) (after (ops_0 (F := F)) V))) x0 x1 x2 x3 x4 x5 x6 x7 x8 x9 x10 x11 x12 x13 x14 x15 x16 x17 x18 x19 x20 x21 x22 g2_main_v35 g2_main_arg22 g2_main_arg2 g2_main_arg3 g2_main_arg4 g2_main_arg5 g2_main_arg6 g2_main_arg7 g2_main_arg8 g2_main_arg9 g2_main_arg10 g2_main_arg11 g2_main_arg12 g2_main_arg13 g2_main_arg14 g2_main_arg15 g2_main_arg16 g2_main_arg17 g2_main_arg18 g2_main_arg19 g2_main_arg21 g2_main_v6 g2_main_v13 g2_main_v20
  obtain ⟨g4_main_arg5, g4_main_arg6, g4_main_arg7, g4_main_arg8, g4_main_arg9, g4_main_arg10, g4_main_arg11, g4_main_arg12, g4_main_arg13, g4_main_arg14, g4_main_arg15, g4_main_arg16, g4_main_arg17, g4_main_arg18, g4_main_arg19, g4_main_arg21, g4_main_v6, g4_main_v13, g4_main_v20, g4_main_v37, g4_main_v54, g4_main_v56, g4_main_v58⟩ := stretch_4 (F := F) (after (ops_3 (F := F)) (after (ops_2 (F := F)) (after (ops_1 (F := F)) (after (ops_0 (F := F)) V)))) x0 x1 x2 x3 x4 x5 x6 x7 x8 x9 x10 x11 x12 x13 x14 x15 x16 x17 x18 x19 x20 x21 x22 g3_main_v45 g3_main_v47 g3_main_arg21 g3_main_arg5 g3_main_arg6 g3_main_arg7 g3_main_arg8 g3_main_arg9 g3_main_arg10 g3_main_arg11 g3_main_arg12 g3_main_arg13 g3_main_arg14 g3_main_arg15 g3_main_arg16 g3_main_arg17 g3_main_arg18 g3_main_arg19 g3_main_v6 g3_main_v13 g3_main_v20 g3_main_v37
  obtain ⟨g5_main_arg8, g5_main_arg9, g5_main_arg10, g5_main_arg11, g5_main_arg12, g5_main_arg13, g5_main_arg14, g5_main_arg15, g5_main_arg16, g5_main_arg17, g5_main_arg18, g5_main_arg19, g5_main_v6, g5_main_v13, g5_main_v20, g5_main_v37, g5_main_v54, g5_main_v71⟩ := stretch_5 (F := F) (after (ops_4 (F := F)) (after (ops_3 (F := F)) (after (ops_2 (F := F)) (after (ops_1 (F := F)) (after (ops_0 (F := F)) V))))) x0 x1 x2 x3 x4 x5 x6 x7 x8 x9 x10 x11 x12 x13 x14 x15 x16 x17 x18 x19 x20 x21 x22 g4_main_v56 g4_main_v58 g4_main_arg21 g4_main_arg5 g4_main_arg6 g4_main_arg7 g4_main_arg8 g4_main_arg9 g4_main_arg10 g4_main_arg11 g4_main_arg12 g4_main_arg13 g4_main_arg14 g4_main_arg15 g4_main_arg16 g4_main_arg17 g4_main_arg18 g4_main_arg19 g4_main_v6 g4_main_v13 g4_main_v20 g4_main_v37 g4_main_v54
  obtain ⟨g6_main_arg8, g6_main_arg9, g6_main_arg13, g6_main_arg14, g6_main_arg15, g6_main_arg16, g6_main_arg17, g6_main_arg18, g6_main_arg19, g6_main_v75, g6_main_v77, g6_main_v84, g6_main_v85⟩ := stretch_6 (F := F) (after (ops_5 (F := F)) (after (ops_4 (F := F)) (after (ops_3 (F := F)) (after (ops_2 (F := F)) (after (ops_1 (F := F)) (after (ops_0 (F := F)) V)))))) x0 x1 x2 x3 x4 x5 x6 x7 x8 x9 x10 x11 x12 x13 x14 x15 x16 x17 x18 x19 x20 x21 x22 g5_main_v37 g5_main_v54 g5_main_v71 g5_main_v6 g5_main_v13 g5_main_v20 g5_main_arg10 g5_main_arg11 g5_main_arg8 g5_main_arg12 g5_main_arg9 g5_main_arg13 g5_main_arg14 g5_main_arg15 g5_main_arg16 g5_main_arg17 g5_main_arg18 g5_main_arg19
  obtain ⟨g7_main_arg8, g7_main_arg9, g7_main_arg16, g7_main_arg17, g7_main_arg18, g7_main_arg19, g7_main_v77, g7_main_v84, g7_main_v92, g7_main_v94, g7_main_v95, g7_main_v98⟩ := stretch_7 (F := F) (after (ops_6 (F := F)) (after (ops_5 (F := F)) (after (ops_4 (F := F)) (after (ops_3 (F := F)) (after (ops_2 (F := F)) (after (ops_1 (F := F)) (after (ops_0 (F := F)) V))))))) x0 x1 x2 x3 x4 x5 x6 x7 x8 x9 x10 x11 x12 x13 x14 x15 x16 x17 x18 x19 x20 x21 x22 g6_main_arg13 g6_main_v85 g6_main_arg9 g6_main_arg14 g6_main_arg15 g6_main_v75 g6_main_v84 g6_main_arg8 g6_main_arg16 g6_main_arg17 g6_main_arg18 g6_main_arg19 g6_main_v77
  obtain ⟨g8_main_arg8, g8_main_arg9, g8_main_arg16, g8_main_arg17, g8_main_arg18, g8_main_arg19, g8_main_v77, g8_main_v84, g8_main_v92, g8_main_v94, g8_main_v95, g8_main_v107, g8_main_v110⟩ := stretch_8 (F := F) (after (ops_7 (F := F)) (after (ops_6 (F := F)) (after (ops_5 (F := F)) (after (ops_4 (F := F)) (after (ops_3 (F := F)) (after (ops_2 (F := F)) (after (ops_1 (F := F)) (after (ops_0 (F := F)) V)))))))) x0 x1 x2 x3 x4 x5 x6 x7 x8 x9 x10 x11 x12 x13 x14 x15 x16 x17 x18 x19 x20 x21 x22 g7_main_v95 g7_main_v98 g7_main_arg8 g7_main_arg9 g7_main_arg16 g7_main_arg17 g7_main_arg18 g7_main_arg19 g7_main_v77 g7_main_v84 g7_main_v92 g7_main_v94
  obtain ⟨g9_main_arg8, g9_main_arg9, g9_main_arg16, g9_main_arg17, g9_main_arg18, g9_main_arg19, g9_main_v77, g9_main_v111, g9_main_v123⟩ := stretch_9 (F := F) (after (ops_8 (F := F)) (after (ops_7 (F := F)) (after (ops_6 (F := F)) (after (ops_5 (F := F)) (after (ops_4 (F := F)) (after (ops_3 (F := F)) (after (ops_2 (F := F)) (after (ops_1 (F := F)) (after (ops_0 (F := F)) V))))))))) x0 x1 x2 x3 x4 x5 x6 x7 x8 x9 x10 x11 x12 x13 x14 x15 x16 x17 x18 x19 x20 x21 x22 g8_main_v107 g8_main_v110 g8_main_v84 g8_main_v92 g8_main_v94 g8_main_v95 g8_main_arg8 g8_main_arg9 g8_main_arg16 g8_main_arg17 g8_main_arg18 g8_main_arg19 g8_main_v77
  obtain ⟨g10_main_arg16, g10_main_arg17, g10_main_arg18, g10_main_arg19, g10_main_v77, g10_main_v133, g10_main_v135, g10_main_cst_26⟩ := stretch_10 (F := F) (after (ops_9 (F := F)) (after (ops_8 (F := F)) (after (ops_7 (F := F)) (after (ops_6 (F := F)) (after (ops_5 (F := F)) (after (ops_4 (F := F)) (after (ops_3 (F := F)) (after (ops_2 (F := F)) (after (ops_1 (F := F)) (after (ops_0 (F := F)) V)))))))))) x0 x1 x2 x3 x4 x5 x6 x7 x8 x9 x10 x11 x12 x13 x14 x15 x16 x17 x18 x19 x20 x21 x22 g9_main_v123 g9_main_v111 g9_main_arg8 g9_main_arg9 g9_main_v77 g9_main_arg16 g9_main_arg17 g9_main_arg18 g9_main_arg19
  obtain ⟨g11_main_arg16, g11_main_arg17, g11_main_arg18, g11_main_arg19, g11_main_v77, g11_main_v133, g11_main_v136⟩ := stretch_11 (F := F) (after (ops_10 (F := F)) (after (ops_9 (F := F)) (after (ops_8 (F := F)) (after (ops_7 (F := F)) (after (ops_6 (F := F)) (after (ops_5 (F := F)) (after (ops_4 (F := F)) (after (ops_3 (F := F)) (after (ops_2 (F := F)) (after (ops_1 (F := F)) (after (ops_0 (F := F)) V))))))))))) x0 x1 x2 x3 x4 x5 x6 x7 x8 x9 x10 x11 x12 x13 x14 x15 x16 x17 x18 x19 x20 x21 x22 g10_main_v135 g10_main_cst_26 g10_main_arg16 g10_main_arg17 g10_main_arg18 g10_main_arg19 g10_main_v77 g10_main_v133
  obtain ⟨g12_main_arg16, g12_main_arg17, g12_main_arg18, g12_main_arg19, g12_main_v136, g12_main_v137⟩ := stretch_12 (F := F) (after (ops_11 (F := F)) (after (ops_10 (F := F)) (after (ops_9 (F := F)) (after (ops_8 (F := F)) (after (ops_7 (F := F)) (after (ops_6 (F := F)) (after (ops_5 (F := F)) (after (ops_4 (F := F)) (after (ops_3 (F := F)) (after (ops_2 (F := F)) (after (ops_1 (F := F)) (after (ops_0 (F := F)) V)))))))))))) x0 x1 x2 x3 x4 x5 x6 x7 x8 x9 x10 x11 x12 x13 x14 x15 x16 x17 x18 x19 x20 x21 x22 g11_main_v77 g11_main_v133 g11_main_arg16 g11_main_arg17 g11_main_arg18 g11_main_arg19 g11_main_v136
  obtain ⟨g13_main_arg18, g13_main_arg19, g13_main_v136, g13_main_v142⟩ := stretch_13 (F := F) (after (ops_12 (F := F)) (after (ops_11 (F := F)) (after (ops_10 (F := F)) (after (ops_9 (F := F)) (after (ops_8 (F := F)) (after (ops_7 (F := F)) (after (ops_6 (F := F)) (after (ops_5 (F := F)) (after (ops_4 (F := F)) (after (ops_3 (F := F)) (after (ops_2 (F := F)) (after (ops_1 (F := F)) (after (ops_0 (F := F)) V))))))))))))) x0 x1 x2 x3 x4 x5 x6 x7 x8 x9 x10 x11 x12 x13 x14 x15 x16 x17 x18 x19 x20 x21 x22 g12_main_v137 g12_main_arg16 g12_main_arg17 g12_main_arg18 g12_main_arg19 g12_main_v136
  obtain ⟨g14_main_arg18, g14_main_arg19, g14_main_v136, g14_main_v143⟩ := stretch_14 (F := F) (after (ops_13 (F := F)) (after (ops_12 (F := F)) (after (ops_11 (F := F)) (after (ops_10 (F := F)) (after (ops_9 (F := F)) (after (ops_8 (F := F)) (after (ops_7 (F := F)) (after (ops_6 (F := F)) (after (ops_5 (F := F)) (after (ops_4 (F := F)) (after (ops_3 (F := F)) (after (ops_2 (F := F)) (after (ops_1 (F := F)) (after (ops_0 (F := F)) V)))))))))))))) x0 x1 x2 x3 x4 x5 x6 x7 x8 x9 x10 x11 x12 x13 x14 x15 x16 x17 x18 x19 x20 x21 x22 g13_main_v142 g13_main_arg18 g13_main_arg19 g13_main_v136
  obtain ⟨g15_main_v136, g15_main_v147⟩ := stretch_15 (F := F) (after (ops_14 (F := F)) (after (ops_13 (F := F)) (after (ops_12 (F := F)) (after (ops_11 (F := F)) (after (ops_10 (F := F)) (after (ops_9 (F := F)) (after (ops_8 (F := F)) (after (ops_7 (F := F)) (after (ops_6 (F := F)) (after (ops_5 (F := F)) (after (ops_4 (F := F)) (after (ops_3 (F := F)) (after (ops_2 (F := F)) (after (ops_1 (F := F)) (after (ops_0 (F := F)) V))))))))))))))) x0 x1 x2 x3 x4 x5 x6 x7 x8 x9 x10 x11 x12 x13 x14 x15 x16 x17 x18 x19 x20 x21 x22 g14_main_arg18 g14_main_v143 g14_main_arg19 g14_main_v136
  exact ⟨g15_main_v147, g15_main_v136⟩

end Cert.RefAfter

end
-- ==== Proof.RefConsts.lean ====
/-
  The float literals the reference computes with, as extended reals, and the two host computations on literals:
  1 / sqrt 64 is the literal 1/8, and dividing by the literal 2 is multiplying by the literal 1/2.
-/
import Idealize.ShloMosaic.PureOps.Ideal

noncomputable section

namespace Cert.RefConsts

open Idealize.ShloMosaic

/-- The word 0x42800000 denotes 64. -/
theorem ofBits_64 : Ideal.ofBits .f32 0x42800000#32 = ((64 : ℝ) : EReal) := by
  simp [Ideal.ofBits, Ideal.ieee, -EReal.coe_mul]; norm_num

/-- The word 0x3F800000 denotes 1. -/
theorem ofBits_one : Ideal.ofBits .f32 0x3F800000#32 = ((1 : ℝ) : EReal) := by
  simp [Ideal.ofBits, Ideal.ieee, -EReal.coe_mul]; norm_num

/-- The word 0x3E000000 denotes 1/8. -/
theorem ofBits_eighth : Ideal.ofBits .f32 0x3E000000#32 = ((1 / 8 : ℝ) : EReal) := by
  simp [Ideal.ofBits, Ideal.ieee, -EReal.coe_mul]; norm_num

/-- The word 0x40000000 denotes 2. -/
theorem ofBits_two : Ideal.ofBits .f32 0x40000000#32 = ((2 : ℝ) : EReal) := by
  simp [Ideal.ofBits, Ideal.ieee, -EReal.coe_mul]; norm_num

/-- The word 0x3F000000 denotes 1/2. -/
theorem ofBits_half : Ideal.ofBits .f32 0x3F000000#32 = ((1 / 2 : ℝ) : EReal) := by
  simp [Ideal.ofBits, Ideal.ieee, -EReal.coe_mul]; norm_num

/-- The square root of 64 is 8. -/
theorem sqrt_64 : Real.sqrt 64 = 8 := by
  rw [show (64 : ℝ) = 8 ^ 2 by norm_num]
  exact Real.sqrt_sq (by norm_num)

/-- The softmax temperature: 1 / sqrt 64, computed on the literals, is the literal 1/8. -/
theorem scale_eq :
    Ideal.div (Ideal.ofBits .f32 0x3F800000#32) (Ideal.sqrt (Ideal.ofBits .f32 0x42800000#32))
      = Ideal.ofBits .f32 0x3E000000#32 := by
  rw [ofBits_64, ofBits_one, ofBits_eighth, Ideal.sqrt_coe, if_neg (by norm_num), sqrt_64,
    Ideal.div_coe (by norm_num), ← EReal.coe_mul]
  congr 1
  norm_num

/-- Halving: dividing by the literal 2 is multiplying by the literal 1/2, for every extended real. -/
theorem div_two (x : EReal) :
    Ideal.div x (Ideal.ofBits .f32 0x40000000#32) = x * Ideal.ofBits .f32 0x3F000000#32 := by
  rw [ofBits_two, ofBits_half, Ideal.div_coe (by norm_num)]

end Cert.RefConsts

end
-- ==== Proof.RefGather.lean ====
/-
  The reference's first stretch read at an index: the three index arrays wrapped and broadcast to a column, the six
  row gathers (a gathered row is the table row at the wrapped, clamped index), the three logistic gates and their
  mean (the density scalar), and the rows diff = h + r - t and ctx = h + r + t.
-/
import proofs.«180155_j68143951118751_2_alg».proof.Proof.RefReadP
import proofs.«180155_j68143951118751_2_alg».proof.Proof.ArgsOf
import proofs.«180155_j68143951118751_2_alg».proof.Proof.RefConsts

noncomputable section

namespace Cert.RefSide

open Cert.ReferenceIdeal Cert.ReferenceIdeal.Gen Cert.ReferenceIdeal.ReadP Idealize.ShloMosaic Idealize.ShloMosaic.ValueIdx
  Idealize.ShloMosaic.RowGatherScatter

variable (a0 : (⟨S100000x512, .f32⟩ : BufTy).Contents (Elt Ideal))
variable (a1 : (⟨S50x512, .f32⟩ : BufTy).Contents (Elt Ideal))
variable (a2 : (⟨S100000x512, .f32⟩ : BufTy).Contents (Elt Ideal))
variable (a3 : (⟨S512x1, .f32⟩ : BufTy).Contents (Elt Ideal))
variable (a4 : (⟨S1, .f32⟩ : BufTy).Contents (Elt Ideal))
variable (a5 : (⟨S50x512, .f32⟩ : BufTy).Contents (Elt Ideal))
variable (a6 : (⟨S512x1, .f32⟩ : BufTy).Contents (Elt Ideal))
variable (a7 : (⟨S1, .f32⟩ : BufTy).Contents (Elt Ideal))
variable (a8 : (⟨S8x64, .f32⟩ : BufTy).Contents (Elt Ideal))
variable (a9 : (⟨S8x64, .f32⟩ : BufTy).Contents (Elt Ideal))
variable (a10 : (⟨S512x512, .f32⟩ : BufTy).Contents (Elt Ideal))
variable (a11 : (⟨S512, .f32⟩ : BufTy).Contents (Elt Ideal))
variable (a12 : (⟨S64x64, .f32⟩ : BufTy).Contents (Elt Ideal))
variable (a13 : (⟨S64, .f32⟩ : BufTy).Contents (Elt Ideal))
variable (a14 : (⟨S64x64, .f32⟩ : BufTy).Contents (Elt Ideal))
variable (a15 : (⟨S64, .f32⟩ : BufTy).Contents (Elt Ideal))
variable (a16 : (⟨S1024x512, .f32⟩ : BufTy).Contents (Elt Ideal))
variable (a17 : (⟨S512, .f32⟩ : BufTy).Contents (Elt Ideal))
variable (a18 : (⟨S_, .f32⟩ : BufTy).Contents (Elt Ideal))
variable (a19 : (⟨S_, .f32⟩ : BufTy).Contents (Elt Ideal))
variable (a20 : (⟨S65536, .i32⟩ : BufTy).Contents (Elt Ideal))
variable (a21 : (⟨S65536, .i32⟩ : BufTy).Contents (Elt Ideal))
variable (a22 : (⟨S65536, .i32⟩ : BufTy).Contents (Elt Ideal))

local notation "𝔸" => Spec.argsOf a0 a1 a2 a3 a4 a5 a6 a7 a8 a9 a10 a11 a12 a13 a14 a15 a16 a17 a18 a19 a20 a21 a22

/-- Two index functions agree when they agree on every axis. -/
local macro "idx_ext" : tactic => `(tactic| (funext c; apply Fin.ext; fin_cases c <;> rfl))

theorem idx_v5 (b : Fin 65536) : idx_main_v5 (ix2 b (0 : Fin 1)) = ix1 b := by idx_ext

/-- Row b of the start-index column is entry b of the index array, wrapped once by the table height if negative. -/
theorem v5_at (b : Fin 65536) :
    val_main_v5 (F := Ideal) a20 (ix2 b (0 : Fin 1)) = Spec.wrap 100000#32 (a20 (ix1 b)) := by
  rw [val_main_v5_apply, idx_v5, val_main_v4_apply, val_main_v1_apply, val_main_v3_apply, val_main_v0_apply,
    val_main_v2_apply, val_main_c_apply, val_main_c_0_apply]
  try rfl

theorem idx_v12 (b : Fin 65536) : idx_main_v12 (ix2 b (0 : Fin 1)) = ix1 b := by idx_ext

/-- Row b of the start-index column is entry b of the index array, wrapped once by the table height if negative. -/
theorem v12_at (b : Fin 65536) :
    val_main_v12 (F := Ideal) a21 (ix2 b (0 : Fin 1)) = Spec.wrap 50#32 (a21 (ix1 b)) := by
  rw [val_main_v12_apply, idx_v12, val_main_v11_apply, val_main_v8_apply, val_main_v10_apply, val_main_v7_apply,
    val_main_v9_apply, val_main_c_1_apply, val_main_c_2_apply]
  try rfl

theorem idx_v19 (b : Fin 65536) : idx_main_v19 (ix2 b (0 : Fin 1)) = ix1 b := by idx_ext

/-- Row b of the start-index column is entry b of the index array, wrapped once by the table height if negative. -/
theorem v19_at (b : Fin 65536) :
    val_main_v19 (F := Ideal) a22 (ix2 b (0 : Fin 1)) = Spec.wrap 100000#32 (a22 (ix1 b)) := by
  rw [val_main_v19_apply, idx_v19, val_main_v18_apply, val_main_v15_apply, val_main_v17_apply, val_main_v14_apply,
    val_main_v16_apply, val_main_c_3_apply, val_main_c_4_apply]
  try rfl

theorem idx_v26 (b : Fin 65536) : idx_main_v26 (ix2 b (0 : Fin 1)) = ix1 b := by idx_ext

/-- Row b of the start-index column is entry b of the index array, wrapped once by the table height if negative. -/
theorem v26_at (b : Fin 65536) :
    val_main_v26 (F := Ideal) a20 (ix2 b (0 : Fin 1)) = Spec.wrap 100000#32 (a20 (ix1 b)) := by
  rw [val_main_v26_apply, idx_v26, val_main_v25_apply, val_main_v22_apply, val_main_v24_apply, val_main_v21_apply,
    val_main_v23_apply, val_main_c_5_apply, val_main_c_6_apply]
  try rfl

theorem idx_v43 (b : Fin 65536) : idx_main_v43 (ix2 b (0 : Fin 1)) = ix1 b := by idx_ext

/-- Row b of the start-index column is entry b of the index array, wrapped once by the table height if negative. -/
theorem v43_at (b : Fin 65536) :
    val_main_v43 (F := Ideal) a22 (ix2 b (0 : Fin 1)) = Spec.wrap 100000#32 (a22 (ix1 b)) := by
  rw [val_main_v43_apply, idx_v43, val_main_v42_apply, val_main_v39_apply, val_main_v41_apply, val_main_v38_apply,
    val_main_v40_apply, val_main_c_8_apply, val_main_c_9_apply]
  try rfl

theorem idx_v60 (b : Fin 65536) : idx_main_v60 (ix2 b (0 : Fin 1)) = ix1 b := by idx_ext

/-- Row b of the start-index column is entry b of the index array, wrapped once by the table height if negative. -/
theorem v60_at (b : Fin 65536) :
    val_main_v60 (F := Ideal) a21 (ix2 b (0 : Fin 1)) = Spec.wrap 50#32 (a21 (ix1 b)) := by
  rw [val_main_v60_apply, idx_v60, val_main_v59_apply, val_main_v56_apply, val_main_v58_apply, val_main_v55_apply,
    val_main_v57_apply, val_main_c_12_apply, val_main_c_13_apply]
  try rfl

/-- The gathered row b is the table's row at the wrapped and clamped index of b, column kept. -/
theorem v6_at (b : Fin 65536) (k : Fin 512) :
    val_main_v6 (F := Ideal) a0 a20 (ix2 b k) = a0 (ix2 (Spec.rowOf 100000 (by decide) 100000#32 a20 b) k) := by
  unfold val_main_v6
  refine (gather_rows_apply (N := 100000) (E := 65536) (D := 512) (by decide) (gather_S100000x512_S65536x1_S65536x512_1_0_n_n_0_1_1512).wf a0
    (val_main_v5 (F := Ideal) a20) b k).trans ?_
  rw [v5_at]
  try rfl

/-- The gathered row b is the table's row at the wrapped and clamped index of b, column kept. -/
theorem v13_at (b : Fin 65536) (k : Fin 512) :
    val_main_v13 (F := Ideal) a1 a21 (ix2 b k) = a1 (ix2 (Spec.rowOf 50 (by decide) 50#32 a21 b) k) := by
  unfold val_main_v13
  refine (gather_rows_apply (N := 50) (E := 65536) (D := 512) (by decide) (gather_S50x512_S65536x1_S65536x512_1_0_n_n_0_1_1512).wf a1
    (val_main_v12 (F := Ideal) a21) b k).trans ?_
  rw [v12_at]
  try rfl

/-- The gathered row b is the table's row at the wrapped and clamped index of b, column kept. -/
theorem v20_at (b : Fin 65536) (k : Fin 512) :
    val_main_v20 (F := Ideal) a0 a22 (ix2 b k) = a0 (ix2 (Spec.rowOf 100000 (by decide) 100000#32 a22 b) k) := by
  unfold val_main_v20
  refine (gather_rows_apply (N := 100000) (E := 65536) (D := 512) (by decide) (gather_S100000x512_S65536x1_S65536x512_1_0_n_n_0_1_1512).wf a0
    (val_main_v19 (F := Ideal) a22) b k).trans ?_
  rw [v19_at]
  try rfl

/-- The gathered row b is the table's row at the wrapped and clamped index of b, column kept. -/
theorem v27_at (b : Fin 65536) (k : Fin 512) :
    val_main_v27 (F := Ideal) a2 a20 (ix2 b k) = a2 (ix2 (Spec.rowOf 100000 (by decide) 100000#32 a20 b) k) := by
  unfold val_main_v27
  refine (gather_rows_apply (N := 100000) (E := 65536) (D := 512) (by decide) (gather_S100000x512_S65536x1_S65536x512_1_0_n_n_0_1_1512).wf a2
    (val_main_v26 (F := Ideal) a20) b k).trans ?_
  rw [v26_at]
  try rfl

/-- The gathered row b is the table's row at the wrapped and clamped index of b, column kept. -/
theorem v44_at (b : Fin 65536) (k : Fin 512) :
    val_main_v44 (F := Ideal) a2 a22 (ix2 b k) = a2 (ix2 (Spec.rowOf 100000 (by decide) 100000#32 a22 b) k) := by
  unfold val_main_v44
  refine (gather_rows_apply (N := 100000) (E := 65536) (D := 512) (by decide) (gather_S100000x512_S65536x1_S65536x512_1_0_n_n_0_1_1512).wf a2
    (val_main_v43 (F := Ideal) a22) b k).trans ?_
  rw [v43_at]
  try rfl

/-- The gathered row b is the table's row at the wrapped and clamped index of b, column kept. -/
theorem v61_at (b : Fin 65536) (k : Fin 512) :
    val_main_v61 (F := Ideal) a5 a21 (ix2 b k) = a5 (ix2 (Spec.rowOf 50 (by decide) 50#32 a21 b) k) := by
  unfold val_main_v61
  refine (gather_rows_apply (N := 50) (E := 65536) (D := 512) (by decide) (gather_S50x512_S65536x1_S65536x512_1_0_n_n_0_1_1512).wf a5
    (val_main_v60 (F := Ideal) a21) b k).trans ?_
  rw [v60_at]
  try rfl

theorem lidx_v28 (b : Fin 65536) (k : Fin 512) : lidx_main_v28 (ix2 b (0 : Fin 1)) k = ix2 b k := by idx_ext
theorem ridx_v28 (b : Fin 65536) (k : Fin 512) : ridx_main_v28 (ix2 b (0 : Fin 1)) k = ix2 k (0 : Fin 1) := by idx_ext
theorem idx_v30 (b : Fin 65536) : idx_main_v29 (idx_main_v30 (ix2 b (0 : Fin 1))) = ix1 (0 : Fin 1) := by idx_ext

/-- The gate's affine argument: the gathered density row against the weight column. -/
theorem v28_at (b : Fin 65536) :
    val_main_v28 (F := Ideal) a2 a3 a20 (ix2 b (0 : Fin 1)) = (∑ k : Fin 512, a2 (ix2 (Spec.rowOf 100000 (by decide) 100000#32 a20 b) k) * a3 (ix2 k (0 : Fin 1))) := by
  rw [val_main_v28_apply]
  exact Finset.sum_congr rfl fun k _ => by rw [lidx_v28, ridx_v28, v27_at]

theorem v30_at (b : Fin 65536) : val_main_v30 (F := Ideal) a4 (ix2 b (0 : Fin 1)) = a4 (ix1 (0 : Fin 1)) := by
  rw [val_main_v30_apply, val_main_v29_apply, idx_v30]

/-- One logistic gate, 1 / (1 + exp (-(row · w + bias))). -/
theorem v37_at (b : Fin 65536) :
    val_main_v37 (F := Ideal) a2 a3 a4 a20 (ix2 b (0 : Fin 1)) = Spec.sig ((∑ k : Fin 512, a2 (ix2 (Spec.rowOf 100000 (by decide) 100000#32 a20 b) k) * a3 (ix2 k (0 : Fin 1))) + a4 (ix1 (0 : Fin 1))) := by
  rw [val_main_v37_apply, val_main_v36_apply, val_main_cst_7_apply, val_main_v35_apply, val_main_v34_apply, val_main_cst_apply,
    val_main_v33_apply, val_main_v32_apply, val_main_v31_apply, v28_at, v30_at]
  try rfl

theorem lidx_v45 (b : Fin 65536) (k : Fin 512) : lidx_main_v45 (ix2 b (0 : Fin 1)) k = ix2 b k := by idx_ext
theorem ridx_v45 (b : Fin 65536) (k : Fin 512) : ridx_main_v45 (ix2 b (0 : Fin 1)) k = ix2 k (0 : Fin 1) := by idx_ext
theorem idx_v47 (b : Fin 65536) : idx_main_v46 (idx_main_v47 (ix2 b (0 : Fin 1))) = ix1 (0 : Fin 1) := by idx_ext

/-- The gate's affine argument: the gathered density row against the weight column. -/
theorem v45_at (b : Fin 65536) :
    val_main_v45 (F := Ideal) a2 a3 a22 (ix2 b (0 : Fin 1)) = (∑ k : Fin 512, a2 (ix2 (Spec.rowOf 100000 (by decide) 100000#32 a22 b) k) * a3 (ix2 k (0 : Fin 1))) := by
  rw [val_main_v45_apply]
  exact Finset.sum_congr rfl fun k _ => by rw [lidx_v45, ridx_v45, v44_at]

theorem v47_at (b : Fin 65536) : val_main_v47 (F := Ideal) a4 (ix2 b (0 : Fin 1)) = a4 (ix1 (0 : Fin 1)) := by
  rw [val_main_v47_apply, val_main_v46_apply, idx_v47]

/-- One logistic gate, 1 / (1 + exp (-(row · w + bias))). -/
theorem v54_at (b : Fin 65536) :
    val_main_v54 (F := Ideal) a2 a3 a4 a22 (ix2 b (0 : Fin 1)) = Spec.sig ((∑ k : Fin 512, a2 (ix2 (Spec.rowOf 100000 (by decide) 100000#32 a22 b) k) * a3 (ix2 k (0 : Fin 1))) + a4 (ix1 (0 : Fin 1))) := by
  rw [val_main_v54_apply, val_main_v53_apply, val_main_cst_11_apply, val_main_v52_apply, val_main_v51_apply, val_main_cst_10_apply,
    val_main_v50_apply, val_main_v49_apply, val_main_v48_apply, v45_at, v47_at]
  try rfl

theorem lidx_v62 (b : Fin 65536) (k : Fin 512) : lidx_main_v62 (ix2 b (0 : Fin 1)) k = ix2 b k := by idx_ext
theorem ridx_v62 (b : Fin 65536) (k : Fin 512) : ridx_main_v62 (ix2 b (0 : Fin 1)) k = ix2 k (0 : Fin 1) := by idx_ext
theorem idx_v64 (b : Fin 65536) : idx_main_v63 (idx_main_v64 (ix2 b (0 : Fin 1))) = ix1 (0 : Fin 1) := by idx_ext

/-- The gate's affine argument: the gathered density row against the weight column. -/
theorem v62_at (b : Fin 65536) :
    val_main_v62 (F := Ideal) a5 a6 a21 (ix2 b (0 : Fin 1)) = (∑ k : Fin 512, a5 (ix2 (Spec.rowOf 50 (by decide) 50#32 a21 b) k) * a6 (ix2 k (0 : Fin 1))) := by
  rw [val_main_v62_apply]
  exact Finset.sum_congr rfl fun k _ => by rw [lidx_v62, ridx_v62, v61_at]

theorem v64_at (b : Fin 65536) : val_main_v64 (F := Ideal) a7 (ix2 b (0 : Fin 1)) = a7 (ix1 (0 : Fin 1)) := by
  rw [val_main_v64_apply, val_main_v63_apply, idx_v64]

/-- One logistic gate, 1 / (1 + exp (-(row · w + bias))). -/
theorem v71_at (b : Fin 65536) :
    val_main_v71 (F := Ideal) a5 a6 a7 a21 (ix2 b (0 : Fin 1)) = Spec.sig ((∑ k : Fin 512, a5 (ix2 (Spec.rowOf 50 (by decide) 50#32 a21 b) k) * a6 (ix2 k (0 : Fin 1))) + a7 (ix1 (0 : Fin 1))) := by
  rw [val_main_v71_apply, val_main_v70_apply, val_main_cst_15_apply, val_main_v69_apply, val_main_v68_apply, val_main_cst_14_apply,
    val_main_v67_apply, val_main_v66_apply, val_main_v65_apply, v62_at, v64_at]
  try rfl

/-- The density scalar: the mean of the head, tail and relation gates. -/
theorem v75_at (b : Fin 65536) :
    val_main_v75 (F := Ideal) a2 a3 a4 a5 a6 a7 a20 a21 a22 (ix2 b (0 : Fin 1)) = Spec.dens 𝔸 b := by
  rw [val_main_v75_apply, val_main_v74_apply, val_main_cst_16_apply, val_main_v73_apply, val_main_v72_apply, v37_at, v54_at, v71_at]
  try rfl

/-- diff = head + relation - tail, on gathered rows. -/
theorem v77_at (b : Fin 65536) (k : Fin 512) :
    val_main_v77 (F := Ideal) a0 a1 a20 a21 a22 (ix2 b k) = Spec.D 𝔸 b k := by
  rw [val_main_v77_apply, val_main_v76_apply, v6_at, v13_at, v20_at]
  try rfl

/-- ctx = head + relation + tail, on gathered rows. -/
theorem v79_at (b : Fin 65536) (k : Fin 512) :
    val_main_v79 (F := Ideal) a0 a1 a20 a21 a22 (ix2 b k) = Spec.C 𝔸 b k := by
  rw [val_main_v79_apply, val_main_v78_apply, v6_at, v13_at, v20_at]
  try rfl

end Cert.RefSide

end
-- ==== Proof.RefAttn.lean ====
/-
  The reference's attention stretch read at an index: the query row ctx · Wq + bq and its split into 8 heads of
  width 64 (row-major), the two key tables, the temperature 1 / sqrt 64 = 1/8, the logits, the two softmaxes (the
  row maximum is the fold of max from -∞ over the 8 keys), their average, and the motif row (heads side by side).
-/
import proofs.«180155_j68143951118751_2_alg».proof.Proof.RefGather

noncomputable section

namespace Cert.RefSide

open Cert.ReferenceIdeal Cert.ReferenceIdeal.Gen Cert.ReferenceIdeal.ReadP Idealize.ShloMosaic Idealize.ShloMosaic.ValueIdx
  Idealize.ShloMosaic.RowGatherScatter

variable (a0 : (⟨S100000x512, .f32⟩ : BufTy).Contents (Elt Ideal))
variable (a1 : (⟨S50x512, .f32⟩ : BufTy).Contents (Elt Ideal))
variable (a2 : (⟨S100000x512, .f32⟩ : BufTy).Contents (Elt Ideal))
variable (a3 : (⟨S512x1, .f32⟩ : BufTy).Contents (Elt Ideal))
variable (a4 : (⟨S1, .f32⟩ : BufTy).Contents (Elt Ideal))
variable (a5 : (⟨S50x512, .f32⟩ : BufTy).Contents (Elt Ideal))
variable (a6 : (⟨S512x1, .f32⟩ : BufTy).Contents (Elt Ideal))
variable (a7 : (⟨S1, .f32⟩ : BufTy).Contents (Elt Ideal))
variable (a8 : (⟨S8x64, .f32⟩ : BufTy).Contents (Elt Ideal))
variable (a9 : (⟨S8x64, .f32⟩ : BufTy).Contents (Elt Ideal))
variable (a10 : (⟨S512x512, .f32⟩ : BufTy).Contents (Elt Ideal))
variable (a11 : (⟨S512, .f32⟩ : BufTy).Contents (Elt Ideal))
variable (a12 : (⟨S64x64, .f32⟩ : BufTy).Contents (Elt Ideal))
variable (a13 : (⟨S64, .f32⟩ : BufTy).Contents (Elt Ideal))
variable (a14 : (⟨S64x64, .f32⟩ : BufTy).Contents (Elt Ideal))
variable (a15 : (⟨S64, .f32⟩ : BufTy).Contents (Elt Ideal))
variable (a16 : (⟨S1024x512, .f32⟩ : BufTy).Contents (Elt Ideal))
variable (a17 : (⟨S512, .f32⟩ : BufTy).Contents (Elt Ideal))
variable (a18 : (⟨S_, .f32⟩ : BufTy).Contents (Elt Ideal))
variable (a19 : (⟨S_, .f32⟩ : BufTy).Contents (Elt Ideal))
variable (a20 : (⟨S65536, .i32⟩ : BufTy).Contents (Elt Ideal))
variable (a21 : (⟨S65536, .i32⟩ : BufTy).Contents (Elt Ideal))
variable (a22 : (⟨S65536, .i32⟩ : BufTy).Contents (Elt Ideal))

local notation "𝔸" => Spec.argsOf a0 a1 a2 a3 a4 a5 a6 a7 a8 a9 a10 a11 a12 a13 a14 a15 a16 a17 a18 a19 a20 a21 a22

/-- Two index functions agree when they agree on every axis. -/
local macro "idx_ext" : tactic => `(tactic| (funext c; apply Fin.ext; fin_cases c <;> rfl))

/-! ## The query -/

theorem lidx_v80 (b : Fin 65536) (j k : Fin 512) : lidx_main_v80 (ix2 b j) k = ix2 b k := by idx_ext
theorem ridx_v80 (b : Fin 65536) (j k : Fin 512) : ridx_main_v80 (ix2 b j) k = ix2 k j := by idx_ext
theorem idx_v82 (b : Fin 65536) (j : Fin 512) : idx_main_v81 (idx_main_v82 (ix2 b j)) = ix1 j := by idx_ext

/-- The query row: ctx · Wq + bq. -/
theorem v83_at (b : Fin 65536) (j : Fin 512) :
    val_main_v83 (F := Ideal) a0 a1 a10 a11 a20 a21 a22 (ix2 b j) = (Spec.qrow (Spec.C 𝔸 b) (Spec.Args.wq 𝔸) (Spec.Args.bq 𝔸)) j := by
  have e : ∀ k : Fin 512, val_main_v79 (F := Ideal) a0 a1 a20 a21 a22 (lidx_main_v80 (ix2 b j) k) * a10 (ridx_main_v80 (ix2 b j) k)
      = Spec.C 𝔸 b k * a10 (ix2 k j) := fun k => by rw [lidx_v80, ridx_v80, v79_at a0 a1 a2 a3 a4 a5 a6 a7 a8 a9 a10 a11 a12 a13 a14 a15 a16 a17 a18 a19 a20 a21 a22]
  rw [val_main_v83_apply, val_main_v80_apply, val_main_v82_apply, val_main_v81_apply, idx_v82]
  simp only [e]
  try rfl

/-- Row-major: entry (b, h, d) of the split query is entry (b, 64 h + d) of the query row. -/
theorem idx_v84 (b : Fin 65536) (h : Fin 8) (d : Fin 64) : idx_main_v84 (ix3 b h d) = ix2 b (Spec.hd h d) := by
  have hb := b.isLt; have hh := h.isLt; have hd := d.isLt
  funext c; apply Fin.ext; fin_cases c
  · show ((b.val * 8 + h.val) * 64 + d.val) / 512 = b.val
    omega
  · show ((b.val * 8 + h.val) * 64 + d.val) % 512 = h.val * 64 + d.val
    omega

theorem v84_at (b : Fin 65536) (h : Fin 8) (d : Fin 64) :
    val_main_v84 (F := Ideal) a0 a1 a10 a11 a20 a21 a22 (ix3 b h d) = (Spec.qrow (Spec.C 𝔸 b) (Spec.Args.wq 𝔸) (Spec.Args.bq 𝔸)) (Spec.hd h d) := by
  rw [val_main_v84_apply, idx_v84, v83_at a0 a1 a2 a3 a4 a5 a6 a7 a8 a9 a10 a11 a12 a13 a14 a15 a16 a17 a18 a19 a20 a21 a22]

/-! ## The keys and the temperature -/

theorem lidx_v85 (m : Fin 8) (d k : Fin 64) : lidx_main_v85 (ix2 m d) k = ix2 m k := by idx_ext
theorem ridx_v85 (m : Fin 8) (d k : Fin 64) : ridx_main_v85 (ix2 m d) k = ix2 k d := by idx_ext
theorem idx_v87 (m : Fin 8) (d : Fin 64) : idx_main_v86 (idx_main_v87 (ix2 m d)) = ix1 d := by idx_ext

/-- A key table: motifs · Wk + bk. -/
theorem v88_at (m : Fin 8) (d : Fin 64) :
    val_main_v88 (F := Ideal) a8 a12 a13 (ix2 m d) = Spec.LK 𝔸 m d := by
  have e : ∀ k : Fin 64, a8 (lidx_main_v85 (ix2 m d) k) * a12 (ridx_main_v85 (ix2 m d) k) = a8 (ix2 m k) * a12 (ix2 k d) :=
    fun k => by rw [lidx_v85, ridx_v85]
  rw [val_main_v88_apply, val_main_v85_apply, val_main_v87_apply, val_main_v86_apply, idx_v87]
  simp only [e]
  try rfl

theorem lidx_v89 (m : Fin 8) (d k : Fin 64) : lidx_main_v89 (ix2 m d) k = ix2 m k := by idx_ext
theorem ridx_v89 (m : Fin 8) (d k : Fin 64) : ridx_main_v89 (ix2 m d) k = ix2 k d := by idx_ext
theorem idx_v91 (m : Fin 8) (d : Fin 64) : idx_main_v90 (idx_main_v91 (ix2 m d)) = ix1 d := by idx_ext

/-- A key table: motifs · Wk + bk. -/
theorem v92_at (m : Fin 8) (d : Fin 64) :
    val_main_v92 (F := Ideal) a9 a14 a15 (ix2 m d) = Spec.GK 𝔸 m d := by
  have e : ∀ k : Fin 64, a9 (lidx_main_v89 (ix2 m d) k) * a14 (ridx_main_v89 (ix2 m d) k) = a9 (ix2 m k) * a14 (ix2 k d) :=
    fun k => by rw [lidx_v89, ridx_v89]
  rw [val_main_v92_apply, val_main_v89_apply, val_main_v91_apply, val_main_v90_apply, idx_v91]
  simp only [e]
  try rfl

/-- The temperature 1 / sqrt 64, computed on literals, is the literal 1/8. -/
theorem v94_at (i : S_.Idx) : val_main_v94 (F := Ideal) i = Spec.c8 := by
  rw [val_main_v94_apply, val_main_cst_18_apply, val_main_v93_apply, val_main_cst_17_apply]
  exact RefConsts.scale_eq

/-- The reduced index (b, h) with the reduced coordinate put back is (b, h, m). -/
theorem lift_d2 (hr : S65536x8x8.Reduces [2] S65536x8) (b : Fin 65536) (h : Fin 8) (k : Fin (S65536x8x8.size 2)) :
    hr.lift (ix2 b h) k = ix3 b h (⟨k.val, k.isLt⟩ : Fin 8) := by
  funext c; apply Fin.ext
  fin_cases c <;> rfl

/-! ## The two softmaxes -/

theorem lidx_v96 (b : Fin 65536) (h m : Fin 8) (k : Fin 64) : lidx_main_v96 (ix3 b h m) k = ix3 b h k := by idx_ext
theorem ridx_v96 (b : Fin 65536) (h m : Fin 8) (k : Fin 64) : ridx_main_v96 (ix3 b h m) k = ix2 m k := by idx_ext
theorem idx_v99 (b : Fin 65536) (h m : Fin 8) : idx_main_v95 (idx_main_v99 (ix3 b h m)) = ix2 b (0 : Fin 1) := by idx_ext
theorem idx_v105 (b : Fin 65536) (h m : Fin 8) : idx_main_v104 (idx_main_v105 (ix3 b h m)) = ix2 b h := by idx_ext
theorem idx_v108 (b : Fin 65536) (h m : Fin 8) : idx_main_v108 (ix2 b h) m = ix3 b h m := by idx_ext
theorem idx_v110 (b : Fin 65536) (h m : Fin 8) : idx_main_v109 (idx_main_v110 (ix3 b h m)) = ix2 b h := by idx_ext

/-- The density scalar broadcast over heads and keys. -/
theorem v99_at (b : Fin 65536) (h m : Fin 8) :
    val_main_v99 (F := Ideal) a2 a3 a4 a5 a6 a7 a20 a21 a22 (ix3 b h m) = Spec.dens 𝔸 b := by
  rw [val_main_v99_apply, val_main_v95_apply, idx_v99, v75_at a0 a1 a2 a3 a4 a5 a6 a7 a8 a9 a10 a11 a12 a13 a14 a15 a16 a17 a18 a19 a20 a21 a22]

/-- A logit: (q_h · key_m) / 8 + density. -/
theorem v100_at (b : Fin 65536) (h m : Fin 8) :
    val_main_v100 (F := Ideal) a0 a1 a2 a3 a4 a5 a6 a7 a8 a10 a11 a12 a13 a20 a21 a22 (ix3 b h m) = (Spec.logit (Spec.qrow (Spec.C 𝔸 b) (Spec.Args.wq 𝔸) (Spec.Args.bq 𝔸)) (Spec.LK 𝔸) (Spec.dens 𝔸 b) h) m := by
  have e : ∀ k : Fin 64, val_main_v84 (F := Ideal) a0 a1 a10 a11 a20 a21 a22 (lidx_main_v96 (ix3 b h m) k)
      * val_main_v88 (F := Ideal) a8 a12 a13 (ridx_main_v96 (ix3 b h m) k) = (Spec.qrow (Spec.C 𝔸 b) (Spec.Args.wq 𝔸) (Spec.Args.bq 𝔸)) (Spec.hd h k) * Spec.LK 𝔸 m k :=
    fun k => by rw [lidx_v96, ridx_v96, v84_at a0 a1 a2 a3 a4 a5 a6 a7 a8 a9 a10 a11 a12 a13 a14 a15 a16 a17 a18 a19 a20 a21 a22, v88_at a0 a1 a2 a3 a4 a5 a6 a7 a8 a9 a10 a11 a12 a13 a14 a15 a16 a17 a18 a19 a20 a21 a22]
  rw [val_main_v100_apply, val_main_v98_apply, val_main_v96_apply, val_main_v97_apply, v94_at, v99_at a0 a1 a2 a3 a4 a5 a6 a7 a8 a9 a10 a11 a12 a13 a14 a15 a16 a17 a18 a19 a20 a21 a22]
  simp only [e]
  try rfl

/-- The row maximum, folded from -∞ over the eight keys. -/
theorem v101_at (b : Fin 65536) (h : Fin 8) :
    val_main_v101 (F := Ideal) a0 a1 a2 a3 a4 a5 a6 a7 a8 a10 a11 a12 a13 a20 a21 a22 (ix2 b h)
      = (Finset.univ : Finset (Fin 8)).fold max Spec.ninf (Spec.logit (Spec.qrow (Spec.C 𝔸 b) (Spec.Args.wq 𝔸) (Spec.Args.bq 𝔸)) (Spec.LK 𝔸) (Spec.dens 𝔸 b) h) := by
  have hr : S65536x8x8.Reduces [2] S65536x8 := by decide
  unfold val_main_v101
  rw [Host.reduce_eq_fold_single FloatOps.maximumf _ _ reducesTo_S65536x8x8_S65536x8_d2 hr h_S_]
  have hf : (val_main_v100 (F := Ideal) a0 a1 a2 a3 a4 a5 a6 a7 a8 a10 a11 a12 a13 a20 a21 a22 ∘ hr.lift (ix2 b h)) = (Spec.logit (Spec.qrow (Spec.C 𝔸 b) (Spec.Args.wq 𝔸) (Spec.Args.bq 𝔸)) (Spec.LK 𝔸) (Spec.dens 𝔸 b) h) :=
    funext fun k => by
      show val_main_v100 (F := Ideal) a0 a1 a2 a3 a4 a5 a6 a7 a8 a10 a11 a12 a13 a20 a21 a22 (hr.lift (ix2 b h) k) = _
      rw [lift_d2, v100_at a0 a1 a2 a3 a4 a5 a6 a7 a8 a9 a10 a11 a12 a13 a14 a15 a16 a17 a18 a19 a20 a21 a22]
      try rfl
  rw [hf, val_main_cst_19_apply]
  try rfl

/-- The maximum the softmax subtracts: max (-∞, row maximum). -/
theorem v103_at (b : Fin 65536) (h : Fin 8) :
    val_main_v103 (F := Ideal) a0 a1 a2 a3 a4 a5 a6 a7 a8 a10 a11 a12 a13 a20 a21 a22 (ix2 b h) = Spec.rmax (Spec.logit (Spec.qrow (Spec.C 𝔸 b) (Spec.Args.wq 𝔸) (Spec.Args.bq 𝔸)) (Spec.LK 𝔸) (Spec.dens 𝔸 b) h) := by
  rw [val_main_v103_apply, val_main_v102_apply, val_main_cst_20_apply, v101_at a0 a1 a2 a3 a4 a5 a6 a7 a8 a9 a10 a11 a12 a13 a14 a15 a16 a17 a18 a19 a20 a21 a22]
  try rfl

/-- exp (logit - maximum). -/
theorem v107_at (b : Fin 65536) (h m : Fin 8) :
    val_main_v107 (F := Ideal) a0 a1 a2 a3 a4 a5 a6 a7 a8 a10 a11 a12 a13 a20 a21 a22 (ix3 b h m) = Ideal.exp ((Spec.logit (Spec.qrow (Spec.C 𝔸 b) (Spec.Args.wq 𝔸) (Spec.Args.bq 𝔸)) (Spec.LK 𝔸) (Spec.dens 𝔸 b) h) m - Spec.rmax (Spec.logit (Spec.qrow (Spec.C 𝔸 b) (Spec.Args.wq 𝔸) (Spec.Args.bq 𝔸)) (Spec.LK 𝔸) (Spec.dens 𝔸 b) h)) := by
  rw [val_main_v107_apply, val_main_v106_apply, v100_at a0 a1 a2 a3 a4 a5 a6 a7 a8 a9 a10 a11 a12 a13 a14 a15 a16 a17 a18 a19 a20 a21 a22, val_main_v105_apply, val_main_v104_apply, idx_v105,
    v103_at a0 a1 a2 a3 a4 a5 a6 a7 a8 a9 a10 a11 a12 a13 a14 a15 a16 a17 a18 a19 a20 a21 a22]
  try rfl

/-- The softmax denominator. -/
theorem v108_at (b : Fin 65536) (h : Fin 8) :
    val_main_v108 (F := Ideal) a0 a1 a2 a3 a4 a5 a6 a7 a8 a10 a11 a12 a13 a20 a21 a22 (ix2 b h) = ∑ m : Fin 8, Ideal.exp ((Spec.logit (Spec.qrow (Spec.C 𝔸 b) (Spec.Args.wq 𝔸) (Spec.Args.bq 𝔸)) (Spec.LK 𝔸) (Spec.dens 𝔸 b) h) m - Spec.rmax (Spec.logit (Spec.qrow (Spec.C 𝔸 b) (Spec.Args.wq 𝔸) (Spec.Args.bq 𝔸)) (Spec.LK 𝔸) (Spec.dens 𝔸 b) h)) := by
  have e : ∀ m : Fin 8, val_main_v107 (F := Ideal) a0 a1 a2 a3 a4 a5 a6 a7 a8 a10 a11 a12 a13 a20 a21 a22 (idx_main_v108 (ix2 b h) m)
      = Ideal.exp ((Spec.logit (Spec.qrow (Spec.C 𝔸 b) (Spec.Args.wq 𝔸) (Spec.Args.bq 𝔸)) (Spec.LK 𝔸) (Spec.dens 𝔸 b) h) m - Spec.rmax (Spec.logit (Spec.qrow (Spec.C 𝔸 b) (Spec.Args.wq 𝔸) (Spec.Args.bq 𝔸)) (Spec.LK 𝔸) (Spec.dens 𝔸 b) h)) := fun m => by rw [idx_v108 b h m, v107_at a0 a1 a2 a3 a4 a5 a6 a7 a8 a9 a10 a11 a12 a13 a14 a15 a16 a17 a18 a19 a20 a21 a22]
  rw [val_main_v108_apply, val_main_cst_21_apply]
  simp only [e]
  show Ideal.ofBits .f32 0x00000000#32 + _ = _
  rw [Ideal.ofBits_zero_f32, zero_add]

/-- One softmax weight. -/
theorem v111_at (b : Fin 65536) (h m : Fin 8) :
    val_main_v111 (F := Ideal) a0 a1 a2 a3 a4 a5 a6 a7 a8 a10 a11 a12 a13 a20 a21 a22 (ix3 b h m) = Spec.smax (Spec.logit (Spec.qrow (Spec.C 𝔸 b) (Spec.Args.wq 𝔸) (Spec.Args.bq 𝔸)) (Spec.LK 𝔸) (Spec.dens 𝔸 b) h) m := by
  rw [val_main_v111_apply, v107_at a0 a1 a2 a3 a4 a5 a6 a7 a8 a9 a10 a11 a12 a13 a14 a15 a16 a17 a18 a19 a20 a21 a22, val_main_v110_apply, val_main_v109_apply, idx_v110, v108_at a0 a1 a2 a3 a4 a5 a6 a7 a8 a9 a10 a11 a12 a13 a14 a15 a16 a17 a18 a19 a20 a21 a22]
  try rfl

theorem lidx_v112 (b : Fin 65536) (h m : Fin 8) (k : Fin 64) : lidx_main_v112 (ix3 b h m) k = ix3 b h k := by idx_ext
theorem ridx_v112 (b : Fin 65536) (h m : Fin 8) (k : Fin 64) : ridx_main_v112 (ix3 b h m) k = ix2 m k := by idx_ext
theorem idx_v115 (b : Fin 65536) (h m : Fin 8) : idx_main_v95 (idx_main_v115 (ix3 b h m)) = ix2 b (0 : Fin 1) := by idx_ext
theorem idx_v121 (b : Fin 65536) (h m : Fin 8) : idx_main_v120 (idx_main_v121 (ix3 b h m)) = ix2 b h := by idx_ext
theorem idx_v124 (b : Fin 65536) (h m : Fin 8) : idx_main_v124 (ix2 b h) m = ix3 b h m := by idx_ext
theorem idx_v126 (b : Fin 65536) (h m : Fin 8) : idx_main_v125 (idx_main_v126 (ix3 b h m)) = ix2 b h := by idx_ext

/-- The density scalar broadcast over heads and keys. -/
theorem v115_at (b : Fin 65536) (h m : Fin 8) :
    val_main_v115 (F := Ideal) a2 a3 a4 a5 a6 a7 a20 a21 a22 (ix3 b h m) = Spec.dens 𝔸 b := by
  rw [val_main_v115_apply, val_main_v95_apply, idx_v115, v75_at a0 a1 a2 a3 a4 a5 a6 a7 a8 a9 a10 a11 a12 a13 a14 a15 a16 a17 a18 a19 a20 a21 a22]

/-- A logit: (q_h · key_m) / 8 + density. -/
theorem v116_at (b : Fin 65536) (h m : Fin 8) :
    val_main_v116 (F := Ideal) a0 a1 a2 a3 a4 a5 a6 a7 a9 a10 a11 a14 a15 a20 a21 a22 (ix3 b h m) = (Spec.logit (Spec.qrow (Spec.C 𝔸 b) (Spec.Args.wq 𝔸) (Spec.Args.bq 𝔸)) (Spec.GK 𝔸) (Spec.dens 𝔸 b) h) m := by
  have e : ∀ k : Fin 64, val_main_v84 (F := Ideal) a0 a1 a10 a11 a20 a21 a22 (lidx_main_v112 (ix3 b h m) k)
      * val_main_v92 (F := Ideal) a9 a14 a15 (ridx_main_v112 (ix3 b h m) k) = (Spec.qrow (Spec.C 𝔸 b) (Spec.Args.wq 𝔸) (Spec.Args.bq 𝔸)) (Spec.hd h k) * Spec.GK 𝔸 m k :=
    fun k => by rw [lidx_v112, ridx_v112, v84_at a0 a1 a2 a3 a4 a5 a6 a7 a8 a9 a10 a11 a12 a13 a14 a15 a16 a17 a18 a19 a20 a21 a22, v92_at a0 a1 a2 a3 a4 a5 a6 a7 a8 a9 a10 a11 a12 a13 a14 a15 a16 a17 a18 a19 a20 a21 a22]
  rw [val_main_v116_apply, val_main_v114_apply, val_main_v112_apply, val_main_v113_apply, v94_at, v115_at a0 a1 a2 a3 a4 a5 a6 a7 a8 a9 a10 a11 a12 a13 a14 a15 a16 a17 a18 a19 a20 a21 a22]
  simp only [e]
  try rfl

/-- The row maximum, folded from -∞ over the eight keys. -/
theorem v117_at (b : Fin 65536) (h : Fin 8) :
    val_main_v117 (F := Ideal) a0 a1 a2 a3 a4 a5 a6 a7 a9 a10 a11 a14 a15 a20 a21 a22 (ix2 b h)
      = (Finset.univ : Finset (Fin 8)).fold max Spec.ninf (Spec.logit (Spec.qrow (Spec.C 𝔸 b) (Spec.Args.wq 𝔸) (Spec.Args.bq 𝔸)) (Spec.GK 𝔸) (Spec.dens 𝔸 b) h) := by
  have hr : S65536x8x8.Reduces [2] S65536x8 := by decide
  unfold val_main_v117
  rw [Host.reduce_eq_fold_single FloatOps.maximumf _ _ reducesTo_S65536x8x8_S65536x8_d2 hr h_S_]
  have hf : (val_main_v116 (F := Ideal) a0 a1 a2 a3 a4 a5 a6 a7 a9 a10 a11 a14 a15 a20 a21 a22 ∘ hr.lift (ix2 b h)) = (Spec.logit (Spec.qrow (Spec.C 𝔸 b) (Spec.Args.wq 𝔸) (Spec.Args.bq 𝔸)) (Spec.GK 𝔸) (Spec.dens 𝔸 b) h) :=
    funext fun k => by
      show val_main_v116 (F := Ideal) a0 a1 a2 a3 a4 a5 a6 a7 a9 a10 a11 a14 a15 a20 a21 a22 (hr.lift (ix2 b h) k) = _
      rw [lift_d2, v116_at a0 a1 a2 a3 a4 a5 a6 a7 a8 a9 a10 a11 a12 a13 a14 a15 a16 a17 a18 a19 a20 a21 a22]
      try rfl
  rw [hf, val_main_cst_22_apply]
  try rfl

/-- The maximum the softmax subtracts: max (-∞, row maximum). -/
theorem v119_at (b : Fin 65536) (h : Fin 8) :
    val_main_v119 (F := Ideal) a0 a1 a2 a3 a4 a5 a6 a7 a9 a10 a11 a14 a15 a20 a21 a22 (ix2 b h) = Spec.rmax (Spec.logit (Spec.qrow (Spec.C 𝔸 b) (Spec.Args.wq 𝔸) (Spec.Args.bq 𝔸)) (Spec.GK 𝔸) (Spec.dens 𝔸 b) h) := by
  rw [val_main_v119_apply, val_main_v118_apply, val_main_cst_23_apply, v117_at a0 a1 a2 a3 a4 a5 a6 a7 a8 a9 a10 a11 a12 a13 a14 a15 a16 a17 a18 a19 a20 a21 a22]
  try rfl

/-- exp (logit - maximum). -/
theorem v123_at (b : Fin 65536) (h m : Fin 8) :
    val_main_v123 (F := Ideal) a0 a1 a2 a3 a4 a5 a6 a7 a9 a10 a11 a14 a15 a20 a21 a22 (ix3 b h m) = Ideal.exp ((Spec.logit (Spec.qrow (Spec.C 𝔸 b) (Spec.Args.wq 𝔸) (Spec.Args.bq 𝔸)) (Spec.GK 𝔸) (Spec.dens 𝔸 b) h) m - Spec.rmax (Spec.logit (Spec.qrow (Spec.C 𝔸 b) (Spec.Args.wq 𝔸) (Spec.Args.bq 𝔸)) (Spec.GK 𝔸) (Spec.dens 𝔸 b) h)) := by
  rw [val_main_v123_apply, val_main_v122_apply, v116_at a0 a1 a2 a3 a4 a5 a6 a7 a8 a9 a10 a11 a12 a13 a14 a15 a16 a17 a18 a19 a20 a21 a22, val_main_v121_apply, val_main_v120_apply, idx_v121,
    v119_at a0 a1 a2 a3 a4 a5 a6 a7 a8 a9 a10 a11 a12 a13 a14 a15 a16 a17 a18 a19 a20 a21 a22]
  try rfl

/-- The softmax denominator. -/
theorem v124_at (b : Fin 65536) (h : Fin 8) :
    val_main_v124 (F := Ideal) a0 a1 a2 a3 a4 a5 a6 a7 a9 a10 a11 a14 a15 a20 a21 a22 (ix2 b h) = ∑ m : Fin 8, Ideal.exp ((Spec.logit (Spec.qrow (Spec.C 𝔸 b) (Spec.Args.wq 𝔸) (Spec.Args.bq 𝔸)) (Spec.GK 𝔸) (Spec.dens 𝔸 b) h) m - Spec.rmax (Spec.logit (Spec.qrow (Spec.C 𝔸 b) (Spec.Args.wq 𝔸) (Spec.Args.bq 𝔸)) (Spec.GK 𝔸) (Spec.dens 𝔸 b) h)) := by
  have e : ∀ m : Fin 8, val_main_v123 (F := Ideal) a0 a1 a2 a3 a4 a5 a6 a7 a9 a10 a11 a14 a15 a20 a21 a22 (idx_main_v124 (ix2 b h) m)
      = Ideal.exp ((Spec.logit (Spec.qrow (Spec.C 𝔸 b) (Spec.Args.wq 𝔸) (Spec.Args.bq 𝔸)) (Spec.GK 𝔸) (Spec.dens 𝔸 b) h) m - Spec.rmax (Spec.logit (Spec.qrow (Spec.C 𝔸 b) (Spec.Args.wq 𝔸) (Spec.Args.bq 𝔸)) (Spec.GK 𝔸) (Spec.dens 𝔸 b) h)) := fun m => by rw [idx_v124 b h m, v123_at a0 a1 a2 a3 a4 a5 a6 a7 a8 a9 a10 a11 a12 a13 a14 a15 a16 a17 a18 a19 a20 a21 a22]
  rw [val_main_v124_apply, val_main_cst_24_apply]
  simp only [e]
  show Ideal.ofBits .f32 0x00000000#32 + _ = _
  rw [Ideal.ofBits_zero_f32, zero_add]

/-- One softmax weight. -/
theorem v127_at (b : Fin 65536) (h m : Fin 8) :
    val_main_v127 (F := Ideal) a0 a1 a2 a3 a4 a5 a6 a7 a9 a10 a11 a14 a15 a20 a21 a22 (ix3 b h m) = Spec.smax (Spec.logit (Spec.qrow (Spec.C 𝔸 b) (Spec.Args.wq 𝔸) (Spec.Args.bq 𝔸)) (Spec.GK 𝔸) (Spec.dens 𝔸 b) h) m := by
  rw [val_main_v127_apply, v123_at a0 a1 a2 a3 a4 a5 a6 a7 a8 a9 a10 a11 a12 a13 a14 a15 a16 a17 a18 a19 a20 a21 a22, val_main_v126_apply, val_main_v125_apply, idx_v126, v124_at a0 a1 a2 a3 a4 a5 a6 a7 a8 a9 a10 a11 a12 a13 a14 a15 a16 a17 a18 a19 a20 a21 a22]
  try rfl

/-! ## The averaged attention and the motif representation -/

/-- The averaged attention weight: (local + global) / 2 = (local + global) · 1/2. -/
theorem v130_at (b : Fin 65536) (h m : Fin 8) :
    val_main_v130 (F := Ideal) a0 a1 a2 a3 a4 a5 a6 a7 a8 a9 a10 a11 a12 a13 a14 a15 a20 a21 a22 (ix3 b h m) = Spec.attn (Spec.qrow (Spec.C 𝔸 b) (Spec.Args.wq 𝔸) (Spec.Args.bq 𝔸)) (Spec.LK 𝔸) (Spec.GK 𝔸) (Spec.dens 𝔸 b) h m := by
  rw [val_main_v130_apply, val_main_v129_apply, val_main_cst_25_apply, val_main_v128_apply, v111_at a0 a1 a2 a3 a4 a5 a6 a7 a8 a9 a10 a11 a12 a13 a14 a15 a16 a17 a18 a19 a20 a21 a22, v127_at a0 a1 a2 a3 a4 a5 a6 a7 a8 a9 a10 a11 a12 a13 a14 a15 a16 a17 a18 a19 a20 a21 a22]
  exact RefConsts.div_two _

theorem v131_at (m : Fin 8) (d : Fin 64) : val_main_v131 (F := Ideal) a8 a9 (ix2 m d) = Spec.MO 𝔸 m d := by
  rw [val_main_v131_apply]
  try rfl

theorem lidx_v132 (b : Fin 65536) (h : Fin 8) (d : Fin 64) (m : Fin 8) : lidx_main_v132 (ix3 b h d) m = ix3 b h m := by idx_ext
theorem ridx_v132 (b : Fin 65536) (h : Fin 8) (d : Fin 64) (m : Fin 8) : ridx_main_v132 (ix3 b h d) m = ix2 m d := by idx_ext

/-- One head's motif representation. -/
theorem v132_at (b : Fin 65536) (h : Fin 8) (d : Fin 64) :
    val_main_v132 (F := Ideal) a0 a1 a2 a3 a4 a5 a6 a7 a8 a9 a10 a11 a12 a13 a14 a15 a20 a21 a22 (ix3 b h d)
      = Spec.mot (Spec.qrow (Spec.C 𝔸 b) (Spec.Args.wq 𝔸) (Spec.Args.bq 𝔸)) (Spec.LK 𝔸) (Spec.GK 𝔸) (Spec.MO 𝔸) (Spec.dens 𝔸 b) h d := by
  have e : ∀ m : Fin 8, val_main_v130 (F := Ideal) a0 a1 a2 a3 a4 a5 a6 a7 a8 a9 a10 a11 a12 a13 a14 a15 a20 a21 a22 (lidx_main_v132 (ix3 b h d) m)
      * val_main_v131 (F := Ideal) a8 a9 (ridx_main_v132 (ix3 b h d) m)
      = Spec.attn (Spec.qrow (Spec.C 𝔸 b) (Spec.Args.wq 𝔸) (Spec.Args.bq 𝔸)) (Spec.LK 𝔸) (Spec.GK 𝔸) (Spec.dens 𝔸 b) h m * Spec.MO 𝔸 m d :=
    fun m => by rw [lidx_v132, ridx_v132, v130_at a0 a1 a2 a3 a4 a5 a6 a7 a8 a9 a10 a11 a12 a13 a14 a15 a16 a17 a18 a19 a20 a21 a22, v131_at a0 a1 a2 a3 a4 a5 a6 a7 a8 a9 a10 a11 a12 a13 a14 a15 a16 a17 a18 a19 a20 a21 a22]
  rw [val_main_v132_apply]
  simp only [e]
  try rfl

/-- Row-major back: entry (b, j) of the motif row is entry (b, j / 64, j % 64) of the heads. -/
theorem idx_v133 (b : Fin 65536) (j : Fin 512) :
    idx_main_v133 (ix2 b j) = ix3 b (⟨j.val / 64, by omega⟩ : Fin 8) (⟨j.val % 64, by omega⟩ : Fin 64) := by
  have hb := b.isLt; have hj := j.isLt
  funext c; apply Fin.ext; fin_cases c
  · show (b.val * 512 + j.val) / 512 = b.val
    omega
  · show (b.val * 512 + j.val) / 64 % 8 = j.val / 64
    omega
  · show (b.val * 512 + j.val) % 64 = j.val % 64
    omega

/-- The motif row of batch row b. -/
theorem v133_at (b : Fin 65536) (j : Fin 512) :
    val_main_v133 (F := Ideal) a0 a1 a2 a3 a4 a5 a6 a7 a8 a9 a10 a11 a12 a13 a14 a15 a20 a21 a22 (ix2 b j) = Spec.M 𝔸 b j := by
  rw [val_main_v133_apply, idx_v133, v132_at a0 a1 a2 a3 a4 a5 a6 a7 a8 a9 a10 a11 a12 a13 a14 a15 a16 a17 a18 a19 a20 a21 a22]
  try rfl

end Cert.RefSide

end
-- ==== Proof.RefSum.lean ====
/-
  Two facts about a 1024-wide row made of two 512-wide halves: a sum over its 1024 columns is the sum over the
  lower half plus the sum over the upper half (addition of extended reals is commutative and associative, so no
  finiteness is needed), and the concatenation of two 65536 x 512 matrices along the columns reads its first
  piece on the lower columns and its second piece on the upper ones.
-/
import proofs.«180155_j68143951118751_2_alg».proof.Proof.Spec
import Idealize.ShloMosaic.Lib.Pipeline.Value

noncomputable section

namespace Cert.RefSum

open Idealize.ShloMosaic Idealize.ShloMosaic.ValueIdx

/-- A sum over 1024 columns is the sum over columns 0..511 plus the sum over columns 512..1023. -/
theorem sum_split (f : Fin 1024 → EReal) :
    ∑ k : Fin 1024, f k = (∑ k : Fin 512, f (Spec.lo k)) + ∑ k : Fin 512, f (Spec.hi k) :=
  Fin.sum_univ_add (M := EReal) (a := 512) (b := 512) (fun i => f i)

/-- On a lower column the concatenation along the columns reads its first piece. -/
theorem concat_lo (x₁ x₂ : (⟨2, ![65536, 512]⟩ : Shape).Idx → EReal)
    (h : Shape.Concatenates [(⟨2, ![65536, 512]⟩ : Shape), (⟨2, ![65536, 512]⟩ : Shape)] (⟨2, ![65536, 1024]⟩ : Shape) 1)
    (b : Fin 65536) (k : Fin 512) :
    concatenate (⟨2, ![65536, 1024]⟩ : Shape) 1 [⟨(⟨2, ![65536, 512]⟩ : Shape), x₁⟩, ⟨(⟨2, ![65536, 512]⟩ : Shape), x₂⟩] h
      (ix2 b (Spec.lo k)) = x₁ (ix2 b k) :=
  concatenate_pair_apply_left 1 x₁ x₂ h (ix2 b (Spec.lo k)) rfl (ix2 b k) (by intro c; fin_cases c <;> rfl)

/-- On an upper column the concatenation along the columns reads its second piece, 512 columns to the left. -/
theorem concat_hi (x₁ x₂ : (⟨2, ![65536, 512]⟩ : Shape).Idx → EReal)
    (h : Shape.Concatenates [(⟨2, ![65536, 512]⟩ : Shape), (⟨2, ![65536, 512]⟩ : Shape)] (⟨2, ![65536, 1024]⟩ : Shape) 1)
    (b : Fin 65536) (k : Fin 512) :
    concatenate (⟨2, ![65536, 1024]⟩ : Shape) 1 [⟨(⟨2, ![65536, 512]⟩ : Shape), x₁⟩, ⟨(⟨2, ![65536, 512]⟩ : Shape), x₂⟩] h
      (ix2 b (Spec.hi k)) = x₂ (ix2 b k) :=
  concatenate_pair_apply_right 1 x₁ x₂ h (ix2 b (Spec.hi k)) rfl rfl (ix2 b k)
    (by
      intro c hc
      fin_cases c
      · rfl
      · exact absurd rfl hc)
    (by show k.val + 512 = 512 + k.val; omega)

end Cert.RefSum

end
-- ==== Proof.RefSide.lean ====
/-
  The reference's two results are the specification of its arguments. The last stretch read at an index — the motif
  loss (the sum of (diff - motif)²), the concatenation [diff, motif] against Wout (a sum over 1024 rows split into the
  two 512-row halves), tanh, the Euclidean norm and the affine score — and then both results as whole arrays.
-/
import proofs.«180155_j68143951118751_2_alg».proof.Proof.RefAttn
import proofs.«180155_j68143951118751_2_alg».proof.Proof.RefSum

noncomputable section

namespace Cert.RefSide

open Cert.ReferenceIdeal Cert.ReferenceIdeal.Gen Cert.ReferenceIdeal.ReadP Idealize.ShloMosaic Idealize.ShloMosaic.ValueIdx
  Idealize.ShloMosaic.RowGatherScatter

variable (a0 : (⟨S100000x512, .f32⟩ : BufTy).Contents (Elt Ideal))
variable (a1 : (⟨S50x512, .f32⟩ : BufTy).Contents (Elt Ideal))
variable (a2 : (⟨S100000x512, .f32⟩ : BufTy).Contents (Elt Ideal))
variable (a3 : (⟨S512x1, .f32⟩ : BufTy).Contents (Elt Ideal))
variable (a4 : (⟨S1, .f32⟩ : BufTy).Contents (Elt Ideal))
variable (a5 : (⟨S50x512, .f32⟩ : BufTy).Contents (Elt Ideal))
variable (a6 : (⟨S512x1, .f32⟩ : BufTy).Contents (Elt Ideal))
variable (a7 : (⟨S1, .f32⟩ : BufTy).Contents (Elt Ideal))
variable (a8 : (⟨S8x64, .f32⟩ : BufTy).Contents (Elt Ideal))
variable (a9 : (⟨S8x64, .f32⟩ : BufTy).Contents (Elt Ideal))
variable (a10 : (⟨S512x512, .f32⟩ : BufTy).Contents (Elt Ideal))
variable (a11 : (⟨S512, .f32⟩ : BufTy).Contents (Elt Ideal))
variable (a12 : (⟨S64x64, .f32⟩ : BufTy).Contents (Elt Ideal))
variable (a13 : (⟨S64, .f32⟩ : BufTy).Contents (Elt Ideal))
variable (a14 : (⟨S64x64, .f32⟩ : BufTy).Contents (Elt Ideal))
variable (a15 : (⟨S64, .f32⟩ : BufTy).Contents (Elt Ideal))
variable (a16 : (⟨S1024x512, .f32⟩ : BufTy).Contents (Elt Ideal))
variable (a17 : (⟨S512, .f32⟩ : BufTy).Contents (Elt Ideal))
variable (a18 : (⟨S_, .f32⟩ : BufTy).Contents (Elt Ideal))
variable (a19 : (⟨S_, .f32⟩ : BufTy).Contents (Elt Ideal))
variable (a20 : (⟨S65536, .i32⟩ : BufTy).Contents (Elt Ideal))
variable (a21 : (⟨S65536, .i32⟩ : BufTy).Contents (Elt Ideal))
variable (a22 : (⟨S65536, .i32⟩ : BufTy).Contents (Elt Ideal))

local notation "𝔸" => Spec.argsOf a0 a1 a2 a3 a4 a5 a6 a7 a8 a9 a10 a11 a12 a13 a14 a15 a16 a17 a18 a19 a20 a21 a22

/-- Two index functions agree when they agree on every axis. -/
local macro "idx_ext" : tactic => `(tactic| (funext c; apply Fin.ext; fin_cases c <;> rfl))

/-! ## The motif loss -/

theorem idx_v136 (b : Fin 65536) (k : Fin 512) : idx_main_v136 (ix1 b) k = ix2 b k := by idx_ext

theorem v134_at (b : Fin 65536) (j : Fin 512) :
    val_main_v134 (F := Ideal) a0 a1 a2 a3 a4 a5 a6 a7 a8 a9 a10 a11 a12 a13 a14 a15 a20 a21 a22 (ix2 b j) = Spec.D 𝔸 b j - Spec.M 𝔸 b j := by
  rw [val_main_v134_apply, v77_at a0 a1 a2 a3 a4 a5 a6 a7 a8 a9 a10 a11 a12 a13 a14 a15 a16 a17 a18 a19 a20 a21 a22, v133_at a0 a1 a2 a3 a4 a5 a6 a7 a8 a9 a10 a11 a12 a13 a14 a15 a16 a17 a18 a19 a20 a21 a22]
  try rfl

/-- The loss of row b: the sum over the 512 columns of (diff - motif)². -/
theorem v136_at (b : Fin 65536) : val_main_v136 (F := Ideal) a0 a1 a2 a3 a4 a5 a6 a7 a8 a9 a10 a11 a12 a13 a14 a15 a20 a21 a22 (ix1 b) = Spec.loss 𝔸 b := by
  have e : ∀ k : Fin 512, val_main_v135 (F := Ideal) a0 a1 a2 a3 a4 a5 a6 a7 a8 a9 a10 a11 a12 a13 a14 a15 a20 a21 a22 (idx_main_v136 (ix1 b) k)
      = (Spec.D 𝔸 b k - Spec.M 𝔸 b k) * (Spec.D 𝔸 b k - Spec.M 𝔸 b k) := fun k => by
    rw [idx_v136, val_main_v135_apply, v134_at a0 a1 a2 a3 a4 a5 a6 a7 a8 a9 a10 a11 a12 a13 a14 a15 a16 a17 a18 a19 a20 a21 a22]
    try rfl
  rw [val_main_v136_apply, val_main_cst_26_apply]
  simp only [e]
  rw [Ideal.ofBits_def, Ideal.ofBits_zero_f32, zero_add]
  try rfl

/-! ## The score -/

theorem lidx_v138 (b : Fin 65536) (j : Fin 512) (kk : Fin 1024) : lidx_main_v138 (ix2 b j) kk = ix2 b kk := by idx_ext
theorem ridx_v138 (b : Fin 65536) (j : Fin 512) (kk : Fin 1024) : ridx_main_v138 (ix2 b j) kk = ix2 kk j := by idx_ext
theorem idx_v140 (b : Fin 65536) (j : Fin 512) : idx_main_v139 (idx_main_v140 (ix2 b j)) = ix1 j := by idx_ext
theorem idx_call0_v1 (b : Fin 65536) (k : Fin 512) : idx_main_call0_v1 (ix1 b) k = ix2 b k := by idx_ext

/-- The lower 512 columns of [diff, motif] are diff. -/
theorem v137_lo (b : Fin 65536) (k : Fin 512) :
    val_main_v137 (F := Ideal) a0 a1 a2 a3 a4 a5 a6 a7 a8 a9 a10 a11 a12 a13 a14 a15 a20 a21 a22 (ix2 b (Spec.lo k)) = Spec.D 𝔸 b k := by
  unfold val_main_v137
  exact (RefSum.concat_lo _ _ _ b k).trans (v77_at a0 a1 a2 a3 a4 a5 a6 a7 a8 a9 a10 a11 a12 a13 a14 a15 a16 a17 a18 a19 a20 a21 a22 b k)

/-- The upper 512 columns of [diff, motif] are the motif row. -/
theorem v137_hi (b : Fin 65536) (k : Fin 512) :
    val_main_v137 (F := Ideal) a0 a1 a2 a3 a4 a5 a6 a7 a8 a9 a10 a11 a12 a13 a14 a15 a20 a21 a22 (ix2 b (Spec.hi k)) = Spec.M 𝔸 b k := by
  unfold val_main_v137
  exact (RefSum.concat_hi _ _ _ b k).trans (v133_at a0 a1 a2 a3 a4 a5 a6 a7 a8 a9 a10 a11 a12 a13 a14 a15 a16 a17 a18 a19 a20 a21 a22 b k)

/-- [diff, motif] · Wout: the sum over 1024 rows of Wout splits into diff against the top half of Wout plus the motif
    row against the bottom half. -/
theorem v138_at (b : Fin 65536) (j : Fin 512) :
    val_main_v138 (F := Ideal) a0 a1 a2 a3 a4 a5 a6 a7 a8 a9 a10 a11 a12 a13 a14 a15 a16 a20 a21 a22 (ix2 b j)
      = (∑ k : Fin 512, Spec.D 𝔸 b k * a16 (ix2 (Spec.lo k) j)) + ∑ k : Fin 512, Spec.M 𝔸 b k * a16 (ix2 (Spec.hi k) j) := by
  have e : ∀ kk : Fin 1024, val_main_v137 (F := Ideal) a0 a1 a2 a3 a4 a5 a6 a7 a8 a9 a10 a11 a12 a13 a14 a15 a20 a21 a22 (lidx_main_v138 (ix2 b j) kk) * a16 (ridx_main_v138 (ix2 b j) kk)
      = val_main_v137 (F := Ideal) a0 a1 a2 a3 a4 a5 a6 a7 a8 a9 a10 a11 a12 a13 a14 a15 a20 a21 a22 (ix2 b kk) * a16 (ix2 kk j) := fun kk => by rw [lidx_v138, ridx_v138]
  rw [val_main_v138_apply]
  simp only [e]
  refine (RefSum.sum_split _).trans ?_
  simp only [v137_lo a0 a1 a2 a3 a4 a5 a6 a7 a8 a9 a10 a11 a12 a13 a14 a15 a16 a17 a18 a19 a20 a21 a22, v137_hi a0 a1 a2 a3 a4 a5 a6 a7 a8 a9 a10 a11 a12 a13 a14 a15 a16 a17 a18 a19 a20 a21 a22]

/-- The transformed row: tanh ([diff, motif] · Wout + bout). -/
theorem v142_at (b : Fin 65536) (j : Fin 512) :
    val_main_v142 (F := Ideal) a0 a1 a2 a3 a4 a5 a6 a7 a8 a9 a10 a11 a12 a13 a14 a15 a16 a17 a20 a21 a22 (ix2 b j) = Spec.trOf (Spec.D 𝔸 b) (Spec.M 𝔸 b) (fun k j => (Spec.Args.wout 𝔸) (Spec.lo k) j) (fun k j => (Spec.Args.wout 𝔸) (Spec.hi k) j) (Spec.Args.bout 𝔸) j := by
  rw [val_main_v142_apply, val_main_v141_apply, v138_at a0 a1 a2 a3 a4 a5 a6 a7 a8 a9 a10 a11 a12 a13 a14 a15 a16 a17 a18 a19 a20 a21 a22, val_main_v140_apply, val_main_v139_apply, idx_v140]
  try rfl

/-- The Euclidean norm of the transformed row (the called function: square, sum, square root). -/
theorem v143_at (b : Fin 65536) :
    val_main_v143 (F := Ideal) a0 a1 a2 a3 a4 a5 a6 a7 a8 a9 a10 a11 a12 a13 a14 a15 a16 a17 a20 a21 a22 (ix1 b) = Spec.normOf (Spec.D 𝔸 b) (Spec.M 𝔸 b) (fun k j => (Spec.Args.wout 𝔸) (Spec.lo k) j) (fun k j => (Spec.Args.wout 𝔸) (Spec.hi k) j) (Spec.Args.bout 𝔸) := by
  have e : ∀ k : Fin 512, val_main_call0_v0 (F := Ideal) a0 a1 a2 a3 a4 a5 a6 a7 a8 a9 a10 a11 a12 a13 a14 a15 a16 a17 a20 a21 a22 (idx_main_call0_v1 (ix1 b) k)
      = Spec.trOf (Spec.D 𝔸 b) (Spec.M 𝔸 b) (fun k j => (Spec.Args.wout 𝔸) (Spec.lo k) j) (fun k j => (Spec.Args.wout 𝔸) (Spec.hi k) j) (Spec.Args.bout 𝔸) k * Spec.trOf (Spec.D 𝔸 b) (Spec.M 𝔸 b) (fun k j => (Spec.Args.wout 𝔸) (Spec.lo k) j) (fun k j => (Spec.Args.wout 𝔸) (Spec.hi k) j) (Spec.Args.bout 𝔸) k := fun k => by
    rw [idx_call0_v1, val_main_call0_v0_apply, v142_at a0 a1 a2 a3 a4 a5 a6 a7 a8 a9 a10 a11 a12 a13 a14 a15 a16 a17 a18 a19 a20 a21 a22]
    try rfl
  rw [val_main_v143_apply, val_main_call0_v1_apply, val_main_call0_cst_apply]
  simp only [e]
  rw [Ideal.ofBits_def, Ideal.ofBits_zero_f32, zero_add]
  try rfl

/-- The score of row b: aw · norm + ab. -/
theorem v147_at (b : Fin 65536) : val_main_v147 (F := Ideal) a0 a1 a2 a3 a4 a5 a6 a7 a8 a9 a10 a11 a12 a13 a14 a15 a16 a17 a18 a19 a20 a21 a22 (ix1 b) = Spec.score 𝔸 b := by
  rw [val_main_v147_apply, val_main_v145_apply, val_main_v144_apply, v143_at a0 a1 a2 a3 a4 a5 a6 a7 a8 a9 a10 a11 a12 a13 a14 a15 a16 a17 a18 a19 a20 a21 a22, val_main_v146_apply]
  try rfl

/-! ## The two results as whole arrays -/

/-- The reference's first result, as a function of its 23 argument arrays, is the specification's score. -/
theorem score : val_main_v147 (F := Ideal) a0 a1 a2 a3 a4 a5 a6 a7 a8 a9 a10 a11 a12 a13 a14 a15 a16 a17 a18 a19 a20 a21 a22 = fun i => Spec.score 𝔸 (i 0) := by
  funext i
  obtain ⟨b, rfl⟩ : ∃ b : Fin 65536, i = ix1 b := ⟨i 0, eq_ix1 i⟩
  exact v147_at a0 a1 a2 a3 a4 a5 a6 a7 a8 a9 a10 a11 a12 a13 a14 a15 a16 a17 a18 a19 a20 a21 a22 b

/-- The reference's second result, as a function of the argument arrays it reads, is the specification's loss. -/
theorem loss : val_main_v136 (F := Ideal) a0 a1 a2 a3 a4 a5 a6 a7 a8 a9 a10 a11 a12 a13 a14 a15 a20 a21 a22 = fun i => Spec.loss 𝔸 (i 0) := by
  funext i
  obtain ⟨b, rfl⟩ : ∃ b : Fin 65536, i = ix1 b := ⟨i 0, eq_ix1 i⟩
  exact v136_at a0 a1 a2 a3 a4 a5 a6 a7 a8 a9 a10 a11 a12 a13 a14 a15 a16 a17 a18 a19 a20 a21 a22 b

end Cert.RefSide

end
-- ==== Proof.RefResult.lean ====
/-
  The reference's two result buffers after its 180 operations, from the launch contents of a device, are the
  specification's score and loss of the launch contents of the 23 argument buffers: the operations leave each result
  buffer at its stage function of the argument contents, and the stages are the specification.
-/
import proofs.«180155_j68143951118751_2_alg».proof.Proof.RefRunH
import proofs.«180155_j68143951118751_2_alg».proof.Proof.RefAfter
import proofs.«180155_j68143951118751_2_alg».proof.Proof.RefSide

noncomputable section

namespace Cert.RefSide

open Cert.ReferenceIdeal Cert.ReferenceIdeal.Gen Cert.ReferenceIdeal.ReadP Idealize.ShloMosaic Idealize.ShloMosaic.TcCoe Idealize.SL.Sem
  Idealize.ShloMosaic.StableHlo

set_option maxRecDepth 16384 in
set_option maxHeartbeats 4000000 in
/-- The line of 180 operations is its stretches one after the other. -/
theorem ops_eq_cut {F : FTy → Type} [FloatOps F] :
    (Cert.ReferenceIdeal.ValueH.ops (F := F)) = Cert.RefAfter.opsCut (F := F) := rfl

/-- After the reference's operations, from a device's launch contents, the first result buffer holds the
    specification's score of the launch contents of the argument buffers. -/
theorem after_score (m : (ℓ : Loc nD τ sig) → Buf (Elt Ideal) ℓ) (c : Dev nD) :
    after (Cert.ReferenceIdeal.ValueH.ops (F := Ideal)) (launchContents m c) (Proc.devRef .tc main_v147)
      = fun (i : S65536.Idx) => Spec.score (Spec.argsOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))) (i 0) := by
  rw [ops_eq_cut]
  exact (Cert.RefAfter.after_opsCut (F := Ideal) (launchContents m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) rfl rfl rfl rfl rfl rfl rfl rfl rfl rfl rfl rfl rfl rfl rfl rfl rfl rfl rfl rfl rfl rfl rfl).1.trans
    (score (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)))

/-- After the reference's operations, from a device's launch contents, the second result buffer holds the
    specification's loss of the launch contents of the argument buffers. -/
theorem after_loss (m : (ℓ : Loc nD τ sig) → Buf (Elt Ideal) ℓ) (c : Dev nD) :
    after (Cert.ReferenceIdeal.ValueH.ops (F := Ideal)) (launchContents m c) (Proc.devRef .tc main_v136)
      = fun (i : S65536.Idx) => Spec.loss (Spec.argsOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))) (i 0) := by
  rw [ops_eq_cut]
  exact (Cert.RefAfter.after_opsCut (F := Ideal) (launchContents m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) rfl rfl rfl rfl rfl rfl rfl rfl rfl rfl rfl rfl rfl rfl rfl rfl rfl rfl rfl rfl rfl rfl rfl).2.trans
    (loss (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)))

end Cert.RefSide

end
-- ==== Proof.lean ====
/-
  The certificate of a knowledge-graph triple scorer: a blocked kernel over 64 blocks of 1024 batch rows (query
  projection, per-head softmax attention over two 8-entry motif codebooks, motif loss, output projection and norm)
  around gathers done outside the kernel, against a reference that computes the same on whole arrays.

  At the ideal values both programs compute, for every batch row b, the same two numbers of the argument arrays —
  the specification's score and loss (Proof/Spec.lean). The kernel side: the host lines before the launch produce the
  diff, context and density arrays and the weight blocks (Proof/KernelHost*.lean: the kernel gathers the projected
  density column where the reference projects the gathered row — the same sum); the body's two output blocks at a row
  are the specification's functions of that row (Proof/KernelBlocks, KernelValue, KernelPayload); the 64 blocks cover
  the arrays (Proof/KernelArray); the line after the launch forms the score (Proof/KernelRun). The reference side
  reads its line of operations a stretch at a time, each operation at an index (Proof/Ref*.lean): 1/sqrt 64 is the literal 1/8, a division by 2 is the product
  with 1/2, a sum over the 1024 concatenated columns is the two 512-sums. No finiteness of the inputs is used: every
  step is a re-association of sums or an identity of literals on the extended reals.
-/
import proofs.«180155_j68143951118751_2_alg».proof.Defs
import proofs.«180155_j68143951118751_2_alg».proof.Proof.Gen.Kernel
import proofs.«180155_j68143951118751_2_alg».proof.Proof.Gen.Kernel.Skeleton
import proofs.«180155_j68143951118751_2_alg».proof.Proof.Gen.Kernel.Launch
import proofs.«180155_j68143951118751_2_alg».proof.Proof.Gen.Kernel.Points
import proofs.«180155_j68143951118751_2_alg».proof.Proof.Gen.Kernel.Frame
import proofs.«180155_j68143951118751_2_alg».proof.Proof.Gen.KernelIdeal
import proofs.«180155_j68143951118751_2_alg».proof.Proof.Gen.KernelIdeal.Skeleton
import proofs.«180155_j68143951118751_2_alg».proof.Proof.Gen.KernelIdeal.Launch
import proofs.«180155_j68143951118751_2_alg».proof.Proof.Gen.KernelIdeal.Points
import proofs.«180155_j68143951118751_2_alg».proof.Proof.Gen.KernelIdeal.Frame
import proofs.«180155_j68143951118751_2_alg».proof.Proof.Gen.ReferenceIdeal
import proofs.«180155_j68143951118751_2_alg».proof.Proof.Gen.Pre_finite_inputs
import proofs.«180155_j68143951118751_2_alg».proof.Proof.KernelRun
import proofs.«180155_j68143951118751_2_alg».proof.Proof.RefResult
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The reference runs and keeps its arguments: its run with the two results dropped. -/
theorem frame_ri : Cert.frame_ReferenceIdeal := fun m ρ _ =>
  (θ_run Cert.ReferenceIdeal.defs _ _).mono (fun _ h c => (h c).2.2) (Cert.ReferenceIdeal.ValueH.run' (F := Ideal) m ρ)

/-- The idealization rewrote nothing. -/
theorem preserves : Cert.preserves_Kernel_KernelIdeal := trivial

/-- Both idealized programs end with the specification's score and loss of the (agreeing) argument arrays. -/
theorem algebraic : Cert.algebraic_KernelIdeal_ReferenceIdeal := by
  intro m ρ m' ρ' _ hagree
  refine ⟨fun c => Cert.KernelArr.scoreArr m c, fun c => Cert.KernelArr.lossArr m c, Cert.KernelArr.run m ρ, ?_⟩
  refine (θ_run Cert.ReferenceIdeal.defs _ _).mono (fun _ h c => ⟨(h c).1.trans ?_, (h c).2.1.trans ?_, (h c).2.2⟩)
    (Cert.ReferenceIdeal.ValueH.run' (F := Ideal) m' ρ')
  · obtain ⟨h0, h1, h2, h3, h4, h5, h6, h7, h8, h9, h10, h11, h12, h13, h14, h15, h16, h17, h18, h19, h20, h21, h22⟩ := hagree c
    rw [Cert.RefSide.after_score, h0, h1, h2, h3, h4, h5, h6, h7, h8, h9, h10, h11, h12, h13, h14, h15, h16, h17, h18, h19, h20, h21, h22]
    rfl
  · obtain ⟨h0, h1, h2, h3, h4, h5, h6, h7, h8, h9, h10, h11, h12, h13, h14, h15, h16, h17, h18, h19, h20, h21, h22⟩ := hagree c
    rw [Cert.RefSide.after_loss, h0, h1, h2, h3, h4, h5, h6, h7, h8, h9, h10, h11, h12, h13, h14, h15, h16, h17, h18, h19, h20, h21, h22]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
